-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v131)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v131) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S131072x2048 : Shape := ⟨2, ![131072, 2048]⟩
abbrev S2048x512 : Shape := ⟨2, ![2048, 512]⟩
abbrev S512 : Shape := ⟨1, ![512]⟩
abbrev S512x32 : Shape := ⟨2, ![512, 32]⟩
abbrev S32 : Shape := ⟨1, ![32]⟩
abbrev S2048x1024 : Shape := ⟨2, ![2048, 1024]⟩
abbrev S1024 : Shape := ⟨1, ![1024]⟩
abbrev S512x512 : Shape := ⟨2, ![512, 512]⟩
abbrev S512x2048 : Shape := ⟨2, ![512, 2048]⟩
abbrev S2048 : Shape := ⟨1, ![2048]⟩
abbrev S131072x2 : Shape := ⟨2, ![131072, 2]⟩
abbrev S_ : Shape := ⟨0, ![]⟩
abbrev S131072 : Shape := ⟨1, ![131072]⟩
abbrev S8192x8192 : Shape := ⟨2, ![8192, 8192]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S131072x2048 : S_.BroadcastsInDim S131072x2048 (![] : Fin 0 → Fin S131072x2048.rank)
  reducesTo_S131072x2048_S_d0_1 : S131072x2048.ReducesTo [0, 1] S_
  bcast_S_S2048x512 : S_.BroadcastsInDim S2048x512 (![] : Fin 0 → Fin S2048x512.rank)
  reducesTo_S2048x512_S_d0_1 : S2048x512.ReducesTo [0, 1] S_
  bcast_S_S512 : S_.BroadcastsInDim S512 (![] : Fin 0 → Fin S512.rank)
  reducesTo_S512_S_d0 : S512.ReducesTo [0] S_
  bcast_S_S512x32 : S_.BroadcastsInDim S512x32 (![] : Fin 0 → Fin S512x32.rank)
  reducesTo_S512x32_S_d0_1 : S512x32.ReducesTo [0, 1] S_
  bcast_S_S32 : S_.BroadcastsInDim S32 (![] : Fin 0 → Fin S32.rank)
  reducesTo_S32_S_d0 : S32.ReducesTo [0] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S512x512 : S_.BroadcastsInDim S512x512 (![] : Fin 0 → Fin S512x512.rank)
  reducesTo_S512x512_S_d0_1 : S512x512.ReducesTo [0, 1] S_
  bcast_S_S512x2048 : S_.BroadcastsInDim S512x2048 (![] : Fin 0 → Fin S512x2048.rank)
  reducesTo_S512x2048_S_d0_1 : S512x2048.ReducesTo [0, 1] S_
  bcast_S_S2048 : S_.BroadcastsInDim S2048 (![] : Fin 0 → Fin S2048.rank)
  reducesTo_S2048_S_d0 : S2048.ReducesTo [0] S_
  bcast_S_S131072x2 : S_.BroadcastsInDim S131072x2 (![] : Fin 0 → Fin S131072x2.rank)
  reducesTo_S131072x2_S_d0_1 : S131072x2.ReducesTo [0, 1] S_
  bcast_S_S8192x8192 : S_.BroadcastsInDim S8192x8192 (![] : Fin 0 → Fin S8192x8192.rank)
  reducesTo_S131072_S_d0 : S131072.ReducesTo [0] S_
  scatter_S8192x8192_S131072x2_S131072_n_01_01_1_wf : ScatterDims.WF S8192x8192 S131072x2 S131072 [] [0, 1] [0, 1] 1
  gather_S8192x8192_S131072x2_S131072_n_01_n_n_01_1_11_wf : GatherDims.WF S8192x8192 S131072x2 S131072 [] [0, 1] [] [0, 1] [] 1 ![1, 1]

variable [Facts]

def scatter_S8192x8192_S131072x2_S131072_n_01_01_1 : ScatterDims S8192x8192 S131072x2 S131072 where
  updateWindowDims := []
  insertedWindowDims := [0, 1]
  scatterDimsToOperandDims := [0, 1]
  indexVectorDim := 1
  wf := scatter_S8192x8192_S131072x2_S131072_n_01_01_1_wf
def gather_S8192x8192_S131072x2_S131072_n_01_n_n_01_1_11 : GatherDims S8192x8192 S131072x2 S131072 where
  offsetDims := []
  collapsedSliceDims := [0, 1]
  operandBatchingDims := []
  startIndicesBatchingDims := []
  startIndexMap := [0, 1]
  indexVectorDim := 1
  sliceSizes := ![1, 1]
  wf := gather_S8192x8192_S131072x2_S131072_n_01_n_n_01_1_11_wf
def fn_part6 {F : FTy → Type} [FloatOps F] (main_arg20 : IVec S131072x2 32) (main_v98 : IVec S_ 1) (main_v100 : IVec S131072x2 1) (main_v101 : IVec S131072x2 32) : IVec S_ 1 :=
  let main_v102 : IVec S131072x2 1 := cmpi .slt main_arg20 main_v101
  let main_v103 : IVec S131072x2 1 := andi main_v100 main_v102
  let main_c_40 : IVec S_ 1 := constantI S_ 1 1#1
  let main_v104 : IVec S_ 1 := (fun x v => Host.reduce IntOp.andi x v reducesTo_S131072x2_S_d0_1 h_S_) main_v103 main_c_40
  let main_v105 : IVec S_ 1 := andi main_v98 main_v104
  let main_v106 : IVec S131072 32 := iotaInDim S131072 32 0
  let main_c_41 : IVec S_ 32 := constantI S_ 32 0#32
  let main_v107 : IVec S8192x8192 32 := broadcastInDim S8192x8192 ![] bcast_S_S8192x8192 main_c_41
  let main_v108 : IVec S8192x8192 32 := (fun x i u => Host.scatter scatter_S8192x8192_S131072x2_S131072_n_01_01_1 (fun _ b => b) x i u) main_v107 main_arg20 main_v106
  let main_c_42 : IVec S_ 32 := constantI S_ 32 0#32
  let main_v109 : IVec S8192x8192 32 := broadcastInDim S8192x8192 ![] bcast_S_S8192x8192 main_c_42
  let main_v110 : IVec S8192x8192 32 := addi main_v108 main_v109
  let main_v111 : IVec S131072 32 := (fun x i => Host.gather gather_S8192x8192_S131072x2_S131072_n_01_n_n_01_1_11 x i) main_v110 main_arg20
  let main_v112 : IVec S131072 1 := cmpi .eq main_v111 main_v106
  let main_c_43 : IVec S_ 1 := constantI S_ 1 1#1
  let main_v113 : IVec S_ 1 := (fun x v => Host.reduce IntOp.andi x v reducesTo_S131072_S_d0 h_S_) main_v112 main_c_43
  let main_v114 : IVec S_ 1 := andi main_v105 main_v113
  main_v114

def fn_part5 {F : FTy → Type} [FloatOps F] (main_arg18 : FVec F S512x2048 .f32) (main_arg19 : FVec F S2048 .f32) (main_arg20 : IVec S131072x2 32) (main_v83 : IVec S_ 1) (main_v84 : FVec F S512 .f32) (main_cst_32 : FVec F S_ .f32) : IVec S_ 1 :=
  let main_v85 : FVec F S512 .f32 := broadcastInDim S512 ![] bcast_S_S512 main_cst_32
  let main_v86 : IVec S512 1 := cmpf .olt main_v84 main_v85
  let main_c_33 : IVec S_ 1 := constantI S_ 1 1#1
  let main_v87 : IVec S_ 1 := (fun x v => Host.reduce IntOp.andi x v reducesTo_S512_S_d0 h_S_) main_v86 main_c_33
  let main_v88 : IVec S_ 1 := andi main_v83 main_v87
  let main_v89 : FVec F S512x2048 .f32 := Host.absf main_arg18
  let main_cst_34 : FVec F S_ .f32 := constant S_ .f32 0x7F800000#32
  let main_v90 : FVec F S512x2048 .f32 := broadcastInDim S512x2048 ![] bcast_S_S512x2048 main_cst_34
  let main_v91 : IVec S512x2048 1 := cmpf .olt main_v89 main_v90
  let main_c_35 : IVec S_ 1 := constantI S_ 1 1#1
  let main_v92 : IVec S_ 1 := (fun x v => Host.reduce IntOp.andi x v reducesTo_S512x2048_S_d0_1 h_S_) main_v91 main_c_35
  let main_v93 : IVec S_ 1 := andi main_v88 main_v92
  let main_v94 : FVec F S2048 .f32 := Host.absf main_arg19
  let main_cst_36 : FVec F S_ .f32 := constant S_ .f32 0x7F800000#32
  let main_v95 : FVec F S2048 .f32 := broadcastInDim S2048 ![] bcast_S_S2048 main_cst_36
  let main_v96 : IVec S2048 1 := cmpf .olt main_v94 main_v95
  let main_c_37 : IVec S_ 1 := constantI S_ 1 1#1
  let main_v97 : IVec S_ 1 := (fun x v => Host.reduce IntOp.andi x v reducesTo_S2048_S_d0 h_S_) main_v96 main_c_37
  let main_v98 : IVec S_ 1 := andi main_v93 main_v97
  let main_c_38 : IVec S_ 32 := constantI S_ 32 0#32
  let main_v99 : IVec S131072x2 32 := broadcastInDim S131072x2 ![] bcast_S_S131072x2 main_c_38
  let main_v100 : IVec S131072x2 1 := cmpi .sge main_arg20 main_v99
  let main_c_39 : IVec S_ 32 := constantI S_ 32 8192#32
  let main_v101 : IVec S131072x2 32 := broadcastInDim S131072x2 ![] bcast_S_S131072x2 main_c_39
  fn_part6 (F := F) main_arg20 main_v98 main_v100 main_v101

def fn_part4 {F : FTy → Type} [FloatOps F] (main_arg14 : FVec F S512 .f32) (main_arg15 : FVec F S512 .f32) (main_arg16 : FVec F S512x512 .f32) (main_arg17 : FVec F S512 .f32) (main_arg18 : FVec F S512x2048 .f32) (main_arg19 : FVec F S2048 .f32) (main_arg20 : IVec S131072x2 32) (main_v63 : IVec S_ 1) (main_v67 : IVec S_ 1) : IVec S_ 1 :=
  let main_v68 : IVec S_ 1 := andi main_v63 main_v67
  let main_v69 : FVec F S512 .f32 := Host.absf main_arg14
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S512 .f32 := Host.absf main_arg15
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S512x512 .f32 := Host.absf main_arg16
  let main_cst_30 : FVec F S_ .f32 := constant S_ .f32 0x7F800000#32
  let main_v80 : FVec F S512x512 .f32 := broadcastInDim S512x512 ![] bcast_S_S512x512 main_cst_30
  let main_v81 : IVec S512x512 1 := cmpf .olt main_v79 main_v80
  let main_c_31 : IVec S_ 1 := constantI S_ 1 1#1
  let main_v82 : IVec S_ 1 := (fun x v => Host.reduce IntOp.andi x v reducesTo_S512x512_S_d0_1 h_S_) main_v81 main_c_31
  let main_v83 : IVec S_ 1 := andi main_v78 main_v82
  let main_v84 : FVec F S512 .f32 := Host.absf main_arg17
  let main_cst_32 : FVec F S_ .f32 := constant S_ .f32 0x7F800000#32
  fn_part5 (F := F) main_arg18 main_arg19 main_arg20 main_v83 main_v84 main_cst_32

def fn_part3 {F : FTy → Type} [FloatOps F] (main_arg11 : FVec F S1024 .f32) (main_arg12 : FVec F S2048x512 .f32) (main_arg13 : FVec F S512 .f32) (main_arg14 : FVec F S512 .f32) (main_arg15 : FVec F S512 .f32) (main_arg16 : FVec F S512x512 .f32) (main_arg17 : FVec F S512 .f32) (main_arg18 : FVec F S512x2048 .f32) (main_arg19 : FVec F S2048 .f32) (main_arg20 : IVec S131072x2 32) (main_v48 : IVec S_ 1) (main_v49 : FVec F S2048x1024 .f32) (main_v50 : FVec F S2048x1024 .f32) : IVec S_ 1 :=
  let main_v51 : IVec S2048x1024 1 := cmpf .olt main_v49 main_v50
  let main_c_19 : IVec S_ 1 := constantI S_ 1 1#1
  let main_v52 : IVec S_ 1 := (fun x v => Host.reduce IntOp.andi x v reducesTo_S2048x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S2048x512 .f32 := Host.absf main_arg12
  let main_cst_22 : FVec F S_ .f32 := constant S_ .f32 0x7F800000#32
  let main_v60 : FVec F S2048x512 .f32 := broadcastInDim S2048x512 ![] bcast_S_S2048x512 main_cst_22
  let main_v61 : IVec S2048x512 1 := cmpf .olt main_v59 main_v60
  let main_c_23 : IVec S_ 1 := constantI S_ 1 1#1
  let main_v62 : IVec S_ 1 := (fun x v => Host.reduce IntOp.andi x v reducesTo_S2048x512_S_d0_1 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_arg15 main_arg16 main_arg17 main_arg18 main_arg19 main_arg20 main_v63 main_v67

def fn_part2 {F : FTy → Type} [FloatOps F] (main_arg7 : FVec F S512 .f32) (main_arg8 : FVec F S512x32 .f32) (main_arg9 : FVec F S32 .f32) (main_arg10 : FVec F S2048x1024 .f32) (main_arg11 : FVec F S1024 .f32) (main_arg12 : FVec F S2048x512 .f32) (main_arg13 : FVec F S512 .f32) (main_arg14 : FVec F S512 .f32) (main_arg15 : FVec F S512 .f32) (main_arg16 : FVec F S512x512 .f32) (main_arg17 : FVec F S512 .f32) (main_arg18 : FVec F S512x2048 .f32) (main_arg19 : FVec F S2048 .f32) (main_arg20 : IVec S131072x2 32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x32 .f32 := Host.absf main_arg8
  let main_cst_14 : FVec F S_ .f32 := constant S_ .f32 0x7F800000#32
  let main_v40 : FVec F S512x32 .f32 := broadcastInDim S512x32 ![] bcast_S_S512x32 main_cst_14
  let main_v41 : IVec S512x32 1 := cmpf .olt main_v39 main_v40
  let main_c_15 : IVec S_ 1 := constantI S_ 1 1#1
  let main_v42 : IVec S_ 1 := (fun x v => Host.reduce IntOp.andi x v reducesTo_S512x32_S_d0_1 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S2048x1024 .f32 := Host.absf main_arg10
  let main_cst_18 : FVec F S_ .f32 := constant S_ .f32 0x7F800000#32
  let main_v50 : FVec F S2048x1024 .f32 := broadcastInDim S2048x1024 ![] bcast_S_S2048x1024 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S2048x512 .f32) (main_arg5 : FVec F S512 .f32) (main_arg6 : FVec F S2048x512 .f32) (main_arg7 : FVec F S512 .f32) (main_arg8 : FVec F S512x32 .f32) (main_arg9 : FVec F S32 .f32) (main_arg10 : FVec F S2048x1024 .f32) (main_arg11 : FVec F S1024 .f32) (main_arg12 : FVec F S2048x512 .f32) (main_arg13 : FVec F S512 .f32) (main_arg14 : FVec F S512 .f32) (main_arg15 : FVec F S512 .f32) (main_arg16 : FVec F S512x512 .f32) (main_arg17 : FVec F S512 .f32) (main_arg18 : FVec F S512x2048 .f32) (main_arg19 : FVec F S2048 .f32) (main_arg20 : IVec S131072x2 32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S2048x512 .f32 := Host.absf main_arg4
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S2048x512 .f32 := Host.absf main_arg6
  let main_cst_10 : FVec F S_ .f32 := constant S_ .f32 0x7F800000#32
  let main_v30 : FVec F S2048x512 .f32 := broadcastInDim S2048x512 ![] bcast_S_S2048x512 main_cst_10
  let main_v31 : IVec S2048x512 1 := cmpf .olt main_v29 main_v30
  let main_c_11 : IVec S_ 1 := constantI S_ 1 1#1
  let main_v32 : IVec S_ 1 := (fun x v => Host.reduce IntOp.andi x v reducesTo_S2048x512_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S8192x2048 .f32) (main_arg1 : FVec F S131072x2048 .f32) (main_arg2 : FVec F S2048x512 .f32) (main_arg3 : FVec F S512 .f32) (main_arg4 : FVec F S2048x512 .f32) (main_arg5 : FVec F S512 .f32) (main_arg6 : FVec F S2048x512 .f32) (main_arg7 : FVec F S512 .f32) (main_arg8 : FVec F S512x32 .f32) (main_arg9 : FVec F S32 .f32) (main_arg10 : FVec F S2048x1024 .f32) (main_arg11 : FVec F S1024 .f32) (main_arg12 : FVec F S2048x512 .f32) (main_arg13 : FVec F S512 .f32) (main_arg14 : FVec F S512 .f32) (main_arg15 : FVec F S512 .f32) (main_arg16 : FVec F S512x512 .f32) (main_arg17 : FVec F S512 .f32) (main_arg18 : FVec F S512x2048 .f32) (main_arg19 : FVec F S2048 .f32) (main_arg20 : IVec S131072x2 32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S131072x2048 .f32 := Host.absf main_arg1
  let main_cst_0 : FVec F S_ .f32 := constant S_ .f32 0x7F800000#32
  let main_v5 : FVec F S131072x2048 .f32 := broadcastInDim S131072x2048 ![] bcast_S_S131072x2048 main_cst_0
  let main_v6 : IVec S131072x2048 1 := cmpf .olt main_v4 main_v5
  let main_c_1 : IVec S_ 1 := constantI S_ 1 1#1
  let main_v7 : IVec S_ 1 := (fun x v => Host.reduce IntOp.andi x v reducesTo_S131072x2048_S_d0_1 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S8192x2048 : Shape := ⟨2, ![8192, 2048]⟩
abbrev S131072x2048 : Shape := ⟨2, ![131072, 2048]⟩
abbrev S2048x512 : Shape := ⟨2, ![2048, 512]⟩
abbrev S512 : Shape := ⟨1, ![512]⟩
abbrev S512x32 : Shape := ⟨2, ![512, 32]⟩
abbrev S32 : Shape := ⟨1, ![32]⟩
abbrev S2048x1024 : Shape := ⟨2, ![2048, 1024]⟩
abbrev S1024 : Shape := ⟨1, ![1024]⟩
abbrev S512x512 : Shape := ⟨2, ![512, 512]⟩
abbrev S512x2048 : Shape := ⟨2, ![512, 2048]⟩
abbrev S2048 : Shape := ⟨1, ![2048]⟩
abbrev S131072x2 : Shape := ⟨2, ![131072, 2]⟩
abbrev S131072x1 : Shape := ⟨2, ![131072, 1]⟩
abbrev S131072 : Shape := ⟨1, ![131072]⟩
abbrev S8192x512 : Shape := ⟨2, ![8192, 512]⟩
abbrev S1x512 : Shape := ⟨2, ![1, 512]⟩
abbrev S_ : Shape := ⟨0, ![]⟩
abbrev S131072x512 : Shape := ⟨2, ![131072, 512]⟩
abbrev S131072x32 : Shape := ⟨2, ![131072, 32]⟩
abbrev S1x32 : Shape := ⟨2, ![1, 32]⟩
abbrev S8192x8192 : Shape := ⟨2, ![8192, 8192]⟩
abbrev S8192 : Shape := ⟨1, ![8192]⟩
abbrev S8192x1024 : Shape := ⟨2, ![8192, 1024]⟩
abbrev S1x1024 : Shape := ⟨2, ![1, 1024]⟩
abbrev S8192x1 : Shape := ⟨2, ![8192, 1]⟩
abbrev S1024x512 : Shape := ⟨2, ![1024, 512]⟩
abbrev S512x1024 : Shape := ⟨2, ![512, 1024]⟩
abbrev S1024x1024 : Shape := ⟨2, ![1024, 1024]⟩
abbrev S1024x1 : Shape := ⟨2, ![1024, 1]⟩
abbrev S512x1 : Shape := ⟨2, ![512, 1]⟩
abbrev S1x2048 : Shape := ⟨2, ![1, 2048]⟩

abbrev nBuf : Space → Nat
  | .hbm => 194
  | .vmem => 19
  | .smem => 0
  | _ => 0

abbrev hbmTy0_0 (i : Nat) : BufTy := match i % 128 with
  | 0 => ⟨S8192x2048, .f32⟩
  | 1 => ⟨S131072x2048, .f32⟩
  | 2 => ⟨S2048x512, .f32⟩
  | 3 => ⟨S512, .f32⟩
  | 4 => ⟨S2048x512, .f32⟩
  | 5 => ⟨S512, .f32⟩
  | 6 => ⟨S2048x512, .f32⟩
  | 7 => ⟨S512, .f32⟩
  | 8 => ⟨S512x32, .f32⟩
  | 9 => ⟨S32, .f32⟩
  | 10 => ⟨S2048x1024, .f32⟩
  | 11 => ⟨S1024, .f32⟩
  | 12 => ⟨S2048x512, .f32⟩
  | 13 => ⟨S512, .f32⟩
  | 14 => ⟨S512, .f32⟩
  | 15 => ⟨S512, .f32⟩
  | 16 => ⟨S512x512, .f32⟩
  | 17 => ⟨S512, .f32⟩
  | 18 => ⟨S512x2048, .f32⟩
  | 19 => ⟨S2048, .f32⟩
  | 20 => ⟨S131072x2, .i32⟩
  | 21 => ⟨S131072x1, .i32⟩
  | 22 => ⟨S131072, .i32⟩
  | 23 => ⟨S131072x1, .i32⟩
  | 24 => ⟨S131072, .i32⟩
  | 25 => ⟨S8192x2048, .bf16⟩
  | 26 => ⟨S2048x512, .bf16⟩
  | 27 => ⟨S8192x512, .f32⟩
  | 28 => ⟨S1x512, .f32⟩
  | 29 => ⟨S8192x512, .f32⟩
  | 30 => ⟨S8192x512, .f32⟩
  | 31 => ⟨S_, .f32⟩
  | 32 => ⟨S8192x512, .f32⟩
  | 33 => ⟨S8192x512, .f32⟩
  | 34 => ⟨S8192x2048, .bf16⟩
  | 35 => ⟨S2048x512, .bf16⟩
  | 36 => ⟨S8192x512, .f32⟩
  | 37 => ⟨S1x512, .f32⟩
  | 38 => ⟨S8192x512, .f32⟩
  | 39 => ⟨S8192x512, .f32⟩
  | 40 => ⟨S_, .f32⟩
  | 41 => ⟨S8192x512, .f32⟩
  | 42 => ⟨S8192x512, .f32⟩
  | 43 => ⟨S_, .i32⟩
  | 44 => ⟨S131072, .i32⟩
  | 45 => ⟨S131072, .i1⟩
  | 46 => ⟨S_, .i32⟩
  | 47 => ⟨S131072, .i32⟩
  | 48 => ⟨S131072, .i32⟩
  | 49 => ⟨S131072, .i32⟩
  | 50 => ⟨S131072x1, .i32⟩
  | 51 => ⟨S131072x512, .f32⟩
  | 52 => ⟨S_, .i32⟩
  | 53 => ⟨S131072, .i32⟩
  | 54 => ⟨S131072, .i1⟩
  | 55 => ⟨S_, .i32⟩
  | 56 => ⟨S131072, .i32⟩
  | 57 => ⟨S131072, .i32⟩
  | 58 => ⟨S131072, .i32⟩
  | 59 => ⟨S131072x1, .i32⟩
  | 60 => ⟨S131072x512, .f32⟩
  | 61 => ⟨S131072x2048, .bf16⟩
  | 62 => ⟨S2048x512, .bf16⟩
  | 63 => ⟨S131072x512, .f32⟩
  | 64 => ⟨S1x512, .f32⟩
  | 65 => ⟨S131072x512, .f32⟩
  | 66 => ⟨S131072x512, .f32⟩
  | 67 => ⟨S_, .f32⟩
  | 68 => ⟨S131072x512, .f32⟩
  | 69 => ⟨S131072x512, .f32⟩
  | 70 => ⟨S131072x512, .f32⟩
  | 71 => ⟨S131072x512, .f32⟩
  | 72 => ⟨S131072x32, .f32⟩
  | 73 => ⟨S1x32, .f32⟩
  | 74 => ⟨S131072x32, .f32⟩
  | 75 => ⟨S131072x32, .f32⟩
  | 76 => ⟨S_, .f32⟩
  | 77 => ⟨S131072x32, .f32⟩
  | 78 => ⟨S131072x32, .f32⟩
  | 79 => ⟨S_, .f32⟩
  | 80 => ⟨S131072, .f32⟩
  | 81 => ⟨S_, .f32⟩
  | 82 => ⟨S131072, .f32⟩
  | 83 => ⟨S131072, .f32⟩
  | 84 => ⟨S_, .f32⟩
  | 85 => ⟨S_, .f32⟩
  | 86 => ⟨S131072, .f32⟩
  | 87 => ⟨S131072, .f32⟩
  | 88 => ⟨S131072, .f32⟩
  | 89 => ⟨S131072, .bf16⟩
  | 90 => ⟨S_, .bf16⟩
  | 91 => ⟨S8192x8192, .bf16⟩
  | 92 => ⟨S_, .i32⟩
  | 93 => ⟨S131072, .i32⟩
  | 94 => ⟨S131072, .i1⟩
  | 95 => ⟨S_, .i32⟩
  | 96 => ⟨S131072, .i32⟩
  | 97 => ⟨S131072, .i32⟩
  | 98 => ⟨S131072, .i32⟩
  | 99 => ⟨S_, .i32⟩
  | 100 => ⟨S131072, .i32⟩
  | 101 => ⟨S131072, .i1⟩
  | 102 => ⟨S_, .i32⟩
  | 103 => ⟨S131072, .i32⟩
  | 104 => ⟨S131072, .i32⟩
  | 105 => ⟨S131072, .i32⟩
  | 106 => ⟨S131072x1, .i32⟩
  | 107 => ⟨S131072x1, .i32⟩
  | 108 => ⟨S131072x2, .i32⟩
  | 109 => ⟨S8192x8192, .bf16⟩
  | 110 => ⟨S_, .f32⟩
  | 111 => ⟨S8192, .f32⟩
  | 112 => ⟨S_, .i32⟩
  | 113 => ⟨S131072, .i32⟩
  | 114 => ⟨S131072, .i1⟩
  | 115 => ⟨S_, .i32⟩
  | 116 => ⟨S131072, .i32⟩
  | 117 => ⟨S131072, .i32⟩
  | 118 => ⟨S131072, .i32⟩
  | 119 => ⟨S131072x1, .i32⟩
  | 120 => ⟨S_, .f32⟩
  | 121 => ⟨S131072, .f32⟩
  | 122 => ⟨S8192, .f32⟩
  | 123 => ⟨S_, .f32⟩
  | 124 => ⟨S8192, .f32⟩
  | 125 => ⟨S8192, .i1⟩
  | 126 => ⟨S8192x1024, .f32⟩
  | 127 => ⟨S1x1024, .f32⟩
  | _ => ⟨S8192x2048, .f32⟩

abbrev hbmTy0_1 (i : Nat) : BufTy := match i % 128 with
  | 0 => ⟨S8192x1024, .f32⟩
  | 1 => ⟨S8192x1024, .f32⟩
  | 2 => ⟨S8192x1024, .bf16⟩
  | 3 => ⟨S8192x1024, .f32⟩
  | 4 => ⟨S8192x1, .f32⟩
  | 5 => ⟨S8192x1024, .f32⟩
  | 6 => ⟨S1024x512, .f32⟩
  | 7 => ⟨S1024x512, .f32⟩
  | 8 => ⟨S8192x512, .f32⟩
  | 9 => ⟨S8192x512, .f32⟩
  | 10 => ⟨S8192x512, .f32⟩
  | 11 => ⟨S1x512, .f32⟩
  | 12 => ⟨S8192x512, .f32⟩
  | 13 => ⟨S8192x512, .f32⟩
  | 14 => ⟨S_, .f32⟩
  | 15 => ⟨S8192, .f32⟩
  | 16 => ⟨S8192x1, .f32⟩
  | 17 => ⟨S_, .f32⟩
  | 18 => ⟨S8192x1, .f32⟩
  | 19 => ⟨S8192x1, .f32⟩
  | 20 => ⟨S8192x512, .f32⟩
  | 21 => ⟨S8192x512, .f32⟩
  | 22 => ⟨S8192x512, .f32⟩
  | 23 => ⟨S_, .f32⟩
  | 24 => ⟨S8192, .f32⟩
  | 25 => ⟨S8192x1, .f32⟩
  | 26 => ⟨S_, .f32⟩
  | 27 => ⟨S8192x1, .f32⟩
  | 28 => ⟨S8192x1, .f32⟩
  | 29 => ⟨S8192x512, .f32⟩
  | 30 => ⟨S8192x512, .f32⟩
  | 31 => ⟨S_, .f32⟩
  | 32 => ⟨S8192x1, .f32⟩
  | 33 => ⟨S8192x1, .f32⟩
  | 34 => ⟨S8192x1, .f32⟩
  | 35 => ⟨S8192x512, .f32⟩
  | 36 => ⟨S8192x512, .f32⟩
  | 37 => ⟨S1x512, .f32⟩
  | 38 => ⟨S8192x512, .f32⟩
  | 39 => ⟨S8192x512, .f32⟩
  | 40 => ⟨S1x512, .f32⟩
  | 41 => ⟨S8192x512, .f32⟩
  | 42 => ⟨S8192x512, .f32⟩
  | 43 => ⟨S_, .f32⟩
  | 44 => ⟨S8192x512, .f32⟩
  | 45 => ⟨S8192x512, .f32⟩
  | 46 => ⟨S8192x512, .f32⟩
  | 47 => ⟨S1x512, .f32⟩
  | 48 => ⟨S8192x512, .f32⟩
  | 49 => ⟨S8192x512, .f32⟩
  | 50 => ⟨S_, .f32⟩
  | 51 => ⟨S8192x512, .f32⟩
  | 52 => ⟨S8192x512, .f32⟩
  | 53 => ⟨S8192x1, .i1⟩
  | 54 => ⟨S_, .f32⟩
  | 55 => ⟨S_, .f32⟩
  | 56 => ⟨S8192x512, .i1⟩
  | 57 => ⟨S8192x512, .f32⟩
  | 58 => ⟨S8192x512, .f32⟩
  | 59 => ⟨S8192x2048, .f32⟩
  | 60 => ⟨S1x2048, .f32⟩
  | 61 => ⟨S8192x2048, .f32⟩
  | 62 => ⟨S8192x2048, .f32⟩
  | 63 => ⟨S_, .f32⟩
  | 64 => ⟨S8192x2048, .f32⟩
  | 65 => ⟨S8192x2048, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1, .f32⟩
  | .local _ .vmem, ⟨7, _⟩ => ⟨S1024x1, .f32⟩
  | .local _ .vmem, ⟨8, _⟩ => ⟨S1024x1024, .f32⟩
  | .local _ .vmem, ⟨9, _⟩ => ⟨S1024x1, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1, .f32⟩
  | .local _ .vmem, ⟨15, _⟩ => ⟨S512x1, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_call0_cst : Ref sig .tc := ⟨.hbm, 31, rfl⟩
abbrev main_call0_v0 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_call1_cst : Ref sig .tc := ⟨.hbm, 40, rfl⟩
abbrev main_call1_v0 : Ref sig .tc := ⟨.hbm, 41, rfl⟩
abbrev main_v17 : Ref sig .tc := ⟨.hbm, 42, rfl⟩
abbrev main_c : Ref sig .tc := ⟨.hbm, 43, rfl⟩
abbrev main_v18 : Ref sig .tc := ⟨.hbm, 44, rfl⟩
abbrev main_v19 : Ref sig .tc := ⟨.hbm, 45, rfl⟩
abbrev main_c_0 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_c_1 : Ref sig .tc := ⟨.hbm, 52, rfl⟩
abbrev main_v25 : Ref sig .tc := ⟨.hbm, 53, rfl⟩
abbrev main_v26 : Ref sig .tc := ⟨.hbm, 54, rfl⟩
abbrev main_c_2 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_call2_cst : Ref sig .tc := ⟨.hbm, 67, rfl⟩
abbrev main_call2_v0 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_call3_cst : Ref sig .tc := ⟨.hbm, 76, rfl⟩
abbrev main_call3_v0 : Ref sig .tc := ⟨.hbm, 77, rfl⟩
abbrev main_v45 : Ref sig .tc := ⟨.hbm, 78, rfl⟩
abbrev main_cst : Ref sig .tc := ⟨.hbm, 79, rfl⟩
abbrev main_v46 : Ref sig .tc := ⟨.hbm, 80, rfl⟩
abbrev main_cst_3 : Ref sig .tc := ⟨.hbm, 81, rfl⟩
abbrev main_v47 : Ref sig .tc := ⟨.hbm, 82, rfl⟩
abbrev main_v48 : Ref sig .tc := ⟨.hbm, 83, rfl⟩
abbrev main_cst_4 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_cst_5 : Ref sig .tc := ⟨.hbm, 90, rfl⟩
abbrev main_v54 : Ref sig .tc := ⟨.hbm, 91, rfl⟩
abbrev main_c_6 : Ref sig .tc := ⟨.hbm, 92, rfl⟩
abbrev main_v55 : Ref sig .tc := ⟨.hbm, 93, rfl⟩
abbrev main_v56 : Ref sig .tc := ⟨.hbm, 94, rfl⟩
abbrev main_c_7 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_c_8 : Ref sig .tc := ⟨.hbm, 99, rfl⟩
abbrev main_v60 : Ref sig .tc := ⟨.hbm, 100, rfl⟩
abbrev main_v61 : Ref sig .tc := ⟨.hbm, 101, rfl⟩
abbrev main_c_9 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_cst_10 : Ref sig .tc := ⟨.hbm, 110, rfl⟩
abbrev main_v69 : Ref sig .tc := ⟨.hbm, 111, rfl⟩
abbrev main_c_11 : Ref sig .tc := ⟨.hbm, 112, rfl⟩
abbrev main_v70 : Ref sig .tc := ⟨.hbm, 113, rfl⟩
abbrev main_v71 : Ref sig .tc := ⟨.hbm, 114, rfl⟩
abbrev main_c_12 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_cst_13 : Ref sig .tc := ⟨.hbm, 120, rfl⟩
abbrev main_v76 : Ref sig .tc := ⟨.hbm, 121, rfl⟩
abbrev main_v77 : Ref sig .tc := ⟨.hbm, 122, rfl⟩
abbrev main_cst_14 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85_0 : Ref sig .tc := ⟨.hbm, 131, rfl⟩
abbrev main_v85_1 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_cst_15 : Ref sig .tc := ⟨.hbm, 142, rfl⟩
abbrev main_v95 : Ref sig .tc := ⟨.hbm, 143, rfl⟩
abbrev main_v96 : Ref sig .tc := ⟨.hbm, 144, rfl⟩
abbrev main_cst_16 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_cst_17 : Ref sig .tc := ⟨.hbm, 151, rfl⟩
abbrev main_v102 : Ref sig .tc := ⟨.hbm, 152, rfl⟩
abbrev main_v103 : Ref sig .tc := ⟨.hbm, 153, rfl⟩
abbrev main_cst_18 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_cst_19 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_call4_cst : Ref sig .tc := ⟨.hbm, 171, rfl⟩
abbrev main_call4_v0 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_call5_cst : Ref sig .tc := ⟨.hbm, 178, rfl⟩
abbrev main_call5_v0 : Ref sig .tc := ⟨.hbm, 179, rfl⟩
abbrev main_v124 : Ref sig .tc := ⟨.hbm, 180, rfl⟩
abbrev main_v125 : Ref sig .tc := ⟨.hbm, 181, rfl⟩
abbrev main_cst_20 : Ref sig .tc := ⟨.hbm, 182, rfl⟩
abbrev main_call6_v0 : Ref sig .tc := ⟨.hbm, 183, rfl⟩
abbrev main_call6_v1 : Ref sig .tc := ⟨.hbm, 184, rfl⟩
abbrev main_call6_v2 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_call7_cst : Ref sig .tc := ⟨.hbm, 191, rfl⟩
abbrev main_call7_v0 : Ref sig .tc := ⟨.hbm, 192, rfl⟩
abbrev main_v131 : Ref sig .tc := ⟨.hbm, 193, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v23 : BitVec 1 := Scalar.cmpi .eq arg1 c15_i32
  let v24 : BitVec 32 := Scalar.extui v23
  let c0_i32_15 : BitVec 32 := 0#32
  let v25 : BitVec 1 := Scalar.cmpi .ne v24 c0_i32_15
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v23 : BitVec 1 := Scalar.cmpi .eq arg1 c15_i32
  let v24 : BitVec 32 := Scalar.extui v23
  let c0_i32_12 : BitVec 32 := 0#32
  let v25 : BitVec 1 := Scalar.cmpi .ne v24 c0_i32_12
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  slices_S131072x2_S131072x1_0_0 : S131072x2.Slices ![0, 0] S131072x1
  shapeCasts_S131072x1_S131072 : S131072x1.ShapeCasts S131072
  slices_S131072x2_S131072x1_0_1 : S131072x2.Slices ![0, 1] S131072x1
  bitsLt_bf16_f32 : FTy.bits .bf16 < FTy.bits .f32
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  bcast_S_S131072 : S_.BroadcastsInDim S131072 (![] : Fin 0 → Fin S131072.rank)
  bcast_S131072_S131072x1_0 : S131072.BroadcastsInDim S131072x1 (![0] : Fin 1 → Fin S131072x1.rank)
  bcast_S1x512_S131072x512_0_1 : S1x512.BroadcastsInDim S131072x512 (![0, 1] : Fin 2 → Fin S131072x512.rank)
  bcast_S_S131072x512 : S_.BroadcastsInDim S131072x512 (![] : Fin 0 → Fin S131072x512.rank)
  bcast_S32_S1x32_1 : S32.BroadcastsInDim S1x32 (![1] : Fin 1 → Fin S1x32.rank)
  bcast_S1x32_S131072x32_0_1 : S1x32.BroadcastsInDim S131072x32 (![0, 1] : Fin 2 → Fin S131072x32.rank)
  bcast_S_S131072x32 : S_.BroadcastsInDim S131072x32 (![] : Fin 0 → Fin S131072x32.rank)
  reducesTo_S131072x32_S131072_d1 : S131072x32.ReducesTo [1] S131072
  h_S_ : 0 < S_.numel
  reducesTo_S131072_S_d0 : S131072.ReducesTo [0] S_
  bcast_S_S8192x8192 : S_.BroadcastsInDim S8192x8192 (![] : Fin 0 → Fin S8192x8192.rank)
  concatenates_S131072x1_S131072x1_S131072x2_d1 : Shape.Concatenates [S131072x1, S131072x1] S131072x2 1
  bcast_S_S8192 : S_.BroadcastsInDim S8192 (![] : Fin 0 → Fin S8192.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S1024x512_S1024 : S1024x512.Reduces [1] S1024
  shapeCasts_S1024_S1024x1 : S1024.ShapeCasts S1024x1
  broadcasts_S1024x1_S1024x1024 : S1024x1.Broadcasts S1024x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x1024 : S512x1.Broadcasts S512x1024
  slices_S2048x512_S1024x512_0_0 : S2048x512.Slices ![0, 0] S1024x512
  slices_S2048x512_S1024x512_1024_0 : S2048x512.Slices ![1024, 0] S1024x512
  reducesTo_S8192x512_S8192_d1 : S8192x512.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S_S8192x2048 : S_.BroadcastsInDim S8192x2048 (![] : Fin 0 → Fin S8192x2048.rank)
  dot_S8192x2048_S2048x512_S8192x512_1_0_0_1_n_n_wf : DotDims.WF S8192x2048 S2048x512 S8192x512 [1] [0] [0] [1] [] []
  gather_S8192x512_S131072x1_S131072x512_1_0_n_n_0_1_1512_wf : GatherDims.WF S8192x512 S131072x1 S131072x512 [1] [0] [] [0] [] 1 ![1, 512]
  dot_S131072x2048_S2048x512_S131072x512_1_0_0_1_n_n_wf : DotDims.WF S131072x2048 S2048x512 S131072x512 [1] [0] [0] [1] [] []
  dot_S131072x512_S512x32_S131072x32_1_0_0_1_n_n_wf : DotDims.WF S131072x512 S512x32 S131072x32 [1] [0] [0] [1] [] []
  scatter_S8192x8192_S131072x2_S131072_n_01_01_1_wf : ScatterDims.WF S8192x8192 S131072x2 S131072 [] [0, 1] [0, 1] 1
  scatter_S8192_S131072x1_S131072_n_0_0_1_wf : ScatterDims.WF S8192 S131072x1 S131072 [] [0] [0] 1
  dot_S8192x2048_S2048x1024_S8192x1024_1_0_0_1_n_n_wf : DotDims.WF S8192x2048 S2048x1024 S8192x1024 [1] [0] [0] [1] [] []
  dot_S1024x512_S512x1024_S1024x1024_1_0_0_1_n_n_wf : DotDims.WF S1024x512 S512x1024 S1024x1024 [1] [0] [0] [1] [] []
  dot_S512x1024_S512x1024_S1024x1024_0_0_1_1_n_n_wf : DotDims.WF S512x1024 S512x1024 S1024x1024 [0] [0] [1] [1] [] []
  dot_S8192x1024_S1024x512_S8192x512_1_0_0_1_n_n_wf : DotDims.WF S8192x1024 S1024x512 S8192x512 [1] [0] [0] [1] [] []
  dot_S8192x512_S512x512_S8192x512_1_0_0_1_n_n_wf : DotDims.WF S8192x512 S512x512 S8192x512 [1] [0] [0] [1] [] []
  dot_S8192x512_S512x2048_S8192x2048_1_0_0_1_n_n_wf : DotDims.WF S8192x512 S512x2048 S8192x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x8192.size a
  hwx0_0 : ∀ i : grid0.Coords, EltTy.bits .bf16 = 32 ∨ (Rect.block (s := S8192x8192) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .bf16 = 32 ∨ (Rect.block (s := S8192x1024) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x1024.size a
  hwx0_2 : ∀ i : grid0.Coords, EltTy.bits .f32 = 32 ∨ (Rect.block (s := S8192x1024) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x8192.size a
  hwx1_0 : ∀ i : grid1.Coords, EltTy.bits .bf16 = 32 ∨ (Rect.block (s := S8192x8192) S512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S8192x1024.size a
  hwx1_1 : ∀ i : grid1.Coords, EltTy.bits .bf16 = 32 ∨ (Rect.block (s := S8192x1024) S512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S8192x1.size a
  hwx1_2 : ∀ i : grid1.Coords, EltTy.bits .f32 = 32 ∨ (Rect.block (s := S8192x1) S512x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x1024.size a
  hwx1_3 : ∀ i : grid1.Coords, EltTy.bits .f32 = 32 ∨ (Rect.block (s := S8192x1024) S1024x1024.size (cc1_transform_3 i) (hinb1_3 i)).WholeWords (EltTy.packing .f32)

variable [Facts₀]

def dot_S8192x2048_S2048x512_S8192x512_1_0_0_1_n_n : DotDims S8192x2048 S2048x512 S8192x512 where
  lhsContracting := [1]
  rhsContracting := [0]
  lhsNonContracting := [0]
  rhsNonContracting := [1]
  lhsBatch := []
  rhsBatch := []
  wf := dot_S8192x2048_S2048x512_S8192x512_1_0_0_1_n_n_wf
def gather_S8192x512_S131072x1_S131072x512_1_0_n_n_0_1_1512 : GatherDims S8192x512 S131072x1 S131072x512 where
  offsetDims := [1]
  collapsedSliceDims := [0]
  operandBatchingDims := []
  startIndicesBatchingDims := []
  startIndexMap := [0]
  indexVectorDim := 1
  sliceSizes := ![1, 512]
  wf := gather_S8192x512_S131072x1_S131072x512_1_0_n_n_0_1_1512_wf
def dot_S131072x2048_S2048x512_S131072x512_1_0_0_1_n_n : DotDims S131072x2048 S2048x512 S131072x512 where
  lhsContracting := [1]
  rhsContracting := [0]
  lhsNonContracting := [0]
  rhsNonContracting := [1]
  lhsBatch := []
  rhsBatch := []
  wf := dot_S131072x2048_S2048x512_S131072x512_1_0_0_1_n_n_wf
def dot_S131072x512_S512x32_S131072x32_1_0_0_1_n_n : DotDims S131072x512 S512x32 S131072x32 where
  lhsContracting := [1]
  rhsContracting := [0]
  lhsNonContracting := [0]
  rhsNonContracting := [1]
  lhsBatch := []
  rhsBatch := []
  wf := dot_S131072x512_S512x32_S131072x32_1_0_0_1_n_n_wf
def scatter_S8192x8192_S131072x2_S131072_n_01_01_1 : ScatterDims S8192x8192 S131072x2 S131072 where
  updateWindowDims := []
  insertedWindowDims := [0, 1]
  scatterDimsToOperandDims := [0, 1]
  indexVectorDim := 1
  wf := scatter_S8192x8192_S131072x2_S131072_n_01_01_1_wf
def scatter_S8192_S131072x1_S131072_n_0_0_1 : ScatterDims S8192 S131072x1 S131072 where
  updateWindowDims := []
  insertedWindowDims := [0]
  scatterDimsToOperandDims := [0]
  indexVectorDim := 1
  wf := scatter_S8192_S131072x1_S131072_n_0_0_1_wf
def dot_S8192x2048_S2048x1024_S8192x1024_1_0_0_1_n_n : DotDims S8192x2048 S2048x1024 S8192x1024 where
  lhsContracting := [1]
  rhsContracting := [0]
  lhsNonContracting := [0]
  rhsNonContracting := [1]
  lhsBatch := []
  rhsBatch := []
  wf := dot_S8192x2048_S2048x1024_S8192x1024_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S512x1024_S512x1024_S1024x1024_0_0_1_1_n_n : DotDims S512x1024 S512x1024 S1024x1024 where
  lhsContracting := [0]
  rhsContracting := [0]
  lhsNonContracting := [1]
  rhsNonContracting := [1]
  lhsBatch := []
  rhsBatch := []
  wf := dot_S512x1024_S512x1024_S1024x1024_0_0_1_1_n_n_wf
def dot_S8192x1024_S1024x512_S8192x512_1_0_0_1_n_n : DotDims S8192x1024 S1024x512 S8192x512 where
  lhsContracting := [1]
  rhsContracting := [0]
  lhsNonContracting := [0]
  rhsNonContracting := [1]
  lhsBatch := []
  rhsBatch := []
  wf := dot_S8192x1024_S1024x512_S8192x512_1_0_0_1_n_n_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x512_S512x2048_S8192x2048_1_0_0_1_n_n : DotDims S8192x512 S512x2048 S8192x2048 where
  lhsContracting := [1]
  rhsContracting := [0]
  lhsNonContracting := [0]
  rhsNonContracting := [1]
  lhsBatch := []
  rhsBatch := []
  wf := dot_S8192x512_S512x2048_S8192x2048_1_0_0_1_n_n_wf

abbrev win0_0 : Pipeline.Window sig grid0 :=
  Pipeline.Window.ofSpec (Memref.whole main_v68) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v84) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v85_0) S1024x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v85_1) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v68) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v84) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v85_1) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v86) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x2048 : Shape := ⟨2, ![8192, 2048]⟩
abbrev S131072x2048 : Shape := ⟨2, ![131072, 2048]⟩
abbrev S2048x512 : Shape := ⟨2, ![2048, 512]⟩
abbrev S512 : Shape := ⟨1, ![512]⟩
abbrev S512x32 : Shape := ⟨2, ![512, 32]⟩
abbrev S32 : Shape := ⟨1, ![32]⟩
abbrev S2048x1024 : Shape := ⟨2, ![2048, 1024]⟩
abbrev S1024 : Shape := ⟨1, ![1024]⟩
abbrev S512x512 : Shape := ⟨2, ![512, 512]⟩
abbrev S512x2048 : Shape := ⟨2, ![512, 2048]⟩
abbrev S2048 : Shape := ⟨1, ![2048]⟩
abbrev S131072x2 : Shape := ⟨2, ![131072, 2]⟩
abbrev S131072x1 : Shape := ⟨2, ![131072, 1]⟩
abbrev S131072 : Shape := ⟨1, ![131072]⟩
abbrev S_ : Shape := ⟨0, ![]⟩
abbrev S131072x512 : Shape := ⟨2, ![131072, 512]⟩
abbrev S1x512 : Shape := ⟨2, ![1, 512]⟩
abbrev S131072x32 : Shape := ⟨2, ![131072, 32]⟩
abbrev S1x32 : Shape := ⟨2, ![1, 32]⟩
abbrev S8192x8192 : Shape := ⟨2, ![8192, 8192]⟩
abbrev S8192 : Shape := ⟨1, ![8192]⟩
abbrev S8192x1 : Shape := ⟨2, ![8192, 1]⟩
abbrev S8192x1024 : Shape := ⟨2, ![8192, 1024]⟩
abbrev S1x1024 : Shape := ⟨2, ![1, 1024]⟩
abbrev S8192x512 : Shape := ⟨2, ![8192, 512]⟩
abbrev S1x2048 : Shape := ⟨2, ![1, 2048]⟩

abbrev nBuf : Space → Nat
  | .hbm => 203
  | .vmem => 0
  | .smem => 0
  | _ => 0

abbrev hbmTy0_0 (i : Nat) : BufTy := match i % 128 with
  | 0 => ⟨S8192x2048, .f32⟩
  | 1 => ⟨S131072x2048, .f32⟩
  | 2 => ⟨S2048x512, .f32⟩
  | 3 => ⟨S512, .f32⟩
  | 4 => ⟨S2048x512, .f32⟩
  | 5 => ⟨S512, .f32⟩
  | 6 => ⟨S2048x512, .f32⟩
  | 7 => ⟨S512, .f32⟩
  | 8 => ⟨S512x32, .f32⟩
  | 9 => ⟨S32, .f32⟩
  | 10 => ⟨S2048x1024, .f32⟩
  | 11 => ⟨S1024, .f32⟩
  | 12 => ⟨S2048x512, .f32⟩
  | 13 => ⟨S512, .f32⟩
  | 14 => ⟨S512, .f32⟩
  | 15 => ⟨S512, .f32⟩
  | 16 => ⟨S512x512, .f32⟩
  | 17 => ⟨S512, .f32⟩
  | 18 => ⟨S512x2048, .f32⟩
  | 19 => ⟨S2048, .f32⟩
  | 20 => ⟨S131072x2, .i32⟩
  | 21 => ⟨S131072x1, .i32⟩
  | 22 => ⟨S131072, .i32⟩
  | 23 => ⟨S131072x1, .i32⟩
  | 24 => ⟨S131072, .i32⟩
  | 25 => ⟨S_, .i32⟩
  | 26 => ⟨S131072, .i32⟩
  | 27 => ⟨S131072, .i1⟩
  | 28 => ⟨S_, .i32⟩
  | 29 => ⟨S131072, .i32⟩
  | 30 => ⟨S131072, .i32⟩
  | 31 => ⟨S131072, .i32⟩
  | 32 => ⟨S131072x1, .i32⟩
  | 33 => ⟨S131072x2048, .f32⟩
  | 34 => ⟨S131072x512, .f32⟩
  | 35 => ⟨S1x512, .f32⟩
  | 36 => ⟨S131072x512, .f32⟩
  | 37 => ⟨S131072x512, .f32⟩
  | 38 => ⟨S_, .f32⟩
  | 39 => ⟨S131072x512, .f32⟩
  | 40 => ⟨S131072x512, .f32⟩
  | 41 => ⟨S_, .i32⟩
  | 42 => ⟨S131072, .i32⟩
  | 43 => ⟨S131072, .i1⟩
  | 44 => ⟨S_, .i32⟩
  | 45 => ⟨S131072, .i32⟩
  | 46 => ⟨S131072, .i32⟩
  | 47 => ⟨S131072, .i32⟩
  | 48 => ⟨S131072x1, .i32⟩
  | 49 => ⟨S131072x2048, .f32⟩
  | 50 => ⟨S131072x512, .f32⟩
  | 51 => ⟨S1x512, .f32⟩
  | 52 => ⟨S131072x512, .f32⟩
  | 53 => ⟨S131072x512, .f32⟩
  | 54 => ⟨S_, .f32⟩
  | 55 => ⟨S131072x512, .f32⟩
  | 56 => ⟨S131072x512, .f32⟩
  | 57 => ⟨S131072x512, .f32⟩
  | 58 => ⟨S1x512, .f32⟩
  | 59 => ⟨S131072x512, .f32⟩
  | 60 => ⟨S131072x512, .f32⟩
  | 61 => ⟨S_, .f32⟩
  | 62 => ⟨S131072x512, .f32⟩
  | 63 => ⟨S131072x512, .f32⟩
  | 64 => ⟨S131072x512, .f32⟩
  | 65 => ⟨S131072x512, .f32⟩
  | 66 => ⟨S131072x32, .f32⟩
  | 67 => ⟨S1x32, .f32⟩
  | 68 => ⟨S131072x32, .f32⟩
  | 69 => ⟨S131072x32, .f32⟩
  | 70 => ⟨S_, .f32⟩
  | 71 => ⟨S131072x32, .f32⟩
  | 72 => ⟨S131072x32, .f32⟩
  | 73 => ⟨S_, .f32⟩
  | 74 => ⟨S131072, .f32⟩
  | 75 => ⟨S_, .f32⟩
  | 76 => ⟨S131072, .f32⟩
  | 77 => ⟨S131072, .f32⟩
  | 78 => ⟨S_, .f32⟩
  | 79 => ⟨S8192x8192, .f32⟩
  | 80 => ⟨S_, .i32⟩
  | 81 => ⟨S131072, .i32⟩
  | 82 => ⟨S131072, .i1⟩
  | 83 => ⟨S_, .i32⟩
  | 84 => ⟨S131072, .i32⟩
  | 85 => ⟨S131072, .i32⟩
  | 86 => ⟨S131072, .i32⟩
  | 87 => ⟨S_, .i32⟩
  | 88 => ⟨S131072, .i32⟩
  | 89 => ⟨S131072, .i1⟩
  | 90 => ⟨S_, .i32⟩
  | 91 => ⟨S131072, .i32⟩
  | 92 => ⟨S131072, .i32⟩
  | 93 => ⟨S131072, .i32⟩
  | 94 => ⟨S131072x1, .i32⟩
  | 95 => ⟨S131072x1, .i32⟩
  | 96 => ⟨S131072x2, .i32⟩
  | 97 => ⟨S8192x8192, .f32⟩
  | 98 => ⟨S_, .f32⟩
  | 99 => ⟨S8192x8192, .f32⟩
  | 100 => ⟨S_, .i32⟩
  | 101 => ⟨S131072, .i32⟩
  | 102 => ⟨S131072, .i1⟩
  | 103 => ⟨S_, .i32⟩
  | 104 => ⟨S131072, .i32⟩
  | 105 => ⟨S131072, .i32⟩
  | 106 => ⟨S131072, .i32⟩
  | 107 => ⟨S_, .i32⟩
  | 108 => ⟨S131072, .i32⟩
  | 109 => ⟨S131072, .i1⟩
  | 110 => ⟨S_, .i32⟩
  | 111 => ⟨S131072, .i32⟩
  | 112 => ⟨S131072, .i32⟩
  | 113 => ⟨S131072, .i32⟩
  | 114 => ⟨S131072x1, .i32⟩
  | 115 => ⟨S131072x1, .i32⟩
  | 116 => ⟨S131072x2, .i32⟩
  | 117 => ⟨S_, .f32⟩
  | 118 => ⟨S131072, .f32⟩
  | 119 => ⟨S8192x8192, .f32⟩
  | 120 => ⟨S_, .f32⟩
  | 121 => ⟨S_, .f32⟩
  | 122 => ⟨S8192x8192, .f32⟩
  | 123 => ⟨S8192x8192, .f32⟩
  | 124 => ⟨S8192x8192, .f32⟩
  | 125 => ⟨S8192x8192, .f32⟩
  | 126 => ⟨S_, .f32⟩
  | 127 => ⟨S8192, .f32⟩
  | _ => ⟨S8192x2048, .f32⟩

abbrev hbmTy0_1 (i : Nat) : BufTy := match i % 128 with
  | 0 => ⟨S8192x1, .f32⟩
  | 1 => ⟨S_, .f32⟩
  | 2 => ⟨S8192x1, .f32⟩
  | 3 => ⟨S8192x1, .f32⟩
  | 4 => ⟨S8192x8192, .f32⟩
  | 5 => ⟨S8192x8192, .f32⟩
  | 6 => ⟨S8192x1024, .f32⟩
  | 7 => ⟨S1x1024, .f32⟩
  | 8 => ⟨S8192x1024, .f32⟩
  | 9 => ⟨S8192x1024, .f32⟩
  | 10 => ⟨S8192x1024, .f32⟩
  | 11 => ⟨S8192x8192, .f32⟩
  | 12 => ⟨S8192x1024, .f32⟩
  | 13 => ⟨S8192x2048, .f32⟩
  | 14 => ⟨S8192x512, .f32⟩
  | 15 => ⟨S1x512, .f32⟩
  | 16 => ⟨S8192x512, .f32⟩
  | 17 => ⟨S8192x512, .f32⟩
  | 18 => ⟨S_, .f32⟩
  | 19 => ⟨S8192, .f32⟩
  | 20 => ⟨S8192x1, .f32⟩
  | 21 => ⟨S_, .f32⟩
  | 22 => ⟨S8192x1, .f32⟩
  | 23 => ⟨S8192x1, .f32⟩
  | 24 => ⟨S8192x512, .f32⟩
  | 25 => ⟨S8192x512, .f32⟩
  | 26 => ⟨S8192x512, .f32⟩
  | 27 => ⟨S_, .f32⟩
  | 28 => ⟨S8192, .f32⟩
  | 29 => ⟨S8192x1, .f32⟩
  | 30 => ⟨S_, .f32⟩
  | 31 => ⟨S8192x1, .f32⟩
  | 32 => ⟨S8192x1, .f32⟩
  | 33 => ⟨S8192x512, .f32⟩
  | 34 => ⟨S8192x512, .f32⟩
  | 35 => ⟨S_, .f32⟩
  | 36 => ⟨S8192x1, .f32⟩
  | 37 => ⟨S8192x1, .f32⟩
  | 38 => ⟨S8192x1, .f32⟩
  | 39 => ⟨S8192x512, .f32⟩
  | 40 => ⟨S8192x512, .f32⟩
  | 41 => ⟨S1x512, .f32⟩
  | 42 => ⟨S8192x512, .f32⟩
  | 43 => ⟨S8192x512, .f32⟩
  | 44 => ⟨S1x512, .f32⟩
  | 45 => ⟨S8192x512, .f32⟩
  | 46 => ⟨S8192x512, .f32⟩
  | 47 => ⟨S_, .f32⟩
  | 48 => ⟨S8192x512, .f32⟩
  | 49 => ⟨S8192x512, .f32⟩
  | 50 => ⟨S8192x512, .f32⟩
  | 51 => ⟨S1x512, .f32⟩
  | 52 => ⟨S8192x512, .f32⟩
  | 53 => ⟨S8192x512, .f32⟩
  | 54 => ⟨S_, .f32⟩
  | 55 => ⟨S8192x512, .f32⟩
  | 56 => ⟨S8192x512, .f32⟩
  | 57 => ⟨S_, .f32⟩
  | 58 => ⟨S8192, .f32⟩
  | 59 => ⟨S_, .f32⟩
  | 60 => ⟨S8192, .f32⟩
  | 61 => ⟨S8192, .i1⟩
  | 62 => ⟨S8192x1, .i1⟩
  | 63 => ⟨S_, .f32⟩
  | 64 => ⟨S_, .f32⟩
  | 65 => ⟨S8192x512, .i1⟩
  | 66 => ⟨S8192x512, .f32⟩
  | 67 => ⟨S8192x512, .f32⟩
  | 68 => ⟨S8192x2048, .f32⟩
  | 69 => ⟨S1x2048, .f32⟩
  | 70 => ⟨S8192x2048, .f32⟩
  | 71 => ⟨S8192x2048, .f32⟩
  | 72 => ⟨S_, .f32⟩
  | 73 => ⟨S8192x2048, .f32⟩
  | 74 => ⟨S8192x2048, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_call0_cst : Ref sig .tc := ⟨.hbm, 38, rfl⟩
abbrev main_call0_v0 : Ref sig .tc := ⟨.hbm, 39, rfl⟩
abbrev main_v15 : Ref sig .tc := ⟨.hbm, 40, rfl⟩
abbrev main_c_1 : Ref sig .tc := ⟨.hbm, 41, rfl⟩
abbrev main_v16 : Ref sig .tc := ⟨.hbm, 42, rfl⟩
abbrev main_v17 : Ref sig .tc := ⟨.hbm, 43, rfl⟩
abbrev main_c_2 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_call1_cst : Ref sig .tc := ⟨.hbm, 54, rfl⟩
abbrev main_call1_v0 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_call2_cst : Ref sig .tc := ⟨.hbm, 61, rfl⟩
abbrev main_call2_v0 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_call3_cst : Ref sig .tc := ⟨.hbm, 70, rfl⟩
abbrev main_call3_v0 : Ref sig .tc := ⟨.hbm, 71, rfl⟩
abbrev main_v39 : Ref sig .tc := ⟨.hbm, 72, rfl⟩
abbrev main_cst : Ref sig .tc := ⟨.hbm, 73, rfl⟩
abbrev main_v40 : Ref sig .tc := ⟨.hbm, 74, rfl⟩
abbrev main_cst_3 : Ref sig .tc := ⟨.hbm, 75, rfl⟩
abbrev main_v41 : Ref sig .tc := ⟨.hbm, 76, rfl⟩
abbrev main_v42 : Ref sig .tc := ⟨.hbm, 77, rfl⟩
abbrev main_cst_4 : Ref sig .tc := ⟨.hbm, 78, rfl⟩
abbrev main_v43 : Ref sig .tc := ⟨.hbm, 79, rfl⟩
abbrev main_c_5 : Ref sig .tc := ⟨.hbm, 80, rfl⟩
abbrev main_v44 : Ref sig .tc := ⟨.hbm, 81, rfl⟩
abbrev main_v45 : Ref sig .tc := ⟨.hbm, 82, rfl⟩
abbrev main_c_6 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_c_7 : Ref sig .tc := ⟨.hbm, 87, rfl⟩
abbrev main_v49 : Ref sig .tc := ⟨.hbm, 88, rfl⟩
abbrev main_v50 : Ref sig .tc := ⟨.hbm, 89, rfl⟩
abbrev main_c_8 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_cst_9 : Ref sig .tc := ⟨.hbm, 98, rfl⟩
abbrev main_v58 : Ref sig .tc := ⟨.hbm, 99, rfl⟩
abbrev main_c_10 : Ref sig .tc := ⟨.hbm, 100, rfl⟩
abbrev main_v59 : Ref sig .tc := ⟨.hbm, 101, rfl⟩
abbrev main_v60 : Ref sig .tc := ⟨.hbm, 102, rfl⟩
abbrev main_c_11 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_c_12 : Ref sig .tc := ⟨.hbm, 107, rfl⟩
abbrev main_v64 : Ref sig .tc := ⟨.hbm, 108, rfl⟩
abbrev main_v65 : Ref sig .tc := ⟨.hbm, 109, rfl⟩
abbrev main_c_13 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_cst_14 : Ref sig .tc := ⟨.hbm, 117, rfl⟩
abbrev main_v72 : Ref sig .tc := ⟨.hbm, 118, rfl⟩
abbrev main_v73 : Ref sig .tc := ⟨.hbm, 119, rfl⟩
abbrev main_cst_15 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_cst_16 : Ref sig .tc := ⟨.hbm, 126, rfl⟩
abbrev main_v79 : Ref sig .tc := ⟨.hbm, 127, rfl⟩
abbrev main_v80 : Ref sig .tc := ⟨.hbm, 128, rfl⟩
abbrev main_cst_17 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_cst_18 : Ref sig .tc := ⟨.hbm, 146, rfl⟩
abbrev main_v97 : Ref sig .tc := ⟨.hbm, 147, rfl⟩
abbrev main_v98 : Ref sig .tc := ⟨.hbm, 148, rfl⟩
abbrev main_cst_19 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_cst_20 : Ref sig .tc := ⟨.hbm, 155, rfl⟩
abbrev main_v104 : Ref sig .tc := ⟨.hbm, 156, rfl⟩
abbrev main_v105 : Ref sig .tc := ⟨.hbm, 157, rfl⟩
abbrev main_cst_21 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_cst_22 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_call4_cst : Ref sig .tc := ⟨.hbm, 175, rfl⟩
abbrev main_call4_v0 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_call5_cst : Ref sig .tc := ⟨.hbm, 182, rfl⟩
abbrev main_call5_v0 : Ref sig .tc := ⟨.hbm, 183, rfl⟩
abbrev main_v126 : Ref sig .tc := ⟨.hbm, 184, rfl⟩
abbrev main_cst_23 : Ref sig .tc := ⟨.hbm, 185, rfl⟩
abbrev main_v127 : Ref sig .tc := ⟨.hbm, 186, rfl⟩
abbrev main_cst_24 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_cst_25 : Ref sig .tc := ⟨.hbm, 191, rfl⟩
abbrev main_call6_v0 : Ref sig .tc := ⟨.hbm, 192, rfl⟩
abbrev main_call6_v1 : Ref sig .tc := ⟨.hbm, 193, rfl⟩
abbrev main_call6_v2 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_call7_cst : Ref sig .tc := ⟨.hbm, 200, rfl⟩
abbrev main_call7_v0 : Ref sig .tc := ⟨.hbm, 201, rfl⟩
abbrev main_v136 : Ref sig .tc := ⟨.hbm, 202, rfl⟩

abbrev nD : Nat := 1
abbrev τ : Topo := Topo.v7x

variable {F : FTy → Type} [FloatOps F]

class Facts₀ : Prop where
  slices_S131072x2_S131072x1_0_0 : S131072x2.Slices ![0, 0] S131072x1
  shapeCasts_S131072x1_S131072 : S131072x1.ShapeCasts S131072
  slices_S131072x2_S131072x1_0_1 : S131072x2.Slices ![0, 1] S131072x1
  bcast_S_S131072 : S_.BroadcastsInDim S131072 (![] : Fin 0 → Fin S131072.rank)
  bcast_S131072_S131072x1_0 : S131072.BroadcastsInDim S131072x1 (![0] : Fin 1 → Fin S131072x1.rank)
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  bcast_S_S131072x512 : S_.BroadcastsInDim S131072x512 (![] : Fin 0 → Fin S131072x512.rank)
  bcast_S32_S1x32_1 : S32.BroadcastsInDim S1x32 (![1] : Fin 1 → Fin S1x32.rank)
  bcast_S1x32_S131072x32_0_1 : S1x32.BroadcastsInDim S131072x32 (![0, 1] : Fin 2 → Fin S131072x32.rank)
  bcast_S_S131072x32 : S_.BroadcastsInDim S131072x32 (![] : Fin 0 → Fin S131072x32.rank)
  reducesTo_S131072x32_S131072_d1 : S131072x32.ReducesTo [1] S131072
  h_S_ : 0 < S_.numel
  bcast_S_S8192x8192 : S_.BroadcastsInDim S8192x8192 (![] : Fin 0 → Fin S8192x8192.rank)
  concatenates_S131072x1_S131072x1_S131072x2_d1 : Shape.Concatenates [S131072x1, S131072x1] S131072x2 1
  reducesTo_S8192x8192_S_d0_1 : S8192x8192.ReducesTo [0, 1] S_
  reducesTo_S8192x8192_S8192_d1 : S8192x8192.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x8192_0_1 : S8192x1.BroadcastsInDim S8192x8192 (![0, 1] : Fin 2 → Fin S8192x8192.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  transposes_S8192x8192_S8192x8192_1_0 : S8192x8192.Transposes [1, 0] S8192x8192
  concatenates_S8192x1024_S8192x1024_S8192x2048_d1 : Shape.Concatenates [S8192x1024, S8192x1024] S8192x2048 1
  bcast_S1x512_S8192x512_0_1 : S1x512.BroadcastsInDim S8192x512 (![0, 1] : Fin 2 → Fin S8192x512.rank)
  reducesTo_S8192x512_S8192_d1 : S8192x512.ReducesTo [1] S8192
  bcast_S8192x1_S8192x512_0_1 : S8192x1.BroadcastsInDim S8192x512 (![0, 1] : Fin 2 → Fin S8192x512.rank)
  bcast_S_S8192x512 : S_.BroadcastsInDim S8192x512 (![] : Fin 0 → Fin S8192x512.rank)
  bcast_S_S8192 : S_.BroadcastsInDim S8192 (![] : Fin 0 → Fin S8192.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S_S8192x2048 : S_.BroadcastsInDim S8192x2048 (![] : Fin 0 → Fin S8192x2048.rank)
  gather_S8192x2048_S131072x1_S131072x2048_1_0_n_n_0_1_12048_wf : GatherDims.WF S8192x2048 S131072x1 S131072x2048 [1] [0] [] [0] [] 1 ![1, 2048]
  dot_S131072x2048_S2048x512_S131072x512_1_0_0_1_n_n_wf : DotDims.WF S131072x2048 S2048x512 S131072x512 [1] [0] [0] [1] [] []
  dot_S131072x512_S512x32_S131072x32_1_0_0_1_n_n_wf : DotDims.WF S131072x512 S512x32 S131072x32 [1] [0] [0] [1] [] []
  scatter_S8192x8192_S131072x2_S131072_n_01_01_1_wf : ScatterDims.WF S8192x8192 S131072x2 S131072 [] [0, 1] [0, 1] 1
  dot_S8192x2048_S2048x1024_S8192x1024_1_0_0_1_n_n_wf : DotDims.WF S8192x2048 S2048x1024 S8192x1024 [1] [0] [0] [1] [] []
  dot_S8192x8192_S8192x1024_S8192x1024_1_0_0_1_n_n_wf : DotDims.WF S8192x8192 S8192x1024 S8192x1024 [1] [0] [0] [1] [] []
  dot_S8192x2048_S2048x512_S8192x512_1_0_0_1_n_n_wf : DotDims.WF S8192x2048 S2048x512 S8192x512 [1] [0] [0] [1] [] []
  dot_S8192x512_S512x512_S8192x512_1_0_0_1_n_n_wf : DotDims.WF S8192x512 S512x512 S8192x512 [1] [0] [0] [1] [] []
  dot_S8192x512_S512x2048_S8192x2048_1_0_0_1_n_n_wf : DotDims.WF S8192x512 S512x2048 S8192x2048 [1] [0] [0] [1] [] []

variable [Facts₀]

def gather_S8192x2048_S131072x1_S131072x2048_1_0_n_n_0_1_12048 : GatherDims S8192x2048 S131072x1 S131072x2048 where
  offsetDims := [1]
  collapsedSliceDims := [0]
  operandBatchingDims := []
  startIndicesBatchingDims := []
  startIndexMap := [0]
  indexVectorDim := 1
  sliceSizes := ![1, 2048]
  wf := gather_S8192x2048_S131072x1_S131072x2048_1_0_n_n_0_1_12048_wf
def dot_S131072x2048_S2048x512_S131072x512_1_0_0_1_n_n : DotDims S131072x2048 S2048x512 S131072x512 where
  lhsContracting := [1]
  rhsContracting := [0]
  lhsNonContracting := [0]
  rhsNonContracting := [1]
  lhsBatch := []
  rhsBatch := []
  wf := dot_S131072x2048_S2048x512_S131072x512_1_0_0_1_n_n_wf
def dot_S131072x512_S512x32_S131072x32_1_0_0_1_n_n : DotDims S131072x512 S512x32 S131072x32 where
  lhsContracting := [1]
  rhsContracting := [0]
  lhsNonContracting := [0]
  rhsNonContracting := [1]
  lhsBatch := []
  rhsBatch := []
  wf := dot_S131072x512_S512x32_S131072x32_1_0_0_1_n_n_wf
def scatter_S8192x8192_S131072x2_S131072_n_01_01_1 : ScatterDims S8192x8192 S131072x2 S131072 where
  updateWindowDims := []
  insertedWindowDims := [0, 1]
  scatterDimsToOperandDims := [0, 1]
  indexVectorDim := 1
  wf := scatter_S8192x8192_S131072x2_S131072_n_01_01_1_wf
def dot_S8192x2048_S2048x1024_S8192x1024_1_0_0_1_n_n : DotDims S8192x2048 S2048x1024 S8192x1024 where
  lhsContracting := [1]
  rhsContracting := [0]
  lhsNonContracting := [0]
  rhsNonContracting := [1]
  lhsBatch := []
  rhsBatch := []
  wf := dot_S8192x2048_S2048x1024_S8192x1024_1_0_0_1_n_n_wf
def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf
def dot_S8192x2048_S2048x512_S8192x512_1_0_0_1_n_n : DotDims S8192x2048 S2048x512 S8192x512 where
  lhsContracting := [1]
  rhsContracting := [0]
  lhsNonContracting := [0]
  rhsNonContracting := [1]
  lhsBatch := []
  rhsBatch := []
  wf := dot_S8192x2048_S2048x512_S8192x512_1_0_0_1_n_n_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x512_S512x2048_S8192x2048_1_0_0_1_n_n : DotDims S8192x512 S512x2048 S8192x2048 where
  lhsContracting := [1]
  rhsContracting := [0]
  lhsNonContracting := [0]
  rhsNonContracting := [1]
  lhsBatch := []
  rhsBatch := []
  wf := dot_S8192x512_S512x2048_S8192x2048_1_0_0_1_n_n_wf

class Facts : Prop extends Facts₀ where

variable [Facts]
-- ==== Proof.FrameAssembly.lean ====
import proofs.«120229_j77704548319709_2_alg».proof.Proof.Gen.KernelIdeal.Regions
import Idealize.ShloMosaic.Lib.Pipeline.FrameBody
import Idealize.ShloMosaic.Lib.Pipeline.RegionsLoop
import Idealize.ShloMosaic.Lib.Pipeline.FrameSuffix

/-!
# The program's run, assembled from its two kernel regions

@main is nine host stretches, the row kernel (region 0: the per-row sums of the scattered exponentials and the
row-normalised product with the messages), the column kernel (region 1: the product of the transposed,
row-normalised exponentials with the messages), and eight more host stretches.  Between two items every unscoped
buffer of the TensorCore is held whole at a valuation: the launch memory, then what each host stretch computes
from it, then what a region's write-backs leave in its output arrays.

Given, per region, proof data at a parameter (the contents the region is entered from), whose invariant starts
at the class's (every scratch buffer at anything) and ends inside it, and its body obligation, this module builds
the two region records and concludes
* that every weakly fair execution of @main terminates with every argument array as launched, and
* that the same executions end with EVERY unscoped buffer at the last valuation — in particular the result
  buffer at what the last host stretch computes from the regions' outputs.
-/

set_option maxRecDepth 16384

noncomputable section

namespace Cert.KernelIdeal.Assembly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The TensorCore's buffer contents when a region is entered, per core. -/
abbrev EntryContents (F : FTy → Type) [FloatOps F] : Type :=
  (c : Dev nD) → (b : Ref sig .tc) → Buf (Elt F) ((c : Thread nD τ).loc b)

/-- What is given of region 0 (the row kernel): proof data at any entry contents `V` whose arrays are read off `V`, held at
    the full share, owing nothing; its body obligation; and its invariant between the class's at both ends — before
    the first point every scratch buffer at anything, after the last the carried accumulators' contents forgotten. -/
structure RowKernelGiven (F : FTy → Type) [FloatOps F] where
  dat : EntryContents F → (c : Dev nD) → Dat τ (Elt F) Unit ℕ (Pipeline.UD sig nD τ) ℕ cfg0 c
  A_eq : ∀ (V : EntryContents F) (c : Dev nD) (w : Fin cfg0.W), (dat V c).A w = V c (Pipeline.arrRef spec0 w)
  share : ∀ (V : EntryContents F) (c : Dev nD) (w : Fin cfg0.W), (dat V c).share w = fullShare
  owed : ∀ (V : EntryContents F) (c : Dev nD) (t : Fin (cfg0.N + 1)), (dat V c).owed t = 0
  recorded : ∀ (V : EntryContents F) (c : Dev nD) (t : Fin (cfg0.N + 1)), (dat V c).recorded t = Set.univ
  body : ∀ (V : EntryContents F) (c : Dev nD), BodyObligation (dat V c) (defs₀ (F := F)) Variants.none () Set.univ
  hin : ∀ (V : EntryContents F) (c : Dev nD), (Pipeline.ΦA spec0 c : sProp (MT nD τ sig Unit (Elt F) ℕ (Pipeline.UD sig nD τ) ℕ)) ⊢ (dat V c).Φ 0
  hout : ∀ (V : EntryContents F) (c : Dev nD), (dat V c).Φ (Fin.last cfg0.N) ⊢ (Pipeline.ΦA spec0 c : sProp (MT nD τ sig Unit (Elt F) ℕ (Pipeline.UD sig nD τ) ℕ))

/-- What is given of region 1 (the column kernel): proof data at any entry contents `V` whose arrays are read off `V`, held at
    the full share, owing nothing; its body obligation; and its invariant between the class's at both ends — before
    the first point every scratch buffer at anything, after the last the carried accumulators' contents forgotten. -/
structure ColKernelGiven (F : FTy → Type) [FloatOps F] where
  dat : EntryContents F → (c : Dev nD) → Dat τ (Elt F) Unit ℕ (Pipeline.UD sig nD τ) ℕ cfg1 c
  A_eq : ∀ (V : EntryContents F) (c : Dev nD) (w : Fin cfg1.W), (dat V c).A w = V c (Pipeline.arrRef spec1 w)
  share : ∀ (V : EntryContents F) (c : Dev nD) (w : Fin cfg1.W), (dat V c).share w = fullShare
  owed : ∀ (V : EntryContents F) (c : Dev nD) (t : Fin (cfg1.N + 1)), (dat V c).owed t = 0
  recorded : ∀ (V : EntryContents F) (c : Dev nD) (t : Fin (cfg1.N + 1)), (dat V c).recorded t = Set.univ
  body : ∀ (V : EntryContents F) (c : Dev nD), BodyObligation (dat V c) (defs₀ (F := F)) Variants.none () Set.univ
  hin : ∀ (V : EntryContents F) (c : Dev nD), (Pipeline.ΦA spec1 c : sProp (MT nD τ sig Unit (Elt F) ℕ (Pipeline.UD sig nD τ) ℕ)) ⊢ (dat V c).Φ 0
  hout : ∀ (V : EntryContents F) (c : Dev nD), (dat V c).Φ (Fin.last cfg1.N) ⊢ (Pipeline.ΦA spec1 c : sProp (MT nD τ sig Unit (Elt F) ℕ (Pipeline.UD sig nD τ) ℕ))

section Assembly

variable (m : (ℓ : Loc nD τ sig) → Buf (Elt F) ℓ) (ρ : Dev nD → PrngReg)
variable (G0 : RowKernelGiven F) (G1 : ColKernelGiven F)

/-! ## The arrays the windows stand for -/

theorem rowWin_filled : Pipeline.arrRef spec0 0 = main_v68 := rfl
theorem rowWin_msg : Pipeline.arrRef spec0 1 = main_v84 := rfl
theorem rowWin_normalised : Pipeline.arrRef spec0 2 = main_v85_0 := rfl
theorem rowWin_rowSums : Pipeline.arrRef spec0 3 = main_v85_1 := rfl
theorem colWin_filled : Pipeline.arrRef spec1 0 = main_v68 := rfl
theorem colWin_msg : Pipeline.arrRef spec1 1 = main_v84 := rfl
theorem colWin_rowSums : Pipeline.arrRef spec1 2 = main_v85_1 := rfl
theorem colWin_product : Pipeline.arrRef spec1 3 = main_v86 := rfl

/-! ## The contents between the regions -/

/-- What region 0 is entered from: the launch memory through the nine host stretches before it. -/
abbrev beforeRows : EntryContents F := fun c b => V9 m c b

/-- Core `c`'s buffers after region 0: its arrays at what the row kernel's write-backs leave (the two inputs as
    entered, the normalised product and the row sums folded block by block), every other buffer as entered. -/
def afterRows (c : Dev nD) : Valuation τ sig (Elt F) :=
  Pipeline.withArrays spec0 c (V9 m c) fun w => (G0.dat (beforeRows m) c).arrAt w cfg0.N

/-- The unknowns of the generated valuations, after region 0 alone. -/
def leftByRows : Outs (F := F) := fun _ r c => afterRows m G0 c r

/-- What region 1 is entered from. -/
abbrev beforeCols : EntryContents F := fun c b => V10 m (leftByRows m G0) c b

/-- Core `c`'s buffers after region 1: its arrays at what the column kernel's write-backs leave. -/
def afterCols (c : Dev nD) : Valuation τ sig (Elt F) :=
  Pipeline.withArrays spec1 c (V10 m (leftByRows m G0) c) fun w => (G1.dat (beforeCols m G0) c).arrAt w cfg1.N

/-- What the regions leave in the buffers they may change: region 0's final arrays for the normalised product and
    the row sums, region 1's final array for the column product. -/
def leftByKernels : Outs (F := F) := fun J r c =>
  match J with
  | 10 => afterRows m G0 c r
  | _ => afterCols m G0 G1 c r

theorem beforeCols_eq (c : Dev nD) : V10 m (leftByKernels m G0 G1) c = V10 m (leftByRows m G0) c := rfl

theorem left_normalised (c : Dev nD) : leftByKernels m G0 G1 10 main_v85_0 c = (G0.dat (beforeRows m) c).arrAt 2 cfg0.N :=
  show Pipeline.withArrays spec0 c (V9 m c) (fun w => (G0.dat (beforeRows m) c).arrAt w cfg0.N) (Proc.devRef .tc (Pipeline.arrRef spec0 2)) = _ from
    Pipeline.withArrays_arr spec0 launch0.win.arr_inj c _ _ 2
theorem left_rowSums (c : Dev nD) : leftByKernels m G0 G1 10 main_v85_1 c = (G0.dat (beforeRows m) c).arrAt 3 cfg0.N :=
  show Pipeline.withArrays spec0 c (V9 m c) (fun w => (G0.dat (beforeRows m) c).arrAt w cfg0.N) (Proc.devRef .tc (Pipeline.arrRef spec0 3)) = _ from
    Pipeline.withArrays_arr spec0 launch0.win.arr_inj c _ _ 3
theorem left_colProduct (c : Dev nD) : leftByKernels m G0 G1 11 main_v86 c = (G1.dat (beforeCols m G0) c).arrAt 3 cfg1.N :=
  show Pipeline.withArrays spec1 c (V10 m (leftByRows m G0) c) (fun w => (G1.dat (beforeCols m G0) c).arrAt w cfg1.N) (Proc.devRef .tc (Pipeline.arrRef spec1 3)) = _ from
    Pipeline.withArrays_arr spec1 launch1.win.arr_inj c _ _ 3

/-- After region 0 each of its arrays holds what the pipeline leaves there: the inputs are never written back, the
    outputs are the unknowns' definition. -/
theorem rowArrays_final (c : Dev nD) (w : Fin cfg0.W) :
    (G0.dat (beforeRows m) c).arrAt w cfg0.N = V10 m (leftByKernels m G0 G1) c (Pipeline.arrRef spec0 w) := by
  match w with
  | ⟨0, _⟩ => exact ((G0.dat (beforeRows m) c).arrAt_in 0 rfl _).trans ((G0.A_eq (beforeRows m) c 0).trans (V10_of m _ c main_v68 (by decide)).symm)
  | ⟨1, _⟩ => exact ((G0.dat (beforeRows m) c).arrAt_in 1 rfl _).trans ((G0.A_eq (beforeRows m) c 1).trans (V10_of m _ c main_v84 (by decide)).symm)
  | ⟨2, _⟩ =>
    refine (left_normalised m G0 G1 c).symm.trans ?_
    show _ = V10 m (leftByKernels m G0 G1) c (Proc.devRef .tc main_v85_0)
    unfold V10
    rw [Function.update_of_ne (show (Proc.devRef .tc main_v85_0 : DevRef τ sig) ≠ Proc.devRef .tc main_v85_1 by decide), Function.update_self]
  | ⟨3, _⟩ =>
    refine (left_rowSums m G0 G1 c).symm.trans ?_
    show _ = V10 m (leftByKernels m G0 G1) c (Proc.devRef .tc main_v85_1)
    unfold V10
    rw [Function.update_self]

theorem rowRegion_keeps (c : Dev nD) : ∀ b, b ∉ Finset.univ.image (Pipeline.arrRef spec0) → V10 m (leftByKernels m G0 G1) c b = V9 m c b :=
  fun b hb => V10_of m _ c b fun h => hb (by
    rcases List.mem_cons.mp h with rfl | h
    · exact Finset.mem_image.mpr ⟨2, Finset.mem_univ _, rfl⟩
    · rcases List.mem_cons.mp h with rfl | h
      · exact Finset.mem_image.mpr ⟨3, Finset.mem_univ _, rfl⟩
      · exact absurd h (List.not_mem_nil))

/-- After region 1 likewise. -/
theorem colArrays_final (c : Dev nD) (w : Fin cfg1.W) :
    (G1.dat (beforeCols m G0) c).arrAt w cfg1.N = V11 m (leftByKernels m G0 G1) c (Pipeline.arrRef spec1 w) := by
  match w with
  | ⟨0, _⟩ => exact ((G1.dat (beforeCols m G0) c).arrAt_in 0 rfl _).trans ((G1.A_eq (beforeCols m G0) c 0).trans (V11_of m _ c main_v68 (by decide)).symm)
  | ⟨1, _⟩ => exact ((G1.dat (beforeCols m G0) c).arrAt_in 1 rfl _).trans ((G1.A_eq (beforeCols m G0) c 1).trans (V11_of m _ c main_v84 (by decide)).symm)
  | ⟨2, _⟩ => exact ((G1.dat (beforeCols m G0) c).arrAt_in 2 rfl _).trans ((G1.A_eq (beforeCols m G0) c 2).trans (V11_of m _ c main_v85_1 (by decide)).symm)
  | ⟨3, _⟩ =>
    refine (left_colProduct m G0 G1 c).symm.trans ?_
    show _ = V11 m (leftByKernels m G0 G1) c (Proc.devRef .tc main_v86)
    unfold V11
    rw [Function.update_self]

theorem colRegion_keeps (c : Dev nD) : ∀ b, b ∉ Finset.univ.image (Pipeline.arrRef spec1) → V11 m (leftByKernels m G0 G1) c b = V10 m (leftByKernels m G0 G1) c b :=
  fun b hb => V11_of m _ c b fun h => hb (by
    rcases List.mem_cons.mp h with rfl | h
    · exact Finset.mem_image.mpr ⟨3, Finset.mem_univ _, rfl⟩
    · exact absurd h (List.not_mem_nil))

/-! ## The proof data family and the thread state -/

/-- The two kernels' proof data as one family: the row kernel's at the contents before it, the column kernel's at the
    contents the row kernel leaves. -/
def kernelData : (p : Fin 2) → (c : Dev nD) → Dat τ (Elt F) Unit ℕ (Pipeline.UD sig nD τ) ℕ (cfgs p) c
  | ⟨0, _⟩ => fun c => G0.dat (beforeRows m) c
  | ⟨1, _⟩ => fun c => G1.dat (beforeCols m G0) c

abbrev noVariants : Variants := Variants.none
/-- The program signals nothing between cores: there is no pair of a semaphore and an index to order, hence no level. -/
abbrev noPairs : GSem nD τ sig → Finset Unit := fun _ => ∅
abbrev noLevels : GSem nD τ sig → Unit → ℕ := fun _ _ => 0

/-- A core between two items, its buffers apart: the random-number register in whatever state the last item left it,
    and no unit owed to anyone. -/
abbrev idleCore (c : Dev nD) : sProp 𝕄 := iprop((∃ r, prngReg c r) ∗ ∃ W, owes (c : Thread nD τ) (0 : CellTallies nD τ sig Unit) W)

/-- The same at each of the three places the generated frame asks for it: before, between and after the kernels. -/
abbrev restAt : Fin 3 → Dev nD → sProp 𝕄 := fun _ c => idleCore (F := F) c

/-! ## The regions as segments -/

-- the family of pipelines at this region's index IS the kernel's printed configuration
set_option backward.isDefEq.respectTransparency.types false in
/-- THE ROW KERNEL'S REGION. A core enters it holding every unscoped buffer at `V9 m` and leaves it holding them at
    `V10 m (leftByKernels m G0 G1)`: the scattered exponentials and the messages are only read, the row-normalised product
    and the row sums are what the sixteen-step accumulation per row tile writes back. At entry the four arrays are taken
    out of the core's buffers; the accumulators start inside the scratch the region may use freely and their named
    contents are let go at the end, so around the region only the random-number register passes through its invariant. -/
def rowRegion : Pipeline.RegionSeg (pcfgs (F := F)) adm (kernelData m G0 G1) () defs₀ noVariants noPairs noLevels 0 where
  win := launch0.win.to₀
  block_pos := launch0.block_pos
  stage_whole := launch0.stage_whole
  K := PEmpty
  osem k := k.elim
  ho := Pipeline.OwnSemFacts.none _
  hbody c := (G0.body (beforeRows m) c).loose
  hwaits := Pipeline.hwaits_of_owed_zero _ _ _ _ noPairs noLevels 0 fun c t => G0.owed (beforeRows m) c t
  pre c := iprop(StableHlo.held (c : Thread nD τ) (Pipeline.ucRefs τ sig) (V9 m c) ∗ idleCore c)
  post c := iprop(StableHlo.held (c : Thread nD τ) (Pipeline.ucRefs τ sig) (V10 m (leftByKernels m G0 G1) c) ∗ idleCore c)
  X c := iprop(∃ r, prngReg c r)
  Y c := iprop(∃ r, prngReg c r)
  Z c := Pipeline.unscopedRest (Ix := Unit) (Name := ℕ) (U := Pipeline.UD sig nD τ) (Lvl := ℕ) spec0 c (beforeRows m c)
  hentry c := by
    rw [Pipeline.ownSems0_none]
    have hsplit := Pipeline.arrays_of_unscopedBufs (p := 0) (pcfgs (F := F)) adm (kernelData m G0 G1) launch0.win launch0.arr_whole c
      (G0.share (beforeRows m) c) (beforeRows m c) (G0.A_eq (beforeRows m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl ((Set.ext_iff.mp (G0.recorded (beforeRows m) c 0) _).mpr trivial)
      rw [show (kernelData m G0 G1 0 c).owed 0 = 0 from G0.owed (beforeRows m) c 0]
      iexact HO
    isplitl [Hp]; · iexact Hp
    iexact Hrest
  hin c := by
    refine BIBase.Entails.trans ?_ (G0.hin (beforeRows m) c)
    unfold Pipeline.ΦA
    iintro ⟨Hp, -, Hr⟩
    isplitl [Hr]; · iexact Hr
    iexact Hp
  hout c := by
    rw [Pipeline.ownSems0_none]
    refine BIBase.Entails.trans (G0.hout (beforeRows m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (kernelData m G0 G1) (G0.share (beforeRows m) c)
      (beforeRows m c) (fun b => V10 m (leftByKernels m G0 G1) c b) ((kernelData m G0 G1 0 c).arrAt · cfg0.N) (rowArrays_final m G0 G1 c) (rowRegion_keeps m G0 G1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (kernelData m G0 G1 0 c).owed (Fin.last _) = 0 from G0.owed (beforeRows m) c _]
    iexact HO

-- the family of pipelines at this region's index IS the kernel's printed configuration
set_option backward.isDefEq.respectTransparency.types false in
/-- THE COLUMN KERNEL'S REGION. Entered from what the row kernel left (`V10 m (leftByKernels m G0 G1)`), left at
    `V11 m (leftByKernels m G0 G1)`: the exponentials, the messages and the row sums are only read, the column product is what
    the sixteen-step accumulation per column tile writes back. The same routing as for the row kernel. -/
def colRegion : Pipeline.RegionSeg (pcfgs (F := F)) adm (kernelData m G0 G1) () defs₀ noVariants noPairs noLevels 1 where
  win := launch1.win.to₀
  block_pos := launch1.block_pos
  stage_whole := launch1.stage_whole
  K := PEmpty
  osem k := k.elim
  ho := Pipeline.OwnSemFacts.none _
  hbody c := (G1.body (beforeCols m G0) c).loose
  hwaits := Pipeline.hwaits_of_owed_zero _ _ _ _ noPairs noLevels 1 fun c t => G1.owed (beforeCols m G0) c t
  pre c := iprop(StableHlo.held (c : Thread nD τ) (Pipeline.ucRefs τ sig) (V10 m (leftByKernels m G0 G1) c) ∗ idleCore c)
  post c := iprop(StableHlo.held (c : Thread nD τ) (Pipeline.ucRefs τ sig) (V11 m (leftByKernels m G0 G1) c) ∗ idleCore c)
  X c := iprop(∃ r, prngReg c r)
  Y c := iprop(∃ r, prngReg c r)
  Z c := Pipeline.unscopedRest (Ix := Unit) (Name := ℕ) (U := Pipeline.UD sig nD τ) (Lvl := ℕ) spec1 c (beforeCols m G0 c)
  hentry c := by
    rw [Pipeline.ownSems0_none]
    have hsplit := Pipeline.arrays_of_unscopedBufs (p := 1) (pcfgs (F := F)) adm (kernelData m G0 G1) launch1.win launch1.arr_whole c
      (G1.share (beforeCols m G0) c) (beforeCols m G0 c) (G1.A_eq (beforeCols m G0) c)
    rw [Pipeline.unscopedBufs_held, ← beforeCols_eq m G0 G1 c] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl ((Set.ext_iff.mp (G1.recorded (beforeCols m G0) c 0) _).mpr trivial)
      rw [show (kernelData m G0 G1 1 c).owed 0 = 0 from G1.owed (beforeCols m G0) c 0]
      iexact HO
    isplitl [Hp]; · iexact Hp
    iexact Hrest
  hin c := by
    refine BIBase.Entails.trans ?_ (G1.hin (beforeCols m G0) c)
    unfold Pipeline.ΦA
    iintro ⟨Hp, -, Hr⟩
    isplitl [Hr]; · iexact Hr
    iexact Hp
  hout c := by
    rw [Pipeline.ownSems0_none]
    refine BIBase.Entails.trans (G1.hout (beforeCols m G0) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (kernelData m G0 G1) (G1.share (beforeCols m G0) c)
      (beforeCols m G0 c) (fun b => V11 m (leftByKernels m G0 G1) c b) ((kernelData m G0 G1 1 c).arrAt · cfg1.N) (colArrays_final m G0 G1 c) (colRegion_keeps m G0 G1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (kernelData m G0 G1 1 c).owed (Fin.last _) = 0 from G1.owed (beforeCols m G0) c _]
    iexact HO

/-! ## The launch and the end -/

/-- What the launch owns of ghost state: the staging cells' rounds for both kernels, and nothing in the counters. -/
abbrev launchElt : Pipeline.UD sig nD τ :=
  (initOf (Pipeline.cells cfgs cellOf_inj) (Pipeline.launchToks cfgs cellOf_inj), 1)

theorem launch_element : (ownU (launchElt) : sProp 𝕄)
    ⊢ |={Set.univ}=> iprop(BI.own ((embL : Emb _ 𝕄) (initOf (Pipeline.cells cfgs cellOf_inj) (Pipeline.launchToks cfgs cellOf_inj)))
        ∗ bigSep Finset.univ fun _ : Dev nD => (BI.emp : sProp 𝕄)) := by
  iintro Hu
  ihave H := (ownU_pair _ _) $$ Hu
  icases H with ⟨HP, -⟩
  imodintro
  isplitl [HP]; · iexact HP
  iapply (show (BI.emp : sProp 𝕄) ⊢ bigSep Finset.univ (fun _ : Dev nD => (BI.emp : sProp 𝕄)) from by rw [BI.bigSep_emp_const])
  iempintro

/-- At launch a core's register holds its seed and it owes nothing: that is `idleCore`. The semaphores' counters and the
    launch credit are not needed by a program that signals nothing. -/
theorem rest_at_launch : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts noPairs noLevels)
      ⊢ (|={Set.univ}=> bigSep Finset.univ (restAt (F := F) 0) : sProp 𝕄) := by
  refine Pipeline.initEach noPairs noLevels fun c => ?_
  iintro ⟨⟨-, HO, -, Hp, -⟩, -⟩
  imodintro
  isplitl [Hp]; · iexists _; iexact Hp
  iexists ∅; iexact HO

theorem rest_owes_nothing (c : Dev nD) : restAt (F := F) 2 c ⊢ (iprop(∃ W, owes (c : Thread nD τ) (0 : CellTallies nD τ sig Unit) W) : sProp 𝕄) := by
  iintro ⟨-, HO⟩; iexact HO

/-! ## The frame -/

set_option backward.isDefEq.respectTransparency.types false in
include G0 G1 in
/-- THE FRAME: from any memory with zero counters every weakly fair execution of @main on the TensorCores terminates,
    nothing faulting, and every final state holds each argument array as launched. -/
theorem frame_of : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  frame_cond (m := m) (EP := embL) (ι := ()) (𝒱₀ := noVariants) (L := noPairs) (lv := noLevels) (hL := fun _ _ => rfl) (ρ := ρ)
    (outs := leftByKernels m G0 G1) (pdats := kernelData m G0 G1) (O₀ := 0) (G := fun _ => iprop(emp)) (u₀ := launchElt) (hu₀ := launch_element)
    (E := restAt) (hE0 := rest_at_launch ρ) (hE2 := rest_owes_nothing)
    (R0 := rowRegion m G0 G1) (hpre0 := fun _ => .rfl) (hpost0 := fun _ => .rfl)
    (R1 := colRegion m G0 G1) (hpre1 := fun _ => .rfl) (hpost1 := fun _ => .rfl)

/-! ## The run, read at every unscoped buffer -/

/-- A TensorCore buffer that no region scopes is one of those a core's state between items tracks. -/
theorem unscoped_mem (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: the same executions end with every unscoped buffer of every core at the last valuation — the launch memory
    through the host stretches and the two regions' write-backs. Any post that follows from those readings holds of every
    final state: the launch over the segments, the last thread state read against the final state. -/
theorem run_reads_of {Q : PUnit × MemSt nD τ sig (Elt F) → Prop}
    (hQ : ∀ s : MemSt nD τ sig (Elt F),
      (∀ c : Dev nD, ∀ b ∈ Pipeline.ucRefs τ sig, s.mem (((c : Thread nD τ)).1, b) = V19 m (leftByKernels m G0 G1) c b) → Q (⟨⟩, s)) :
    θ_run defs (onTc (τ := τ) (main (F := F))) ⟨m, fun _ => 0, ρ⟩ Q := by
  refine Pipeline.θ_run_regions_kit_dev (pcfgs (F := F)) adm (kernelData m G0 G1) () cellOf_inj embL defs₀ noVariants noPairs noLevels m ρ main
    (segs m (leftByKernels m G0 G1) noVariants noPairs noLevels restAt () (kernelData m G0 G1) (rowRegion m G0 G1) (colRegion m G0 G1))
    (fun c Q => by
      rewrite [main_chain c, Pipeline.Seg.run_eq_chain,
        show (segs m (leftByKernels m G0 G1) noVariants noPairs noLevels restAt () (kernelData m G0 G1) (rowRegion m G0 G1) (colRegion m G0 G1) c).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp)) (u₀ := launchElt) (hu₀ := launch_element)
    (T₀ := fun c => iprop(StableHlo.held (c : Thread nD τ) (Pipeline.ucRefs τ sig) (V0 m c) ∗ restAt 0 c))
    (Tₙ := fun c => StableHlo.held (c : Thread nD τ) (Pipeline.ucRefs τ sig) (V19 m (leftByKernels m G0 G1) c))
    (hch := fun c => ⟨.rfl, .rfl, .rfl, .rfl, .rfl, .rfl, .rfl, .rfl, .rfl, .rfl, .rfl, .rfl, .rfl, .rfl, .rfl, .rfl, .rfl, .rfl, .rfl, sep_mono .rfl (rest_owes_nothing c)⟩)
    (hinit := ?_)
    (QY := fun c s => ∀ b ∈ Pipeline.ucRefs τ sig, s.mem (((c : Thread nD τ)).1, b) = V19 m (leftByKernels m G0 G1) c b)
    (hfin := fun c s' => ?_) (hQ := hQ)
  · -- at launch, core by core: the buffers as the launch memory has them, beside an idle core
    refine Pipeline.initEach noPairs noLevels fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- at the end the last valuation is held against the final state, so the state's memory agrees with it buffer by buffer
    iintro ⟨Hh, HSI⟩
    unfold StableHlo.held
    imodintro
    iapply (pointsTo_read_all (Pipeline.ucRefs τ sig) (fun b => (((c : Thread nD τ)).1, b)) (V19 m (leftByKernels m G0 G1) c) s')
    isplitl [Hh] <;> iassumption

/-- THE RUN WITH THE RESULT NAMED: every final state holds each argument array as launched and the result buffer at what
    the last host stretch computes from the regions' outputs. -/
theorem run_result_of : θ_run defs (onTc (τ := τ) (main (F := F))) ⟨m, fun _ => 0, ρ⟩ (fun r => ∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20))
      ∧ r.2.mem ((c.tc : Thread nD τ).loc main_v131) = V19 m (leftByKernels m G0 G1) c main_v131) :=
  run_reads_of m ρ G0 G1 fun s h c =>
    ⟨⟨(h c _ (unscoped_mem main_arg0 (by decide))).trans (V19_main_arg0 m (leftByKernels m G0 G1) c),
      (h c _ (unscoped_mem main_arg1 (by decide))).trans (V19_main_arg1 m (leftByKernels m G0 G1) c),
      (h c _ (unscoped_mem main_arg2 (by decide))).trans (V19_main_arg2 m (leftByKernels m G0 G1) c),
      (h c _ (unscoped_mem main_arg3 (by decide))).trans (V19_main_arg3 m (leftByKernels m G0 G1) c),
      (h c _ (unscoped_mem main_arg4 (by decide))).trans (V19_main_arg4 m (leftByKernels m G0 G1) c),
      (h c _ (unscoped_mem main_arg5 (by decide))).trans (V19_main_arg5 m (leftByKernels m G0 G1) c),
      (h c _ (unscoped_mem main_arg6 (by decide))).trans (V19_main_arg6 m (leftByKernels m G0 G1) c),
      (h c _ (unscoped_mem main_arg7 (by decide))).trans (V19_main_arg7 m (leftByKernels m G0 G1) c),
      (h c _ (unscoped_mem main_arg8 (by decide))).trans (V19_main_arg8 m (leftByKernels m G0 G1) c),
      (h c _ (unscoped_mem main_arg9 (by decide))).trans (V19_main_arg9 m (leftByKernels m G0 G1) c),
      (h c _ (unscoped_mem main_arg10 (by decide))).trans (V19_main_arg10 m (leftByKernels m G0 G1) c),
      (h c _ (unscoped_mem main_arg11 (by decide))).trans (V19_main_arg11 m (leftByKernels m G0 G1) c),
      (h c _ (unscoped_mem main_arg12 (by decide))).trans (V19_main_arg12 m (leftByKernels m G0 G1) c),
      (h c _ (unscoped_mem main_arg13 (by decide))).trans (V19_main_arg13 m (leftByKernels m G0 G1) c),
      (h c _ (unscoped_mem main_arg14 (by decide))).trans (V19_main_arg14 m (leftByKernels m G0 G1) c),
      (h c _ (unscoped_mem main_arg15 (by decide))).trans (V19_main_arg15 m (leftByKernels m G0 G1) c),
      (h c _ (unscoped_mem main_arg16 (by decide))).trans (V19_main_arg16 m (leftByKernels m G0 G1) c),
      (h c _ (unscoped_mem main_arg17 (by decide))).trans (V19_main_arg17 m (leftByKernels m G0 G1) c),
      (h c _ (unscoped_mem main_arg18 (by decide))).trans (V19_main_arg18 m (leftByKernels m G0 G1) c),
      (h c _ (unscoped_mem main_arg19 (by decide))).trans (V19_main_arg19 m (leftByKernels m G0 G1) c),
      (h c _ (unscoped_mem main_arg20 (by decide))).trans (V19_main_arg20 m (leftByKernels m G0 G1) c)⟩,
     h c _ (unscoped_mem main_v131 (by decide))⟩

end Assembly

end Cert.KernelIdeal.Assembly

end
-- ==== Proof.Region0Runs.lean ====
import proofs.«120229_j77704548319709_2_alg».proof.Proof.Gen.KernelIdeal.Launch
import proofs.«120229_j77704548319709_2_alg».proof.Proof.Gen.KernelIdeal.Points
import proofs.«120229_j77704548319709_2_alg».proof.Proof.Gen.KernelIdeal.Skeleton
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The row kernel (region 0): what its runs share

The grid is 8 row tiles by 16 column blocks; point `t` is row tile `t / 16`, column block `t % 16`. At column
block 0 the body zeroes its two accumulators (the weighted sum of messages, 1024 x 1024, and the row sum of the
weights, 1024 x 1); at every block it adds the block's product and the block's row sums; at column block 15 it stores
the row sum and the quotient of the two accumulators into the output windows. -/

/-! ## The body's two branch conditions, in closed form over the point number -/

/-- "This is the row tile's first column block": the condition of the body's first `scf.if`. -/
abbrev isFirstBlock (i : grid0.Coords) : Prop := (Scalar.cmpi .ne (Scalar.extui (Scalar.cmpi .eq (BitVec.ofNat 32 (i 1).val) 0#32)) 0#32) = 1#1
/-- Point `t` is a row tile's first column block exactly when `t` is a multiple of 16. -/
theorem isFirstBlock_iff : ∀ t : Fin cfg0.N, isFirstBlock (grid0.coords t) ↔ t.val % 16 = 0 :=
  (by decide +kernel : ∀ t : Fin grid0.N, isFirstBlock (grid0.coords t) ↔ t.val % 16 = 0)

/-- "This is the row tile's last column block": the condition of the body's second `scf.if`. -/
abbrev isLastBlock (i : grid0.Coords) : Prop := k0_cond2 i = 1#1
/-- Point `t` is a row tile's last column block exactly when `t` leaves remainder 15 on division by 16. -/
theorem isLastBlock_iff : ∀ t : Fin cfg0.N, isLastBlock (grid0.coords t) ↔ t.val % 16 = 15 :=
  (by decide +kernel : ∀ t : Fin grid0.N, isLastBlock (grid0.coords t) ↔ t.val % 16 = 15)

/-! ## Where the windows are idle -/

/-- The weights window and the messages window are read at every point: the schedule marks neither idle anywhere. -/
theorem weightsWindow_live : ∀ t : Fin cfg0.N, cfg0.idle 0 (grid0.coords t) = false := by decide +kernel
theorem messagesWindow_live : ∀ t : Fin cfg0.N, cfg0.idle 1 (grid0.coords t) = false := by decide +kernel
/-- Off the last column block the two output windows are idle (the body stores nothing into them) and are not
    written back. -/
theorem quotientWindow_idle : ∀ t : Fin cfg0.N, ¬isLastBlock (grid0.coords t) → cfg0.idle 2 (grid0.coords t) = true := by decide +kernel
theorem rowSumWindow_idle : ∀ t : Fin cfg0.N, ¬isLastBlock (grid0.coords t) → cfg0.idle 3 (grid0.coords t) = true := by decide +kernel
theorem quotientWindow_kept : ∀ t : Fin cfg0.N, ¬isLastBlock (grid0.coords t) → (cfg0.win 2).flush t = false := by decide +kernel
theorem rowSumWindow_kept : ∀ t : Fin cfg0.N, ¬isLastBlock (grid0.coords t) → (cfg0.win 3).flush t = false := by decide +kernel
/-- At the last column block they are live. -/
theorem quotientWindow_live : ∀ t : Fin cfg0.N, isLastBlock (grid0.coords t) → cfg0.idle 2 (grid0.coords t) = false := by decide +kernel
theorem rowSumWindow_live : ∀ t : Fin cfg0.N, isLastBlock (grid0.coords t) → cfg0.idle 3 (grid0.coords t) = false := by decide +kernel

/-! ## The memrefs the body is called with -/

/-- The quotient block and the row-sum block are functions on a block's shape. To speak of "a list of stores read
    back" a view of that shape is needed, and any whole buffer of the shape serves: the first staging buffer of each
    output window is taken. -/
abbrev quotientView : View sig .tc .vmem S1024x1024 .f32 := (Memref.whole cc0_stg2_0 : Memref sig .tc .vmem S1024x1024 .f32).view
abbrev rowSumView : View sig .tc .vmem S1024x1 .f32 := (Memref.whole cc0_stg3_0 : Memref sig .tc .vmem S1024x1 .f32).view
/-- At point `t` the pipeline hands the body, for each of the four windows, the staging buffer the point's slot selects
    (the windows are double-buffered); each is a whole buffer. -/
abbrev weightsStage (t : Fin cfg0.N) : Memref sig .tc .vmem S1024x512 .bf16 := win0_0.stage (cfg0.slots t 0)
abbrev weightsStage_whole (t : Fin cfg0.N) : (weightsStage t).IsWhole := hstage0_0 ((cfg0.slots t 0).cast nbuf0_0)
abbrev messagesStage (t : Fin cfg0.N) : Memref sig .tc .vmem S512x1024 .bf16 := win0_1.stage (cfg0.slots t 1)
abbrev messagesStage_whole (t : Fin cfg0.N) : (messagesStage t).IsWhole := hstage0_1 ((cfg0.slots t 1).cast nbuf0_1)
abbrev quotientStage (t : Fin cfg0.N) : Memref sig .tc .vmem S1024x1024 .f32 := win0_2.stage (cfg0.slots t 2)
abbrev quotientStage_whole (t : Fin cfg0.N) : (quotientStage t).IsWhole := hstage0_2 ((cfg0.slots t 2).cast nbuf0_2)
abbrev rowSumStage (t : Fin cfg0.N) : Memref sig .tc .vmem S1024x1 .f32 := win0_3.stage (cfg0.slots t 3)
abbrev rowSumStage_whole (t : Fin cfg0.N) : (rowSumStage t).IsWhole := hstage0_3 ((cfg0.slots t 3).cast nbuf0_3)
/-- The two accumulators: whole scoped buffers of the kernel's own, carried from one column block to the next. -/
abbrev accM : Memref sig .tc .vmem S1024x1024 .f32 := Memref.whole cc0_scratch0
abbrev sumM : Memref sig .tc .vmem S1024x1 .f32 := Memref.whole cc0_scratch1
abbrev VAcc : View sig .tc .vmem S1024x1024 .f32 := accM.view
abbrev VSum : View sig .tc .vmem S1024x1 .f32 := sumM.view

/-- The other scoped buffers of the core that no window of this region stages (the second kernel's staging buffers
    and accumulator), each whole at some contents: they ride through the region untouched. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- What the region is entered with beside the windows: the two accumulators at some contents, the other scoped
    buffers, the generator register at some state. -/
theorem entryInvariant_eq (c : Dev nD) :
    (Pipeline.ΦA spec0 c : sProp 𝕄)
      = iprop(iprop((∃ d, owns (c : Thread nD τ) accM fullShare d) ∗ (∃ d, owns (c : Thread nD τ) sumM fullShare d) ∗ others c) ∗ (∃ r, prngReg c r)) := by
  unfold Pipeline.ΦA others; rw [scopedRest0_eq]; simp only [accM, sumM, owns_whole]; try rfl

end Cert.KernelIdeal.Region0

end
-- ==== Proof.Region0RunA.lean ====
import proofs.«120229_j77704548319709_2_alg».proof.Proof.Region0Runs

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- THE FIRST COLUMN BLOCK of a row tile (first condition holds, second fails). On whole memrefs — the two input
    windows at their blocks `x0`, `x1`, the two output windows at contents `xi2`, `xi3` that the body does not touch,
    the two accumulators at anything — the body runs to the continuation holding the inputs and the outputs as they
    were and each accumulator with its stores written (`LAcc`, `LSum`: the zeroing, then the block's contribution). -/
noncomputable def runFirstBlock (c : Dev nD) (i : grid0.Coords) (arg2 : Memref sig .tc .vmem S1024x512 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1 .f32) (harg7 : arg7.IsWhole) (hc0 : isFirstBlock i) (hc1 : ¬isLastBlock i)
    (x0 : Vec F S1024x512 .bf16) (x1 : Vec F S512x1024 .bf16) :
    Σ' (LAcc : List (View.Piece (Elt F) S1024x1024 .f32)), { LSum : List (View.Piece (Elt F) S1024x1 .f32) //
      ∀ (xi2 : Vec F S1024x1024 .f32) (xi3 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3
                ∗ (∃ f, arg6.view.loc (c : Thread nD τ) ↦[arg6.view.set]{fullShare} arg6.view.writes (Elt F) f LAcc)
                ∗ (∃ f, arg7.view.loc (c : Thread nD τ) ↦[arg7.view.set]{fullShare} arg7.view.writes (Elt F) f LSum)) -∗ K ⟨⟩))
          ⊢ wp frame (wpE (defs₀ (F := F)) Variants.none c none) E (cc0__row_kernel i arg2 harg2 arg3 harg3 arg4 harg4 arg5 harg5 arg6 harg6 arg7 harg7) K } := by
  refine ⟨?_, ?_, fun xi2 xi3 E K => ?run⟩
  case run =>
    simp only [cc0__row_kernel_eq_skeleton]; unfold cc0__row_kernel_skel
    unfold owns
    iintro ⟨⟨%f0, %hf0, H0⟩, ⟨%f1, %hf1, H1⟩, ⟨%f2, %hf2, H2⟩, ⟨%f3, %hf3, H3⟩, ⟨%da, %fa, -, HA⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HA]; · iexists _; iexact HA
    iexists _; iexact HS

end Cert.KernelIdeal.Region0

end
-- ==== Proof.Region0RunB.lean ====
import proofs.«120229_j77704548319709_2_alg».proof.Proof.Region0Runs

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- A MIDDLE COLUMN BLOCK (both conditions fail). On whole memrefs — the two input windows at their blocks, the two
    output windows at contents the body does not touch, the two accumulators at what the block before left
    (`xa`, `xs`) — the body runs to the continuation holding the inputs and the outputs as they were and each
    accumulator with its store written (`LAcc`, `LSum`: the block's contribution added). -/
noncomputable def runMiddleBlock (c : Dev nD) (i : grid0.Coords) (arg2 : Memref sig .tc .vmem S1024x512 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1 .f32) (harg7 : arg7.IsWhole) (hc0 : ¬isFirstBlock i) (hc1 : ¬isLastBlock i)
    (x0 : Vec F S1024x512 .bf16) (x1 : Vec F S512x1024 .bf16) (xa : Vec F S1024x1024 .f32) (xs : Vec F S1024x1 .f32) :
    Σ' (LAcc : List (View.Piece (Elt F) S1024x1024 .f32)), { LSum : List (View.Piece (Elt F) S1024x1 .f32) //
      ∀ (xi2 : Vec F S1024x1024 .f32) (xi3 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3
            ∗ owns (c : Thread nD τ) arg6 fullShare xa ∗ owns (c : Thread nD τ) arg7 fullShare xs
            ∗ (iprop(owns (c : Thread nD τ) arg2 fullShare x0 ∗ owns (c : Thread nD τ) arg3 fullShare x1 ∗ owns (c : Thread nD τ) arg4 fullShare xi2 ∗ owns (c : Thread nD τ) arg5 fullShare xi3
                ∗ (∃ f, arg6.view.loc (c : Thread nD τ) ↦[arg6.view.set]{fullShare} arg6.view.writes (Elt F) f LAcc)
                ∗ (∃ f, arg7.view.loc (c : Thread nD τ) ↦[arg7.view.set]{fullShare} arg7.view.writes (Elt F) f LSum)) -∗ K ⟨⟩))
          ⊢ wp frame (wpE (defs₀ (F := F)) Variants.none c none) E (cc0__row_kernel i arg2 harg2 arg3 harg3 arg4 harg4 arg5 harg5 arg6 harg6 arg7 harg7) K } := by
  refine ⟨?_, ?_, fun xi2 xi3 E K => ?run⟩
  case run =>
    simp only [cc0__row_kernel_eq_skeleton]; unfold cc0__row_kernel_skel
    unfold owns
    iintro ⟨⟨%f0, %hf0, H0⟩, ⟨%f1, %hf1, H1⟩, ⟨%f2, %hf2, H2⟩, ⟨%f3, %hf3, H3⟩, ⟨%fa, %hfa, HA⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hfa; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HA]; · iexists _; iexact HA
    iexists _; iexact HS

end Cert.KernelIdeal.Region0

end
-- ==== Proof.Region0RunC.lean ====
import proofs.«120229_j77704548319709_2_alg».proof.Proof.Region0Runs

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- THE LAST COLUMN BLOCK of a row tile (first condition fails, second holds). On whole memrefs — the two input
    windows at their blocks, the two output windows at anything, the two accumulators at what the block before left
    (`xa`, `xs`) — the body runs to the continuation holding the inputs as they were, each accumulator with its
    store written (`LAcc`, `LSum`) and each output window with its store written (`L2`: the quotient of the
    accumulators; `L3`: the row sum). -/
noncomputable def runLastBlock (c : Dev nD) (i : grid0.Coords) (arg2 : Memref sig .tc .vmem S1024x512 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1 .f32) (harg7 : arg7.IsWhole) (hc0 : ¬isFirstBlock i) (hc1 : isLastBlock i)
    (x0 : Vec F S1024x512 .bf16) (x1 : Vec F S512x1024 .bf16) (xa : Vec F S1024x1024 .f32) (xs : Vec F S1024x1 .f32) :
    Σ' (L2 : List (View.Piece (Elt F) S1024x1024 .f32)) (L3 : List (View.Piece (Elt F) S1024x1 .f32)) (LAcc : List (View.Piece (Elt F) S1024x1024 .f32)), { LSum : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ owns (c : Thread nD τ) arg6 fullShare xa ∗ owns (c : Thread nD τ) arg7 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LAcc)
                ∗ (∃ f, arg7.view.loc (c : Thread nD τ) ↦[arg7.view.set]{fullShare} arg7.view.writes (Elt F) f LSum)) -∗ K ⟨⟩))
          ⊢ wp frame (wpE (defs₀ (F := F)) Variants.none c none) E (cc0__row_kernel i arg2 harg2 arg3 harg3 arg4 harg4 arg5 harg5 arg6 harg6 arg7 harg7) K } := by
  refine ⟨?_, ?_, ?_, ?_, fun E K => ?run⟩
  case run =>
    simp only [cc0__row_kernel_eq_skeleton]; unfold cc0__row_kernel_skel
    unfold owns
    iintro ⟨⟨%f0, %hf0, H0⟩, ⟨%f1, %hf1, H1⟩, ⟨%d2, %f2, -, H2⟩, ⟨%d3, %f3, -, H3⟩, ⟨%fa, %hfa, HA⟩, ⟨%fs, %hfs, HS⟩, Hk⟩
    obtain rfl := harg2.eq_unread hf0; obtain rfl := harg3.eq_unread hf1
    obtain rfl := harg6.eq_unread hfa; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HA]; · iexists _; iexact HA
    iexists _; iexact HS

end Cert.KernelIdeal.Region0

end
-- ==== Proof.Region0.lean ====
import proofs.«120229_j77704548319709_2_alg».proof.Proof.Region0RunA
import proofs.«120229_j77704548319709_2_alg».proof.Proof.Region0RunB
import proofs.«120229_j77704548319709_2_alg».proof.Proof.Region0RunC

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The row kernel (region 0): its proof data and body obligation, at the entry contents `V`

Row tile `i` of the output is `(Σ_k E[i,k] · M[k]) / (Σ_k rowsum E[i,k] + ε)`: the sixteen column blocks `k` of the
row tile are visited in order, two accumulators (the weighted sum and the row sum) carried from one to the next in
the kernel's own scratch buffers; the quotient and the row sum are stored into the output windows at the last. -/

section Region

variable (V : (c : Dev nD) → (b : Ref sig .tc) → Buf (Elt F) ((c : Thread nD τ).loc b))

/-! ## The windows' blocks -/

/-- The part of window `w`'s array that point `t` works on — for the weights the 1024 x 512 tile at (row tile, column
    block), for the messages the 512 rows of the column block —, read out of the array's contents on entry. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Take any proof data whose weights (messages) array is `V`'s and whose body leaves that window's block where it
    found it. Then, when the body starts at a point, the window's staging buffer holds exactly the point's block of
    the array: the pipeline fetched it there, or it is still there from the point before. -/
theorem weightsBlock_found_of {c : Dev nD} (dat : Dat τ (Elt F) Unit ℕ (Pipeline.UD sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem messagesBlock_found_of {c : Dev nD} (dat : Dat τ (Elt F) Unit ℕ (Pipeline.UD sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## The body's run at a point, case by case -/

/-- The body's run at a point `t` that is a row tile's first column block, on the point's staging memrefs and input
    blocks. -/
noncomputable abbrev firstBlockAt (c : Dev nD) (t : Fin cfg0.N) (h0 : t.val % 16 = 0) :=
  runFirstBlock (F := F) c (grid0.coords t) (weightsStage t) (weightsStage_whole t) (messagesStage t) (messagesStage_whole t) (quotientStage t) (quotientStage_whole t) (rowSumStage t) (rowSumStage_whole t) accM (Memref.isWhole_whole _) sumM (Memref.isWhole_whole _) ((isFirstBlock_iff t).mpr h0) (fun h => by have := (isLastBlock_iff t).mp h; omega) (blockAt V c 0 t) (blockAt V c 1 t)
/-- At a middle column block, over the accumulators `xa`, `xs` the block before left. -/
noncomputable abbrev middleBlockAt (c : Dev nD) (t : Fin cfg0.N) (h0 : ¬t.val % 16 = 0) (h1 : ¬t.val % 16 = 15) (xa : Vec F S1024x1024 .f32) (xs : Vec F S1024x1 .f32) :=
  runMiddleBlock (F := F) c (grid0.coords t) (weightsStage t) (weightsStage_whole t) (messagesStage t) (messagesStage_whole t) (quotientStage t) (quotientStage_whole t) (rowSumStage t) (rowSumStage_whole t) accM (Memref.isWhole_whole _) sumM (Memref.isWhole_whole _) (fun h => h0 ((isFirstBlock_iff t).mp h)) (fun h => h1 ((isLastBlock_iff t).mp h)) (blockAt V c 0 t) (blockAt V c 1 t) xa xs
/-- At a row tile's last column block, over the accumulators the block before left. -/
noncomputable abbrev lastBlockAt (c : Dev nD) (t : Fin cfg0.N) (h1 : t.val % 16 = 15) (xa : Vec F S1024x1024 .f32) (xs : Vec F S1024x1 .f32) :=
  runLastBlock (F := F) c (grid0.coords t) (weightsStage t) (weightsStage_whole t) (messagesStage t) (messagesStage_whole t) (quotientStage t) (quotientStage_whole t) (rowSumStage t) (rowSumStage_whole t) accM (Memref.isWhole_whole _) sumM (Memref.isWhole_whole _) (fun h => by have := (isFirstBlock_iff t).mp h; omega) ((isLastBlock_iff t).mpr h1) (blockAt V c 0 t) (blockAt V c 1 t) xa xs

/-- What a list of stores leaves in the weighted-sum accumulator, in the row-sum accumulator and in the two output
    windows: the stores read back. -/
abbrev rdAcc (L : List (View.Piece (Elt F) S1024x1024 .f32)) : Vec F S1024x1024 .f32 := VAcc.read (Elt F) (VAcc.writes (Elt F) VAcc.junk L)
abbrev rdSum (L : List (View.Piece (Elt F) S1024x1 .f32)) : Vec F S1024x1 .f32 := VSum.read (Elt F) (VSum.writes (Elt F) VSum.junk L)
abbrev rdOut (L : List (View.Piece (Elt F) S1024x1024 .f32)) : Vec F S1024x1024 .f32 := quotientView.read (Elt F) (quotientView.writes (Elt F) quotientView.junk L)
abbrev rdRow (L : List (View.Piece (Elt F) S1024x1 .f32)) : Vec F S1024x1 .f32 := rowSumView.read (Elt F) (rowSumView.writes (Elt F) rowSumView.junk L)

/-- In every case the stores into each accumulator cover it, and at the last column block the stores into each output
    window cover it (one whole store each). -/
theorem coverAccFirst (c : Dev nD) (t : Fin cfg0.N) (h0 : t.val % 16 = 0) (y : S1024x1024.Idx) : ∃ pc ∈ (firstBlockAt V c t h0).1, y ∈ pc.1.set :=
  View.cover_of_tiledL (firstBlockAt V c t h0).1 S1024x1024.size (by sl_kernel_rfl) y
theorem coverSumFirst (c : Dev nD) (t : Fin cfg0.N) (h0 : t.val % 16 = 0) (y : S1024x1.Idx) : ∃ pc ∈ (firstBlockAt V c t h0).2.1, y ∈ pc.1.set :=
  View.cover_of_tiledL (firstBlockAt V c t h0).2.1 S1024x1.size (by sl_kernel_rfl) y
theorem coverAccMiddle (c : Dev nD) (t : Fin cfg0.N) (h0 : ¬t.val % 16 = 0) (h1 : ¬t.val % 16 = 15) (xa xs) (y : S1024x1024.Idx) : ∃ pc ∈ (middleBlockAt V c t h0 h1 xa xs).1, y ∈ pc.1.set :=
  View.cover_of_tiledL (middleBlockAt V c t h0 h1 xa xs).1 S1024x1024.size (by sl_kernel_rfl) y
theorem coverSumMiddle (c : Dev nD) (t : Fin cfg0.N) (h0 : ¬t.val % 16 = 0) (h1 : ¬t.val % 16 = 15) (xa xs) (y : S1024x1.Idx) : ∃ pc ∈ (middleBlockAt V c t h0 h1 xa xs).2.1, y ∈ pc.1.set :=
  View.cover_of_tiledL (middleBlockAt V c t h0 h1 xa xs).2.1 S1024x1.size (by sl_kernel_rfl) y
theorem coverOutLast (c : Dev nD) (t : Fin cfg0.N) (h1 : t.val % 16 = 15) (xa xs) (y : S1024x1024.Idx) : ∃ pc ∈ (lastBlockAt V c t h1 xa xs).1, y ∈ pc.1.set :=
  View.cover_of_tiledL (lastBlockAt V c t h1 xa xs).1 S1024x1024.size (by sl_kernel_rfl) y
theorem coverRowLast (c : Dev nD) (t : Fin cfg0.N) (h1 : t.val % 16 = 15) (xa xs) (y : S1024x1.Idx) : ∃ pc ∈ (lastBlockAt V c t h1 xa xs).2.1, y ∈ pc.1.set :=
  View.cover_of_tiledL (lastBlockAt V c t h1 xa xs).2.1 S1024x1.size (by sl_kernel_rfl) y
theorem coverAccLast (c : Dev nD) (t : Fin cfg0.N) (h1 : t.val % 16 = 15) (xa xs) (y : S1024x1024.Idx) : ∃ pc ∈ (lastBlockAt V c t h1 xa xs).2.2.1, y ∈ pc.1.set :=
  View.cover_of_tiledL (lastBlockAt V c t h1 xa xs).2.2.1 S1024x1024.size (by sl_kernel_rfl) y
theorem coverSumLast (c : Dev nD) (t : Fin cfg0.N) (h1 : t.val % 16 = 15) (xa xs) (y : S1024x1.Idx) : ∃ pc ∈ (lastBlockAt V c t h1 xa xs).2.2.2.1, y ∈ pc.1.set :=
  View.cover_of_tiledL (lastBlockAt V c t h1 xa xs).2.2.2.1 S1024x1.size (by sl_kernel_rfl) y

/-! ## The accumulators and the outputs, point by point -/

/-- The weighted-sum and the row-sum accumulators after the body at position `n`: at a row tile's
    first column block the block's contribution alone; at a later one the block's contribution added to what position
    `n - 1` left. -/
def accumulatorsAt (c : Dev nD) : (n : ℕ) → n < cfg0.N → Vec F S1024x1024 .f32 × Vec F S1024x1 .f32
  | 0, hn => (rdAcc (firstBlockAt V c ⟨0, hn⟩ (Nat.zero_mod _)).1, rdSum (firstBlockAt V c ⟨0, hn⟩ (Nat.zero_mod _)).2.1)
  | n + 1, hn =>
    if h0 : (n + 1) % 16 = 0 then
      (rdAcc (firstBlockAt V c ⟨n + 1, hn⟩ h0).1, rdSum (firstBlockAt V c ⟨n + 1, hn⟩ h0).2.1)
    else if h1 : (n + 1) % 16 = 15 then
      (rdAcc (lastBlockAt V c ⟨n + 1, hn⟩ h1 (accumulatorsAt c n (Nat.lt_of_succ_lt hn)).1 (accumulatorsAt c n (Nat.lt_of_succ_lt hn)).2).2.2.1,
       rdSum (lastBlockAt V c ⟨n + 1, hn⟩ h1 (accumulatorsAt c n (Nat.lt_of_succ_lt hn)).1 (accumulatorsAt c n (Nat.lt_of_succ_lt hn)).2).2.2.2.1)
    else
      (rdAcc (middleBlockAt V c ⟨n + 1, hn⟩ h0 h1 (accumulatorsAt c n (Nat.lt_of_succ_lt hn)).1 (accumulatorsAt c n (Nat.lt_of_succ_lt hn)).2).1,
       rdSum (middleBlockAt V c ⟨n + 1, hn⟩ h0 h1 (accumulatorsAt c n (Nat.lt_of_succ_lt hn)).1 (accumulatorsAt c n (Nat.lt_of_succ_lt hn)).2).2.1)

/-- The accumulators the body finds at a point that is not a row tile's first: what the point before left. -/
abbrev accumulatorsBefore (c : Dev nD) (t : Fin cfg0.N) : Vec F S1024x1024 .f32 × Vec F S1024x1 .f32 :=
  accumulatorsAt V c (t.val - 1) (Nat.lt_of_le_of_lt (Nat.sub_le _ _) t.isLt)

theorem accumulatorsAt_first (c : Dev nD) (t : Fin cfg0.N) (h0 : t.val % 16 = 0) :
    accumulatorsAt V c t.val t.isLt = (rdAcc (firstBlockAt V c t h0).1, rdSum (firstBlockAt V c t h0).2.1) := by
  obtain ⟨n, hn⟩ := t
  cases n with
  | zero => exact rfl
  | succ n => exact (dif_pos h0).trans rfl

theorem accumulatorsAt_middle (c : Dev nD) (t : Fin cfg0.N) (h0 : ¬t.val % 16 = 0) (h1 : ¬t.val % 16 = 15) :
    accumulatorsAt V c t.val t.isLt = (rdAcc (middleBlockAt V c t h0 h1 (accumulatorsBefore V c t).1 (accumulatorsBefore V c t).2).1, rdSum (middleBlockAt V c t h0 h1 (accumulatorsBefore V c t).1 (accumulatorsBefore V c t).2).2.1) := by
  obtain ⟨n, hn⟩ := t
  cases n with
  | zero => exact absurd (Nat.zero_mod _) h0
  | succ n => exact (dif_neg h0).trans ((dif_neg h1).trans rfl)

theorem accumulatorsAt_last (c : Dev nD) (t : Fin cfg0.N) (h0 : ¬t.val % 16 = 0) (h1 : t.val % 16 = 15) :
    accumulatorsAt V c t.val t.isLt = (rdAcc (lastBlockAt V c t h1 (accumulatorsBefore V c t).1 (accumulatorsBefore V c t).2).2.2.1, rdSum (lastBlockAt V c t h1 (accumulatorsBefore V c t).1 (accumulatorsBefore V c t).2).2.2.2.1) := by
  obtain ⟨n, hn⟩ := t
  cases n with
  | zero => exact absurd (Nat.zero_mod _) h0
  | succ n => exact (dif_neg h0).trans ((dif_pos h1).trans rfl)

/-- What the two output windows' staging buffers hold after the body at point `t`: at a row tile's last column block
    the quotient of the accumulators and the row sum; elsewhere the windows are idle and not written back, and the
    value here is a placeholder nothing consults. -/
def outputsAt (c : Dev nD) (t : Fin cfg0.N) : Vec F S1024x1024 .f32 × Vec F S1024x1 .f32 :=
  if h1 : t.val % 16 = 15 then
    (rdOut (lastBlockAt V c t h1 (accumulatorsBefore V c t).1 (accumulatorsBefore V c t).2).1, rdRow (lastBlockAt V c t h1 (accumulatorsBefore V c t).1 (accumulatorsBefore V c t).2).2.1)
  else (rdOut [], rdRow [])

theorem outputsAt_last (c : Dev nD) (t : Fin cfg0.N) (h1 : t.val % 16 = 15) :
    outputsAt V c t = (rdOut (lastBlockAt V c t h1 (accumulatorsBefore V c t).1 (accumulatorsBefore V c t).2).1, rdRow (lastBlockAt V c t h1 (accumulatorsBefore V c t).1 (accumulatorsBefore V c t).2).2.1) :=
  dif_pos h1

/-! ## The invariant between points -/

/-- Before the first point the kernel's scoped buffers hold anything; before position `n + 1` the two accumulators
    hold what position `n` left, the other scoped buffers anything; the generator register is at some state
    throughout. -/
def betweenBlocks (c : Dev nD) : (n : ℕ) → n ≤ cfg0.N → sProp 𝕄
  | 0, _ => Pipeline.ΦA spec0 c
  | n + 1, hn => iprop(iprop(owns (c : Thread nD τ) accM fullShare (accumulatorsAt V c n hn).1 ∗ owns (c : Thread nD τ) sumM fullShare (accumulatorsAt V c n hn).2 ∗ others c) ∗ (∃ r, prngReg c r))

theorem betweenBlocks_zero (c : Dev nD) (n : ℕ) (h : n ≤ cfg0.N) (hz : n = 0) : betweenBlocks V c n h = Pipeline.ΦA spec0 c := by
  subst hz; rfl

theorem betweenBlocks_succ (c : Dev nD) (n : ℕ) (hn : n < cfg0.N) :
    betweenBlocks V c (n + 1) hn = iprop(iprop(owns (c : Thread nD τ) accM fullShare (accumulatorsAt V c n hn).1 ∗ owns (c : Thread nD τ) sumM fullShare (accumulatorsAt V c n hn).2 ∗ others c) ∗ (∃ r, prngReg c r)) := rfl

theorem betweenBlocks_pos (c : Dev nD) (n : ℕ) (h : n ≤ cfg0.N) (hz : n ≠ 0) :
    betweenBlocks V c n h = iprop(iprop(owns (c : Thread nD τ) accM fullShare (accumulatorsAt V c (n - 1) (by omega)).1 ∗ owns (c : Thread nD τ) sumM fullShare (accumulatorsAt V c (n - 1) (by omega)).2 ∗ others c) ∗ (∃ r, prngReg c r)) := by
  cases n with
  | zero => exact absurd rfl hz
  | succ n => rfl

/-! ## The proof data -/

/-- The row kernel's proof data on core `c`. On entry the four arrays hold what `V` says. The body never writes the
    weights or the messages window, so after every point each still holds the point's block; the quotient and the
    row-sum windows hold `outputsAt`. Between points the invariant is `betweenBlocks`. The core signals no other core, so it
    owes nothing, and it holds every array outright. -/
def dat0 (c : Dev nD) : Dat τ (Elt F) Unit ℕ (Pipeline.UD sig nD τ) ℕ cfg0 c where
  A w := V c (Pipeline.arrRef spec0 w)
  after w t := match w with
    | ⟨0, _⟩ => blockAt V c 0 t
    | ⟨1, _⟩ => blockAt V c 1 t
    | ⟨2, _⟩ => (outputsAt V c t).1
    | ⟨3, _⟩ => (outputsAt V c t).2
  Φ t := betweenBlocks V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem betweenBlocks_castSucc (c : Dev nD) (t : Fin cfg0.N) :
    (dat0 V c).Φ t.castSucc = betweenBlocks V c t.val (Nat.le_of_lt t.isLt) := by
  dsimp only [dat0]; simp only [Fin.coe_castSucc]

/-- The four windows' contents after the body at a point, read off the proof data. -/
theorem after0_0 (c : Dev nD) (t : Fin cfg0.N) : (dat0 V c).after 0 t = blockAt V c 0 t := by dsimp only [dat0]
theorem after0_1 (c : Dev nD) (t : Fin cfg0.N) : (dat0 V c).after 1 t = blockAt V c 1 t := by dsimp only [dat0]
theorem after0_2 (c : Dev nD) (t : Fin cfg0.N) : (dat0 V c).after 2 t = (outputsAt V c t).1 := by dsimp only [dat0]
theorem after0_3 (c : Dev nD) (t : Fin cfg0.N) : (dat0 V c).after 3 t = (outputsAt V c t).2 := by dsimp only [dat0]

/-- When the body starts at a point, the weights and the messages staging buffers hold the point's blocks. -/
theorem before0_0 (c : Dev nD) (t : Fin cfg0.N) (d) : (dat0 V c).before 0 t d = blockAt V c 0 t :=
  weightsBlock_found_of V (dat0 V c) (A_eq0 V c 0) (after0_0 V c) t d
theorem before0_1 (c : Dev nD) (t : Fin cfg0.N) (d) : (dat0 V c).before 1 t d = blockAt V c 1 t :=
  messagesBlock_found_of V (dat0 V c) (A_eq0 V c 1) (after0_1 V c) t d

/-! ## The body obligation, at a generic point -/

/-- Everything the body holds when it starts at point `t`: the invariant, the core's debts (none), and the four
    windows' staging buffers; -/
def pointPre (c : Dev nD) (t : Fin cfg0.N) : sProp 𝕄 :=
  iprop((dat0 V c).Φ t.castSucc ∗ (dat0 V c).owesAt () t.castSucc
    ∗ (∃ d, owns (c : Thread nD τ) (weightsStage t) fullShare ((dat0 V c).before 0 t d))
    ∗ (∃ d, owns (c : Thread nD τ) (messagesStage t) fullShare ((dat0 V c).before 1 t d))
    ∗ (∃ d, owns (c : Thread nD τ) (quotientStage t) fullShare ((dat0 V c).before 2 t d))
    ∗ (∃ d, owns (c : Thread nD τ) (rowSumStage t) fullShare ((dat0 V c).before 3 t d)))

/-- everything it must hold when it ends. -/
def pointPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' memrefs hold their blocks; the point's column block decides the case. At a
    row tile's first column block the accumulators are handed over at whatever they hold (anything before the first
    point, the previous row tile's totals later) and come back at the block's contribution; at a later block they
    are handed over at what the block before left and come back with the block's contribution added; off the last
    block the output windows are handed back untouched, at the last they come back at the quotient and the row
    sum. The other scoped buffers, the generator register and the core's debts (none) pass through. -/
theorem body_sound (c : Dev nD) (t : Fin cfg0.N) :
    pointPre V c t ⊢ wp frame (wpE (defs₀ (F := F)) Variants.none c none) Set.univ (bodyAt0 t) (fun _ => pointPost V c t) := by
  unfold pointPre pointPost bodyAt0
  simp only [before0_0, before0_1]
  rw [show (dat0 V c).owesAt () t.succ = (dat0 V c).owesAt () t.castSucc from rfl]
  rw [show (dat0 V c).Φ t.succ = betweenBlocks V c (t.val + 1) t.isLt from rfl, betweenBlocks_succ]
  have hN : t.val < 128 := lt_of_lt_of_eq t.isLt (show cfg0.N = 128 from N_0)
  rw [show (dat0 V c).leavesExact 0 t = owns (c : Thread nD τ) (weightsStage t) fullShare ((dat0 V c).after 0 t) from by
    unfold Dat.leavesExact; rw [weightsWindow_live t], after0_0]
  rw [show (dat0 V c).leavesExact 1 t = owns (c : Thread nD τ) (messagesStage t) fullShare ((dat0 V c).after 1 t) from by
    unfold Dat.leavesExact; rw [messagesWindow_live t], after0_1]
  by_cases h0 : t.val % 16 = 0
  · have h1 : ¬t.val % 16 = 15 := by omega
    rw [Dat.leavesExact_idle (dat0 V c) 2 t (quotientWindow_idle t (fun h => h1 ((isLastBlock_iff t).mp h))) (quotientWindow_kept t (fun h => h1 ((isLastBlock_iff t).mp h)))]
    rw [Dat.leavesExact_idle (dat0 V c) 3 t (rowSumWindow_idle t (fun h => h1 ((isLastBlock_iff t).mp h))) (rowSumWindow_kept t (fun h => h1 ((isLastBlock_iff t).mp h)))]
    rw [accumulatorsAt_first V c t h0]
    (try dsimp only)
    by_cases hz : t.val = 0
    · rw [betweenBlocks_castSucc V c t, betweenBlocks_zero V c _ _ hz, entryInvariant_eq]
      iintro ⟨⟨⟨HA, HS, HO⟩, Hg⟩, Ho, ⟨%d0, H0⟩, ⟨%d1, H1⟩, ⟨%d2, H2⟩, ⟨%d3, H3⟩⟩
      iapply ((firstBlockAt V c t h0).2.2 _ _ Set.univ _)
      isplitl [H0]; · iexact H0
      isplitl [H1]; · iexact H1
      isplitl [H2]; · iexact H2
      isplitl [H3]; · iexact H3
      isplitl [HA]; · iexact HA
      isplitl [HS]; · iexact HS
      iintro ⟨H0, H1, H2, H3, ⟨%ea, HA⟩, ⟨%es, HS⟩⟩
      isplitl [HA HS HO Hg]
      · isplitl [HA HS HO]
        · isplitl [HA]
          · unfold owns; iexists _; isplitr
            swap; · iexact HA
            ipureintro; exact View.read_writes_of_cover _ _ _ _ _ (coverAccFirst V c t h0)
          isplitl [HS]
          · unfold owns; iexists _; isplitr
            swap; · iexact HS
            ipureintro; exact View.read_writes_of_cover _ _ _ _ _ (coverSumFirst V c t h0)
          iexact HO
        iexact Hg
      isplitl [Ho]; · iexact Ho
      isplitl [H0]; · iexact H0
      isplitl [H1]; · iexact H1
      isplitl [H2]; · iexists _; iexact H2
      iexists _; iexact H3
    · rw [betweenBlocks_castSucc V c t, betweenBlocks_pos V c _ _ hz]
      iintro ⟨⟨⟨HA, HS, HO⟩, Hg⟩, Ho, ⟨%d0, H0⟩, ⟨%d1, H1⟩, ⟨%d2, H2⟩, ⟨%d3, H3⟩⟩
      iapply ((firstBlockAt V c t h0).2.2 _ _ Set.univ _)
      isplitl [H0]; · iexact H0
      isplitl [H1]; · iexact H1
      isplitl [H2]; · iexact H2
      isplitl [H3]; · iexact H3
      isplitl [HA]; · iexists _; iexact HA
      isplitl [HS]; · iexists _; iexact HS
      iintro ⟨H0, H1, H2, H3, ⟨%ea, HA⟩, ⟨%es, HS⟩⟩
      isplitl [HA HS HO Hg]
      · isplitl [HA HS HO]
        · isplitl [HA]
          · unfold owns; iexists _; isplitr
            swap; · iexact HA
            ipureintro; exact View.read_writes_of_cover _ _ _ _ _ (coverAccFirst V c t h0)
          isplitl [HS]
          · unfold owns; iexists _; isplitr
            swap; · iexact HS
            ipureintro; exact View.read_writes_of_cover _ _ _ _ _ (coverSumFirst V c t h0)
          iexact HO
        iexact Hg
      isplitl [Ho]; · iexact Ho
      isplitl [H0]; · iexact H0
      isplitl [H1]; · iexact H1
      isplitl [H2]; · iexists _; iexact H2
      iexists _; iexact H3
  · have hz : t.val ≠ 0 := fun e => h0 (by rw [e])
    by_cases h1 : t.val % 16 = 15
    · rw [show (dat0 V c).leavesExact 2 t = owns (c : Thread nD τ) (quotientStage t) fullShare ((dat0 V c).after 2 t) from by
        unfold Dat.leavesExact; rw [quotientWindow_live t ((isLastBlock_iff t).mpr h1)], after0_2]
      rw [show (dat0 V c).leavesExact 3 t = owns (c : Thread nD τ) (rowSumStage t) fullShare ((dat0 V c).after 3 t) from by
        unfold Dat.leavesExact; rw [rowSumWindow_live t ((isLastBlock_iff t).mpr h1)], after0_3]
      rw [accumulatorsAt_last V c t h0 h1, outputsAt_last V c t h1]
      (try dsimp only)
      rw [betweenBlocks_castSucc V c t, betweenBlocks_pos V c _ _ hz]
      iintro ⟨⟨⟨HA, HS, HO⟩, Hg⟩, Ho, ⟨%d0, H0⟩, ⟨%d1, H1⟩, ⟨%d2, H2⟩, ⟨%d3, H3⟩⟩
      iapply ((lastBlockAt V c t h1 _ _).2.2.2.2 Set.univ _)
      isplitl [H0]; · iexact H0
      isplitl [H1]; · iexact H1
      isplitl [H2]; · iexists _; iexact H2
      isplitl [H3]; · iexists _; iexact H3
      isplitl [HA]; · iexact HA
      isplitl [HS]; · iexact HS
      iintro ⟨H0, H1, ⟨%e2, H2⟩, ⟨%e3, H3⟩, ⟨%ea, HA⟩, ⟨%es, HS⟩⟩
      isplitl [HA HS HO Hg]
      · isplitl [HA HS HO]
        · isplitl [HA]
          · unfold owns; iexists _; isplitr
            swap; · iexact HA
            ipureintro; exact View.read_writes_of_cover _ _ _ _ _ (coverAccLast V c t h1 _ _)
          isplitl [HS]
          · unfold owns; iexists _; isplitr
            swap; · iexact HS
            ipureintro; exact View.read_writes_of_cover _ _ _ _ _ (coverSumLast V c t h1 _ _)
          iexact HO
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverOutLast V c t h1 _ _)
      unfold owns; iexists _; isplitr
      swap; · iexact H3
      ipureintro; exact View.read_writes_of_cover _ _ _ _ _ (coverRowLast V c t h1 _ _)
    · rw [Dat.leavesExact_idle (dat0 V c) 2 t (quotientWindow_idle t (fun h => h1 ((isLastBlock_iff t).mp h))) (quotientWindow_kept t (fun h => h1 ((isLastBlock_iff t).mp h)))]
      rw [Dat.leavesExact_idle (dat0 V c) 3 t (rowSumWindow_idle t (fun h => h1 ((isLastBlock_iff t).mp h))) (rowSumWindow_kept t (fun h => h1 ((isLastBlock_iff t).mp h)))]
      rw [accumulatorsAt_middle V c t h0 h1]
      (try dsimp only)
      rw [betweenBlocks_castSucc V c t, betweenBlocks_pos V c _ _ hz]
      iintro ⟨⟨⟨HA, HS, HO⟩, Hg⟩, Ho, ⟨%d0, H0⟩, ⟨%d1, H1⟩, ⟨%d2, H2⟩, ⟨%d3, H3⟩⟩
      iapply ((middleBlockAt V c t h0 h1 _ _).2.2 _ _ Set.univ _)
      isplitl [H0]; · iexact H0
      isplitl [H1]; · iexact H1
      isplitl [H2]; · iexact H2
      isplitl [H3]; · iexact H3
      isplitl [HA]; · iexact HA
      isplitl [HS]; · iexact HS
      iintro ⟨H0, H1, H2, H3, ⟨%ea, HA⟩, ⟨%es, HS⟩⟩
      isplitl [HA HS HO Hg]
      · isplitl [HA HS HO]
        · isplitl [HA]
          · unfold owns; iexists _; isplitr
            swap; · iexact HA
            ipureintro; exact View.read_writes_of_cover _ _ _ _ _ (coverAccMiddle V c t h0 h1 _ _)
          isplitl [HS]
          · unfold owns; iexists _; isplitr
            swap; · iexact HS
            ipureintro; exact View.read_writes_of_cover _ _ _ _ _ (coverSumMiddle V c t h0 h1 _ _)
          iexact HO
        iexact Hg
      isplitl [Ho]; · iexact Ho
      isplitl [H0]; · iexact H0
      isplitl [H1]; · iexact H1
      isplitl [H2]; · iexists _; iexact H2
      iexists _; iexact H3

/-- Hence the body obligation of the row kernel's proof data: `body_sound` at each of the 128 points. -/
theorem body_obligation0 (c : Dev nD) : BodyObligation (dat0 (F := F) V c) (defs₀ (F := F)) Variants.none () Set.univ := fun t => by
  rw [bigSep_W0, bigSep_W0]
  exact body_sound V c t

/-- Before the first point nothing is known of the accumulators: the invariant there is the entry form itself. -/
theorem hin0 (c : Dev nD) : (Pipeline.ΦA spec0 c : sProp 𝕄) ⊢ (dat0 V c).Φ 0 := by
  rw [show (dat0 V c).Φ 0 = betweenBlocks V c 0 (Nat.zero_le _) from rfl, betweenBlocks_zero V c 0 _ rfl]
  try exact Idealize.SL.BI.Entails.refl _

/-- Once some point has run, the invariant still owns everything the entry form owns; dropping what it says the
    accumulators hold gives the entry form back. -/
theorem betweenBlocks_forget (c : Dev nD) (t : Fin (cfg0.N + 1)) (ht : t.val ≠ 0) : (dat0 V c).Φ t ⊢ (Pipeline.ΦA spec0 c : sProp 𝕄) := by
  rw [show (dat0 V c).Φ t = betweenBlocks V c t.val (Nat.le_of_lt_succ t.isLt) from rfl, betweenBlocks_pos V c _ _ ht, entryInvariant_eq]
  iintro ⟨⟨HA, HS, HO⟩, Hg⟩
  isplitl [HA HS HO]
  · isplitl [HA]; · iexists _; iexact HA
    isplitl [HS]; · iexists _; iexact HS
    iexact HO
  iexact Hg

/-- In particular after the last of the 128 points. -/
theorem hout0 (c : Dev nD) : (dat0 V c).Φ (Fin.last cfg0.N) ⊢ (Pipeline.ΦA spec0 c : sProp 𝕄) :=
  betweenBlocks_forget V c _ (by rw [Fin.val_last]; have : cfg0.N = 128 := N_0; omega)

end Region

end Cert.KernelIdeal.Region0

end
-- ==== Proof.Region1.lean ====
import proofs.«120229_j77704548319709_2_alg».proof.Proof.Gen.KernelIdeal.Launch
import proofs.«120229_j77704548319709_2_alg».proof.Proof.Gen.KernelIdeal.Skeleton
import proofs.«120229_j77704548319709_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The column pass (the second kernel region): its proof data and body obligation

The column kernel runs on a grid of 8 column tiles by 16 row steps. For a column tile j it carries one
accumulator (a 1024 x 1024 block of f32) across the 16 steps i: at i = 0 the accumulator is set to zero, at
every step it gains the product (contracting the 512 rows of the step) of the normalised gate block
e * (1 / (rowsum + 1e-6)), rounded to bf16, with the message block, and at i = 15 the accumulator is copied
into the output block, which is written back only then. This module states what the accumulator and the output
block hold after each grid point, by recursion on the point, and proves the body obligation of the pipeline
against those contents, for any contents V of the arrays when the region is entered. -/

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The two conditions of the body, in closed form over the grid -/

/-- The step is the first of its column tile (i = 0): the accumulator is reset. -/
abbrev isFirst (i : grid1.Coords) : Prop :=
  (Scalar.cmpi .ne (Scalar.extui (Scalar.cmpi .eq (BitVec.ofNat 32 (i 1).val) 0#32)) 0#32) = 1#1
/-- The step is the last of its column tile (i = 15): the accumulator is copied to the output block. -/
abbrev isLast (i : grid1.Coords) : Prop := k1_cond2 i = 1#1

/-- The first step of a column tile is the point congruent to 0 modulo 16. -/
theorem isFirst_iff : ∀ t : Fin cfg1.N, isFirst (grid1.coords t) ↔ t.val % 16 = 0 :=
  (by decide +kernel : ∀ t : Fin grid1.N, isFirst (grid1.coords t) ↔ t.val % 16 = 0)
/-- The last step of a column tile is the point congruent to 15 modulo 16. -/
theorem isLast_iff : ∀ t : Fin cfg1.N, isLast (grid1.coords t) ↔ t.val % 16 = 15 :=
  (by decide +kernel : ∀ t : Fin grid1.N, isLast (grid1.coords t) ↔ t.val % 16 = 15)

/-! ## Where the windows are idle -/

theorem filled_live : ∀ t : Fin cfg1.N, cfg1.idle 0 (grid1.coords t) = false := by decide +kernel
theorem msg_live : ∀ t : Fin cfg1.N, cfg1.idle 1 (grid1.coords t) = false := by decide +kernel
theorem rowsum_live : ∀ t : Fin cfg1.N, cfg1.idle 2 (grid1.coords t) = false := by decide +kernel
/-- Off the last step the output window is idle: nothing is stored into it, -/
theorem out_idle : ∀ t : Fin cfg1.N, ¬isLast (grid1.coords t) → cfg1.idle 3 (grid1.coords t) = true := by decide +kernel
/-- and it is not written back there. -/
theorem out_noFlush : ∀ t : Fin cfg1.N, ¬isLast (grid1.coords t) → (cfg1.win 3).flush t = false := by decide +kernel
/-- At the last step it is live. -/
theorem out_live : ∀ t : Fin cfg1.N, isLast (grid1.coords t) → cfg1.idle 3 (grid1.coords t) = false := by decide +kernel

/-! ## The staging memrefs and the accumulator -/

/-- The view through which the output block's contents are stated: that of one of the window's two staging buffers
    (both have the block's shape; a covered buffer reads the same through either). -/
abbrev VOut : View sig .tc .vmem S1024x1024 .f32 := (Memref.whole cc1_stg3_0 : Memref sig .tc .vmem S1024x1024 .f32).view
/-- At point t the pipeline hands the body one staging buffer per window — the gate block's, the message block's,
    the row-sum block's and the output block's — each a whole buffer. -/
abbrev filledBuf (t : Fin cfg1.N) : Memref sig .tc .vmem S512x1024 .bf16 := win1_0.stage (cfg1.slots t 0)
abbrev filledBuf_whole (t : Fin cfg1.N) : (filledBuf t).IsWhole := hstage1_0 ((cfg1.slots t 0).cast nbuf1_0)
abbrev msgBuf (t : Fin cfg1.N) : Memref sig .tc .vmem S512x1024 .bf16 := win1_1.stage (cfg1.slots t 1)
abbrev msgBuf_whole (t : Fin cfg1.N) : (msgBuf t).IsWhole := hstage1_1 ((cfg1.slots t 1).cast nbuf1_1)
abbrev rowsumBuf (t : Fin cfg1.N) : Memref sig .tc .vmem S512x1 .f32 := win1_2.stage (cfg1.slots t 2)
abbrev rowsumBuf_whole (t : Fin cfg1.N) : (rowsumBuf t).IsWhole := hstage1_2 ((cfg1.slots t 2).cast nbuf1_2)
abbrev outBuf (t : Fin cfg1.N) : Memref sig .tc .vmem S1024x1024 .f32 := win1_3.stage (cfg1.slots t 3)
abbrev outBuf_whole (t : Fin cfg1.N) : (outBuf t).IsWhole := hstage1_3 ((cfg1.slots t 3).cast nbuf1_3)
/-- The accumulator: the kernel's own whole scoped buffer, carried from step to step. -/
abbrev accM : Memref sig .tc .vmem S1024x1024 .f32 := Memref.whole cc1_scratch0
/-- The accumulator as a view: what it holds is stated through it. -/
abbrev VAcc : View sig .tc .vmem S1024x1024 .f32 := accM.view

/-! ## The body on any staging memrefs, step kind by step kind -/

set_option maxHeartbeats 1000000 in
/-- THE FIRST STEP of a column tile. On whole memrefs — the three inputs at their blocks, the output block at
    contents xo handed back untouched, the accumulator at anything — the body runs to the continuation holding
    the inputs as they were, the output as it was, and the accumulator with the pieces LS written (the zero
    block, then the first product added to it). -/
noncomputable def runFirst (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1 .f32) (harg4 : arg4.IsWhole) (arg5 : Memref sig .tc .vmem S1024x1024 .f32) (harg5 : arg5.IsWhole) (arg6 : Memref sig .tc .vmem S1024x1024 .f32) (harg6 : arg6.IsWhole) (hc0 : isFirst i) (hc1 : ¬isLast i)
    (x0 : Vec F S512x1024 .bf16) (x1 : Vec F S512x1024 .bf16) (x2 : Vec F S512x1 .f32) :
    { LS : List (View.Piece (Elt F) S1024x1024 .f32) //
      ∀ (xo : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc1__col_kernel i arg2 harg2 arg3 harg3 arg4 harg4 arg5 harg5 arg6 harg6) K } := by
  refine ⟨?_, fun xo E K => ?run⟩
  case run =>
    simp only [cc1__col_kernel_eq_skeleton]; unfold cc1__col_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- A MIDDLE STEP. As the first step, but the accumulator enters at the contents xs the step before left, and
    gains this step's product. -/
noncomputable def runMid (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1 .f32) (harg4 : arg4.IsWhole) (arg5 : Memref sig .tc .vmem S1024x1024 .f32) (harg5 : arg5.IsWhole) (arg6 : Memref sig .tc .vmem S1024x1024 .f32) (harg6 : arg6.IsWhole) (hc0 : ¬isFirst i) (hc1 : ¬isLast i)
    (x0 : Vec F S512x1024 .bf16) (x1 : Vec F S512x1024 .bf16) (x2 : Vec F S512x1 .f32) (xs : Vec F S1024x1024 .f32) :
    { LS : List (View.Piece (Elt F) S1024x1024 .f32) //
      ∀ (xo : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc1__col_kernel i arg2 harg2 arg3 harg3 arg4 harg4 arg5 harg5 arg6 harg6) K } := by
  refine ⟨?_, fun xo E K => ?run⟩
  case run =>
    simp only [cc1__col_kernel_eq_skeleton]; unfold cc1__col_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- THE LAST STEP of a column tile. The accumulator enters at the contents xs the step before left and gains this
    step's product; the output block, entered at anything, ends with the pieces LO written: the accumulator's
    final contents. -/
noncomputable def runLast (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1 .f32) (harg4 : arg4.IsWhole) (arg5 : Memref sig .tc .vmem S1024x1024 .f32) (harg5 : arg5.IsWhole) (arg6 : Memref sig .tc .vmem S1024x1024 .f32) (harg6 : arg6.IsWhole) (hc0 : ¬isFirst i) (hc1 : isLast i)
    (x0 : Vec F S512x1024 .bf16) (x1 : Vec F S512x1024 .bf16) (x2 : Vec F S512x1 .f32) (xs : Vec F S1024x1024 .f32) :
    Σ' (LO : List (View.Piece (Elt F) S1024x1024 .f32)), { LS : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc1__col_kernel i arg2 harg2 arg3 harg3 arg4 harg4 arg5 harg5 arg6 harg6) K } := by
  refine ⟨?_, ?_, fun E K => ?run⟩
  case run =>
    simp only [cc1__col_kernel_eq_skeleton]; unfold cc1__col_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-! ## What each kind of step leaves in the accumulator and in the output block -/

/-- The first step's pieces cover the accumulator. -/
theorem accCover_first (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1 .f32) (harg4 : arg4.IsWhole) (arg5 : Memref sig .tc .vmem S1024x1024 .f32) (harg5 : arg5.IsWhole) (arg6 : Memref sig .tc .vmem S1024x1024 .f32) (harg6 : arg6.IsWhole) (hc0 : isFirst i) (hc1 : ¬isLast i)
    (x0 : Vec F S512x1024 .bf16) (x1 : Vec F S512x1024 .bf16) (x2 : Vec F S512x1 .f32) (y : S1024x1024.Idx) :
    ∃ pc ∈ (runFirst c i arg2 harg2 arg3 harg3 arg4 harg4 arg5 harg5 arg6 harg6 hc0 hc1 x0 x1 x2).1, y ∈ pc.1.set :=
  View.cover_of_tiledL (runFirst c i arg2 harg2 arg3 harg3 arg4 harg4 arg5 harg5 arg6 harg6 hc0 hc1 x0 x1 x2).1 S1024x1024.size (by sl_kernel_rfl) y

/-- What the first step leaves in the accumulator: its pieces read back. -/
def accFirst (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1 .f32) (harg4 : arg4.IsWhole) (arg5 : Memref sig .tc .vmem S1024x1024 .f32) (harg5 : arg5.IsWhole) (arg6 : Memref sig .tc .vmem S1024x1024 .f32) (harg6 : arg6.IsWhole) (hc0 : isFirst i) (hc1 : ¬isLast i)
    (x0 : Vec F S512x1024 .bf16) (x1 : Vec F S512x1024 .bf16) (x2 : Vec F S512x1 .f32) : Vec F S1024x1024 .f32 :=
  VAcc.read (Elt F) (VAcc.writes (Elt F) VAcc.junk (runFirst c i arg2 harg2 arg3 harg3 arg4 harg4 arg5 harg5 arg6 harg6 hc0 hc1 x0 x1 x2).1)

/-- A middle step's pieces cover the accumulator. -/
theorem accCover_mid (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1 .f32) (harg4 : arg4.IsWhole) (arg5 : Memref sig .tc .vmem S1024x1024 .f32) (harg5 : arg5.IsWhole) (arg6 : Memref sig .tc .vmem S1024x1024 .f32) (harg6 : arg6.IsWhole) (hc0 : ¬isFirst i) (hc1 : ¬isLast i)
    (x0 : Vec F S512x1024 .bf16) (x1 : Vec F S512x1024 .bf16) (x2 : Vec F S512x1 .f32) (xs : Vec F S1024x1024 .f32) (y : S1024x1024.Idx) :
    ∃ pc ∈ (runMid c i arg2 harg2 arg3 harg3 arg4 harg4 arg5 harg5 arg6 harg6 hc0 hc1 x0 x1 x2 xs).1, y ∈ pc.1.set :=
  View.cover_of_tiledL (runMid c i arg2 harg2 arg3 harg3 arg4 harg4 arg5 harg5 arg6 harg6 hc0 hc1 x0 x1 x2 xs).1 S1024x1024.size (by sl_kernel_rfl) y

/-- What a middle step leaves in the accumulator, from what the step before left (xs). -/
def accMid (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1 .f32) (harg4 : arg4.IsWhole) (arg5 : Memref sig .tc .vmem S1024x1024 .f32) (harg5 : arg5.IsWhole) (arg6 : Memref sig .tc .vmem S1024x1024 .f32) (harg6 : arg6.IsWhole) (hc0 : ¬isFirst i) (hc1 : ¬isLast i)
    (x0 : Vec F S512x1024 .bf16) (x1 : Vec F S512x1024 .bf16) (x2 : Vec F S512x1 .f32) (xs : Vec F S1024x1024 .f32) : Vec F S1024x1024 .f32 :=
  VAcc.read (Elt F) (VAcc.writes (Elt F) VAcc.junk (runMid c i arg2 harg2 arg3 harg3 arg4 harg4 arg5 harg5 arg6 harg6 hc0 hc1 x0 x1 x2 xs).1)

/-- The last step's pieces cover the accumulator, -/
theorem accCover_last (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1 .f32) (harg4 : arg4.IsWhole) (arg5 : Memref sig .tc .vmem S1024x1024 .f32) (harg5 : arg5.IsWhole) (arg6 : Memref sig .tc .vmem S1024x1024 .f32) (harg6 : arg6.IsWhole) (hc0 : ¬isFirst i) (hc1 : isLast i)
    (x0 : Vec F S512x1024 .bf16) (x1 : Vec F S512x1024 .bf16) (x2 : Vec F S512x1 .f32) (xs : Vec F S1024x1024 .f32) (y : S1024x1024.Idx) :
    ∃ pc ∈ (runLast c i arg2 harg2 arg3 harg3 arg4 harg4 arg5 harg5 arg6 harg6 hc0 hc1 x0 x1 x2 xs).2.1, y ∈ pc.1.set :=
  View.cover_of_tiledL (runLast c i arg2 harg2 arg3 harg3 arg4 harg4 arg5 harg5 arg6 harg6 hc0 hc1 x0 x1 x2 xs).2.1 S1024x1024.size (by sl_kernel_rfl) y

/-- and its one store into the output block covers that. -/
theorem outCover_last (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1 .f32) (harg4 : arg4.IsWhole) (arg5 : Memref sig .tc .vmem S1024x1024 .f32) (harg5 : arg5.IsWhole) (arg6 : Memref sig .tc .vmem S1024x1024 .f32) (harg6 : arg6.IsWhole) (hc0 : ¬isFirst i) (hc1 : isLast i)
    (x0 : Vec F S512x1024 .bf16) (x1 : Vec F S512x1024 .bf16) (x2 : Vec F S512x1 .f32) (xs : Vec F S1024x1024 .f32) (y : S1024x1024.Idx) :
    ∃ pc ∈ (runLast c i arg2 harg2 arg3 harg3 arg4 harg4 arg5 harg5 arg6 harg6 hc0 hc1 x0 x1 x2 xs).1, y ∈ pc.1.set :=
  View.cover_of_tiledL (runLast c i arg2 harg2 arg3 harg3 arg4 harg4 arg5 harg5 arg6 harg6 hc0 hc1 x0 x1 x2 xs).1 S1024x1024.size (by sl_kernel_rfl) y

/-- What the last step leaves in the accumulator, -/
def accLast (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1 .f32) (harg4 : arg4.IsWhole) (arg5 : Memref sig .tc .vmem S1024x1024 .f32) (harg5 : arg5.IsWhole) (arg6 : Memref sig .tc .vmem S1024x1024 .f32) (harg6 : arg6.IsWhole) (hc0 : ¬isFirst i) (hc1 : isLast i)
    (x0 : Vec F S512x1024 .bf16) (x1 : Vec F S512x1024 .bf16) (x2 : Vec F S512x1 .f32) (xs : Vec F S1024x1024 .f32) : Vec F S1024x1024 .f32 :=
  VAcc.read (Elt F) (VAcc.writes (Elt F) VAcc.junk (runLast c i arg2 harg2 arg3 harg3 arg4 harg4 arg5 harg5 arg6 harg6 hc0 hc1 x0 x1 x2 xs).2.1)

/-- and in the output block. -/
def outLast (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1 .f32) (harg4 : arg4.IsWhole) (arg5 : Memref sig .tc .vmem S1024x1024 .f32) (harg5 : arg5.IsWhole) (arg6 : Memref sig .tc .vmem S1024x1024 .f32) (harg6 : arg6.IsWhole) (hc0 : ¬isFirst i) (hc1 : isLast i)
    (x0 : Vec F S512x1024 .bf16) (x1 : Vec F S512x1024 .bf16) (x2 : Vec F S512x1 .f32) (xs : Vec F S1024x1024 .f32) : Vec F S1024x1024 .f32 :=
  VOut.read (Elt F) (VOut.writes (Elt F) VOut.junk (runLast c i arg2 harg2 arg3 harg3 arg4 harg4 arg5 harg5 arg6 harg6 hc0 hc1 x0 x1 x2 xs).1)

/-- Off the last step nothing is stored into the output block; its contents there are never written back nor read:
    a placeholder. -/
def outIdle : Vec F S1024x1024 .f32 := VOut.read (Elt F) VOut.junk

section Region

-- the arrays' contents when the region is entered: the parameter everything below is stated at
variable (V : (c : Dev nD) → (b : Ref sig .tc) → Buf (Elt F) ((c : Thread nD τ).loc b))

/-! ## The windows' blocks -/

/-- The block of window w's array that point t works on, read off V: for window 0 the 512 x 1024 gate block
    (row step i, column tile j), for window 1 the 512 x 1024 message block of row step i, for window 2 the 512
    row sums of row step i. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three inputs are read, never stored to, fetched whole and live at every point: so whatever proof data has
    V's arrays and leaves an input's block where it is finds that block in the input's buffer at every point. -/
theorem inputHolds_0 {c : Dev nD} (dat : Dat τ (Elt F) Unit ℕ (Pipeline.UD sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem inputHolds_1 {c : Dev nD} (dat : Dat τ (Elt F) Unit ℕ (Pipeline.UD sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem inputHolds_2 {c : Dev nD} (dat : Dat τ (Elt F) Unit ℕ (Pipeline.UD sig nD τ) ℕ cfg1 c) (hA : dat.A 2 = V c (Pipeline.arrRef spec1 2))
    (hafter : ∀ t, dat.after 2 t = blockAt V c 2 t) (t : Fin cfg1.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## What the output block and the accumulator hold after each point -/

/-- THE ACCUMULATION. After the body at position n: (the output block's staging buffer, the accumulator). At the
    first step of a column tile the accumulator is the first product over zero; at a later step it is the step's
    product added to what position n - 1 left; at the last step the output block receives the accumulator. The
    two conditions cannot hold together (16 steps to a tile). -/
def tileState (c : Dev nD) : (n : ℕ) → n < cfg1.N → Vec F S1024x1024 .f32 × Vec F S1024x1024 .f32
  | 0, hn => (outIdle, accFirst c (grid1.coords ⟨0, hn⟩) (filledBuf ⟨0, hn⟩) (filledBuf_whole ⟨0, hn⟩) (msgBuf ⟨0, hn⟩) (msgBuf_whole ⟨0, hn⟩) (rowsumBuf ⟨0, hn⟩) (rowsumBuf_whole ⟨0, hn⟩) (outBuf ⟨0, hn⟩) (outBuf_whole ⟨0, hn⟩) accM (Memref.isWhole_whole _) ((isFirst_iff ⟨0, hn⟩).mpr (Nat.zero_mod _)) (fun h => (fun h => by (try dsimp only at h); omega) ((isLast_iff ⟨0, hn⟩).mp h)) (blockAt V c 0 ⟨0, hn⟩) (blockAt V c 1 ⟨0, hn⟩) (blockAt V c 2 ⟨0, hn⟩))
  | n + 1, hn =>
    if h0 : (n + 1) % 16 = 0 then
      if h1 : (n + 1) % 16 = 15 then
        False.elim (by omega)
      else
        (outIdle, accFirst c (grid1.coords ⟨n + 1, hn⟩) (filledBuf ⟨n + 1, hn⟩) (filledBuf_whole ⟨n + 1, hn⟩) (msgBuf ⟨n + 1, hn⟩) (msgBuf_whole ⟨n + 1, hn⟩) (rowsumBuf ⟨n + 1, hn⟩) (rowsumBuf_whole ⟨n + 1, hn⟩) (outBuf ⟨n + 1, hn⟩) (outBuf_whole ⟨n + 1, hn⟩) accM (Memref.isWhole_whole _) ((isFirst_iff ⟨n + 1, hn⟩).mpr h0) (fun h => h1 ((isLast_iff ⟨n + 1, hn⟩).mp h)) (blockAt V c 0 ⟨n + 1, hn⟩) (blockAt V c 1 ⟨n + 1, hn⟩) (blockAt V c 2 ⟨n + 1, hn⟩))
    else
      if h1 : (n + 1) % 16 = 15 then
        (outLast c (grid1.coords ⟨n + 1, hn⟩) (filledBuf ⟨n + 1, hn⟩) (filledBuf_whole ⟨n + 1, hn⟩) (msgBuf ⟨n + 1, hn⟩) (msgBuf_whole ⟨n + 1, hn⟩) (rowsumBuf ⟨n + 1, hn⟩) (rowsumBuf_whole ⟨n + 1, hn⟩) (outBuf ⟨n + 1, hn⟩) (outBuf_whole ⟨n + 1, hn⟩) accM (Memref.isWhole_whole _) (fun h => h0 ((isFirst_iff ⟨n + 1, hn⟩).mp h)) ((isLast_iff ⟨n + 1, hn⟩).mpr h1) (blockAt V c 0 ⟨n + 1, hn⟩) (blockAt V c 1 ⟨n + 1, hn⟩) (blockAt V c 2 ⟨n + 1, hn⟩) (tileState c n (Nat.lt_of_succ_lt hn)).2,
         accLast c (grid1.coords ⟨n + 1, hn⟩) (filledBuf ⟨n + 1, hn⟩) (filledBuf_whole ⟨n + 1, hn⟩) (msgBuf ⟨n + 1, hn⟩) (msgBuf_whole ⟨n + 1, hn⟩) (rowsumBuf ⟨n + 1, hn⟩) (rowsumBuf_whole ⟨n + 1, hn⟩) (outBuf ⟨n + 1, hn⟩) (outBuf_whole ⟨n + 1, hn⟩) accM (Memref.isWhole_whole _) (fun h => h0 ((isFirst_iff ⟨n + 1, hn⟩).mp h)) ((isLast_iff ⟨n + 1, hn⟩).mpr h1) (blockAt V c 0 ⟨n + 1, hn⟩) (blockAt V c 1 ⟨n + 1, hn⟩) (blockAt V c 2 ⟨n + 1, hn⟩) (tileState c n (Nat.lt_of_succ_lt hn)).2)
      else
        (outIdle, accMid c (grid1.coords ⟨n + 1, hn⟩) (filledBuf ⟨n + 1, hn⟩) (filledBuf_whole ⟨n + 1, hn⟩) (msgBuf ⟨n + 1, hn⟩) (msgBuf_whole ⟨n + 1, hn⟩) (rowsumBuf ⟨n + 1, hn⟩) (rowsumBuf_whole ⟨n + 1, hn⟩) (outBuf ⟨n + 1, hn⟩) (outBuf_whole ⟨n + 1, hn⟩) accM (Memref.isWhole_whole _) (fun h => h0 ((isFirst_iff ⟨n + 1, hn⟩).mp h)) (fun h => h1 ((isLast_iff ⟨n + 1, hn⟩).mp h)) (blockAt V c 0 ⟨n + 1, hn⟩) (blockAt V c 1 ⟨n + 1, hn⟩) (blockAt V c 2 ⟨n + 1, hn⟩) (tileState c n (Nat.lt_of_succ_lt hn)).2)

/-- At the first step of a column tile. -/
theorem tileState_first (c : Dev nD) (t : Fin cfg1.N) (h0 : t.val % 16 = 0) (h1 : ¬t.val % 16 = 15) :
    tileState V c t.val t.isLt = (outIdle, accFirst c (grid1.coords t) (filledBuf t) (filledBuf_whole t) (msgBuf t) (msgBuf_whole t) (rowsumBuf t) (rowsumBuf_whole t) (outBuf t) (outBuf_whole t) accM (Memref.isWhole_whole _) ((isFirst_iff t).mpr h0) (fun h => h1 ((isLast_iff t).mp h)) (blockAt V c 0 t) (blockAt V c 1 t) (blockAt V c 2 t)) := by
  obtain ⟨n, hn⟩ := t
  cases n with
  | zero => exact rfl
  | succ n => exact (dif_pos h0).trans ((dif_neg h1).trans rfl)

/-- At a middle step: over what the point before left. -/
theorem tileState_mid (c : Dev nD) (t : Fin cfg1.N) (h0 : ¬t.val % 16 = 0) (h1 : ¬t.val % 16 = 15) :
    tileState V c t.val t.isLt = (outIdle, accMid c (grid1.coords t) (filledBuf t) (filledBuf_whole t) (msgBuf t) (msgBuf_whole t) (rowsumBuf t) (rowsumBuf_whole t) (outBuf t) (outBuf_whole t) accM (Memref.isWhole_whole _) (fun h => h0 ((isFirst_iff t).mp h)) (fun h => h1 ((isLast_iff t).mp h)) (blockAt V c 0 t) (blockAt V c 1 t) (blockAt V c 2 t) (tileState V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At the last step: over what the point before left. -/
theorem tileState_last (c : Dev nD) (t : Fin cfg1.N) (h0 : ¬t.val % 16 = 0) (h1 : t.val % 16 = 15) :
    tileState V c t.val t.isLt = (outLast c (grid1.coords t) (filledBuf t) (filledBuf_whole t) (msgBuf t) (msgBuf_whole t) (rowsumBuf t) (rowsumBuf_whole t) (outBuf t) (outBuf_whole t) accM (Memref.isWhole_whole _) (fun h => h0 ((isFirst_iff t).mp h)) ((isLast_iff t).mpr h1) (blockAt V c 0 t) (blockAt V c 1 t) (blockAt V c 2 t) (tileState V c (t.val - 1) (Nat.lt_of_le_of_lt (Nat.sub_le _ _) t.isLt)).2,
      accLast c (grid1.coords t) (filledBuf t) (filledBuf_whole t) (msgBuf t) (msgBuf_whole t) (rowsumBuf t) (rowsumBuf_whole t) (outBuf t) (outBuf_whole t) accM (Memref.isWhole_whole _) (fun h => h0 ((isFirst_iff t).mp h)) ((isLast_iff t).mpr h1) (blockAt V c 0 t) (blockAt V c 1 t) (blockAt V c 2 t) (tileState V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator carried between points -/

/-- The class invariant, conjunct by conjunct: the scoped buffers that are no staging buffer of this region — the
    first region's staging buffers and scratch, at anything, and the accumulator, owned at some contents — beside
    the generator register at some state. -/
theorem classInv_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ d, owns (c : Thread nD τ) accM fullShare d)) ∗ (∃ r, prngReg c r)) := by
  unfold Pipeline.ΦA; rw [scopedRest1_eq]; simp only [accM, owns_whole]; try rfl

/-- The invariant before position n: before the first point the class's (the accumulator at anything: the first
    step resets it before reading it); afterwards the same with the accumulator at what the point before left. -/
def accInv (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) accM fullShare ((tileState V c n hn).2)) ∗ (∃ r, prngReg c r))

theorem accInv_zero (c : Dev nD) (n : ℕ) (h : n ≤ cfg1.N) (hz : n = 0) : accInv V c n h = Pipeline.ΦA spec1 c := by
  subst hz; rfl

/-- After point n (before point n + 1): the accumulator at that point's contents. -/
theorem accInv_succ (c : Dev nD) (n : ℕ) (hn : n < cfg1.N) :
    accInv V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) accM fullShare ((tileState V c n hn).2)) ∗ (∃ r, prngReg c r)) := rfl

/-- Before a point that is not the first: the accumulator at what the point before left. -/
theorem accInv_pos (c : Dev nD) (n : ℕ) (h : n ≤ cfg1.N) (hz : n ≠ 0) :
    accInv V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) accM fullShare ((tileState V c (n - 1) (by omega)).2)) ∗ (∃ r, prngReg c r)) := by
  cases n with
  | zero => exact absurd rfl hz
  | succ n => rfl

/-! ## The pipeline's proof data -/

/-- The proof data of the column pass on core c: the arrays as the region finds them (V); after the body at point
    t each input's buffer at its block and the output's at the first component of tileState; the invariant accInv;
    nothing owed; full shares. -/
def dat1 (c : Dev nD) : Dat τ (Elt F) Unit ℕ (Pipeline.UD sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => (tileState V c t.val t.isLt).1
  Φ t := accInv V c t.val (Nat.le_of_lt_succ t.isLt)
  q _ := fullShare
  owed _ := 0

/-- The four arrays start the region at V's contents. -/
theorem A_eq1 (c : Dev nD) (w : Fin cfg1.W) : (dat1 V c).A w = V c (Pipeline.arrRef spec1 w) := by
  dsimp only [dat1]

/-- The invariant the step at point t starts from is accInv at t's number. -/
theorem accInv_castSucc (c : Dev nD) (t : Fin cfg1.N) :
    (dat1 V c).Φ t.castSucc = accInv V c t.val (Nat.le_of_lt t.isLt) := by
  dsimp only [dat1]; simp only [Fin.coe_castSucc]

/-- After the step at point t: the three input buffers still hold their blocks, the output block's buffer holds
    the first component of tileState. -/
theorem after1_0 (c : Dev nD) (t : Fin cfg1.N) : (dat1 V c).after 0 t = blockAt V c 0 t := by dsimp only [dat1]
theorem after1_1 (c : Dev nD) (t : Fin cfg1.N) : (dat1 V c).after 1 t = blockAt V c 1 t := by dsimp only [dat1]
theorem after1_2 (c : Dev nD) (t : Fin cfg1.N) : (dat1 V c).after 2 t = blockAt V c 2 t := by dsimp only [dat1]
theorem after1_3 (c : Dev nD) (t : Fin cfg1.N) : (dat1 V c).after 3 t = (tileState V c t.val t.isLt).1 := by dsimp only [dat1]

/-- The step at point t finds each input buffer at its block of the array. -/
theorem before1_0 (c : Dev nD) (t : Fin cfg1.N) (d) : (dat1 V c).before 0 t d = blockAt V c 0 t :=
  inputHolds_0 V (dat1 V c) (A_eq1 V c 0) (after1_0 V c) t d
theorem before1_1 (c : Dev nD) (t : Fin cfg1.N) (d) : (dat1 V c).before 1 t d = blockAt V c 1 t :=
  inputHolds_1 V (dat1 V c) (A_eq1 V c 1) (after1_1 V c) t d
theorem before1_2 (c : Dev nD) (t : Fin cfg1.N) (d) : (dat1 V c).before 2 t d = blockAt V c 2 t :=
  inputHolds_2 V (dat1 V c) (A_eq1 V c 2) (after1_2 V c) t d

/-! ## The body obligation, at a generic point -/

/-- Before the step at point t: the invariant, the core's dues, and the four windows' buffers as the step finds
    them (gate block, message block, row-sum block, output block), -/
def stepPre (c : Dev nD) (t : Fin cfg1.N) : sProp 𝕄 :=
  iprop((dat1 V c).Φ t.castSucc ∗ (dat1 V c).owesAt () t.castSucc
    ∗ (∃ d, owns (c : Thread nD τ) (filledBuf t) fullShare ((dat1 V c).before 0 t d))
    ∗ (∃ d, owns (c : Thread nD τ) (msgBuf t) fullShare ((dat1 V c).before 1 t d))
    ∗ (∃ d, owns (c : Thread nD τ) (rowsumBuf t) fullShare ((dat1 V c).before 2 t d))
    ∗ (∃ d, owns (c : Thread nD τ) (outBuf t) fullShare ((dat1 V c).before 3 t d)))

/-- and after it: the invariant at the next point, the dues unchanged, the four buffers as the step leaves them. -/
def stepPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the closed forms say which kind of step the point
    is; the invariant hands the body the accumulator at what the point before left (at anything before the first
    point, where the step is a first step and resets it), and takes it back at this point's contents; off the last
    step the output block's buffer goes back as it came, at the last step it comes back at the accumulator's final
    contents; the core owes nothing throughout. -/
theorem sound_body1 (c : Dev nD) (t : Fin cfg1.N) :
    stepPre V c t ⊢ wp frame (wpE (defs₀ (F := F)) Variants.none c none) Set.univ (bodyAt1 t) (fun _ => stepPost V c t) := by
  unfold stepPre stepPost bodyAt1
  simp only [before1_0, before1_1, before1_2]
  rw [show (dat1 V c).owesAt () t.succ = (dat1 V c).owesAt () t.castSucc from rfl]
  rw [show (dat1 V c).Φ t.succ = accInv V c (t.val + 1) t.isLt from rfl, accInv_succ]
  rw [show (dat1 V c).leavesExact 0 t = owns (c : Thread nD τ) (filledBuf t) fullShare ((dat1 V c).after 0 t) from by
    unfold Dat.leavesExact; rw [filled_live t], after1_0]
  rw [show (dat1 V c).leavesExact 1 t = owns (c : Thread nD τ) (msgBuf t) fullShare ((dat1 V c).after 1 t) from by
    unfold Dat.leavesExact; rw [msg_live t], after1_1]
  rw [show (dat1 V c).leavesExact 2 t = owns (c : Thread nD τ) (rowsumBuf t) fullShare ((dat1 V c).after 2 t) from by
    unfold Dat.leavesExact; rw [rowsum_live t], after1_2]
  have hN : t.val < 128 := lt_of_lt_of_eq t.isLt (show cfg1.N = 128 from N_1)
  by_cases h0 : t.val % 16 = 0
  · by_cases h1 : t.val % 16 = 15
    · exfalso; omega
    · rw [Dat.leavesExact_idle (dat1 V c) 3 t (out_idle t (fun h => h1 ((isLast_iff t).mp h))) (out_noFlush t (fun h => h1 ((isLast_iff t).mp h)))]
      rw [tileState_first V c t h0 h1]
      unfold accFirst; (try dsimp only)
      by_cases hz : t.val = 0
      · rw [accInv_castSucc V c t, accInv_zero V c _ _ hz, classInv_eq]
        iintro ⟨⟨⟨HR0, HR1, HR2, HR3, HR4, HR5, HR6, HR7, HR8, HR9, HS⟩, Hg⟩, Ho, ⟨%d0, H0⟩, ⟨%d1, H1⟩, ⟨%d2, H2⟩, ⟨%d3, H3⟩⟩
        iapply ((runFirst c (grid1.coords t) _ _ _ _ _ _ _ _ _ _ ((isFirst_iff t).mpr h0) (fun h => h1 ((isLast_iff t).mp h)) (blockAt V c 0 t) (blockAt V c 1 t) (blockAt V c 2 t)).2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HR0 HR1 HR2 HR3 HR4 HR5 HR6 HR7 HR8 HR9 HS Hg]
        · isplitl [HR0 HR1 HR2 HR3 HR4 HR5 HR6 HR7 HR8 HR9 HS]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            unfold owns; iexists _; isplitr
            swap; · iexact HS
            ipureintro; exact View.read_writes_of_cover _ _ _ _ _ (accCover_first c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [accInv_castSucc V c t, accInv_pos V c _ _ hz]
        iintro ⟨⟨⟨HR0, HR1, HR2, HR3, HR4, HR5, HR6, HR7, HR8, HR9, HS⟩, Hg⟩, Ho, ⟨%d0, H0⟩, ⟨%d1, H1⟩, ⟨%d2, H2⟩, ⟨%d3, H3⟩⟩
        iapply ((runFirst c (grid1.coords t) _ _ _ _ _ _ _ _ _ _ ((isFirst_iff t).mpr h0) (fun h => h1 ((isLast_iff t).mp h)) (blockAt V c 0 t) (blockAt V c 1 t) (blockAt V c 2 t)).2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HR0 HR1 HR2 HR3 HR4 HR5 HR6 HR7 HR8 HR9 HS Hg]
        · isplitl [HR0 HR1 HR2 HR3 HR4 HR5 HR6 HR7 HR8 HR9 HS]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            unfold owns; iexists _; isplitr
            swap; · iexact HS
            ipureintro; exact View.read_writes_of_cover _ _ _ _ _ (accCover_first c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 16 = 15
    · rw [show (dat1 V c).leavesExact 3 t = owns (c : Thread nD τ) (outBuf t) fullShare ((dat1 V c).after 3 t) from by
        unfold Dat.leavesExact; rw [out_live t ((isLast_iff t).mpr h1)], after1_3]
      rw [tileState_last V c t h0 h1]
      unfold outLast accLast; (try dsimp only)
      rw [accInv_castSucc V c t, accInv_pos V c _ _ hz]
      iintro ⟨⟨⟨HR0, HR1, HR2, HR3, HR4, HR5, HR6, HR7, HR8, HR9, HS⟩, Hg⟩, Ho, ⟨%d0, H0⟩, ⟨%d1, H1⟩, ⟨%d2, H2⟩, ⟨%d3, H3⟩⟩
      iapply ((runLast c (grid1.coords t) _ _ _ _ _ _ _ _ _ _ (fun h => h0 ((isFirst_iff t).mp h)) ((isLast_iff t).mpr h1) (blockAt V c 0 t) (blockAt V c 1 t) (blockAt V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HR0 HR1 HR2 HR3 HR4 HR5 HR6 HR7 HR8 HR9 HS Hg]
      · isplitl [HR0 HR1 HR2 HR3 HR4 HR5 HR6 HR7 HR8 HR9 HS]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          unfold owns; iexists _; isplitr
          swap; · iexact HS
          ipureintro; exact View.read_writes_of_cover _ _ _ _ _ (accCover_last c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outCover_last c _ _ _ _ _ _ _ _ _ _ _ _ _ _ _ _ _)
    · rw [Dat.leavesExact_idle (dat1 V c) 3 t (out_idle t (fun h => h1 ((isLast_iff t).mp h))) (out_noFlush t (fun h => h1 ((isLast_iff t).mp h)))]
      rw [tileState_mid V c t h0 h1]
      unfold accMid; (try dsimp only)
      rw [accInv_castSucc V c t, accInv_pos V c _ _ hz]
      iintro ⟨⟨⟨HR0, HR1, HR2, HR3, HR4, HR5, HR6, HR7, HR8, HR9, HS⟩, Hg⟩, Ho, ⟨%d0, H0⟩, ⟨%d1, H1⟩, ⟨%d2, H2⟩, ⟨%d3, H3⟩⟩
      iapply ((runMid c (grid1.coords t) _ _ _ _ _ _ _ _ _ _ (fun h => h0 ((isFirst_iff t).mp h)) (fun h => h1 ((isLast_iff t).mp h)) (blockAt V c 0 t) (blockAt V c 1 t) (blockAt V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HR0 HR1 HR2 HR3 HR4 HR5 HR6 HR7 HR8 HR9 HS Hg]
      · isplitl [HR0 HR1 HR2 HR3 HR4 HR5 HR6 HR7 HR8 HR9 HS]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          unfold owns; iexists _; isplitr
          swap; · iexact HS
          ipureintro; exact View.read_writes_of_cover _ _ _ _ _ (accCover_mid c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The obligation the pipeline's loop asks of the column kernel: the step's triple at every grid point, its four
    windows conjoined. -/
theorem body_obligation1 (c : Dev nD) : BodyObligation (dat1 (F := F) V c) (defs₀ (F := F)) Variants.none () Set.univ := fun t => by
  rw [bigSep_W1, bigSep_W1]
  exact sound_body1 V c t

/-! ## The invariant at the region's two ends -/

/-- Entering the region: with the accumulator at anything, the invariant holds before the first step. -/
theorem hin1 (c : Dev nD) : Pipeline.ΦA spec1 c ⊢ (dat1 V c).Φ 0 := by
  rw [show (dat1 V c).Φ 0 = accInv V c 0 (Nat.zero_le _) from rfl, accInv_zero V c 0 _ rfl]
  try exact Idealize.SL.BI.Entails.refl _

/-- Once a step has run, the invariant still implies the weaker one in which the accumulator holds anything:
    what it holds is simply not said. -/
theorem accInv_forget (c : Dev nD) (t : Fin (cfg1.N + 1)) (ht : t.val ≠ 0) : (dat1 V c).Φ t ⊢ Pipeline.ΦA spec1 c := by
  rw [show (dat1 V c).Φ t = accInv V c t.val (Nat.le_of_lt_succ t.isLt) from rfl, accInv_pos V c _ _ ht, classInv_eq]
  iintro ⟨⟨HR0, HR1, HR2, HR3, HR4, HR5, HR6, HR7, HR8, HR9, HS⟩, Hg⟩
  isplitl [HR0 HR1 HR2 HR3 HR4 HR5 HR6 HR7 HR8 HR9 HS]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    iexists _; iexact HS
  iexact Hg

/-- Leaving the region, after the 128th step. -/
theorem hout1 (c : Dev nD) : (dat1 V c).Φ (Fin.last cfg1.N) ⊢ Pipeline.ΦA spec1 c :=
  accInv_forget V c _ (by rw [Fin.val_last]; have : cfg1.N = 128 := N_1; omega)

end Region

end Cert.KernelIdeal.Region1

end
-- ==== Proof.FrameRun.lean ====
import proofs.«120229_j77704548319709_2_alg».proof.Proof.FrameAssembly
import proofs.«120229_j77704548319709_2_alg».proof.Proof.Region0
import proofs.«120229_j77704548319709_2_alg».proof.Proof.Region1

/-!
# The program's run, at the two kernels' proof data

The assembly of the run from any two regions' proof data, read at the row kernel's and the column kernel's: the
frame claim, and the same run with every unscoped buffer — the result buffer among them — read off the last
valuation.
-/

noncomputable section

namespace Cert.KernelIdeal.Assembly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)

variable {F : FTy → Type} [FloatOps F]

/-- What is given of the row kernel's region: its proof data, held at full shares, owing nothing, recording no bound. -/
def rowGiven : RowKernelGiven F where
  dat := Region0.dat0
  A_eq := Region0.A_eq0
  share V c := (Region0.dat0 V c).share_full fun _ => rfl
  owed _ _ _ := rfl
  recorded _ _ _ := rfl
  body := Region0.body_obligation0
  hin := Region0.hin0
  hout := Region0.hout0

/-- What is given of the column kernel's region. -/
def colGiven : ColKernelGiven F where
  dat := Region1.dat1
  A_eq := Region1.A_eq1
  share V c := (Region1.dat1 V c).share_full fun _ => rfl
  owed _ _ _ := rfl
  recorded _ _ _ := rfl
  body := Region1.body_obligation1
  hin := Region1.hin1
  hout := Region1.hout1

variable (m : (ℓ : Loc nD τ sig) → Buf (Elt F) ℓ) (ρ : Dev nD → PrngReg)

/-- What the two regions leave in the buffers they may change, at the two kernels' proof data. -/
abbrev leftOver : Outs (F := F) := leftByKernels m rowGiven colGiven

/-- Region 0 leaves the row-normalised product at its proof data's final array of window 2, -/
theorem leftOver_normalised (c : Dev nD) : leftOver m 10 main_v85_0 c = (Region0.dat0 (beforeRows m) c).arrAt 2 cfg0.N := left_normalised m rowGiven colGiven c
/-- the row sums at that of window 3; -/
theorem leftOver_rowSums (c : Dev nD) : leftOver m 10 main_v85_1 c = (Region0.dat0 (beforeRows m) c).arrAt 3 cfg0.N := left_rowSums m rowGiven colGiven c
/-- region 1, entered from those, leaves the column product at its proof data's final array of window 3. -/
theorem leftOver_colProduct (c : Dev nD) : leftOver m 11 main_v86 c = (Region1.dat1 (beforeCols m rowGiven) c).arrAt 3 cfg1.N := left_colProduct m rowGiven colGiven c

/-- THE FRAME of the program: it ends, and no argument array has changed. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  frame_of m ρ rowGiven colGiven

/-- THE RUN: any post that follows from reading every unscoped buffer off the last valuation holds of every final state. -/
theorem run_reads {Q : PUnit × MemSt nD τ sig (Elt F) → Prop}
    (hQ : ∀ s : MemSt nD τ sig (Elt F),
      (∀ c : Dev nD, ∀ b ∈ Pipeline.ucRefs τ sig, s.mem (((c : Thread nD τ)).1, b) = V19 m (leftOver m) c b) → Q (⟨⟩, s)) :
    θ_run defs (onTc (τ := τ) (main (F := F))) ⟨m, fun _ => 0, ρ⟩ Q :=
  run_reads_of m ρ rowGiven colGiven hQ

/-- THE RUN WITH THE RESULT NAMED: the arguments as launched, the result buffer at the last valuation. -/
theorem run_result : θ_run defs (onTc (τ := τ) (main (F := F))) ⟨m, fun _ => 0, ρ⟩ (fun r => ∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20))
      ∧ r.2.mem ((c.tc : Thread nD τ).loc main_v131) = V19 m (leftOver m) c main_v131) :=
  run_result_of m ρ rowGiven colGiven

end Cert.KernelIdeal.Assembly

end
-- ==== Proof.BitsFrameAssembly.lean ====
import proofs.«120229_j77704548319709_2_alg».proof.Proof.Gen.Kernel.Regions
import Idealize.ShloMosaic.Lib.Pipeline.FrameBody
import Idealize.ShloMosaic.Lib.Pipeline.RegionsLoop
import Idealize.ShloMosaic.Lib.Pipeline.FrameSuffix

/-!
# The program's run, assembled from its two kernel regions

@main is nine host stretches, the row kernel (region 0: the per-row sums of the scattered exponentials and the
row-normalised product with the messages), the column kernel (region 1: the product of the transposed,
row-normalised exponentials with the messages), and eight more host stretches.  Between two items every unscoped
buffer of the TensorCore is held whole at a valuation: the launch memory, then what each host stretch computes
from it, then what a region's write-backs leave in its output arrays.

Given, per region, proof data at a parameter (the contents the region is entered from), whose invariant starts
at the class's (every scratch buffer at anything) and ends inside it, and its body obligation, this module builds
the two region records and concludes
* that every weakly fair execution of @main terminates with every argument array as launched, and
* that the same executions end with EVERY unscoped buffer at the last valuation — in particular the result
  buffer at what the last host stretch computes from the regions' outputs.
-/

set_option maxRecDepth 16384

noncomputable section

namespace Cert.Kernel.Assembly

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The TensorCore's buffer contents when a region is entered, per core. -/
abbrev EntryContents (F : FTy → Type) [FloatOps F] : Type :=
  (c : Dev nD) → (b : Ref sig .tc) → Buf (Elt F) ((c : Thread nD τ).loc b)

/-- What is given of region 0 (the row kernel): proof data at any entry contents `V` whose arrays are read off `V`, held at
    the full share, owing nothing; its body obligation; and its invariant between the class's at both ends — before
    the first point every scratch buffer at anything, after the last the carried accumulators' contents forgotten. -/
structure RowKernelGiven (F : FTy → Type) [FloatOps F] where
  dat : EntryContents F → (c : Dev nD) → Dat τ (Elt F) Unit ℕ (Pipeline.UD sig nD τ) ℕ cfg0 c
  A_eq : ∀ (V : EntryContents F) (c : Dev nD) (w : Fin cfg0.W), (dat V c).A w = V c (Pipeline.arrRef spec0 w)
  share : ∀ (V : EntryContents F) (c : Dev nD) (w : Fin cfg0.W), (dat V c).share w = fullShare
  owed : ∀ (V : EntryContents F) (c : Dev nD) (t : Fin (cfg0.N + 1)), (dat V c).owed t = 0
  recorded : ∀ (V : EntryContents F) (c : Dev nD) (t : Fin (cfg0.N + 1)), (dat V c).recorded t = Set.univ
  body : ∀ (V : EntryContents F) (c : Dev nD), BodyObligation (dat V c) (defs₀ (F := F)) Variants.none () Set.univ
  hin : ∀ (V : EntryContents F) (c : Dev nD), (Pipeline.ΦA spec0 c : sProp (MT nD τ sig Unit (Elt F) ℕ (Pipeline.UD sig nD τ) ℕ)) ⊢ (dat V c).Φ 0
  hout : ∀ (V : EntryContents F) (c : Dev nD), (dat V c).Φ (Fin.last cfg0.N) ⊢ (Pipeline.ΦA spec0 c : sProp (MT nD τ sig Unit (Elt F) ℕ (Pipeline.UD sig nD τ) ℕ))

/-- What is given of region 1 (the column kernel): proof data at any entry contents `V` whose arrays are read off `V`, held at
    the full share, owing nothing; its body obligation; and its invariant between the class's at both ends — before
    the first point every scratch buffer at anything, after the last the carried accumulators' contents forgotten. -/
structure ColKernelGiven (F : FTy → Type) [FloatOps F] where
  dat : EntryContents F → (c : Dev nD) → Dat τ (Elt F) Unit ℕ (Pipeline.UD sig nD τ) ℕ cfg1 c
  A_eq : ∀ (V : EntryContents F) (c : Dev nD) (w : Fin cfg1.W), (dat V c).A w = V c (Pipeline.arrRef spec1 w)
  share : ∀ (V : EntryContents F) (c : Dev nD) (w : Fin cfg1.W), (dat V c).share w = fullShare
  owed : ∀ (V : EntryContents F) (c : Dev nD) (t : Fin (cfg1.N + 1)), (dat V c).owed t = 0
  recorded : ∀ (V : EntryContents F) (c : Dev nD) (t : Fin (cfg1.N + 1)), (dat V c).recorded t = Set.univ
  body : ∀ (V : EntryContents F) (c : Dev nD), BodyObligation (dat V c) (defs₀ (F := F)) Variants.none () Set.univ
  hin : ∀ (V : EntryContents F) (c : Dev nD), (Pipeline.ΦA spec1 c : sProp (MT nD τ sig Unit (Elt F) ℕ (Pipeline.UD sig nD τ) ℕ)) ⊢ (dat V c).Φ 0
  hout : ∀ (V : EntryContents F) (c : Dev nD), (dat V c).Φ (Fin.last cfg1.N) ⊢ (Pipeline.ΦA spec1 c : sProp (MT nD τ sig Unit (Elt F) ℕ (Pipeline.UD sig nD τ) ℕ))

section Assembly

variable (m : (ℓ : Loc nD τ sig) → Buf (Elt F) ℓ) (ρ : Dev nD → PrngReg)
variable (G0 : RowKernelGiven F) (G1 : ColKernelGiven F)

/-! ## The arrays the windows stand for -/

theorem rowWin_filled : Pipeline.arrRef spec0 0 = main_v68 := rfl
theorem rowWin_msg : Pipeline.arrRef spec0 1 = main_v84 := rfl
theorem rowWin_normalised : Pipeline.arrRef spec0 2 = main_v85_0 := rfl
theorem rowWin_rowSums : Pipeline.arrRef spec0 3 = main_v85_1 := rfl
theorem colWin_filled : Pipeline.arrRef spec1 0 = main_v68 := rfl
theorem colWin_msg : Pipeline.arrRef spec1 1 = main_v84 := rfl
theorem colWin_rowSums : Pipeline.arrRef spec1 2 = main_v85_1 := rfl
theorem colWin_product : Pipeline.arrRef spec1 3 = main_v86 := rfl

/-! ## The contents between the regions -/

/-- What region 0 is entered from: the launch memory through the nine host stretches before it. -/
abbrev beforeRows : EntryContents F := fun c b => V9 m c b

/-- Core `c`'s buffers after region 0: its arrays at what the row kernel's write-backs leave (the two inputs as
    entered, the normalised product and the row sums folded block by block), every other buffer as entered. -/
def afterRows (c : Dev nD) : Valuation τ sig (Elt F) :=
  Pipeline.withArrays spec0 c (V9 m c) fun w => (G0.dat (beforeRows m) c).arrAt w cfg0.N

/-- The unknowns of the generated valuations, after region 0 alone. -/
def leftByRows : Outs (F := F) := fun _ r c => afterRows m G0 c r

/-- What region 1 is entered from. -/
abbrev beforeCols : EntryContents F := fun c b => V10 m (leftByRows m G0) c b

/-- Core `c`'s buffers after region 1: its arrays at what the column kernel's write-backs leave. -/
def afterCols (c : Dev nD) : Valuation τ sig (Elt F) :=
  Pipeline.withArrays spec1 c (V10 m (leftByRows m G0) c) fun w => (G1.dat (beforeCols m G0) c).arrAt w cfg1.N

/-- What the regions leave in the buffers they may change: region 0's final arrays for the normalised product and
    the row sums, region 1's final array for the column product. -/
def leftByKernels : Outs (F := F) := fun J r c =>
  match J with
  | 10 => afterRows m G0 c r
  | _ => afterCols m G0 G1 c r

theorem beforeCols_eq (c : Dev nD) : V10 m (leftByKernels m G0 G1) c = V10 m (leftByRows m G0) c := rfl

theorem left_normalised (c : Dev nD) : leftByKernels m G0 G1 10 main_v85_0 c = (G0.dat (beforeRows m) c).arrAt 2 cfg0.N :=
  show Pipeline.withArrays spec0 c (V9 m c) (fun w => (G0.dat (beforeRows m) c).arrAt w cfg0.N) (Proc.devRef .tc (Pipeline.arrRef spec0 2)) = _ from
    Pipeline.withArrays_arr spec0 launch0.win.arr_inj c _ _ 2
theorem left_rowSums (c : Dev nD) : leftByKernels m G0 G1 10 main_v85_1 c = (G0.dat (beforeRows m) c).arrAt 3 cfg0.N :=
  show Pipeline.withArrays spec0 c (V9 m c) (fun w => (G0.dat (beforeRows m) c).arrAt w cfg0.N) (Proc.devRef .tc (Pipeline.arrRef spec0 3)) = _ from
    Pipeline.withArrays_arr spec0 launch0.win.arr_inj c _ _ 3
theorem left_colProduct (c : Dev nD) : leftByKernels m G0 G1 11 main_v86 c = (G1.dat (beforeCols m G0) c).arrAt 3 cfg1.N :=
  show Pipeline.withArrays spec1 c (V10 m (leftByRows m G0) c) (fun w => (G1.dat (beforeCols m G0) c).arrAt w cfg1.N) (Proc.devRef .tc (Pipeline.arrRef spec1 3)) = _ from
    Pipeline.withArrays_arr spec1 launch1.win.arr_inj c _ _ 3

/-- After region 0 each of its arrays holds what the pipeline leaves there: the inputs are never written back, the
    outputs are the unknowns' definition. -/
theorem rowArrays_final (c : Dev nD) (w : Fin cfg0.W) :
    (G0.dat (beforeRows m) c).arrAt w cfg0.N = V10 m (leftByKernels m G0 G1) c (Pipeline.arrRef spec0 w) := by
  match w with
  | ⟨0, _⟩ => exact ((G0.dat (beforeRows m) c).arrAt_in 0 rfl _).trans ((G0.A_eq (beforeRows m) c 0).trans (V10_of m _ c main_v68 (by decide)).symm)
  | ⟨1, _⟩ => exact ((G0.dat (beforeRows m) c).arrAt_in 1 rfl _).trans ((G0.A_eq (beforeRows m) c 1).trans (V10_of m _ c main_v84 (by decide)).symm)
  | ⟨2, _⟩ =>
    refine (left_normalised m G0 G1 c).symm.trans ?_
    show _ = V10 m (leftByKernels m G0 G1) c (Proc.devRef .tc main_v85_0)
    unfold V10
    rw [Function.update_of_ne (show (Proc.devRef .tc main_v85_0 : DevRef τ sig) ≠ Proc.devRef .tc main_v85_1 by decide), Function.update_self]
  | ⟨3, _⟩ =>
    refine (left_rowSums m G0 G1 c).symm.trans ?_
    show _ = V10 m (leftByKernels m G0 G1) c (Proc.devRef .tc main_v85_1)
    unfold V10
    rw [Function.update_self]

theorem rowRegion_keeps (c : Dev nD) : ∀ b, b ∉ Finset.univ.image (Pipeline.arrRef spec0) → V10 m (leftByKernels m G0 G1) c b = V9 m c b :=
  fun b hb => V10_of m _ c b fun h => hb (by
    rcases List.mem_cons.mp h with rfl | h
    · exact Finset.mem_image.mpr ⟨2, Finset.mem_univ _, rfl⟩
    · rcases List.mem_cons.mp h with rfl | h
      · exact Finset.mem_image.mpr ⟨3, Finset.mem_univ _, rfl⟩
      · exact absurd h (List.not_mem_nil))

/-- After region 1 likewise. -/
theorem colArrays_final (c : Dev nD) (w : Fin cfg1.W) :
    (G1.dat (beforeCols m G0) c).arrAt w cfg1.N = V11 m (leftByKernels m G0 G1) c (Pipeline.arrRef spec1 w) := by
  match w with
  | ⟨0, _⟩ => exact ((G1.dat (beforeCols m G0) c).arrAt_in 0 rfl _).trans ((G1.A_eq (beforeCols m G0) c 0).trans (V11_of m _ c main_v68 (by decide)).symm)
  | ⟨1, _⟩ => exact ((G1.dat (beforeCols m G0) c).arrAt_in 1 rfl _).trans ((G1.A_eq (beforeCols m G0) c 1).trans (V11_of m _ c main_v84 (by decide)).symm)
  | ⟨2, _⟩ => exact ((G1.dat (beforeCols m G0) c).arrAt_in 2 rfl _).trans ((G1.A_eq (beforeCols m G0) c 2).trans (V11_of m _ c main_v85_1 (by decide)).symm)
  | ⟨3, _⟩ =>
    refine (left_colProduct m G0 G1 c).symm.trans ?_
    show _ = V11 m (leftByKernels m G0 G1) c (Proc.devRef .tc main_v86)
    unfold V11
    rw [Function.update_self]

theorem colRegion_keeps (c : Dev nD) : ∀ b, b ∉ Finset.univ.image (Pipeline.arrRef spec1) → V11 m (leftByKernels m G0 G1) c b = V10 m (leftByKernels m G0 G1) c b :=
  fun b hb => V11_of m _ c b fun h => hb (by
    rcases List.mem_cons.mp h with rfl | h
    · exact Finset.mem_image.mpr ⟨3, Finset.mem_univ _, rfl⟩
    · exact absurd h (List.not_mem_nil))

/-! ## The proof data family and the thread state -/

/-- The two kernels' proof data as one family: the row kernel's at the contents before it, the column kernel's at the
    contents the row kernel leaves. -/
def kernelData : (p : Fin 2) → (c : Dev nD) → Dat τ (Elt F) Unit ℕ (Pipeline.UD sig nD τ) ℕ (cfgs p) c
  | ⟨0, _⟩ => fun c => G0.dat (beforeRows m) c
  | ⟨1, _⟩ => fun c => G1.dat (beforeCols m G0) c

abbrev noVariants : Variants := Variants.none
/-- The program signals nothing between cores: there is no pair of a semaphore and an index to order, hence no level. -/
abbrev noPairs : GSem nD τ sig → Finset Unit := fun _ => ∅
abbrev noLevels : GSem nD τ sig → Unit → ℕ := fun _ _ => 0

/-- A core between two items, its buffers apart: the random-number register in whatever state the last item left it,
    and no unit owed to anyone. -/
abbrev idleCore (c : Dev nD) : sProp 𝕄 := iprop((∃ r, prngReg c r) ∗ ∃ W, owes (c : Thread nD τ) (0 : CellTallies nD τ sig Unit) W)

/-- The same at each of the three places the generated frame asks for it: before, between and after the kernels. -/
abbrev restAt : Fin 3 → Dev nD → sProp 𝕄 := fun _ c => idleCore (F := F) c

/-! ## The regions as segments -/

-- the family of pipelines at this region's index IS the kernel's printed configuration
set_option backward.isDefEq.respectTransparency.types false in
/-- THE ROW KERNEL'S REGION. A core enters it holding every unscoped buffer at `V9 m` and leaves it holding them at
    `V10 m (leftByKernels m G0 G1)`: the scattered exponentials and the messages are only read, the row-normalised product
    and the row sums are what the sixteen-step accumulation per row tile writes back. At entry the four arrays are taken
    out of the core's buffers; the accumulators start inside the scratch the region may use freely and their named
    contents are let go at the end, so around the region only the random-number register passes through its invariant. -/
def rowRegion : Pipeline.RegionSeg (pcfgs (F := F)) adm (kernelData m G0 G1) () defs₀ noVariants noPairs noLevels 0 where
  win := launch0.win.to₀
  block_pos := launch0.block_pos
  stage_whole := launch0.stage_whole
  K := PEmpty
  osem k := k.elim
  ho := Pipeline.OwnSemFacts.none _
  hbody c := (G0.body (beforeRows m) c).loose
  hwaits := Pipeline.hwaits_of_owed_zero _ _ _ _ noPairs noLevels 0 fun c t => G0.owed (beforeRows m) c t
  pre c := iprop(StableHlo.held (c : Thread nD τ) (Pipeline.ucRefs τ sig) (V9 m c) ∗ idleCore c)
  post c := iprop(StableHlo.held (c : Thread nD τ) (Pipeline.ucRefs τ sig) (V10 m (leftByKernels m G0 G1) c) ∗ idleCore c)
  X c := iprop(∃ r, prngReg c r)
  Y c := iprop(∃ r, prngReg c r)
  Z c := Pipeline.unscopedRest (Ix := Unit) (Name := ℕ) (U := Pipeline.UD sig nD τ) (Lvl := ℕ) spec0 c (beforeRows m c)
  hentry c := by
    rw [Pipeline.ownSems0_none]
    have hsplit := Pipeline.arrays_of_unscopedBufs (p := 0) (pcfgs (F := F)) adm (kernelData m G0 G1) launch0.win launch0.arr_whole c
      (G0.share (beforeRows m) c) (beforeRows m c) (G0.A_eq (beforeRows m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl ((Set.ext_iff.mp (G0.recorded (beforeRows m) c 0) _).mpr trivial)
      rw [show (kernelData m G0 G1 0 c).owed 0 = 0 from G0.owed (beforeRows m) c 0]
      iexact HO
    isplitl [Hp]; · iexact Hp
    iexact Hrest
  hin c := by
    refine BIBase.Entails.trans ?_ (G0.hin (beforeRows m) c)
    unfold Pipeline.ΦA
    iintro ⟨Hp, -, Hr⟩
    isplitl [Hr]; · iexact Hr
    iexact Hp
  hout c := by
    rw [Pipeline.ownSems0_none]
    refine BIBase.Entails.trans (G0.hout (beforeRows m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (kernelData m G0 G1) (G0.share (beforeRows m) c)
      (beforeRows m c) (fun b => V10 m (leftByKernels m G0 G1) c b) ((kernelData m G0 G1 0 c).arrAt · cfg0.N) (rowArrays_final m G0 G1 c) (rowRegion_keeps m G0 G1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (kernelData m G0 G1 0 c).owed (Fin.last _) = 0 from G0.owed (beforeRows m) c _]
    iexact HO

-- the family of pipelines at this region's index IS the kernel's printed configuration
set_option backward.isDefEq.respectTransparency.types false in
/-- THE COLUMN KERNEL'S REGION. Entered from what the row kernel left (`V10 m (leftByKernels m G0 G1)`), left at
    `V11 m (leftByKernels m G0 G1)`: the exponentials, the messages and the row sums are only read, the column product is what
    the sixteen-step accumulation per column tile writes back. The same routing as for the row kernel. -/
def colRegion : Pipeline.RegionSeg (pcfgs (F := F)) adm (kernelData m G0 G1) () defs₀ noVariants noPairs noLevels 1 where
  win := launch1.win.to₀
  block_pos := launch1.block_pos
  stage_whole := launch1.stage_whole
  K := PEmpty
  osem k := k.elim
  ho := Pipeline.OwnSemFacts.none _
  hbody c := (G1.body (beforeCols m G0) c).loose
  hwaits := Pipeline.hwaits_of_owed_zero _ _ _ _ noPairs noLevels 1 fun c t => G1.owed (beforeCols m G0) c t
  pre c := iprop(StableHlo.held (c : Thread nD τ) (Pipeline.ucRefs τ sig) (V10 m (leftByKernels m G0 G1) c) ∗ idleCore c)
  post c := iprop(StableHlo.held (c : Thread nD τ) (Pipeline.ucRefs τ sig) (V11 m (leftByKernels m G0 G1) c) ∗ idleCore c)
  X c := iprop(∃ r, prngReg c r)
  Y c := iprop(∃ r, prngReg c r)
  Z c := Pipeline.unscopedRest (Ix := Unit) (Name := ℕ) (U := Pipeline.UD sig nD τ) (Lvl := ℕ) spec1 c (beforeCols m G0 c)
  hentry c := by
    rw [Pipeline.ownSems0_none]
    have hsplit := Pipeline.arrays_of_unscopedBufs (p := 1) (pcfgs (F := F)) adm (kernelData m G0 G1) launch1.win launch1.arr_whole c
      (G1.share (beforeCols m G0) c) (beforeCols m G0 c) (G1.A_eq (beforeCols m G0) c)
    rw [Pipeline.unscopedBufs_held, ← beforeCols_eq m G0 G1 c] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl ((Set.ext_iff.mp (G1.recorded (beforeCols m G0) c 0) _).mpr trivial)
      rw [show (kernelData m G0 G1 1 c).owed 0 = 0 from G1.owed (beforeCols m G0) c 0]
      iexact HO
    isplitl [Hp]; · iexact Hp
    iexact Hrest
  hin c := by
    refine BIBase.Entails.trans ?_ (G1.hin (beforeCols m G0) c)
    unfold Pipeline.ΦA
    iintro ⟨Hp, -, Hr⟩
    isplitl [Hr]; · iexact Hr
    iexact Hp
  hout c := by
    rw [Pipeline.ownSems0_none]
    refine BIBase.Entails.trans (G1.hout (beforeCols m G0) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (kernelData m G0 G1) (G1.share (beforeCols m G0) c)
      (beforeCols m G0 c) (fun b => V11 m (leftByKernels m G0 G1) c b) ((kernelData m G0 G1 1 c).arrAt · cfg1.N) (colArrays_final m G0 G1 c) (colRegion_keeps m G0 G1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (kernelData m G0 G1 1 c).owed (Fin.last _) = 0 from G1.owed (beforeCols m G0) c _]
    iexact HO

/-! ## The launch and the end -/

/-- What the launch owns of ghost state: the staging cells' rounds for both kernels, and nothing in the counters. -/
abbrev launchElt : Pipeline.UD sig nD τ :=
  (initOf (Pipeline.cells cfgs cellOf_inj) (Pipeline.launchToks cfgs cellOf_inj), 1)

theorem launch_element : (ownU (launchElt) : sProp 𝕄)
    ⊢ |={Set.univ}=> iprop(BI.own ((embL : Emb _ 𝕄) (initOf (Pipeline.cells cfgs cellOf_inj) (Pipeline.launchToks cfgs cellOf_inj)))
        ∗ bigSep Finset.univ fun _ : Dev nD => (BI.emp : sProp 𝕄)) := by
  iintro Hu
  ihave H := (ownU_pair _ _) $$ Hu
  icases H with ⟨HP, -⟩
  imodintro
  isplitl [HP]; · iexact HP
  iapply (show (BI.emp : sProp 𝕄) ⊢ bigSep Finset.univ (fun _ : Dev nD => (BI.emp : sProp 𝕄)) from by rw [BI.bigSep_emp_const])
  iempintro

/-- At launch a core's register holds its seed and it owes nothing: that is `idleCore`. The semaphores' counters and the
    launch credit are not needed by a program that signals nothing. -/
theorem rest_at_launch : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts noPairs noLevels)
      ⊢ (|={Set.univ}=> bigSep Finset.univ (restAt (F := F) 0) : sProp 𝕄) := by
  refine Pipeline.initEach noPairs noLevels fun c => ?_
  iintro ⟨⟨-, HO, -, Hp, -⟩, -⟩
  imodintro
  isplitl [Hp]; · iexists _; iexact Hp
  iexists ∅; iexact HO

theorem rest_owes_nothing (c : Dev nD) : restAt (F := F) 2 c ⊢ (iprop(∃ W, owes (c : Thread nD τ) (0 : CellTallies nD τ sig Unit) W) : sProp 𝕄) := by
  iintro ⟨-, HO⟩; iexact HO

/-! ## The frame -/

set_option backward.isDefEq.respectTransparency.types false in
include G0 G1 in
/-- THE FRAME: from any memory with zero counters every weakly fair execution of @main on the TensorCores terminates,
    nothing faulting, and every final state holds each argument array as launched. -/
theorem frame_of : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  frame_cond (m := m) (EP := embL) (ι := ()) (𝒱₀ := noVariants) (L := noPairs) (lv := noLevels) (hL := fun _ _ => rfl) (ρ := ρ)
    (outs := leftByKernels m G0 G1) (pdats := kernelData m G0 G1) (O₀ := 0) (G := fun _ => iprop(emp)) (u₀ := launchElt) (hu₀ := launch_element)
    (E := restAt) (hE0 := rest_at_launch ρ) (hE2 := rest_owes_nothing)
    (R0 := rowRegion m G0 G1) (hpre0 := fun _ => .rfl) (hpost0 := fun _ => .rfl)
    (R1 := colRegion m G0 G1) (hpre1 := fun _ => .rfl) (hpost1 := fun _ => .rfl)

/-! ## The run, read at every unscoped buffer -/

/-- A TensorCore buffer that no region scopes is one of those a core's state between items tracks. -/
theorem unscoped_mem (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: the same executions end with every unscoped buffer of every core at the last valuation — the launch memory
    through the host stretches and the two regions' write-backs. Any post that follows from those readings holds of every
    final state: the launch over the segments, the last thread state read against the final state. -/
theorem run_reads_of {Q : PUnit × MemSt nD τ sig (Elt F) → Prop}
    (hQ : ∀ s : MemSt nD τ sig (Elt F),
      (∀ c : Dev nD, ∀ b ∈ Pipeline.ucRefs τ sig, s.mem (((c : Thread nD τ)).1, b) = V19 m (leftByKernels m G0 G1) c b) → Q (⟨⟩, s)) :
    θ_run defs (onTc (τ := τ) (main (F := F))) ⟨m, fun _ => 0, ρ⟩ Q := by
  refine Pipeline.θ_run_regions_kit_dev (pcfgs (F := F)) adm (kernelData m G0 G1) () cellOf_inj embL defs₀ noVariants noPairs noLevels m ρ main
    (segs m (leftByKernels m G0 G1) noVariants noPairs noLevels restAt () (kernelData m G0 G1) (rowRegion m G0 G1) (colRegion m G0 G1))
    (fun c Q => by
      rewrite [main_chain c, Pipeline.Seg.run_eq_chain,
        show (segs m (leftByKernels m G0 G1) noVariants noPairs noLevels restAt () (kernelData m G0 G1) (rowRegion m G0 G1) (colRegion m G0 G1) c).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp)) (u₀ := launchElt) (hu₀ := launch_element)
    (T₀ := fun c => iprop(StableHlo.held (c : Thread nD τ) (Pipeline.ucRefs τ sig) (V0 m c) ∗ restAt 0 c))
    (Tₙ := fun c => StableHlo.held (c : Thread nD τ) (Pipeline.ucRefs τ sig) (V19 m (leftByKernels m G0 G1) c))
    (hch := fun c => ⟨.rfl, .rfl, .rfl, .rfl, .rfl, .rfl, .rfl, .rfl, .rfl, .rfl, .rfl, .rfl, .rfl, .rfl, .rfl, .rfl, .rfl, .rfl, .rfl, sep_mono .rfl (rest_owes_nothing c)⟩)
    (hinit := ?_)
    (QY := fun c s => ∀ b ∈ Pipeline.ucRefs τ sig, s.mem (((c : Thread nD τ)).1, b) = V19 m (leftByKernels m G0 G1) c b)
    (hfin := fun c s' => ?_) (hQ := hQ)
  · -- at launch, core by core: the buffers as the launch memory has them, beside an idle core
    refine Pipeline.initEach noPairs noLevels fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- at the end the last valuation is held against the final state, so the state's memory agrees with it buffer by buffer
    iintro ⟨Hh, HSI⟩
    unfold StableHlo.held
    imodintro
    iapply (pointsTo_read_all (Pipeline.ucRefs τ sig) (fun b => (((c : Thread nD τ)).1, b)) (V19 m (leftByKernels m G0 G1) c) s')
    isplitl [Hh] <;> iassumption

/-- THE RUN WITH THE RESULT NAMED: every final state holds each argument array as launched and the result buffer at what
    the last host stretch computes from the regions' outputs. -/
theorem run_result_of : θ_run defs (onTc (τ := τ) (main (F := F))) ⟨m, fun _ => 0, ρ⟩ (fun r => ∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20))
      ∧ r.2.mem ((c.tc : Thread nD τ).loc main_v131) = V19 m (leftByKernels m G0 G1) c main_v131) :=
  run_reads_of m ρ G0 G1 fun s h c =>
    ⟨⟨(h c _ (unscoped_mem main_arg0 (by decide))).trans (V19_main_arg0 m (leftByKernels m G0 G1) c),
      (h c _ (unscoped_mem main_arg1 (by decide))).trans (V19_main_arg1 m (leftByKernels m G0 G1) c),
      (h c _ (unscoped_mem main_arg2 (by decide))).trans (V19_main_arg2 m (leftByKernels m G0 G1) c),
      (h c _ (unscoped_mem main_arg3 (by decide))).trans (V19_main_arg3 m (leftByKernels m G0 G1) c),
      (h c _ (unscoped_mem main_arg4 (by decide))).trans (V19_main_arg4 m (leftByKernels m G0 G1) c),
      (h c _ (unscoped_mem main_arg5 (by decide))).trans (V19_main_arg5 m (leftByKernels m G0 G1) c),
      (h c _ (unscoped_mem main_arg6 (by decide))).trans (V19_main_arg6 m (leftByKernels m G0 G1) c),
      (h c _ (unscoped_mem main_arg7 (by decide))).trans (V19_main_arg7 m (leftByKernels m G0 G1) c),
      (h c _ (unscoped_mem main_arg8 (by decide))).trans (V19_main_arg8 m (leftByKernels m G0 G1) c),
      (h c _ (unscoped_mem main_arg9 (by decide))).trans (V19_main_arg9 m (leftByKernels m G0 G1) c),
      (h c _ (unscoped_mem main_arg10 (by decide))).trans (V19_main_arg10 m (leftByKernels m G0 G1) c),
      (h c _ (unscoped_mem main_arg11 (by decide))).trans (V19_main_arg11 m (leftByKernels m G0 G1) c),
      (h c _ (unscoped_mem main_arg12 (by decide))).trans (V19_main_arg12 m (leftByKernels m G0 G1) c),
      (h c _ (unscoped_mem main_arg13 (by decide))).trans (V19_main_arg13 m (leftByKernels m G0 G1) c),
      (h c _ (unscoped_mem main_arg14 (by decide))).trans (V19_main_arg14 m (leftByKernels m G0 G1) c),
      (h c _ (unscoped_mem main_arg15 (by decide))).trans (V19_main_arg15 m (leftByKernels m G0 G1) c),
      (h c _ (unscoped_mem main_arg16 (by decide))).trans (V19_main_arg16 m (leftByKernels m G0 G1) c),
      (h c _ (unscoped_mem main_arg17 (by decide))).trans (V19_main_arg17 m (leftByKernels m G0 G1) c),
      (h c _ (unscoped_mem main_arg18 (by decide))).trans (V19_main_arg18 m (leftByKernels m G0 G1) c),
      (h c _ (unscoped_mem main_arg19 (by decide))).trans (V19_main_arg19 m (leftByKernels m G0 G1) c),
      (h c _ (unscoped_mem main_arg20 (by decide))).trans (V19_main_arg20 m (leftByKernels m G0 G1) c)⟩,
     h c _ (unscoped_mem main_v131 (by decide))⟩

end Assembly

end Cert.Kernel.Assembly

end
-- ==== Proof.BitsRegion0Runs.lean ====
import proofs.«120229_j77704548319709_2_alg».proof.Proof.Gen.Kernel.Launch
import proofs.«120229_j77704548319709_2_alg».proof.Proof.Gen.Kernel.Points
import proofs.«120229_j77704548319709_2_alg».proof.Proof.Gen.Kernel.Skeleton
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.Kernel.Region0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The row kernel (region 0): what its runs share

The grid is 8 row tiles by 16 column blocks; point `t` is row tile `t / 16`, column block `t % 16`. At column
block 0 the body zeroes its two accumulators (the weighted sum of messages, 1024 x 1024, and the row sum of the
weights, 1024 x 1); at every block it adds the block's product and the block's row sums; at column block 15 it stores
the row sum and the quotient of the two accumulators into the output windows. -/

/-! ## The body's two branch conditions, in closed form over the point number -/

/-- "This is the row tile's first column block": the condition of the body's first `scf.if`. -/
abbrev isFirstBlock (i : grid0.Coords) : Prop := (Scalar.cmpi .ne (Scalar.extui (Scalar.cmpi .eq (BitVec.ofNat 32 (i 1).val) 0#32)) 0#32) = 1#1
/-- Point `t` is a row tile's first column block exactly when `t` is a multiple of 16. -/
theorem isFirstBlock_iff : ∀ t : Fin cfg0.N, isFirstBlock (grid0.coords t) ↔ t.val % 16 = 0 :=
  (by decide +kernel : ∀ t : Fin grid0.N, isFirstBlock (grid0.coords t) ↔ t.val % 16 = 0)

/-- "This is the row tile's last column block": the condition of the body's second `scf.if`. -/
abbrev isLastBlock (i : grid0.Coords) : Prop := k0_cond2 i = 1#1
/-- Point `t` is a row tile's last column block exactly when `t` leaves remainder 15 on division by 16. -/
theorem isLastBlock_iff : ∀ t : Fin cfg0.N, isLastBlock (grid0.coords t) ↔ t.val % 16 = 15 :=
  (by decide +kernel : ∀ t : Fin grid0.N, isLastBlock (grid0.coords t) ↔ t.val % 16 = 15)

/-! ## Where the windows are idle -/

/-- The weights window and the messages window are read at every point: the schedule marks neither idle anywhere. -/
theorem weightsWindow_live : ∀ t : Fin cfg0.N, cfg0.idle 0 (grid0.coords t) = false := by decide +kernel
theorem messagesWindow_live : ∀ t : Fin cfg0.N, cfg0.idle 1 (grid0.coords t) = false := by decide +kernel
/-- Off the last column block the two output windows are idle (the body stores nothing into them) and are not
    written back. -/
theorem quotientWindow_idle : ∀ t : Fin cfg0.N, ¬isLastBlock (grid0.coords t) → cfg0.idle 2 (grid0.coords t) = true := by decide +kernel
theorem rowSumWindow_idle : ∀ t : Fin cfg0.N, ¬isLastBlock (grid0.coords t) → cfg0.idle 3 (grid0.coords t) = true := by decide +kernel
theorem quotientWindow_kept : ∀ t : Fin cfg0.N, ¬isLastBlock (grid0.coords t) → (cfg0.win 2).flush t = false := by decide +kernel
theorem rowSumWindow_kept : ∀ t : Fin cfg0.N, ¬isLastBlock (grid0.coords t) → (cfg0.win 3).flush t = false := by decide +kernel
/-- At the last column block they are live. -/
theorem quotientWindow_live : ∀ t : Fin cfg0.N, isLastBlock (grid0.coords t) → cfg0.idle 2 (grid0.coords t) = false := by decide +kernel
theorem rowSumWindow_live : ∀ t : Fin cfg0.N, isLastBlock (grid0.coords t) → cfg0.idle 3 (grid0.coords t) = false := by decide +kernel

/-! ## The memrefs the body is called with -/

/-- The quotient block and the row-sum block are functions on a block's shape. To speak of "a list of stores read
    back" a view of that shape is needed, and any whole buffer of the shape serves: the first staging buffer of each
    output window is taken. -/
abbrev quotientView : View sig .tc .vmem S1024x1024 .f32 := (Memref.whole cc0_stg2_0 : Memref sig .tc .vmem S1024x1024 .f32).view
abbrev rowSumView : View sig .tc .vmem S1024x1 .f32 := (Memref.whole cc0_stg3_0 : Memref sig .tc .vmem S1024x1 .f32).view
/-- At point `t` the pipeline hands the body, for each of the four windows, the staging buffer the point's slot selects
    (the windows are double-buffered); each is a whole buffer. -/
abbrev weightsStage (t : Fin cfg0.N) : Memref sig .tc .vmem S1024x512 .bf16 := win0_0.stage (cfg0.slots t 0)
abbrev weightsStage_whole (t : Fin cfg0.N) : (weightsStage t).IsWhole := hstage0_0 ((cfg0.slots t 0).cast nbuf0_0)
abbrev messagesStage (t : Fin cfg0.N) : Memref sig .tc .vmem S512x1024 .bf16 := win0_1.stage (cfg0.slots t 1)
abbrev messagesStage_whole (t : Fin cfg0.N) : (messagesStage t).IsWhole := hstage0_1 ((cfg0.slots t 1).cast nbuf0_1)
abbrev quotientStage (t : Fin cfg0.N) : Memref sig .tc .vmem S1024x1024 .f32 := win0_2.stage (cfg0.slots t 2)
abbrev quotientStage_whole (t : Fin cfg0.N) : (quotientStage t).IsWhole := hstage0_2 ((cfg0.slots t 2).cast nbuf0_2)
abbrev rowSumStage (t : Fin cfg0.N) : Memref sig .tc .vmem S1024x1 .f32 := win0_3.stage (cfg0.slots t 3)
abbrev rowSumStage_whole (t : Fin cfg0.N) : (rowSumStage t).IsWhole := hstage0_3 ((cfg0.slots t 3).cast nbuf0_3)
/-- The two accumulators: whole scoped buffers of the kernel's own, carried from one column block to the next. -/
abbrev accM : Memref sig .tc .vmem S1024x1024 .f32 := Memref.whole cc0_scratch0
abbrev sumM : Memref sig .tc .vmem S1024x1 .f32 := Memref.whole cc0_scratch1
abbrev VAcc : View sig .tc .vmem S1024x1024 .f32 := accM.view
abbrev VSum : View sig .tc .vmem S1024x1 .f32 := sumM.view

/-- The other scoped buffers of the core that no window of this region stages (the second kernel's staging buffers
    and accumulator), each whole at some contents: they ride through the region untouched. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- What the region is entered with beside the windows: the two accumulators at some contents, the other scoped
    buffers, the generator register at some state. -/
theorem entryInvariant_eq (c : Dev nD) :
    (Pipeline.ΦA spec0 c : sProp 𝕄)
      = iprop(iprop((∃ d, owns (c : Thread nD τ) accM fullShare d) ∗ (∃ d, owns (c : Thread nD τ) sumM fullShare d) ∗ others c) ∗ (∃ r, prngReg c r)) := by
  unfold Pipeline.ΦA others; rw [scopedRest0_eq]; simp only [accM, sumM, owns_whole]; try rfl

end Cert.Kernel.Region0

end
-- ==== Proof.BitsRegion0RunA.lean ====
import proofs.«120229_j77704548319709_2_alg».proof.Proof.BitsRegion0Runs

set_option maxRecDepth 16384

noncomputable section

namespace Cert.Kernel.Region0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- THE FIRST COLUMN BLOCK of a row tile (first condition holds, second fails). On whole memrefs — the two input
    windows at their blocks `x0`, `x1`, the two output windows at contents `xi2`, `xi3` that the body does not touch,
    the two accumulators at anything — the body runs to the continuation holding the inputs and the outputs as they
    were and each accumulator with its stores written (`LAcc`, `LSum`: the zeroing, then the block's contribution). -/
noncomputable def runFirstBlock (c : Dev nD) (i : grid0.Coords) (arg2 : Memref sig .tc .vmem S1024x512 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1 .f32) (harg7 : arg7.IsWhole) (hc0 : isFirstBlock i) (hc1 : ¬isLastBlock i)
    (x0 : Vec F S1024x512 .bf16) (x1 : Vec F S512x1024 .bf16) :
    Σ' (LAcc : List (View.Piece (Elt F) S1024x1024 .f32)), { LSum : List (View.Piece (Elt F) S1024x1 .f32) //
      ∀ (xi2 : Vec F S1024x1024 .f32) (xi3 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3
                ∗ (∃ f, arg6.view.loc (c : Thread nD τ) ↦[arg6.view.set]{fullShare} arg6.view.writes (Elt F) f LAcc)
                ∗ (∃ f, arg7.view.loc (c : Thread nD τ) ↦[arg7.view.set]{fullShare} arg7.view.writes (Elt F) f LSum)) -∗ K ⟨⟩))
          ⊢ wp frame (wpE (defs₀ (F := F)) Variants.none c none) E (cc0__row_kernel i arg2 harg2 arg3 harg3 arg4 harg4 arg5 harg5 arg6 harg6 arg7 harg7) K } := by
  refine ⟨?_, ?_, fun xi2 xi3 E K => ?run⟩
  case run =>
    simp only [cc0__row_kernel_eq_skeleton]; unfold cc0__row_kernel_skel
    unfold owns
    iintro ⟨⟨%f0, %hf0, H0⟩, ⟨%f1, %hf1, H1⟩, ⟨%f2, %hf2, H2⟩, ⟨%f3, %hf3, H3⟩, ⟨%da, %fa, -, HA⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HA]; · iexists _; iexact HA
    iexists _; iexact HS

end Cert.Kernel.Region0

end
-- ==== Proof.BitsRegion0RunB.lean ====
import proofs.«120229_j77704548319709_2_alg».proof.Proof.BitsRegion0Runs

set_option maxRecDepth 16384

noncomputable section

namespace Cert.Kernel.Region0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- A MIDDLE COLUMN BLOCK (both conditions fail). On whole memrefs — the two input windows at their blocks, the two
    output windows at contents the body does not touch, the two accumulators at what the block before left
    (`xa`, `xs`) — the body runs to the continuation holding the inputs and the outputs as they were and each
    accumulator with its store written (`LAcc`, `LSum`: the block's contribution added). -/
noncomputable def runMiddleBlock (c : Dev nD) (i : grid0.Coords) (arg2 : Memref sig .tc .vmem S1024x512 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1 .f32) (harg7 : arg7.IsWhole) (hc0 : ¬isFirstBlock i) (hc1 : ¬isLastBlock i)
    (x0 : Vec F S1024x512 .bf16) (x1 : Vec F S512x1024 .bf16) (xa : Vec F S1024x1024 .f32) (xs : Vec F S1024x1 .f32) :
    Σ' (LAcc : List (View.Piece (Elt F) S1024x1024 .f32)), { LSum : List (View.Piece (Elt F) S1024x1 .f32) //
      ∀ (xi2 : Vec F S1024x1024 .f32) (xi3 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3
            ∗ owns (c : Thread nD τ) arg6 fullShare xa ∗ owns (c : Thread nD τ) arg7 fullShare xs
            ∗ (iprop(owns (c : Thread nD τ) arg2 fullShare x0 ∗ owns (c : Thread nD τ) arg3 fullShare x1 ∗ owns (c : Thread nD τ) arg4 fullShare xi2 ∗ owns (c : Thread nD τ) arg5 fullShare xi3
                ∗ (∃ f, arg6.view.loc (c : Thread nD τ) ↦[arg6.view.set]{fullShare} arg6.view.writes (Elt F) f LAcc)
                ∗ (∃ f, arg7.view.loc (c : Thread nD τ) ↦[arg7.view.set]{fullShare} arg7.view.writes (Elt F) f LSum)) -∗ K ⟨⟩))
          ⊢ wp frame (wpE (defs₀ (F := F)) Variants.none c none) E (cc0__row_kernel i arg2 harg2 arg3 harg3 arg4 harg4 arg5 harg5 arg6 harg6 arg7 harg7) K } := by
  refine ⟨?_, ?_, fun xi2 xi3 E K => ?run⟩
  case run =>
    simp only [cc0__row_kernel_eq_skeleton]; unfold cc0__row_kernel_skel
    unfold owns
    iintro ⟨⟨%f0, %hf0, H0⟩, ⟨%f1, %hf1, H1⟩, ⟨%f2, %hf2, H2⟩, ⟨%f3, %hf3, H3⟩, ⟨%fa, %hfa, HA⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hfa; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HA]; · iexists _; iexact HA
    iexists _; iexact HS

end Cert.Kernel.Region0

end
-- ==== Proof.BitsRegion0RunC.lean ====
import proofs.«120229_j77704548319709_2_alg».proof.Proof.BitsRegion0Runs

set_option maxRecDepth 16384

noncomputable section

namespace Cert.Kernel.Region0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- THE LAST COLUMN BLOCK of a row tile (first condition fails, second holds). On whole memrefs — the two input
    windows at their blocks, the two output windows at anything, the two accumulators at what the block before left
    (`xa`, `xs`) — the body runs to the continuation holding the inputs as they were, each accumulator with its
    store written (`LAcc`, `LSum`) and each output window with its store written (`L2`: the quotient of the
    accumulators; `L3`: the row sum). -/
noncomputable def runLastBlock (c : Dev nD) (i : grid0.Coords) (arg2 : Memref sig .tc .vmem S1024x512 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1 .f32) (harg7 : arg7.IsWhole) (hc0 : ¬isFirstBlock i) (hc1 : isLastBlock i)
    (x0 : Vec F S1024x512 .bf16) (x1 : Vec F S512x1024 .bf16) (xa : Vec F S1024x1024 .f32) (xs : Vec F S1024x1 .f32) :
    Σ' (L2 : List (View.Piece (Elt F) S1024x1024 .f32)) (L3 : List (View.Piece (Elt F) S1024x1 .f32)) (LAcc : List (View.Piece (Elt F) S1024x1024 .f32)), { LSum : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ owns (c : Thread nD τ) arg6 fullShare xa ∗ owns (c : Thread nD τ) arg7 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LAcc)
                ∗ (∃ f, arg7.view.loc (c : Thread nD τ) ↦[arg7.view.set]{fullShare} arg7.view.writes (Elt F) f LSum)) -∗ K ⟨⟩))
          ⊢ wp frame (wpE (defs₀ (F := F)) Variants.none c none) E (cc0__row_kernel i arg2 harg2 arg3 harg3 arg4 harg4 arg5 harg5 arg6 harg6 arg7 harg7) K } := by
  refine ⟨?_, ?_, ?_, ?_, fun E K => ?run⟩
  case run =>
    simp only [cc0__row_kernel_eq_skeleton]; unfold cc0__row_kernel_skel
    unfold owns
    iintro ⟨⟨%f0, %hf0, H0⟩, ⟨%f1, %hf1, H1⟩, ⟨%d2, %f2, -, H2⟩, ⟨%d3, %f3, -, H3⟩, ⟨%fa, %hfa, HA⟩, ⟨%fs, %hfs, HS⟩, Hk⟩
    obtain rfl := harg2.eq_unread hf0; obtain rfl := harg3.eq_unread hf1
    obtain rfl := harg6.eq_unread hfa; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HA]; · iexists _; iexact HA
    iexists _; iexact HS

end Cert.Kernel.Region0

end
-- ==== Proof.BitsRegion0.lean ====
import proofs.«120229_j77704548319709_2_alg».proof.Proof.BitsRegion0RunA
import proofs.«120229_j77704548319709_2_alg».proof.Proof.BitsRegion0RunB
import proofs.«120229_j77704548319709_2_alg».proof.Proof.BitsRegion0RunC

set_option maxRecDepth 16384

noncomputable section

namespace Cert.Kernel.Region0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The row kernel (region 0): its proof data and body obligation, at the entry contents `V`

Row tile `i` of the output is `(Σ_k E[i,k] · M[k]) / (Σ_k rowsum E[i,k] + ε)`: the sixteen column blocks `k` of the
row tile are visited in order, two accumulators (the weighted sum and the row sum) carried from one to the next in
the kernel's own scratch buffers; the quotient and the row sum are stored into the output windows at the last. -/

section Region

variable (V : (c : Dev nD) → (b : Ref sig .tc) → Buf (Elt F) ((c : Thread nD τ).loc b))

/-! ## The windows' blocks -/

/-- The part of window `w`'s array that point `t` works on — for the weights the 1024 x 512 tile at (row tile, column
    block), for the messages the 512 rows of the column block —, read out of the array's contents on entry. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Take any proof data whose weights (messages) array is `V`'s and whose body leaves that window's block where it
    found it. Then, when the body starts at a point, the window's staging buffer holds exactly the point's block of
    the array: the pipeline fetched it there, or it is still there from the point before. -/
theorem weightsBlock_found_of {c : Dev nD} (dat : Dat τ (Elt F) Unit ℕ (Pipeline.UD sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem messagesBlock_found_of {c : Dev nD} (dat : Dat τ (Elt F) Unit ℕ (Pipeline.UD sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## The body's run at a point, case by case -/

/-- The body's run at a point `t` that is a row tile's first column block, on the point's staging memrefs and input
    blocks. -/
noncomputable abbrev firstBlockAt (c : Dev nD) (t : Fin cfg0.N) (h0 : t.val % 16 = 0) :=
  runFirstBlock (F := F) c (grid0.coords t) (weightsStage t) (weightsStage_whole t) (messagesStage t) (messagesStage_whole t) (quotientStage t) (quotientStage_whole t) (rowSumStage t) (rowSumStage_whole t) accM (Memref.isWhole_whole _) sumM (Memref.isWhole_whole _) ((isFirstBlock_iff t).mpr h0) (fun h => by have := (isLastBlock_iff t).mp h; omega) (blockAt V c 0 t) (blockAt V c 1 t)
/-- At a middle column block, over the accumulators `xa`, `xs` the block before left. -/
noncomputable abbrev middleBlockAt (c : Dev nD) (t : Fin cfg0.N) (h0 : ¬t.val % 16 = 0) (h1 : ¬t.val % 16 = 15) (xa : Vec F S1024x1024 .f32) (xs : Vec F S1024x1 .f32) :=
  runMiddleBlock (F := F) c (grid0.coords t) (weightsStage t) (weightsStage_whole t) (messagesStage t) (messagesStage_whole t) (quotientStage t) (quotientStage_whole t) (rowSumStage t) (rowSumStage_whole t) accM (Memref.isWhole_whole _) sumM (Memref.isWhole_whole _) (fun h => h0 ((isFirstBlock_iff t).mp h)) (fun h => h1 ((isLastBlock_iff t).mp h)) (blockAt V c 0 t) (blockAt V c 1 t) xa xs
/-- At a row tile's last column block, over the accumulators the block before left. -/
noncomputable abbrev lastBlockAt (c : Dev nD) (t : Fin cfg0.N) (h1 : t.val % 16 = 15) (xa : Vec F S1024x1024 .f32) (xs : Vec F S1024x1 .f32) :=
  runLastBlock (F := F) c (grid0.coords t) (weightsStage t) (weightsStage_whole t) (messagesStage t) (messagesStage_whole t) (quotientStage t) (quotientStage_whole t) (rowSumStage t) (rowSumStage_whole t) accM (Memref.isWhole_whole _) sumM (Memref.isWhole_whole _) (fun h => by have := (isFirstBlock_iff t).mp h; omega) ((isLastBlock_iff t).mpr h1) (blockAt V c 0 t) (blockAt V c 1 t) xa xs

/-- What a list of stores leaves in the weighted-sum accumulator, in the row-sum accumulator and in the two output
    windows: the stores read back. -/
abbrev rdAcc (L : List (View.Piece (Elt F) S1024x1024 .f32)) : Vec F S1024x1024 .f32 := VAcc.read (Elt F) (VAcc.writes (Elt F) VAcc.junk L)
abbrev rdSum (L : List (View.Piece (Elt F) S1024x1 .f32)) : Vec F S1024x1 .f32 := VSum.read (Elt F) (VSum.writes (Elt F) VSum.junk L)
abbrev rdOut (L : List (View.Piece (Elt F) S1024x1024 .f32)) : Vec F S1024x1024 .f32 := quotientView.read (Elt F) (quotientView.writes (Elt F) quotientView.junk L)
abbrev rdRow (L : List (View.Piece (Elt F) S1024x1 .f32)) : Vec F S1024x1 .f32 := rowSumView.read (Elt F) (rowSumView.writes (Elt F) rowSumView.junk L)

/-- In every case the stores into each accumulator cover it, and at the last column block the stores into each output
    window cover it (one whole store each). -/
theorem coverAccFirst (c : Dev nD) (t : Fin cfg0.N) (h0 : t.val % 16 = 0) (y : S1024x1024.Idx) : ∃ pc ∈ (firstBlockAt V c t h0).1, y ∈ pc.1.set :=
  View.cover_of_tiledL (firstBlockAt V c t h0).1 S1024x1024.size (by sl_kernel_rfl) y
theorem coverSumFirst (c : Dev nD) (t : Fin cfg0.N) (h0 : t.val % 16 = 0) (y : S1024x1.Idx) : ∃ pc ∈ (firstBlockAt V c t h0).2.1, y ∈ pc.1.set :=
  View.cover_of_tiledL (firstBlockAt V c t h0).2.1 S1024x1.size (by sl_kernel_rfl) y
theorem coverAccMiddle (c : Dev nD) (t : Fin cfg0.N) (h0 : ¬t.val % 16 = 0) (h1 : ¬t.val % 16 = 15) (xa xs) (y : S1024x1024.Idx) : ∃ pc ∈ (middleBlockAt V c t h0 h1 xa xs).1, y ∈ pc.1.set :=
  View.cover_of_tiledL (middleBlockAt V c t h0 h1 xa xs).1 S1024x1024.size (by sl_kernel_rfl) y
theorem coverSumMiddle (c : Dev nD) (t : Fin cfg0.N) (h0 : ¬t.val % 16 = 0) (h1 : ¬t.val % 16 = 15) (xa xs) (y : S1024x1.Idx) : ∃ pc ∈ (middleBlockAt V c t h0 h1 xa xs).2.1, y ∈ pc.1.set :=
  View.cover_of_tiledL (middleBlockAt V c t h0 h1 xa xs).2.1 S1024x1.size (by sl_kernel_rfl) y
theorem coverOutLast (c : Dev nD) (t : Fin cfg0.N) (h1 : t.val % 16 = 15) (xa xs) (y : S1024x1024.Idx) : ∃ pc ∈ (lastBlockAt V c t h1 xa xs).1, y ∈ pc.1.set :=
  View.cover_of_tiledL (lastBlockAt V c t h1 xa xs).1 S1024x1024.size (by sl_kernel_rfl) y
theorem coverRowLast (c : Dev nD) (t : Fin cfg0.N) (h1 : t.val % 16 = 15) (xa xs) (y : S1024x1.Idx) : ∃ pc ∈ (lastBlockAt V c t h1 xa xs).2.1, y ∈ pc.1.set :=
  View.cover_of_tiledL (lastBlockAt V c t h1 xa xs).2.1 S1024x1.size (by sl_kernel_rfl) y
theorem coverAccLast (c : Dev nD) (t : Fin cfg0.N) (h1 : t.val % 16 = 15) (xa xs) (y : S1024x1024.Idx) : ∃ pc ∈ (lastBlockAt V c t h1 xa xs).2.2.1, y ∈ pc.1.set :=
  View.cover_of_tiledL (lastBlockAt V c t h1 xa xs).2.2.1 S1024x1024.size (by sl_kernel_rfl) y
theorem coverSumLast (c : Dev nD) (t : Fin cfg0.N) (h1 : t.val % 16 = 15) (xa xs) (y : S1024x1.Idx) : ∃ pc ∈ (lastBlockAt V c t h1 xa xs).2.2.2.1, y ∈ pc.1.set :=
  View.cover_of_tiledL (lastBlockAt V c t h1 xa xs).2.2.2.1 S1024x1.size (by sl_kernel_rfl) y

/-! ## The accumulators and the outputs, point by point -/

/-- The weighted-sum and the row-sum accumulators after the body at position `n`: at a row tile's
    first column block the block's contribution alone; at a later one the block's contribution added to what position
    `n - 1` left. -/
def accumulatorsAt (c : Dev nD) : (n : ℕ) → n < cfg0.N → Vec F S1024x1024 .f32 × Vec F S1024x1 .f32
  | 0, hn => (rdAcc (firstBlockAt V c ⟨0, hn⟩ (Nat.zero_mod _)).1, rdSum (firstBlockAt V c ⟨0, hn⟩ (Nat.zero_mod _)).2.1)
  | n + 1, hn =>
    if h0 : (n + 1) % 16 = 0 then
      (rdAcc (firstBlockAt V c ⟨n + 1, hn⟩ h0).1, rdSum (firstBlockAt V c ⟨n + 1, hn⟩ h0).2.1)
    else if h1 : (n + 1) % 16 = 15 then
      (rdAcc (lastBlockAt V c ⟨n + 1, hn⟩ h1 (accumulatorsAt c n (Nat.lt_of_succ_lt hn)).1 (accumulatorsAt c n (Nat.lt_of_succ_lt hn)).2).2.2.1,
       rdSum (lastBlockAt V c ⟨n + 1, hn⟩ h1 (accumulatorsAt c n (Nat.lt_of_succ_lt hn)).1 (accumulatorsAt c n (Nat.lt_of_succ_lt hn)).2).2.2.2.1)
    else
      (rdAcc (middleBlockAt V c ⟨n + 1, hn⟩ h0 h1 (accumulatorsAt c n (Nat.lt_of_succ_lt hn)).1 (accumulatorsAt c n (Nat.lt_of_succ_lt hn)).2).1,
       rdSum (middleBlockAt V c ⟨n + 1, hn⟩ h0 h1 (accumulatorsAt c n (Nat.lt_of_succ_lt hn)).1 (accumulatorsAt c n (Nat.lt_of_succ_lt hn)).2).2.1)

/-- The accumulators the body finds at a point that is not a row tile's first: what the point before left. -/
abbrev accumulatorsBefore (c : Dev nD) (t : Fin cfg0.N) : Vec F S1024x1024 .f32 × Vec F S1024x1 .f32 :=
  accumulatorsAt V c (t.val - 1) (Nat.lt_of_le_of_lt (Nat.sub_le _ _) t.isLt)

theorem accumulatorsAt_first (c : Dev nD) (t : Fin cfg0.N) (h0 : t.val % 16 = 0) :
    accumulatorsAt V c t.val t.isLt = (rdAcc (firstBlockAt V c t h0).1, rdSum (firstBlockAt V c t h0).2.1) := by
  obtain ⟨n, hn⟩ := t
  cases n with
  | zero => exact rfl
  | succ n => exact (dif_pos h0).trans rfl

theorem accumulatorsAt_middle (c : Dev nD) (t : Fin cfg0.N) (h0 : ¬t.val % 16 = 0) (h1 : ¬t.val % 16 = 15) :
    accumulatorsAt V c t.val t.isLt = (rdAcc (middleBlockAt V c t h0 h1 (accumulatorsBefore V c t).1 (accumulatorsBefore V c t).2).1, rdSum (middleBlockAt V c t h0 h1 (accumulatorsBefore V c t).1 (accumulatorsBefore V c t).2).2.1) := by
  obtain ⟨n, hn⟩ := t
  cases n with
  | zero => exact absurd (Nat.zero_mod _) h0
  | succ n => exact (dif_neg h0).trans ((dif_neg h1).trans rfl)

theorem accumulatorsAt_last (c : Dev nD) (t : Fin cfg0.N) (h0 : ¬t.val % 16 = 0) (h1 : t.val % 16 = 15) :
    accumulatorsAt V c t.val t.isLt = (rdAcc (lastBlockAt V c t h1 (accumulatorsBefore V c t).1 (accumulatorsBefore V c t).2).2.2.1, rdSum (lastBlockAt V c t h1 (accumulatorsBefore V c t).1 (accumulatorsBefore V c t).2).2.2.2.1) := by
  obtain ⟨n, hn⟩ := t
  cases n with
  | zero => exact absurd (Nat.zero_mod _) h0
  | succ n => exact (dif_neg h0).trans ((dif_pos h1).trans rfl)

/-- What the two output windows' staging buffers hold after the body at point `t`: at a row tile's last column block
    the quotient of the accumulators and the row sum; elsewhere the windows are idle and not written back, and the
    value here is a placeholder nothing consults. -/
def outputsAt (c : Dev nD) (t : Fin cfg0.N) : Vec F S1024x1024 .f32 × Vec F S1024x1 .f32 :=
  if h1 : t.val % 16 = 15 then
    (rdOut (lastBlockAt V c t h1 (accumulatorsBefore V c t).1 (accumulatorsBefore V c t).2).1, rdRow (lastBlockAt V c t h1 (accumulatorsBefore V c t).1 (accumulatorsBefore V c t).2).2.1)
  else (rdOut [], rdRow [])

theorem outputsAt_last (c : Dev nD) (t : Fin cfg0.N) (h1 : t.val % 16 = 15) :
    outputsAt V c t = (rdOut (lastBlockAt V c t h1 (accumulatorsBefore V c t).1 (accumulatorsBefore V c t).2).1, rdRow (lastBlockAt V c t h1 (accumulatorsBefore V c t).1 (accumulatorsBefore V c t).2).2.1) :=
  dif_pos h1

/-! ## The invariant between points -/

/-- Before the first point the kernel's scoped buffers hold anything; before position `n + 1` the two accumulators
    hold what position `n` left, the other scoped buffers anything; the generator register is at some state
    throughout. -/
def betweenBlocks (c : Dev nD) : (n : ℕ) → n ≤ cfg0.N → sProp 𝕄
  | 0, _ => Pipeline.ΦA spec0 c
  | n + 1, hn => iprop(iprop(owns (c : Thread nD τ) accM fullShare (accumulatorsAt V c n hn).1 ∗ owns (c : Thread nD τ) sumM fullShare (accumulatorsAt V c n hn).2 ∗ others c) ∗ (∃ r, prngReg c r))

theorem betweenBlocks_zero (c : Dev nD) (n : ℕ) (h : n ≤ cfg0.N) (hz : n = 0) : betweenBlocks V c n h = Pipeline.ΦA spec0 c := by
  subst hz; rfl

theorem betweenBlocks_succ (c : Dev nD) (n : ℕ) (hn : n < cfg0.N) :
    betweenBlocks V c (n + 1) hn = iprop(iprop(owns (c : Thread nD τ) accM fullShare (accumulatorsAt V c n hn).1 ∗ owns (c : Thread nD τ) sumM fullShare (accumulatorsAt V c n hn).2 ∗ others c) ∗ (∃ r, prngReg c r)) := rfl

theorem betweenBlocks_pos (c : Dev nD) (n : ℕ) (h : n ≤ cfg0.N) (hz : n ≠ 0) :
    betweenBlocks V c n h = iprop(iprop(owns (c : Thread nD τ) accM fullShare (accumulatorsAt V c (n - 1) (by omega)).1 ∗ owns (c : Thread nD τ) sumM fullShare (accumulatorsAt V c (n - 1) (by omega)).2 ∗ others c) ∗ (∃ r, prngReg c r)) := by
  cases n with
  | zero => exact absurd rfl hz
  | succ n => rfl

/-! ## The proof data -/

/-- The row kernel's proof data on core `c`. On entry the four arrays hold what `V` says. The body never writes the
    weights or the messages window, so after every point each still holds the point's block; the quotient and the
    row-sum windows hold `outputsAt`. Between points the invariant is `betweenBlocks`. The core signals no other core, so it
    owes nothing, and it holds every array outright. -/
def dat0 (c : Dev nD) : Dat τ (Elt F) Unit ℕ (Pipeline.UD sig nD τ) ℕ cfg0 c where
  A w := V c (Pipeline.arrRef spec0 w)
  after w t := match w with
    | ⟨0, _⟩ => blockAt V c 0 t
    | ⟨1, _⟩ => blockAt V c 1 t
    | ⟨2, _⟩ => (outputsAt V c t).1
    | ⟨3, _⟩ => (outputsAt V c t).2
  Φ t := betweenBlocks V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem betweenBlocks_castSucc (c : Dev nD) (t : Fin cfg0.N) :
    (dat0 V c).Φ t.castSucc = betweenBlocks V c t.val (Nat.le_of_lt t.isLt) := by
  dsimp only [dat0]; simp only [Fin.coe_castSucc]

/-- The four windows' contents after the body at a point, read off the proof data. -/
theorem after0_0 (c : Dev nD) (t : Fin cfg0.N) : (dat0 V c).after 0 t = blockAt V c 0 t := by dsimp only [dat0]
theorem after0_1 (c : Dev nD) (t : Fin cfg0.N) : (dat0 V c).after 1 t = blockAt V c 1 t := by dsimp only [dat0]
theorem after0_2 (c : Dev nD) (t : Fin cfg0.N) : (dat0 V c).after 2 t = (outputsAt V c t).1 := by dsimp only [dat0]
theorem after0_3 (c : Dev nD) (t : Fin cfg0.N) : (dat0 V c).after 3 t = (outputsAt V c t).2 := by dsimp only [dat0]

/-- When the body starts at a point, the weights and the messages staging buffers hold the point's blocks. -/
theorem before0_0 (c : Dev nD) (t : Fin cfg0.N) (d) : (dat0 V c).before 0 t d = blockAt V c 0 t :=
  weightsBlock_found_of V (dat0 V c) (A_eq0 V c 0) (after0_0 V c) t d
theorem before0_1 (c : Dev nD) (t : Fin cfg0.N) (d) : (dat0 V c).before 1 t d = blockAt V c 1 t :=
  messagesBlock_found_of V (dat0 V c) (A_eq0 V c 1) (after0_1 V c) t d

/-! ## The body obligation, at a generic point -/

/-- Everything the body holds when it starts at point `t`: the invariant, the core's debts (none), and the four
    windows' staging buffers; -/
def pointPre (c : Dev nD) (t : Fin cfg0.N) : sProp 𝕄 :=
  iprop((dat0 V c).Φ t.castSucc ∗ (dat0 V c).owesAt () t.castSucc
    ∗ (∃ d, owns (c : Thread nD τ) (weightsStage t) fullShare ((dat0 V c).before 0 t d))
    ∗ (∃ d, owns (c : Thread nD τ) (messagesStage t) fullShare ((dat0 V c).before 1 t d))
    ∗ (∃ d, owns (c : Thread nD τ) (quotientStage t) fullShare ((dat0 V c).before 2 t d))
    ∗ (∃ d, owns (c : Thread nD τ) (rowSumStage t) fullShare ((dat0 V c).before 3 t d)))

/-- everything it must hold when it ends. -/
def pointPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' memrefs hold their blocks; the point's column block decides the case. At a
    row tile's first column block the accumulators are handed over at whatever they hold (anything before the first
    point, the previous row tile's totals later) and come back at the block's contribution; at a later block they
    are handed over at what the block before left and come back with the block's contribution added; off the last
    block the output windows are handed back untouched, at the last they come back at the quotient and the row
    sum. The other scoped buffers, the generator register and the core's debts (none) pass through. -/
theorem body_sound (c : Dev nD) (t : Fin cfg0.N) :
    pointPre V c t ⊢ wp frame (wpE (defs₀ (F := F)) Variants.none c none) Set.univ (bodyAt0 t) (fun _ => pointPost V c t) := by
  unfold pointPre pointPost bodyAt0
  simp only [before0_0, before0_1]
  rw [show (dat0 V c).owesAt () t.succ = (dat0 V c).owesAt () t.castSucc from rfl]
  rw [show (dat0 V c).Φ t.succ = betweenBlocks V c (t.val + 1) t.isLt from rfl, betweenBlocks_succ]
  have hN : t.val < 128 := lt_of_lt_of_eq t.isLt (show cfg0.N = 128 from N_0)
  rw [show (dat0 V c).leavesExact 0 t = owns (c : Thread nD τ) (weightsStage t) fullShare ((dat0 V c).after 0 t) from by
    unfold Dat.leavesExact; rw [weightsWindow_live t], after0_0]
  rw [show (dat0 V c).leavesExact 1 t = owns (c : Thread nD τ) (messagesStage t) fullShare ((dat0 V c).after 1 t) from by
    unfold Dat.leavesExact; rw [messagesWindow_live t], after0_1]
  by_cases h0 : t.val % 16 = 0
  · have h1 : ¬t.val % 16 = 15 := by omega
    rw [Dat.leavesExact_idle (dat0 V c) 2 t (quotientWindow_idle t (fun h => h1 ((isLastBlock_iff t).mp h))) (quotientWindow_kept t (fun h => h1 ((isLastBlock_iff t).mp h)))]
    rw [Dat.leavesExact_idle (dat0 V c) 3 t (rowSumWindow_idle t (fun h => h1 ((isLastBlock_iff t).mp h))) (rowSumWindow_kept t (fun h => h1 ((isLastBlock_iff t).mp h)))]
    rw [accumulatorsAt_first V c t h0]
    (try dsimp only)
    by_cases hz : t.val = 0
    · rw [betweenBlocks_castSucc V c t, betweenBlocks_zero V c _ _ hz, entryInvariant_eq]
      iintro ⟨⟨⟨HA, HS, HO⟩, Hg⟩, Ho, ⟨%d0, H0⟩, ⟨%d1, H1⟩, ⟨%d2, H2⟩, ⟨%d3, H3⟩⟩
      iapply ((firstBlockAt V c t h0).2.2 _ _ Set.univ _)
      isplitl [H0]; · iexact H0
      isplitl [H1]; · iexact H1
      isplitl [H2]; · iexact H2
      isplitl [H3]; · iexact H3
      isplitl [HA]; · iexact HA
      isplitl [HS]; · iexact HS
      iintro ⟨H0, H1, H2, H3, ⟨%ea, HA⟩, ⟨%es, HS⟩⟩
      isplitl [HA HS HO Hg]
      · isplitl [HA HS HO]
        · isplitl [HA]
          · unfold owns; iexists _; isplitr
            swap; · iexact HA
            ipureintro; exact View.read_writes_of_cover _ _ _ _ _ (coverAccFirst V c t h0)
          isplitl [HS]
          · unfold owns; iexists _; isplitr
            swap; · iexact HS
            ipureintro; exact View.read_writes_of_cover _ _ _ _ _ (coverSumFirst V c t h0)
          iexact HO
        iexact Hg
      isplitl [Ho]; · iexact Ho
      isplitl [H0]; · iexact H0
      isplitl [H1]; · iexact H1
      isplitl [H2]; · iexists _; iexact H2
      iexists _; iexact H3
    · rw [betweenBlocks_castSucc V c t, betweenBlocks_pos V c _ _ hz]
      iintro ⟨⟨⟨HA, HS, HO⟩, Hg⟩, Ho, ⟨%d0, H0⟩, ⟨%d1, H1⟩, ⟨%d2, H2⟩, ⟨%d3, H3⟩⟩
      iapply ((firstBlockAt V c t h0).2.2 _ _ Set.univ _)
      isplitl [H0]; · iexact H0
      isplitl [H1]; · iexact H1
      isplitl [H2]; · iexact H2
      isplitl [H3]; · iexact H3
      isplitl [HA]; · iexists _; iexact HA
      isplitl [HS]; · iexists _; iexact HS
      iintro ⟨H0, H1, H2, H3, ⟨%ea, HA⟩, ⟨%es, HS⟩⟩
      isplitl [HA HS HO Hg]
      · isplitl [HA HS HO]
        · isplitl [HA]
          · unfold owns; iexists _; isplitr
            swap; · iexact HA
            ipureintro; exact View.read_writes_of_cover _ _ _ _ _ (coverAccFirst V c t h0)
          isplitl [HS]
          · unfold owns; iexists _; isplitr
            swap; · iexact HS
            ipureintro; exact View.read_writes_of_cover _ _ _ _ _ (coverSumFirst V c t h0)
          iexact HO
        iexact Hg
      isplitl [Ho]; · iexact Ho
      isplitl [H0]; · iexact H0
      isplitl [H1]; · iexact H1
      isplitl [H2]; · iexists _; iexact H2
      iexists _; iexact H3
  · have hz : t.val ≠ 0 := fun e => h0 (by rw [e])
    by_cases h1 : t.val % 16 = 15
    · rw [show (dat0 V c).leavesExact 2 t = owns (c : Thread nD τ) (quotientStage t) fullShare ((dat0 V c).after 2 t) from by
        unfold Dat.leavesExact; rw [quotientWindow_live t ((isLastBlock_iff t).mpr h1)], after0_2]
      rw [show (dat0 V c).leavesExact 3 t = owns (c : Thread nD τ) (rowSumStage t) fullShare ((dat0 V c).after 3 t) from by
        unfold Dat.leavesExact; rw [rowSumWindow_live t ((isLastBlock_iff t).mpr h1)], after0_3]
      rw [accumulatorsAt_last V c t h0 h1, outputsAt_last V c t h1]
      (try dsimp only)
      rw [betweenBlocks_castSucc V c t, betweenBlocks_pos V c _ _ hz]
      iintro ⟨⟨⟨HA, HS, HO⟩, Hg⟩, Ho, ⟨%d0, H0⟩, ⟨%d1, H1⟩, ⟨%d2, H2⟩, ⟨%d3, H3⟩⟩
      iapply ((lastBlockAt V c t h1 _ _).2.2.2.2 Set.univ _)
      isplitl [H0]; · iexact H0
      isplitl [H1]; · iexact H1
      isplitl [H2]; · iexists _; iexact H2
      isplitl [H3]; · iexists _; iexact H3
      isplitl [HA]; · iexact HA
      isplitl [HS]; · iexact HS
      iintro ⟨H0, H1, ⟨%e2, H2⟩, ⟨%e3, H3⟩, ⟨%ea, HA⟩, ⟨%es, HS⟩⟩
      isplitl [HA HS HO Hg]
      · isplitl [HA HS HO]
        · isplitl [HA]
          · unfold owns; iexists _; isplitr
            swap; · iexact HA
            ipureintro; exact View.read_writes_of_cover _ _ _ _ _ (coverAccLast V c t h1 _ _)
          isplitl [HS]
          · unfold owns; iexists _; isplitr
            swap; · iexact HS
            ipureintro; exact View.read_writes_of_cover _ _ _ _ _ (coverSumLast V c t h1 _ _)
          iexact HO
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverOutLast V c t h1 _ _)
      unfold owns; iexists _; isplitr
      swap; · iexact H3
      ipureintro; exact View.read_writes_of_cover _ _ _ _ _ (coverRowLast V c t h1 _ _)
    · rw [Dat.leavesExact_idle (dat0 V c) 2 t (quotientWindow_idle t (fun h => h1 ((isLastBlock_iff t).mp h))) (quotientWindow_kept t (fun h => h1 ((isLastBlock_iff t).mp h)))]
      rw [Dat.leavesExact_idle (dat0 V c) 3 t (rowSumWindow_idle t (fun h => h1 ((isLastBlock_iff t).mp h))) (rowSumWindow_kept t (fun h => h1 ((isLastBlock_iff t).mp h)))]
      rw [accumulatorsAt_middle V c t h0 h1]
      (try dsimp only)
      rw [betweenBlocks_castSucc V c t, betweenBlocks_pos V c _ _ hz]
      iintro ⟨⟨⟨HA, HS, HO⟩, Hg⟩, Ho, ⟨%d0, H0⟩, ⟨%d1, H1⟩, ⟨%d2, H2⟩, ⟨%d3, H3⟩⟩
      iapply ((middleBlockAt V c t h0 h1 _ _).2.2 _ _ Set.univ _)
      isplitl [H0]; · iexact H0
      isplitl [H1]; · iexact H1
      isplitl [H2]; · iexact H2
      isplitl [H3]; · iexact H3
      isplitl [HA]; · iexact HA
      isplitl [HS]; · iexact HS
      iintro ⟨H0, H1, H2, H3, ⟨%ea, HA⟩, ⟨%es, HS⟩⟩
      isplitl [HA HS HO Hg]
      · isplitl [HA HS HO]
        · isplitl [HA]
          · unfold owns; iexists _; isplitr
            swap; · iexact HA
            ipureintro; exact View.read_writes_of_cover _ _ _ _ _ (coverAccMiddle V c t h0 h1 _ _)
          isplitl [HS]
          · unfold owns; iexists _; isplitr
            swap; · iexact HS
            ipureintro; exact View.read_writes_of_cover _ _ _ _ _ (coverSumMiddle V c t h0 h1 _ _)
          iexact HO
        iexact Hg
      isplitl [Ho]; · iexact Ho
      isplitl [H0]; · iexact H0
      isplitl [H1]; · iexact H1
      isplitl [H2]; · iexists _; iexact H2
      iexists _; iexact H3

/-- Hence the body obligation of the row kernel's proof data: `body_sound` at each of the 128 points. -/
theorem body_obligation0 (c : Dev nD) : BodyObligation (dat0 (F := F) V c) (defs₀ (F := F)) Variants.none () Set.univ := fun t => by
  rw [bigSep_W0, bigSep_W0]
  exact body_sound V c t

/-- Before the first point nothing is known of the accumulators: the invariant there is the entry form itself. -/
theorem hin0 (c : Dev nD) : (Pipeline.ΦA spec0 c : sProp 𝕄) ⊢ (dat0 V c).Φ 0 := by
  rw [show (dat0 V c).Φ 0 = betweenBlocks V c 0 (Nat.zero_le _) from rfl, betweenBlocks_zero V c 0 _ rfl]
  try exact Idealize.SL.BI.Entails.refl _

/-- Once some point has run, the invariant still owns everything the entry form owns; dropping what it says the
    accumulators hold gives the entry form back. -/
theorem betweenBlocks_forget (c : Dev nD) (t : Fin (cfg0.N + 1)) (ht : t.val ≠ 0) : (dat0 V c).Φ t ⊢ (Pipeline.ΦA spec0 c : sProp 𝕄) := by
  rw [show (dat0 V c).Φ t = betweenBlocks V c t.val (Nat.le_of_lt_succ t.isLt) from rfl, betweenBlocks_pos V c _ _ ht, entryInvariant_eq]
  iintro ⟨⟨HA, HS, HO⟩, Hg⟩
  isplitl [HA HS HO]
  · isplitl [HA]; · iexists _; iexact HA
    isplitl [HS]; · iexists _; iexact HS
    iexact HO
  iexact Hg

/-- In particular after the last of the 128 points. -/
theorem hout0 (c : Dev nD) : (dat0 V c).Φ (Fin.last cfg0.N) ⊢ (Pipeline.ΦA spec0 c : sProp 𝕄) :=
  betweenBlocks_forget V c _ (by rw [Fin.val_last]; have : cfg0.N = 128 := N_0; omega)

end Region

end Cert.Kernel.Region0

end
-- ==== Proof.BitsRegion1.lean ====
import proofs.«120229_j77704548319709_2_alg».proof.Proof.Gen.Kernel.Launch
import proofs.«120229_j77704548319709_2_alg».proof.Proof.Gen.Kernel.Skeleton
import proofs.«120229_j77704548319709_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The column pass (the second kernel region): its proof data and body obligation

The column kernel runs on a grid of 8 column tiles by 16 row steps. For a column tile j it carries one
accumulator (a 1024 x 1024 block of f32) across the 16 steps i: at i = 0 the accumulator is set to zero, at
every step it gains the product (contracting the 512 rows of the step) of the normalised gate block
e * (1 / (rowsum + 1e-6)), rounded to bf16, with the message block, and at i = 15 the accumulator is copied
into the output block, which is written back only then. This module states what the accumulator and the output
block hold after each grid point, by recursion on the point, and proves the body obligation of the pipeline
against those contents, for any contents V of the arrays when the region is entered. -/

set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The two conditions of the body, in closed form over the grid -/

/-- The step is the first of its column tile (i = 0): the accumulator is reset. -/
abbrev isFirst (i : grid1.Coords) : Prop :=
  (Scalar.cmpi .ne (Scalar.extui (Scalar.cmpi .eq (BitVec.ofNat 32 (i 1).val) 0#32)) 0#32) = 1#1
/-- The step is the last of its column tile (i = 15): the accumulator is copied to the output block. -/
abbrev isLast (i : grid1.Coords) : Prop := k1_cond2 i = 1#1

/-- The first step of a column tile is the point congruent to 0 modulo 16. -/
theorem isFirst_iff : ∀ t : Fin cfg1.N, isFirst (grid1.coords t) ↔ t.val % 16 = 0 :=
  (by decide +kernel : ∀ t : Fin grid1.N, isFirst (grid1.coords t) ↔ t.val % 16 = 0)
/-- The last step of a column tile is the point congruent to 15 modulo 16. -/
theorem isLast_iff : ∀ t : Fin cfg1.N, isLast (grid1.coords t) ↔ t.val % 16 = 15 :=
  (by decide +kernel : ∀ t : Fin grid1.N, isLast (grid1.coords t) ↔ t.val % 16 = 15)

/-! ## Where the windows are idle -/

theorem filled_live : ∀ t : Fin cfg1.N, cfg1.idle 0 (grid1.coords t) = false := by decide +kernel
theorem msg_live : ∀ t : Fin cfg1.N, cfg1.idle 1 (grid1.coords t) = false := by decide +kernel
theorem rowsum_live : ∀ t : Fin cfg1.N, cfg1.idle 2 (grid1.coords t) = false := by decide +kernel
/-- Off the last step the output window is idle: nothing is stored into it, -/
theorem out_idle : ∀ t : Fin cfg1.N, ¬isLast (grid1.coords t) → cfg1.idle 3 (grid1.coords t) = true := by decide +kernel
/-- and it is not written back there. -/
theorem out_noFlush : ∀ t : Fin cfg1.N, ¬isLast (grid1.coords t) → (cfg1.win 3).flush t = false := by decide +kernel
/-- At the last step it is live. -/
theorem out_live : ∀ t : Fin cfg1.N, isLast (grid1.coords t) → cfg1.idle 3 (grid1.coords t) = false := by decide +kernel

/-! ## The staging memrefs and the accumulator -/

/-- The view through which the output block's contents are stated: that of one of the window's two staging buffers
    (both have the block's shape; a covered buffer reads the same through either). -/
abbrev VOut : View sig .tc .vmem S1024x1024 .f32 := (Memref.whole cc1_stg3_0 : Memref sig .tc .vmem S1024x1024 .f32).view
/-- At point t the pipeline hands the body one staging buffer per window — the gate block's, the message block's,
    the row-sum block's and the output block's — each a whole buffer. -/
abbrev filledBuf (t : Fin cfg1.N) : Memref sig .tc .vmem S512x1024 .bf16 := win1_0.stage (cfg1.slots t 0)
abbrev filledBuf_whole (t : Fin cfg1.N) : (filledBuf t).IsWhole := hstage1_0 ((cfg1.slots t 0).cast nbuf1_0)
abbrev msgBuf (t : Fin cfg1.N) : Memref sig .tc .vmem S512x1024 .bf16 := win1_1.stage (cfg1.slots t 1)
abbrev msgBuf_whole (t : Fin cfg1.N) : (msgBuf t).IsWhole := hstage1_1 ((cfg1.slots t 1).cast nbuf1_1)
abbrev rowsumBuf (t : Fin cfg1.N) : Memref sig .tc .vmem S512x1 .f32 := win1_2.stage (cfg1.slots t 2)
abbrev rowsumBuf_whole (t : Fin cfg1.N) : (rowsumBuf t).IsWhole := hstage1_2 ((cfg1.slots t 2).cast nbuf1_2)
abbrev outBuf (t : Fin cfg1.N) : Memref sig .tc .vmem S1024x1024 .f32 := win1_3.stage (cfg1.slots t 3)
abbrev outBuf_whole (t : Fin cfg1.N) : (outBuf t).IsWhole := hstage1_3 ((cfg1.slots t 3).cast nbuf1_3)
/-- The accumulator: the kernel's own whole scoped buffer, carried from step to step. -/
abbrev accM : Memref sig .tc .vmem S1024x1024 .f32 := Memref.whole cc1_scratch0
/-- The accumulator as a view: what it holds is stated through it. -/
abbrev VAcc : View sig .tc .vmem S1024x1024 .f32 := accM.view

/-! ## The body on any staging memrefs, step kind by step kind -/

set_option maxHeartbeats 1000000 in
/-- THE FIRST STEP of a column tile. On whole memrefs — the three inputs at their blocks, the output block at
    contents xo handed back untouched, the accumulator at anything — the body runs to the continuation holding
    the inputs as they were, the output as it was, and the accumulator with the pieces LS written (the zero
    block, then the first product added to it). -/
noncomputable def runFirst (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1 .f32) (harg4 : arg4.IsWhole) (arg5 : Memref sig .tc .vmem S1024x1024 .f32) (harg5 : arg5.IsWhole) (arg6 : Memref sig .tc .vmem S1024x1024 .f32) (harg6 : arg6.IsWhole) (hc0 : isFirst i) (hc1 : ¬isLast i)
    (x0 : Vec F S512x1024 .bf16) (x1 : Vec F S512x1024 .bf16) (x2 : Vec F S512x1 .f32) :
    { LS : List (View.Piece (Elt F) S1024x1024 .f32) //
      ∀ (xo : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc1__col_kernel i arg2 harg2 arg3 harg3 arg4 harg4 arg5 harg5 arg6 harg6) K } := by
  refine ⟨?_, fun xo E K => ?run⟩
  case run =>
    simp only [cc1__col_kernel_eq_skeleton]; unfold cc1__col_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- A MIDDLE STEP. As the first step, but the accumulator enters at the contents xs the step before left, and
    gains this step's product. -/
noncomputable def runMid (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1 .f32) (harg4 : arg4.IsWhole) (arg5 : Memref sig .tc .vmem S1024x1024 .f32) (harg5 : arg5.IsWhole) (arg6 : Memref sig .tc .vmem S1024x1024 .f32) (harg6 : arg6.IsWhole) (hc0 : ¬isFirst i) (hc1 : ¬isLast i)
    (x0 : Vec F S512x1024 .bf16) (x1 : Vec F S512x1024 .bf16) (x2 : Vec F S512x1 .f32) (xs : Vec F S1024x1024 .f32) :
    { LS : List (View.Piece (Elt F) S1024x1024 .f32) //
      ∀ (xo : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc1__col_kernel i arg2 harg2 arg3 harg3 arg4 harg4 arg5 harg5 arg6 harg6) K } := by
  refine ⟨?_, fun xo E K => ?run⟩
  case run =>
    simp only [cc1__col_kernel_eq_skeleton]; unfold cc1__col_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- THE LAST STEP of a column tile. The accumulator enters at the contents xs the step before left and gains this
    step's product; the output block, entered at anything, ends with the pieces LO written: the accumulator's
    final contents. -/
noncomputable def runLast (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1 .f32) (harg4 : arg4.IsWhole) (arg5 : Memref sig .tc .vmem S1024x1024 .f32) (harg5 : arg5.IsWhole) (arg6 : Memref sig .tc .vmem S1024x1024 .f32) (harg6 : arg6.IsWhole) (hc0 : ¬isFirst i) (hc1 : isLast i)
    (x0 : Vec F S512x1024 .bf16) (x1 : Vec F S512x1024 .bf16) (x2 : Vec F S512x1 .f32) (xs : Vec F S1024x1024 .f32) :
    Σ' (LO : List (View.Piece (Elt F) S1024x1024 .f32)), { LS : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc1__col_kernel i arg2 harg2 arg3 harg3 arg4 harg4 arg5 harg5 arg6 harg6) K } := by
  refine ⟨?_, ?_, fun E K => ?run⟩
  case run =>
    simp only [cc1__col_kernel_eq_skeleton]; unfold cc1__col_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-! ## What each kind of step leaves in the accumulator and in the output block -/

/-- The first step's pieces cover the accumulator. -/
theorem accCover_first (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1 .f32) (harg4 : arg4.IsWhole) (arg5 : Memref sig .tc .vmem S1024x1024 .f32) (harg5 : arg5.IsWhole) (arg6 : Memref sig .tc .vmem S1024x1024 .f32) (harg6 : arg6.IsWhole) (hc0 : isFirst i) (hc1 : ¬isLast i)
    (x0 : Vec F S512x1024 .bf16) (x1 : Vec F S512x1024 .bf16) (x2 : Vec F S512x1 .f32) (y : S1024x1024.Idx) :
    ∃ pc ∈ (runFirst c i arg2 harg2 arg3 harg3 arg4 harg4 arg5 harg5 arg6 harg6 hc0 hc1 x0 x1 x2).1, y ∈ pc.1.set :=
  View.cover_of_tiledL (runFirst c i arg2 harg2 arg3 harg3 arg4 harg4 arg5 harg5 arg6 harg6 hc0 hc1 x0 x1 x2).1 S1024x1024.size (by sl_kernel_rfl) y

/-- What the first step leaves in the accumulator: its pieces read back. -/
def accFirst (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1 .f32) (harg4 : arg4.IsWhole) (arg5 : Memref sig .tc .vmem S1024x1024 .f32) (harg5 : arg5.IsWhole) (arg6 : Memref sig .tc .vmem S1024x1024 .f32) (harg6 : arg6.IsWhole) (hc0 : isFirst i) (hc1 : ¬isLast i)
    (x0 : Vec F S512x1024 .bf16) (x1 : Vec F S512x1024 .bf16) (x2 : Vec F S512x1 .f32) : Vec F S1024x1024 .f32 :=
  VAcc.read (Elt F) (VAcc.writes (Elt F) VAcc.junk (runFirst c i arg2 harg2 arg3 harg3 arg4 harg4 arg5 harg5 arg6 harg6 hc0 hc1 x0 x1 x2).1)

/-- A middle step's pieces cover the accumulator. -/
theorem accCover_mid (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1 .f32) (harg4 : arg4.IsWhole) (arg5 : Memref sig .tc .vmem S1024x1024 .f32) (harg5 : arg5.IsWhole) (arg6 : Memref sig .tc .vmem S1024x1024 .f32) (harg6 : arg6.IsWhole) (hc0 : ¬isFirst i) (hc1 : ¬isLast i)
    (x0 : Vec F S512x1024 .bf16) (x1 : Vec F S512x1024 .bf16) (x2 : Vec F S512x1 .f32) (xs : Vec F S1024x1024 .f32) (y : S1024x1024.Idx) :
    ∃ pc ∈ (runMid c i arg2 harg2 arg3 harg3 arg4 harg4 arg5 harg5 arg6 harg6 hc0 hc1 x0 x1 x2 xs).1, y ∈ pc.1.set :=
  View.cover_of_tiledL (runMid c i arg2 harg2 arg3 harg3 arg4 harg4 arg5 harg5 arg6 harg6 hc0 hc1 x0 x1 x2 xs).1 S1024x1024.size (by sl_kernel_rfl) y

/-- What a middle step leaves in the accumulator, from what the step before left (xs). -/
def accMid (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1 .f32) (harg4 : arg4.IsWhole) (arg5 : Memref sig .tc .vmem S1024x1024 .f32) (harg5 : arg5.IsWhole) (arg6 : Memref sig .tc .vmem S1024x1024 .f32) (harg6 : arg6.IsWhole) (hc0 : ¬isFirst i) (hc1 : ¬isLast i)
    (x0 : Vec F S512x1024 .bf16) (x1 : Vec F S512x1024 .bf16) (x2 : Vec F S512x1 .f32) (xs : Vec F S1024x1024 .f32) : Vec F S1024x1024 .f32 :=
  VAcc.read (Elt F) (VAcc.writes (Elt F) VAcc.junk (runMid c i arg2 harg2 arg3 harg3 arg4 harg4 arg5 harg5 arg6 harg6 hc0 hc1 x0 x1 x2 xs).1)

/-- The last step's pieces cover the accumulator, -/
theorem accCover_last (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1 .f32) (harg4 : arg4.IsWhole) (arg5 : Memref sig .tc .vmem S1024x1024 .f32) (harg5 : arg5.IsWhole) (arg6 : Memref sig .tc .vmem S1024x1024 .f32) (harg6 : arg6.IsWhole) (hc0 : ¬isFirst i) (hc1 : isLast i)
    (x0 : Vec F S512x1024 .bf16) (x1 : Vec F S512x1024 .bf16) (x2 : Vec F S512x1 .f32) (xs : Vec F S1024x1024 .f32) (y : S1024x1024.Idx) :
    ∃ pc ∈ (runLast c i arg2 harg2 arg3 harg3 arg4 harg4 arg5 harg5 arg6 harg6 hc0 hc1 x0 x1 x2 xs).2.1, y ∈ pc.1.set :=
  View.cover_of_tiledL (runLast c i arg2 harg2 arg3 harg3 arg4 harg4 arg5 harg5 arg6 harg6 hc0 hc1 x0 x1 x2 xs).2.1 S1024x1024.size (by sl_kernel_rfl) y

/-- and its one store into the output block covers that. -/
theorem outCover_last (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1 .f32) (harg4 : arg4.IsWhole) (arg5 : Memref sig .tc .vmem S1024x1024 .f32) (harg5 : arg5.IsWhole) (arg6 : Memref sig .tc .vmem S1024x1024 .f32) (harg6 : arg6.IsWhole) (hc0 : ¬isFirst i) (hc1 : isLast i)
    (x0 : Vec F S512x1024 .bf16) (x1 : Vec F S512x1024 .bf16) (x2 : Vec F S512x1 .f32) (xs : Vec F S1024x1024 .f32) (y : S1024x1024.Idx) :
    ∃ pc ∈ (runLast c i arg2 harg2 arg3 harg3 arg4 harg4 arg5 harg5 arg6 harg6 hc0 hc1 x0 x1 x2 xs).1, y ∈ pc.1.set :=
  View.cover_of_tiledL (runLast c i arg2 harg2 arg3 harg3 arg4 harg4 arg5 harg5 arg6 harg6 hc0 hc1 x0 x1 x2 xs).1 S1024x1024.size (by sl_kernel_rfl) y

/-- What the last step leaves in the accumulator, -/
def accLast (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1 .f32) (harg4 : arg4.IsWhole) (arg5 : Memref sig .tc .vmem S1024x1024 .f32) (harg5 : arg5.IsWhole) (arg6 : Memref sig .tc .vmem S1024x1024 .f32) (harg6 : arg6.IsWhole) (hc0 : ¬isFirst i) (hc1 : isLast i)
    (x0 : Vec F S512x1024 .bf16) (x1 : Vec F S512x1024 .bf16) (x2 : Vec F S512x1 .f32) (xs : Vec F S1024x1024 .f32) : Vec F S1024x1024 .f32 :=
  VAcc.read (Elt F) (VAcc.writes (Elt F) VAcc.junk (runLast c i arg2 harg2 arg3 harg3 arg4 harg4 arg5 harg5 arg6 harg6 hc0 hc1 x0 x1 x2 xs).2.1)

/-- and in the output block. -/
def outLast (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1 .f32) (harg4 : arg4.IsWhole) (arg5 : Memref sig .tc .vmem S1024x1024 .f32) (harg5 : arg5.IsWhole) (arg6 : Memref sig .tc .vmem S1024x1024 .f32) (harg6 : arg6.IsWhole) (hc0 : ¬isFirst i) (hc1 : isLast i)
    (x0 : Vec F S512x1024 .bf16) (x1 : Vec F S512x1024 .bf16) (x2 : Vec F S512x1 .f32) (xs : Vec F S1024x1024 .f32) : Vec F S1024x1024 .f32 :=
  VOut.read (Elt F) (VOut.writes (Elt F) VOut.junk (runLast c i arg2 harg2 arg3 harg3 arg4 harg4 arg5 harg5 arg6 harg6 hc0 hc1 x0 x1 x2 xs).1)

/-- Off the last step nothing is stored into the output block; its contents there are never written back nor read:
    a placeholder. -/
def outIdle : Vec F S1024x1024 .f32 := VOut.read (Elt F) VOut.junk

section Region

-- the arrays' contents when the region is entered: the parameter everything below is stated at
variable (V : (c : Dev nD) → (b : Ref sig .tc) → Buf (Elt F) ((c : Thread nD τ).loc b))

/-! ## The windows' blocks -/

/-- The block of window w's array that point t works on, read off V: for window 0 the 512 x 1024 gate block
    (row step i, column tile j), for window 1 the 512 x 1024 message block of row step i, for window 2 the 512
    row sums of row step i. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three inputs are read, never stored to, fetched whole and live at every point: so whatever proof data has
    V's arrays and leaves an input's block where it is finds that block in the input's buffer at every point. -/
theorem inputHolds_0 {c : Dev nD} (dat : Dat τ (Elt F) Unit ℕ (Pipeline.UD sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem inputHolds_1 {c : Dev nD} (dat : Dat τ (Elt F) Unit ℕ (Pipeline.UD sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem inputHolds_2 {c : Dev nD} (dat : Dat τ (Elt F) Unit ℕ (Pipeline.UD sig nD τ) ℕ cfg1 c) (hA : dat.A 2 = V c (Pipeline.arrRef spec1 2))
    (hafter : ∀ t, dat.after 2 t = blockAt V c 2 t) (t : Fin cfg1.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## What the output block and the accumulator hold after each point -/

/-- THE ACCUMULATION. After the body at position n: (the output block's staging buffer, the accumulator). At the
    first step of a column tile the accumulator is the first product over zero; at a later step it is the step's
    product added to what position n - 1 left; at the last step the output block receives the accumulator. The
    two conditions cannot hold together (16 steps to a tile). -/
def tileState (c : Dev nD) : (n : ℕ) → n < cfg1.N → Vec F S1024x1024 .f32 × Vec F S1024x1024 .f32
  | 0, hn => (outIdle, accFirst c (grid1.coords ⟨0, hn⟩) (filledBuf ⟨0, hn⟩) (filledBuf_whole ⟨0, hn⟩) (msgBuf ⟨0, hn⟩) (msgBuf_whole ⟨0, hn⟩) (rowsumBuf ⟨0, hn⟩) (rowsumBuf_whole ⟨0, hn⟩) (outBuf ⟨0, hn⟩) (outBuf_whole ⟨0, hn⟩) accM (Memref.isWhole_whole _) ((isFirst_iff ⟨0, hn⟩).mpr (Nat.zero_mod _)) (fun h => (fun h => by (try dsimp only at h); omega) ((isLast_iff ⟨0, hn⟩).mp h)) (blockAt V c 0 ⟨0, hn⟩) (blockAt V c 1 ⟨0, hn⟩) (blockAt V c 2 ⟨0, hn⟩))
  | n + 1, hn =>
    if h0 : (n + 1) % 16 = 0 then
      if h1 : (n + 1) % 16 = 15 then
        False.elim (by omega)
      else
        (outIdle, accFirst c (grid1.coords ⟨n + 1, hn⟩) (filledBuf ⟨n + 1, hn⟩) (filledBuf_whole ⟨n + 1, hn⟩) (msgBuf ⟨n + 1, hn⟩) (msgBuf_whole ⟨n + 1, hn⟩) (rowsumBuf ⟨n + 1, hn⟩) (rowsumBuf_whole ⟨n + 1, hn⟩) (outBuf ⟨n + 1, hn⟩) (outBuf_whole ⟨n + 1, hn⟩) accM (Memref.isWhole_whole _) ((isFirst_iff ⟨n + 1, hn⟩).mpr h0) (fun h => h1 ((isLast_iff ⟨n + 1, hn⟩).mp h)) (blockAt V c 0 ⟨n + 1, hn⟩) (blockAt V c 1 ⟨n + 1, hn⟩) (blockAt V c 2 ⟨n + 1, hn⟩))
    else
      if h1 : (n + 1) % 16 = 15 then
        (outLast c (grid1.coords ⟨n + 1, hn⟩) (filledBuf ⟨n + 1, hn⟩) (filledBuf_whole ⟨n + 1, hn⟩) (msgBuf ⟨n + 1, hn⟩) (msgBuf_whole ⟨n + 1, hn⟩) (rowsumBuf ⟨n + 1, hn⟩) (rowsumBuf_whole ⟨n + 1, hn⟩) (outBuf ⟨n + 1, hn⟩) (outBuf_whole ⟨n + 1, hn⟩) accM (Memref.isWhole_whole _) (fun h => h0 ((isFirst_iff ⟨n + 1, hn⟩).mp h)) ((isLast_iff ⟨n + 1, hn⟩).mpr h1) (blockAt V c 0 ⟨n + 1, hn⟩) (blockAt V c 1 ⟨n + 1, hn⟩) (blockAt V c 2 ⟨n + 1, hn⟩) (tileState c n (Nat.lt_of_succ_lt hn)).2,
         accLast c (grid1.coords ⟨n + 1, hn⟩) (filledBuf ⟨n + 1, hn⟩) (filledBuf_whole ⟨n + 1, hn⟩) (msgBuf ⟨n + 1, hn⟩) (msgBuf_whole ⟨n + 1, hn⟩) (rowsumBuf ⟨n + 1, hn⟩) (rowsumBuf_whole ⟨n + 1, hn⟩) (outBuf ⟨n + 1, hn⟩) (outBuf_whole ⟨n + 1, hn⟩) accM (Memref.isWhole_whole _) (fun h => h0 ((isFirst_iff ⟨n + 1, hn⟩).mp h)) ((isLast_iff ⟨n + 1, hn⟩).mpr h1) (blockAt V c 0 ⟨n + 1, hn⟩) (blockAt V c 1 ⟨n + 1, hn⟩) (blockAt V c 2 ⟨n + 1, hn⟩) (tileState c n (Nat.lt_of_succ_lt hn)).2)
      else
        (outIdle, accMid c (grid1.coords ⟨n + 1, hn⟩) (filledBuf ⟨n + 1, hn⟩) (filledBuf_whole ⟨n + 1, hn⟩) (msgBuf ⟨n + 1, hn⟩) (msgBuf_whole ⟨n + 1, hn⟩) (rowsumBuf ⟨n + 1, hn⟩) (rowsumBuf_whole ⟨n + 1, hn⟩) (outBuf ⟨n + 1, hn⟩) (outBuf_whole ⟨n + 1, hn⟩) accM (Memref.isWhole_whole _) (fun h => h0 ((isFirst_iff ⟨n + 1, hn⟩).mp h)) (fun h => h1 ((isLast_iff ⟨n + 1, hn⟩).mp h)) (blockAt V c 0 ⟨n + 1, hn⟩) (blockAt V c 1 ⟨n + 1, hn⟩) (blockAt V c 2 ⟨n + 1, hn⟩) (tileState c n (Nat.lt_of_succ_lt hn)).2)

/-- At the first step of a column tile. -/
theorem tileState_first (c : Dev nD) (t : Fin cfg1.N) (h0 : t.val % 16 = 0) (h1 : ¬t.val % 16 = 15) :
    tileState V c t.val t.isLt = (outIdle, accFirst c (grid1.coords t) (filledBuf t) (filledBuf_whole t) (msgBuf t) (msgBuf_whole t) (rowsumBuf t) (rowsumBuf_whole t) (outBuf t) (outBuf_whole t) accM (Memref.isWhole_whole _) ((isFirst_iff t).mpr h0) (fun h => h1 ((isLast_iff t).mp h)) (blockAt V c 0 t) (blockAt V c 1 t) (blockAt V c 2 t)) := by
  obtain ⟨n, hn⟩ := t
  cases n with
  | zero => exact rfl
  | succ n => exact (dif_pos h0).trans ((dif_neg h1).trans rfl)

/-- At a middle step: over what the point before left. -/
theorem tileState_mid (c : Dev nD) (t : Fin cfg1.N) (h0 : ¬t.val % 16 = 0) (h1 : ¬t.val % 16 = 15) :
    tileState V c t.val t.isLt = (outIdle, accMid c (grid1.coords t) (filledBuf t) (filledBuf_whole t) (msgBuf t) (msgBuf_whole t) (rowsumBuf t) (rowsumBuf_whole t) (outBuf t) (outBuf_whole t) accM (Memref.isWhole_whole _) (fun h => h0 ((isFirst_iff t).mp h)) (fun h => h1 ((isLast_iff t).mp h)) (blockAt V c 0 t) (blockAt V c 1 t) (blockAt V c 2 t) (tileState V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At the last step: over what the point before left. -/
theorem tileState_last (c : Dev nD) (t : Fin cfg1.N) (h0 : ¬t.val % 16 = 0) (h1 : t.val % 16 = 15) :
    tileState V c t.val t.isLt = (outLast c (grid1.coords t) (filledBuf t) (filledBuf_whole t) (msgBuf t) (msgBuf_whole t) (rowsumBuf t) (rowsumBuf_whole t) (outBuf t) (outBuf_whole t) accM (Memref.isWhole_whole _) (fun h => h0 ((isFirst_iff t).mp h)) ((isLast_iff t).mpr h1) (blockAt V c 0 t) (blockAt V c 1 t) (blockAt V c 2 t) (tileState V c (t.val - 1) (Nat.lt_of_le_of_lt (Nat.sub_le _ _) t.isLt)).2,
      accLast c (grid1.coords t) (filledBuf t) (filledBuf_whole t) (msgBuf t) (msgBuf_whole t) (rowsumBuf t) (rowsumBuf_whole t) (outBuf t) (outBuf_whole t) accM (Memref.isWhole_whole _) (fun h => h0 ((isFirst_iff t).mp h)) ((isLast_iff t).mpr h1) (blockAt V c 0 t) (blockAt V c 1 t) (blockAt V c 2 t) (tileState V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator carried between points -/

/-- The class invariant, conjunct by conjunct: the scoped buffers that are no staging buffer of this region — the
    first region's staging buffers and scratch, at anything, and the accumulator, owned at some contents — beside
    the generator register at some state. -/
theorem classInv_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ d, owns (c : Thread nD τ) accM fullShare d)) ∗ (∃ r, prngReg c r)) := by
  unfold Pipeline.ΦA; rw [scopedRest1_eq]; simp only [accM, owns_whole]; try rfl

/-- The invariant before position n: before the first point the class's (the accumulator at anything: the first
    step resets it before reading it); afterwards the same with the accumulator at what the point before left. -/
def accInv (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) accM fullShare ((tileState V c n hn).2)) ∗ (∃ r, prngReg c r))

theorem accInv_zero (c : Dev nD) (n : ℕ) (h : n ≤ cfg1.N) (hz : n = 0) : accInv V c n h = Pipeline.ΦA spec1 c := by
  subst hz; rfl

/-- After point n (before point n + 1): the accumulator at that point's contents. -/
theorem accInv_succ (c : Dev nD) (n : ℕ) (hn : n < cfg1.N) :
    accInv V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) accM fullShare ((tileState V c n hn).2)) ∗ (∃ r, prngReg c r)) := rfl

/-- Before a point that is not the first: the accumulator at what the point before left. -/
theorem accInv_pos (c : Dev nD) (n : ℕ) (h : n ≤ cfg1.N) (hz : n ≠ 0) :
    accInv V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) accM fullShare ((tileState V c (n - 1) (by omega)).2)) ∗ (∃ r, prngReg c r)) := by
  cases n with
  | zero => exact absurd rfl hz
  | succ n => rfl

/-! ## The pipeline's proof data -/

/-- The proof data of the column pass on core c: the arrays as the region finds them (V); after the body at point
    t each input's buffer at its block and the output's at the first component of tileState; the invariant accInv;
    nothing owed; full shares. -/
def dat1 (c : Dev nD) : Dat τ (Elt F) Unit ℕ (Pipeline.UD sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => (tileState V c t.val t.isLt).1
  Φ t := accInv V c t.val (Nat.le_of_lt_succ t.isLt)
  q _ := fullShare
  owed _ := 0

/-- The four arrays start the region at V's contents. -/
theorem A_eq1 (c : Dev nD) (w : Fin cfg1.W) : (dat1 V c).A w = V c (Pipeline.arrRef spec1 w) := by
  dsimp only [dat1]

/-- The invariant the step at point t starts from is accInv at t's number. -/
theorem accInv_castSucc (c : Dev nD) (t : Fin cfg1.N) :
    (dat1 V c).Φ t.castSucc = accInv V c t.val (Nat.le_of_lt t.isLt) := by
  dsimp only [dat1]; simp only [Fin.coe_castSucc]

/-- After the step at point t: the three input buffers still hold their blocks, the output block's buffer holds
    the first component of tileState. -/
theorem after1_0 (c : Dev nD) (t : Fin cfg1.N) : (dat1 V c).after 0 t = blockAt V c 0 t := by dsimp only [dat1]
theorem after1_1 (c : Dev nD) (t : Fin cfg1.N) : (dat1 V c).after 1 t = blockAt V c 1 t := by dsimp only [dat1]
theorem after1_2 (c : Dev nD) (t : Fin cfg1.N) : (dat1 V c).after 2 t = blockAt V c 2 t := by dsimp only [dat1]
theorem after1_3 (c : Dev nD) (t : Fin cfg1.N) : (dat1 V c).after 3 t = (tileState V c t.val t.isLt).1 := by dsimp only [dat1]

/-- The step at point t finds each input buffer at its block of the array. -/
theorem before1_0 (c : Dev nD) (t : Fin cfg1.N) (d) : (dat1 V c).before 0 t d = blockAt V c 0 t :=
  inputHolds_0 V (dat1 V c) (A_eq1 V c 0) (after1_0 V c) t d
theorem before1_1 (c : Dev nD) (t : Fin cfg1.N) (d) : (dat1 V c).before 1 t d = blockAt V c 1 t :=
  inputHolds_1 V (dat1 V c) (A_eq1 V c 1) (after1_1 V c) t d
theorem before1_2 (c : Dev nD) (t : Fin cfg1.N) (d) : (dat1 V c).before 2 t d = blockAt V c 2 t :=
  inputHolds_2 V (dat1 V c) (A_eq1 V c 2) (after1_2 V c) t d

/-! ## The body obligation, at a generic point -/

/-- Before the step at point t: the invariant, the core's dues, and the four windows' buffers as the step finds
    them (gate block, message block, row-sum block, output block), -/
def stepPre (c : Dev nD) (t : Fin cfg1.N) : sProp 𝕄 :=
  iprop((dat1 V c).Φ t.castSucc ∗ (dat1 V c).owesAt () t.castSucc
    ∗ (∃ d, owns (c : Thread nD τ) (filledBuf t) fullShare ((dat1 V c).before 0 t d))
    ∗ (∃ d, owns (c : Thread nD τ) (msgBuf t) fullShare ((dat1 V c).before 1 t d))
    ∗ (∃ d, owns (c : Thread nD τ) (rowsumBuf t) fullShare ((dat1 V c).before 2 t d))
    ∗ (∃ d, owns (c : Thread nD τ) (outBuf t) fullShare ((dat1 V c).before 3 t d)))

/-- and after it: the invariant at the next point, the dues unchanged, the four buffers as the step leaves them. -/
def stepPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the closed forms say which kind of step the point
    is; the invariant hands the body the accumulator at what the point before left (at anything before the first
    point, where the step is a first step and resets it), and takes it back at this point's contents; off the last
    step the output block's buffer goes back as it came, at the last step it comes back at the accumulator's final
    contents; the core owes nothing throughout. -/
theorem sound_body1 (c : Dev nD) (t : Fin cfg1.N) :
    stepPre V c t ⊢ wp frame (wpE (defs₀ (F := F)) Variants.none c none) Set.univ (bodyAt1 t) (fun _ => stepPost V c t) := by
  unfold stepPre stepPost bodyAt1
  simp only [before1_0, before1_1, before1_2]
  rw [show (dat1 V c).owesAt () t.succ = (dat1 V c).owesAt () t.castSucc from rfl]
  rw [show (dat1 V c).Φ t.succ = accInv V c (t.val + 1) t.isLt from rfl, accInv_succ]
  rw [show (dat1 V c).leavesExact 0 t = owns (c : Thread nD τ) (filledBuf t) fullShare ((dat1 V c).after 0 t) from by
    unfold Dat.leavesExact; rw [filled_live t], after1_0]
  rw [show (dat1 V c).leavesExact 1 t = owns (c : Thread nD τ) (msgBuf t) fullShare ((dat1 V c).after 1 t) from by
    unfold Dat.leavesExact; rw [msg_live t], after1_1]
  rw [show (dat1 V c).leavesExact 2 t = owns (c : Thread nD τ) (rowsumBuf t) fullShare ((dat1 V c).after 2 t) from by
    unfold Dat.leavesExact; rw [rowsum_live t], after1_2]
  have hN : t.val < 128 := lt_of_lt_of_eq t.isLt (show cfg1.N = 128 from N_1)
  by_cases h0 : t.val % 16 = 0
  · by_cases h1 : t.val % 16 = 15
    · exfalso; omega
    · rw [Dat.leavesExact_idle (dat1 V c) 3 t (out_idle t (fun h => h1 ((isLast_iff t).mp h))) (out_noFlush t (fun h => h1 ((isLast_iff t).mp h)))]
      rw [tileState_first V c t h0 h1]
      unfold accFirst; (try dsimp only)
      by_cases hz : t.val = 0
      · rw [accInv_castSucc V c t, accInv_zero V c _ _ hz, classInv_eq]
        iintro ⟨⟨⟨HR0, HR1, HR2, HR3, HR4, HR5, HR6, HR7, HR8, HR9, HS⟩, Hg⟩, Ho, ⟨%d0, H0⟩, ⟨%d1, H1⟩, ⟨%d2, H2⟩, ⟨%d3, H3⟩⟩
        iapply ((runFirst c (grid1.coords t) _ _ _ _ _ _ _ _ _ _ ((isFirst_iff t).mpr h0) (fun h => h1 ((isLast_iff t).mp h)) (blockAt V c 0 t) (blockAt V c 1 t) (blockAt V c 2 t)).2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HR0 HR1 HR2 HR3 HR4 HR5 HR6 HR7 HR8 HR9 HS Hg]
        · isplitl [HR0 HR1 HR2 HR3 HR4 HR5 HR6 HR7 HR8 HR9 HS]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            unfold owns; iexists _; isplitr
            swap; · iexact HS
            ipureintro; exact View.read_writes_of_cover _ _ _ _ _ (accCover_first c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [accInv_castSucc V c t, accInv_pos V c _ _ hz]
        iintro ⟨⟨⟨HR0, HR1, HR2, HR3, HR4, HR5, HR6, HR7, HR8, HR9, HS⟩, Hg⟩, Ho, ⟨%d0, H0⟩, ⟨%d1, H1⟩, ⟨%d2, H2⟩, ⟨%d3, H3⟩⟩
        iapply ((runFirst c (grid1.coords t) _ _ _ _ _ _ _ _ _ _ ((isFirst_iff t).mpr h0) (fun h => h1 ((isLast_iff t).mp h)) (blockAt V c 0 t) (blockAt V c 1 t) (blockAt V c 2 t)).2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HR0 HR1 HR2 HR3 HR4 HR5 HR6 HR7 HR8 HR9 HS Hg]
        · isplitl [HR0 HR1 HR2 HR3 HR4 HR5 HR6 HR7 HR8 HR9 HS]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            unfold owns; iexists _; isplitr
            swap; · iexact HS
            ipureintro; exact View.read_writes_of_cover _ _ _ _ _ (accCover_first c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 16 = 15
    · rw [show (dat1 V c).leavesExact 3 t = owns (c : Thread nD τ) (outBuf t) fullShare ((dat1 V c).after 3 t) from by
        unfold Dat.leavesExact; rw [out_live t ((isLast_iff t).mpr h1)], after1_3]
      rw [tileState_last V c t h0 h1]
      unfold outLast accLast; (try dsimp only)
      rw [accInv_castSucc V c t, accInv_pos V c _ _ hz]
      iintro ⟨⟨⟨HR0, HR1, HR2, HR3, HR4, HR5, HR6, HR7, HR8, HR9, HS⟩, Hg⟩, Ho, ⟨%d0, H0⟩, ⟨%d1, H1⟩, ⟨%d2, H2⟩, ⟨%d3, H3⟩⟩
      iapply ((runLast c (grid1.coords t) _ _ _ _ _ _ _ _ _ _ (fun h => h0 ((isFirst_iff t).mp h)) ((isLast_iff t).mpr h1) (blockAt V c 0 t) (blockAt V c 1 t) (blockAt V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HR0 HR1 HR2 HR3 HR4 HR5 HR6 HR7 HR8 HR9 HS Hg]
      · isplitl [HR0 HR1 HR2 HR3 HR4 HR5 HR6 HR7 HR8 HR9 HS]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          unfold owns; iexists _; isplitr
          swap; · iexact HS
          ipureintro; exact View.read_writes_of_cover _ _ _ _ _ (accCover_last c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outCover_last c _ _ _ _ _ _ _ _ _ _ _ _ _ _ _ _ _)
    · rw [Dat.leavesExact_idle (dat1 V c) 3 t (out_idle t (fun h => h1 ((isLast_iff t).mp h))) (out_noFlush t (fun h => h1 ((isLast_iff t).mp h)))]
      rw [tileState_mid V c t h0 h1]
      unfold accMid; (try dsimp only)
      rw [accInv_castSucc V c t, accInv_pos V c _ _ hz]
      iintro ⟨⟨⟨HR0, HR1, HR2, HR3, HR4, HR5, HR6, HR7, HR8, HR9, HS⟩, Hg⟩, Ho, ⟨%d0, H0⟩, ⟨%d1, H1⟩, ⟨%d2, H2⟩, ⟨%d3, H3⟩⟩
      iapply ((runMid c (grid1.coords t) _ _ _ _ _ _ _ _ _ _ (fun h => h0 ((isFirst_iff t).mp h)) (fun h => h1 ((isLast_iff t).mp h)) (blockAt V c 0 t) (blockAt V c 1 t) (blockAt V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HR0 HR1 HR2 HR3 HR4 HR5 HR6 HR7 HR8 HR9 HS Hg]
      · isplitl [HR0 HR1 HR2 HR3 HR4 HR5 HR6 HR7 HR8 HR9 HS]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          unfold owns; iexists _; isplitr
          swap; · iexact HS
          ipureintro; exact View.read_writes_of_cover _ _ _ _ _ (accCover_mid c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The obligation the pipeline's loop asks of the column kernel: the step's triple at every grid point, its four
    windows conjoined. -/
theorem body_obligation1 (c : Dev nD) : BodyObligation (dat1 (F := F) V c) (defs₀ (F := F)) Variants.none () Set.univ := fun t => by
  rw [bigSep_W1, bigSep_W1]
  exact sound_body1 V c t

/-! ## The invariant at the region's two ends -/

/-- Entering the region: with the accumulator at anything, the invariant holds before the first step. -/
theorem hin1 (c : Dev nD) : Pipeline.ΦA spec1 c ⊢ (dat1 V c).Φ 0 := by
  rw [show (dat1 V c).Φ 0 = accInv V c 0 (Nat.zero_le _) from rfl, accInv_zero V c 0 _ rfl]
  try exact Idealize.SL.BI.Entails.refl _

/-- Once a step has run, the invariant still implies the weaker one in which the accumulator holds anything:
    what it holds is simply not said. -/
theorem accInv_forget (c : Dev nD) (t : Fin (cfg1.N + 1)) (ht : t.val ≠ 0) : (dat1 V c).Φ t ⊢ Pipeline.ΦA spec1 c := by
  rw [show (dat1 V c).Φ t = accInv V c t.val (Nat.le_of_lt_succ t.isLt) from rfl, accInv_pos V c _ _ ht, classInv_eq]
  iintro ⟨⟨HR0, HR1, HR2, HR3, HR4, HR5, HR6, HR7, HR8, HR9, HS⟩, Hg⟩
  isplitl [HR0 HR1 HR2 HR3 HR4 HR5 HR6 HR7 HR8 HR9 HS]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    iexists _; iexact HS
  iexact Hg

/-- Leaving the region, after the 128th step. -/
theorem hout1 (c : Dev nD) : (dat1 V c).Φ (Fin.last cfg1.N) ⊢ Pipeline.ΦA spec1 c :=
  accInv_forget V c _ (by rw [Fin.val_last]; have : cfg1.N = 128 := N_1; omega)

end Region

end Cert.Kernel.Region1

end
-- ==== Proof.BitsFrameRun.lean ====
import proofs.«120229_j77704548319709_2_alg».proof.Proof.BitsFrameAssembly
import proofs.«120229_j77704548319709_2_alg».proof.Proof.BitsRegion0
import proofs.«120229_j77704548319709_2_alg».proof.Proof.BitsRegion1

/-!
# The program's run, at the two kernels' proof data

The assembly of the run from any two regions' proof data, read at the row kernel's and the column kernel's: the
frame claim, and the same run with every unscoped buffer — the result buffer among them — read off the last
valuation.
-/

noncomputable section

namespace Cert.Kernel.Assembly

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)

variable {F : FTy → Type} [FloatOps F]

/-- What is given of the row kernel's region: its proof data, held at full shares, owing nothing, recording no bound. -/
def rowGiven : RowKernelGiven F where
  dat := Region0.dat0
  A_eq := Region0.A_eq0
  share V c := (Region0.dat0 V c).share_full fun _ => rfl
  owed _ _ _ := rfl
  recorded _ _ _ := rfl
  body := Region0.body_obligation0
  hin := Region0.hin0
  hout := Region0.hout0

/-- What is given of the column kernel's region. -/
def colGiven : ColKernelGiven F where
  dat := Region1.dat1
  A_eq := Region1.A_eq1
  share V c := (Region1.dat1 V c).share_full fun _ => rfl
  owed _ _ _ := rfl
  recorded _ _ _ := rfl
  body := Region1.body_obligation1
  hin := Region1.hin1
  hout := Region1.hout1

variable (m : (ℓ : Loc nD τ sig) → Buf (Elt F) ℓ) (ρ : Dev nD → PrngReg)

/-- What the two regions leave in the buffers they may change, at the two kernels' proof data. -/
abbrev leftOver : Outs (F := F) := leftByKernels m rowGiven colGiven

/-- Region 0 leaves the row-normalised product at its proof data's final array of window 2, -/
theorem leftOver_normalised (c : Dev nD) : leftOver m 10 main_v85_0 c = (Region0.dat0 (beforeRows m) c).arrAt 2 cfg0.N := left_normalised m rowGiven colGiven c
/-- the row sums at that of window 3; -/
theorem leftOver_rowSums (c : Dev nD) : leftOver m 10 main_v85_1 c = (Region0.dat0 (beforeRows m) c).arrAt 3 cfg0.N := left_rowSums m rowGiven colGiven c
/-- region 1, entered from those, leaves the column product at its proof data's final array of window 3. -/
theorem leftOver_colProduct (c : Dev nD) : leftOver m 11 main_v86 c = (Region1.dat1 (beforeCols m rowGiven) c).arrAt 3 cfg1.N := left_colProduct m rowGiven colGiven c

/-- THE FRAME of the program: it ends, and no argument array has changed. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  frame_of m ρ rowGiven colGiven

/-- THE RUN: any post that follows from reading every unscoped buffer off the last valuation holds of every final state. -/
theorem run_reads {Q : PUnit × MemSt nD τ sig (Elt F) → Prop}
    (hQ : ∀ s : MemSt nD τ sig (Elt F),
      (∀ c : Dev nD, ∀ b ∈ Pipeline.ucRefs τ sig, s.mem (((c : Thread nD τ)).1, b) = V19 m (leftOver m) c b) → Q (⟨⟩, s)) :
    θ_run defs (onTc (τ := τ) (main (F := F))) ⟨m, fun _ => 0, ρ⟩ Q :=
  run_reads_of m ρ rowGiven colGiven hQ

/-- THE RUN WITH THE RESULT NAMED: the arguments as launched, the result buffer at the last valuation. -/
theorem run_result : θ_run defs (onTc (τ := τ) (main (F := F))) ⟨m, fun _ => 0, ρ⟩ (fun r => ∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20))
      ∧ r.2.mem ((c.tc : Thread nD τ).loc main_v131) = V19 m (leftOver m) c main_v131) :=
  run_result_of m ρ rowGiven colGiven

end Cert.Kernel.Assembly

end
-- ==== Proof.RefTailDef.lean ====
/-
  The reference's last stretch, named: from the pre-normalisation activations `h0` (rows of nodes, 512 features) and
  the row-validity mask `valid` to the result. It is layer normalisation over the features (mean, centred second
  moment, reciprocal square root with the f32 word 0x3727C5AC added, scale and shift), relu, a linear layer, relu,
  zeroing of the rows that are not valid, a last linear layer and relu — one function of `(h0, valid)` and the six
  parameter arrays it reads. The stretch is only named here, never opened.
-/
import proofs.«120229_j77704548319709_2_alg».proof.ReferenceIdeal
import proofs.«120229_j77704548319709_2_alg».proof.Proof.Gen.ReferenceIdeal
import Idealize.ShloMosaic.PureOps.Ideal

noncomputable section

namespace Cert.RefValue

open Cert.ReferenceIdeal Cert.ReferenceIdeal.Gen Idealize.ShloMosaic Idealize.ShloMosaic.TcCoe Idealize.SL.Sem Idealize.ShloMosaic.StableHlo

/-- Everything the reference does after `h0` and `valid`, as one function of them and of the parameters it reads. -/
def tailR (h0 : (⟨S8192x512, .f32⟩ : BufTy).Contents (Elt Ideal)) (valid : (⟨S8192, .i1⟩ : BufTy).Contents (Elt Ideal))
    (x14 : (⟨S512, .f32⟩ : BufTy).Contents (Elt Ideal)) (x15 : (⟨S512, .f32⟩ : BufTy).Contents (Elt Ideal)) (x16 : (⟨S512x512, .f32⟩ : BufTy).Contents (Elt Ideal)) (x17 : (⟨S512, .f32⟩ : BufTy).Contents (Elt Ideal)) (x18 : (⟨S512x2048, .f32⟩ : BufTy).Contents (Elt Ideal)) (x19 : (⟨S2048, .f32⟩ : BufTy).Contents (Elt Ideal)) :
    (⟨S8192x2048, .f32⟩ : BufTy).Contents (Elt Ideal) :=
  (maximumf (addf (Host.dotGeneral (F := Ideal) (φ₂ := .f32) dot_S8192x512_S512x2048_S8192x2048_1_0_0_1_n_n none (select (broadcastInDim S8192x512 ![0, 1] bcast_S8192x1_S8192x512_0_1 (broadcastInDim S8192x1 ![0] bcast_S8192_S8192x1_0 valid)) (maximumf (addf (Host.dotGeneral (F := Ideal) (φ₂ := .f32) dot_S8192x512_S512x512_S8192x512_1_0_0_1_n_n none (maximumf (addf (mulf (mulf (subf h0 (broadcastInDim S8192x512 ![0, 1] bcast_S8192x1_S8192x512_0_1 (Host.divf (F := Ideal) (broadcastInDim S8192x1 ![0] bcast_S8192_S8192x1_0 (Host.reduceAdd (F := Ideal) h0 (constant (F := Ideal) S_ .f32 0x00000000#32) reducesTo_S8192x512_S8192_d1 h_S_)) (broadcastInDim S8192x1 ![] bcast_S_S8192x1 (constant (F := Ideal) S_ .f32 0x44000000#32))))) (broadcastInDim S8192x512 ![0, 1] bcast_S8192x1_S8192x512_0_1 (Host.rsqrt (F := Ideal) (addf (Host.divf (F := Ideal) (broadcastInDim S8192x1 ![0] bcast_S8192_S8192x1_0 (Host.reduceAdd (F := Ideal) (mulf (subf h0 (broadcastInDim S8192x512 ![0, 1] bcast_S8192x1_S8192x512_0_1 (Host.divf (F := Ideal) (broadcastInDim S8192x1 ![0] bcast_S8192_S8192x1_0 (Host.reduceAdd (F := Ideal) h0 (constant (F := Ideal) S_ .f32 0x00000000#32) reducesTo_S8192x512_S8192_d1 h_S_)) (broadcastInDim S8192x1 ![] bcast_S_S8192x1 (constant (F := Ideal) S_ .f32 0x44000000#32))))) (subf h0 (broadcastInDim S8192x512 ![0, 1] bcast_S8192x1_S8192x512_0_1 (Host.divf (F := Ideal) (broadcastInDim S8192x1 ![0] bcast_S8192_S8192x1_0 (Host.reduceAdd (F := Ideal) h0 (constant (F := Ideal) S_ .f32 0x00000000#32) reducesTo_S8192x512_S8192_d1 h_S_)) (broadcastInDim S8192x1 ![] bcast_S_S8192x1 (constant (F := Ideal) S_ .f32 0x44000000#32)))))) (constant (F := Ideal) S_ .f32 0x00000000#32) reducesTo_S8192x512_S8192_d1 h_S_)) (broadcastInDim S8192x1 ![] bcast_S_S8192x1 (constant (F := Ideal) S_ .f32 0x44000000#32))) (broadcastInDim S8192x1 ![] bcast_S_S8192x1 (constant (F := Ideal) S_ .f32 0x3727C5AC#32)))))) (broadcastInDim S8192x512 ![0, 1] bcast_S1x512_S8192x512_0_1 (broadcastInDim S1x512 ![1] bcast_S512_S1x512_1 (x14)))) (broadcastInDim S8192x512 ![0, 1] bcast_S1x512_S8192x512_0_1 (broadcastInDim S1x512 ![1] bcast_S512_S1x512_1 (x15)))) (broadcastInDim S8192x512 ![] bcast_S_S8192x512 (constant (F := Ideal) S_ .f32 0x00000000#32))) (x16)) (broadcastInDim S8192x512 ![0, 1] bcast_S1x512_S8192x512_0_1 (broadcastInDim S1x512 ![1] bcast_S512_S1x512_1 (x17)))) (broadcastInDim S8192x512 ![] bcast_S_S8192x512 (constant (F := Ideal) S_ .f32 0x00000000#32))) (broadcastInDim S8192x512 ![] bcast_S_S8192x512 (id (constant (F := Ideal) S_ .f32 0x00000000#32)))) (x18)) (broadcastInDim S8192x2048 ![0, 1] bcast_S1x2048_S8192x2048_0_1 (broadcastInDim S1x2048 ![1] bcast_S2048_S1x2048_1 (x19)))) (broadcastInDim S8192x2048 ![] bcast_S_S8192x2048 (constant (F := Ideal) S_ .f32 0x00000000#32)))

end Cert.RefValue

end
-- ==== Proof.RefTail.lean ====
/-
  The reference's last stretch: from the pre-normalisation activations `h0` (rows of nodes, 512 features) and the
  row-validity mask `valid` to the result. It is layer normalisation over the features (mean, centred second moment,
  reciprocal square root with the f32 word 0x3727C5AC added, scale and shift), relu, a linear layer, relu, zeroing of the
  rows that are not valid, a last linear layer and relu. That stretch is named as one function `tailR` of `(h0, valid)` and the six
  parameter arrays it reads; this module states that the reference's result is that function of the
  reference's own `h0` and `valid` stages; the stretch is never opened.
-/
import proofs.«120229_j77704548319709_2_alg».proof.Proof.RefReadP
import proofs.«120229_j77704548319709_2_alg».proof.Proof.RefTailDef

noncomputable section

namespace Cert.RefValue

open Cert.ReferenceIdeal Cert.ReferenceIdeal.Gen Cert.ReferenceIdeal.ReadP Idealize.ShloMosaic Idealize.ShloMosaic.TcCoe Idealize.SL.Sem Idealize.ShloMosaic.StableHlo

/-- The reference's result is the last stretch applied to its own `h0` (stage 96) and `valid` (stage 129). -/
theorem val_main_v136_eq_tailR (x0 : (⟨S8192x2048, .f32⟩ : BufTy).Contents (Elt Ideal)) (x1 : (⟨S131072x2048, .f32⟩ : BufTy).Contents (Elt Ideal)) (x2 : (⟨S2048x512, .f32⟩ : BufTy).Contents (Elt Ideal)) (x3 : (⟨S512, .f32⟩ : BufTy).Contents (Elt Ideal)) (x4 : (⟨S2048x512, .f32⟩ : BufTy).Contents (Elt Ideal)) (x5 : (⟨S512, .f32⟩ : BufTy).Contents (Elt Ideal)) (x6 : (⟨S2048x512, .f32⟩ : BufTy).Contents (Elt Ideal)) (x7 : (⟨S512, .f32⟩ : BufTy).Contents (Elt Ideal)) (x8 : (⟨S512x32, .f32⟩ : BufTy).Contents (Elt Ideal)) (x9 : (⟨S32, .f32⟩ : BufTy).Contents (Elt Ideal)) (x10 : (⟨S2048x1024, .f32⟩ : BufTy).Contents (Elt Ideal)) (x11 : (⟨S1024, .f32⟩ : BufTy).Contents (Elt Ideal)) (x12 : (⟨S2048x512, .f32⟩ : BufTy).Contents (Elt Ideal)) (x13 : (⟨S512, .f32⟩ : BufTy).Contents (Elt Ideal)) (x14 : (⟨S512, .f32⟩ : BufTy).Contents (Elt Ideal)) (x15 : (⟨S512, .f32⟩ : BufTy).Contents (Elt Ideal)) (x16 : (⟨S512x512, .f32⟩ : BufTy).Contents (Elt Ideal)) (x17 : (⟨S512, .f32⟩ : BufTy).Contents (Elt Ideal)) (x18 : (⟨S512x2048, .f32⟩ : BufTy).Contents (Elt Ideal)) (x19 : (⟨S2048, .f32⟩ : BufTy).Contents (Elt Ideal)) (x20 : (⟨S131072x2, .i32⟩ : BufTy).Contents (Elt Ideal)) :
    val_main_v136 (F := Ideal) x0 x1 x2 x3 x4 x5 x6 x7 x8 x9 x10 x11 x12 x13 x14 x15 x16 x17 x18 x19 x20 =
      tailR (val_main_v96 (F := Ideal) x0 x1 x2 x3 x4 x5 x6 x7 x8 x9 x10 x11 x12 x13 x20) (val_main_v129 (F := Ideal) x0 x1 x2 x3 x4 x5 x6 x7 x8 x9 x20) x14 x15 x16 x17 x18 x19 := rfl

end Cert.RefValue

end
-- ==== Proof.RefStages.lean ====
/-
  The reference's attention stages read at an index, from the scattered arrays to the pre-normalisation activations.
  With `aex` the scattered gate array (stage 57), `mask` the scattered ones (stage 73) and `M'` the maximum of all of
  `aex` (stage 74, a scalar): `aexp = exp (aex - M') * mask` (stage 78), `atten = aexp / (rowsum aexp + ε)`
  (stage 84), `msg = inst @ msg_w + msg_b` (stage 88), `mfeat = [atten @ msg , attenᵀ @ msg]` (stage 92, the two halves
  side by side), `h0' = mfeat @ o1_w + o1_b` (stage 96), and `valid' = (rowsum atten ≠ 0)` (stage 129).
  Every statement reads one stage at coordinates from the stages it is computed from at coordinates.
-/
import proofs.«120229_j77704548319709_2_alg».proof.Proof.RefReadP

noncomputable section

namespace Cert.RefValue

open Cert.ReferenceIdeal Cert.ReferenceIdeal.Gen Cert.ReferenceIdeal.ReadP Idealize.ShloMosaic Idealize.ShloMosaic.TcCoe Idealize.SL.Sem Idealize.ShloMosaic.StableHlo

open Idealize.ShloMosaic.ValueIdx

/-! ## The index functions of the generated read lemmas, at coordinates -/

theorem idx75 (i : S8192x8192.Idx) : idx_main_v75 i = ix0 := rfl
theorem idx79 (n k : Fin 8192) : idx_main_v79 (ix1 n) k = ix2 n k := funext (fun a => by match a with | ⟨0, _⟩ => rfl | ⟨1, _⟩ => rfl)
theorem idx80_83 (n o : Fin 8192) : idx_main_v80 (idx_main_v83 (ix2 n o)) = ix1 n := funext fun a => by match a with | ⟨0, _⟩ => rfl
theorem idx127 (n k : Fin 8192) : idx_main_v127 (ix1 n) k = ix2 n k := funext (fun a => by match a with | ⟨0, _⟩ => rfl | ⟨1, _⟩ => rfl)
theorem idx90 (n o : Fin 8192) : idx_main_v90 (ix2 n o) = ix2 o n := funext (fun a => by match a with | ⟨0, _⟩ => rfl | ⟨1, _⟩ => rfl)
theorem lidx85 (k : Fin 8192) (d : Fin 1024) (e : Fin 2048) : lidx_main_v85 (ix2 k d) e = ix2 k e := funext (fun a => by match a with | ⟨0, _⟩ => rfl | ⟨1, _⟩ => rfl)
theorem ridx85 (k : Fin 8192) (d : Fin 1024) (e : Fin 2048) : ridx_main_v85 (ix2 k d) e = ix2 e d := funext (fun a => by match a with | ⟨0, _⟩ => rfl | ⟨1, _⟩ => rfl)
theorem idx86_87 (k : Fin 8192) (d : Fin 1024) : idx_main_v86 (idx_main_v87 (ix2 k d)) = ix1 d := funext fun a => by match a with | ⟨0, _⟩ => rfl
theorem lidx89 (n : Fin 8192) (j : Fin 1024) (k : Fin 8192) : lidx_main_v89 (ix2 n j) k = ix2 n k := funext (fun a => by match a with | ⟨0, _⟩ => rfl | ⟨1, _⟩ => rfl)
theorem ridx89 (n : Fin 8192) (j : Fin 1024) (k : Fin 8192) : ridx_main_v89 (ix2 n j) k = ix2 k j := funext (fun a => by match a with | ⟨0, _⟩ => rfl | ⟨1, _⟩ => rfl)
theorem lidx91 (n : Fin 8192) (j : Fin 1024) (k : Fin 8192) : lidx_main_v91 (ix2 n j) k = ix2 n k := funext (fun a => by match a with | ⟨0, _⟩ => rfl | ⟨1, _⟩ => rfl)
theorem ridx91 (n : Fin 8192) (j : Fin 1024) (k : Fin 8192) : ridx_main_v91 (ix2 n j) k = ix2 k j := funext (fun a => by match a with | ⟨0, _⟩ => rfl | ⟨1, _⟩ => rfl)
theorem lidx93 (n : Fin 8192) (c : Fin 512) (j : Fin 2048) : lidx_main_v93 (ix2 n c) j = ix2 n j := funext (fun a => by match a with | ⟨0, _⟩ => rfl | ⟨1, _⟩ => rfl)
theorem ridx93 (n : Fin 8192) (c : Fin 512) (j : Fin 2048) : ridx_main_v93 (ix2 n c) j = ix2 j c := funext (fun a => by match a with | ⟨0, _⟩ => rfl | ⟨1, _⟩ => rfl)
theorem idx94_95 (n : Fin 8192) (c : Fin 512) : idx_main_v94 (idx_main_v95 (ix2 n c)) = ix1 c := funext fun a => by match a with | ⟨0, _⟩ => rfl

/-! ## The stages -/

/-- `aexp` at `(n, o)`: the exponential of `aex` there less the maximum, times the mask there. -/
theorem v78_at (x0 : (⟨S8192x2048, .f32⟩ : BufTy).Contents (Elt Ideal)) (x1 : (⟨S131072x2048, .f32⟩ : BufTy).Contents (Elt Ideal)) (x2 : (⟨S2048x512, .f32⟩ : BufTy).Contents (Elt Ideal)) (x3 : (⟨S512, .f32⟩ : BufTy).Contents (Elt Ideal)) (x4 : (⟨S2048x512, .f32⟩ : BufTy).Contents (Elt Ideal)) (x5 : (⟨S512, .f32⟩ : BufTy).Contents (Elt Ideal)) (x6 : (⟨S2048x512, .f32⟩ : BufTy).Contents (Elt Ideal)) (x7 : (⟨S512, .f32⟩ : BufTy).Contents (Elt Ideal)) (x8 : (⟨S512x32, .f32⟩ : BufTy).Contents (Elt Ideal)) (x9 : (⟨S32, .f32⟩ : BufTy).Contents (Elt Ideal)) (x20 : (⟨S131072x2, .i32⟩ : BufTy).Contents (Elt Ideal)) (n o : Fin 8192) :
    val_main_v78 (F := Ideal) x0 x1 x2 x3 x4 x5 x6 x7 x8 x9 x20 (ix2 n o) =
      Ideal.exp (val_main_v57 (F := Ideal) x0 x1 x2 x3 x4 x5 x6 x7 x8 x9 x20 (ix2 n o) - val_main_v74 (F := Ideal) x0 x1 x2 x3 x4 x5 x6 x7 x8 x9 x20 ix0) * val_main_v73 (F := Ideal) x20 (ix2 n o) := by
  rw [val_main_v78_apply, val_main_v77_apply, val_main_v76_apply, val_main_v75_apply, idx75]
  simp only [Ideal.mulf_def, Ideal.hostUnary_exp_def, Ideal.subf_def]

/-- `atten` at `(n, o)`: `aexp` there over its row's sum plus `ε`. -/
theorem v84_at (x0 : (⟨S8192x2048, .f32⟩ : BufTy).Contents (Elt Ideal)) (x1 : (⟨S131072x2048, .f32⟩ : BufTy).Contents (Elt Ideal)) (x2 : (⟨S2048x512, .f32⟩ : BufTy).Contents (Elt Ideal)) (x3 : (⟨S512, .f32⟩ : BufTy).Contents (Elt Ideal)) (x4 : (⟨S2048x512, .f32⟩ : BufTy).Contents (Elt Ideal)) (x5 : (⟨S512, .f32⟩ : BufTy).Contents (Elt Ideal)) (x6 : (⟨S2048x512, .f32⟩ : BufTy).Contents (Elt Ideal)) (x7 : (⟨S512, .f32⟩ : BufTy).Contents (Elt Ideal)) (x8 : (⟨S512x32, .f32⟩ : BufTy).Contents (Elt Ideal)) (x9 : (⟨S32, .f32⟩ : BufTy).Contents (Elt Ideal)) (x20 : (⟨S131072x2, .i32⟩ : BufTy).Contents (Elt Ideal)) (n o : Fin 8192) :
    val_main_v84 (F := Ideal) x0 x1 x2 x3 x4 x5 x6 x7 x8 x9 x20 (ix2 n o) =
      Ideal.div (val_main_v78 (F := Ideal) x0 x1 x2 x3 x4 x5 x6 x7 x8 x9 x20 (ix2 n o))
        ((Ideal.ofBits .f32 0x00000000#32 + ∑ k : Fin 8192, val_main_v78 (F := Ideal) x0 x1 x2 x3 x4 x5 x6 x7 x8 x9 x20 (ix2 n k)) + Ideal.ofBits .f32 0x358637BD#32) := by
  rw [val_main_v84_apply, val_main_v83_apply, val_main_v82_apply, val_main_v80_apply, val_main_v79_apply,
    val_main_v81_apply, idx80_83]
  simp only [idx79]
  rfl

/-- `msg` at `(k, d)`: row `k` of the instance features times column `d` of the message weights, plus the bias. -/
theorem v88_at (x0 : (⟨S8192x2048, .f32⟩ : BufTy).Contents (Elt Ideal)) (x10 : (⟨S2048x1024, .f32⟩ : BufTy).Contents (Elt Ideal)) (x11 : (⟨S1024, .f32⟩ : BufTy).Contents (Elt Ideal)) (k : Fin 8192) (d : Fin 1024) :
    val_main_v88 (F := Ideal) x0 x10 x11 (ix2 k d) = (∑ e : Fin 2048, x0 (ix2 k e) * x10 (ix2 e d)) + x11 (ix1 d) := by
  rw [val_main_v88_apply, val_main_v85_apply, val_main_v87_apply, val_main_v86_apply, idx86_87]
  simp only [lidx85, ridx85]
  rfl

/-- `atten @ msg` at `(n, j)`. -/
theorem v89_at (x0 : (⟨S8192x2048, .f32⟩ : BufTy).Contents (Elt Ideal)) (x1 : (⟨S131072x2048, .f32⟩ : BufTy).Contents (Elt Ideal)) (x2 : (⟨S2048x512, .f32⟩ : BufTy).Contents (Elt Ideal)) (x3 : (⟨S512, .f32⟩ : BufTy).Contents (Elt Ideal)) (x4 : (⟨S2048x512, .f32⟩ : BufTy).Contents (Elt Ideal)) (x5 : (⟨S512, .f32⟩ : BufTy).Contents (Elt Ideal)) (x6 : (⟨S2048x512, .f32⟩ : BufTy).Contents (Elt Ideal)) (x7 : (⟨S512, .f32⟩ : BufTy).Contents (Elt Ideal)) (x8 : (⟨S512x32, .f32⟩ : BufTy).Contents (Elt Ideal)) (x9 : (⟨S32, .f32⟩ : BufTy).Contents (Elt Ideal)) (x10 : (⟨S2048x1024, .f32⟩ : BufTy).Contents (Elt Ideal)) (x11 : (⟨S1024, .f32⟩ : BufTy).Contents (Elt Ideal)) (x20 : (⟨S131072x2, .i32⟩ : BufTy).Contents (Elt Ideal)) (n : Fin 8192) (j : Fin 1024) :
    val_main_v89 (F := Ideal) x0 x1 x2 x3 x4 x5 x6 x7 x8 x9 x10 x11 x20 (ix2 n j) = ∑ k : Fin 8192, val_main_v84 (F := Ideal) x0 x1 x2 x3 x4 x5 x6 x7 x8 x9 x20 (ix2 n k) * val_main_v88 (F := Ideal) x0 x10 x11 (ix2 k j) := by
  rw [val_main_v89_apply]
  simp only [lidx89, ridx89]

/-- `attenᵀ @ msg` at `(n, j)`: the sum runs down column `n` of `atten`. -/
theorem v91_at (x0 : (⟨S8192x2048, .f32⟩ : BufTy).Contents (Elt Ideal)) (x1 : (⟨S131072x2048, .f32⟩ : BufTy).Contents (Elt Ideal)) (x2 : (⟨S2048x512, .f32⟩ : BufTy).Contents (Elt Ideal)) (x3 : (⟨S512, .f32⟩ : BufTy).Contents (Elt Ideal)) (x4 : (⟨S2048x512, .f32⟩ : BufTy).Contents (Elt Ideal)) (x5 : (⟨S512, .f32⟩ : BufTy).Contents (Elt Ideal)) (x6 : (⟨S2048x512, .f32⟩ : BufTy).Contents (Elt Ideal)) (x7 : (⟨S512, .f32⟩ : BufTy).Contents (Elt Ideal)) (x8 : (⟨S512x32, .f32⟩ : BufTy).Contents (Elt Ideal)) (x9 : (⟨S32, .f32⟩ : BufTy).Contents (Elt Ideal)) (x10 : (⟨S2048x1024, .f32⟩ : BufTy).Contents (Elt Ideal)) (x11 : (⟨S1024, .f32⟩ : BufTy).Contents (Elt Ideal)) (x20 : (⟨S131072x2, .i32⟩ : BufTy).Contents (Elt Ideal)) (n : Fin 8192) (j : Fin 1024) :
    val_main_v91 (F := Ideal) x0 x1 x2 x3 x4 x5 x6 x7 x8 x9 x10 x11 x20 (ix2 n j) = ∑ k : Fin 8192, val_main_v84 (F := Ideal) x0 x1 x2 x3 x4 x5 x6 x7 x8 x9 x20 (ix2 k n) * val_main_v88 (F := Ideal) x0 x10 x11 (ix2 k j) := by
  rw [val_main_v91_apply]
  simp only [lidx91, ridx91, val_main_v90_apply, idx90]

/-- `h0'` at `(n, c)`: row `n` of `mfeat` times column `c` of the first output weights, plus the bias. -/
theorem v96_at (x0 : (⟨S8192x2048, .f32⟩ : BufTy).Contents (Elt Ideal)) (x1 : (⟨S131072x2048, .f32⟩ : BufTy).Contents (Elt Ideal)) (x2 : (⟨S2048x512, .f32⟩ : BufTy).Contents (Elt Ideal)) (x3 : (⟨S512, .f32⟩ : BufTy).Contents (Elt Ideal)) (x4 : (⟨S2048x512, .f32⟩ : BufTy).Contents (Elt Ideal)) (x5 : (⟨S512, .f32⟩ : BufTy).Contents (Elt Ideal)) (x6 : (⟨S2048x512, .f32⟩ : BufTy).Contents (Elt Ideal)) (x7 : (⟨S512, .f32⟩ : BufTy).Contents (Elt Ideal)) (x8 : (⟨S512x32, .f32⟩ : BufTy).Contents (Elt Ideal)) (x9 : (⟨S32, .f32⟩ : BufTy).Contents (Elt Ideal)) (x10 : (⟨S2048x1024, .f32⟩ : BufTy).Contents (Elt Ideal)) (x11 : (⟨S1024, .f32⟩ : BufTy).Contents (Elt Ideal)) (x12 : (⟨S2048x512, .f32⟩ : BufTy).Contents (Elt Ideal)) (x13 : (⟨S512, .f32⟩ : BufTy).Contents (Elt Ideal)) (x20 : (⟨S131072x2, .i32⟩ : BufTy).Contents (Elt Ideal)) (n : Fin 8192) (c : Fin 512) :
    val_main_v96 (F := Ideal) x0 x1 x2 x3 x4 x5 x6 x7 x8 x9 x10 x11 x12 x13 x20 (ix2 n c) = (∑ j : Fin 2048, val_main_v92 (F := Ideal) x0 x1 x2 x3 x4 x5 x6 x7 x8 x9 x10 x11 x20 (ix2 n j) * x12 (ix2 j c)) + x13 (ix1 c) := by
  rw [val_main_v96_apply, val_main_v93_apply, val_main_v95_apply, val_main_v94_apply, idx94_95]
  simp only [lidx93, ridx93]
  rfl

/-- `valid'` at `n`: whether row `n` of `atten` sums to something other than zero. -/
theorem v129_at (x0 : (⟨S8192x2048, .f32⟩ : BufTy).Contents (Elt Ideal)) (x1 : (⟨S131072x2048, .f32⟩ : BufTy).Contents (Elt Ideal)) (x2 : (⟨S2048x512, .f32⟩ : BufTy).Contents (Elt Ideal)) (x3 : (⟨S512, .f32⟩ : BufTy).Contents (Elt Ideal)) (x4 : (⟨S2048x512, .f32⟩ : BufTy).Contents (Elt Ideal)) (x5 : (⟨S512, .f32⟩ : BufTy).Contents (Elt Ideal)) (x6 : (⟨S2048x512, .f32⟩ : BufTy).Contents (Elt Ideal)) (x7 : (⟨S512, .f32⟩ : BufTy).Contents (Elt Ideal)) (x8 : (⟨S512x32, .f32⟩ : BufTy).Contents (Elt Ideal)) (x9 : (⟨S32, .f32⟩ : BufTy).Contents (Elt Ideal)) (x20 : (⟨S131072x2, .i32⟩ : BufTy).Contents (Elt Ideal)) (n : Fin 8192) :
    val_main_v129 (F := Ideal) x0 x1 x2 x3 x4 x5 x6 x7 x8 x9 x20 (ix1 n) =
      Ideal.cmp .une (Ideal.ofBits .f32 0x00000000#32 + ∑ k : Fin 8192, val_main_v84 (F := Ideal) x0 x1 x2 x3 x4 x5 x6 x7 x8 x9 x20 (ix2 n k)) (Ideal.ofBits .f32 0x00000000#32) := by
  rw [val_main_v129_apply, val_main_v127_apply, val_main_v128_apply]
  simp only [idx127]
  rfl

end Cert.RefValue

end
-- ==== Proof.Algebra.lean ====
/-
  The algebra that joins the two programs, over abstract finite index types, with every quantity a real number
  carried inside the extended reals.

  * a finite sum of reals computed in the extended reals is the real sum (`coe_sum`);
  * a weighted sum divided by (row sum + ε) is the sum of the weights each divided by (row sum + ε) times the
    value (`sum_div_eq`): the row-normalised attention applied to the messages, computed either way;
  * a weight times the reciprocal of (row sum + ε) is the weight divided by it (`mul_one_div_eq`);
  * a sum over 2048 columns is the sum over the first 1024 plus the sum over the last 1024 (`sum_split_1024`);
  * a sum over 8192 entries is the sum over 16 blocks of the sums over the 512 entries of each block
    (`sum_blocks`);
  * a sum of nonnegative reals is zero exactly when every term is (`sum_ne_zero_iff`).
-/
import Idealize.ShloMosaic.PureOps.Ideal
import Mathlib.Analysis.SpecialFunctions.Exp
import Mathlib.Algebra.BigOperators.Fin
import Mathlib.Data.EReal.Basic

noncomputable section

namespace Cert.Algebra

open Idealize.ShloMosaic

/-- A finite sum of real numbers, computed in the extended reals, is the real sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- Row-normalising first or last: with real weights `E`, real values `M` and a real `ε` such that the row sum plus
    `ε` is not zero, `(∑ E·M) / (∑ E + ε) = ∑ (E / (∑ E + ε)) · M`. -/
theorem sum_div_eq {ι : Type*} [Fintype ι] (E M : ι → ℝ) (eps : ℝ) (h : (∑ o, E o) + eps ≠ 0) :
    Ideal.div (∑ o, ((E o : ℝ) : EReal) * ((M o : ℝ) : EReal)) ((∑ o, ((E o : ℝ) : EReal)) + ((eps : ℝ) : EReal))
      = ∑ o, Ideal.div ((E o : ℝ) : EReal) ((∑ o', ((E o' : ℝ) : EReal)) + ((eps : ℝ) : EReal)) * ((M o : ℝ) : EReal) := by
  rw [coe_sum, ← EReal.coe_add]
  simp only [Ideal.div_coe h, ← EReal.coe_mul]
  rw [coe_sum, coe_sum, ← EReal.coe_mul]
  congr 1
  rw [Finset.sum_mul]
  exact Finset.sum_congr rfl fun o _ => by ring

/-- A real weight times the reciprocal of a nonzero real is the weight divided by it. -/
theorem mul_one_div_eq (e r : ℝ) (h : r ≠ 0) :
    ((e : ℝ) : EReal) * Ideal.div ((1 : ℝ) : EReal) ((r : ℝ) : EReal) = Ideal.div ((e : ℝ) : EReal) ((r : ℝ) : EReal) := by
  rw [Ideal.div_coe h, Ideal.div_coe h, EReal.coe_one, one_mul]

/-- A sum over 2048 columns is the sum over the first 1024 plus the sum over the last 1024. -/
theorem sum_split_1024 {α : Type*} [AddCommMonoid α] (f : Fin 2048 → α) :
    ∑ j : Fin 2048, f j = (∑ j : Fin 1024, f ⟨j.val, by omega⟩) + ∑ j : Fin 1024, f ⟨1024 + j.val, by omega⟩ := by
  have := Fin.sum_univ_add (M := α) (a := 1024) (b := 1024) (fun j => f j)
  simpa [Fin.castAdd, Fin.natAdd, Fin.castLE] using this

/-- A sum over 8192 entries is the sum, over 16 blocks, of the sums over the 512 entries of each block. -/
theorem sum_blocks {α : Type*} [AddCommMonoid α] (f : Fin 8192 → α) :
    ∑ o : Fin 8192, f o = ∑ k : Fin 16, ∑ q : Fin 512, f ⟨512 * k.val + q.val, by omega⟩ := by
  rw [← Finset.sum_product', Finset.univ_product_univ]
  symm
  refine Fintype.sum_equiv (finProdFinEquiv (m := 16) (n := 512)) _ _ fun x => ?_
  congr 1
  apply Fin.ext
  simp only [finProdFinEquiv, Equiv.coe_fn_mk]
  omega

/-- A sum of nonnegative reals is not zero exactly when some term is not zero. -/
theorem sum_ne_zero_iff {ι : Type*} [Fintype ι] (f : ι → ℝ) (h : ∀ i, 0 ≤ f i) :
    (∑ i, f i) ≠ 0 ↔ ∃ i, f i ≠ 0 := by
  rw [Ne, Finset.sum_eq_zero_iff_of_nonneg (fun i _ => h i)]
  simp only [Finset.mem_univ, true_imp_iff, not_forall]

/-- The maximum of a table that holds the value `g i` at the place `pos i` of every pair and `0` at every other place
    is the maximum of the values, when every value is nonnegative and there is at least one pair: a place holds either
    some `g i` or `0 ≤ g i₀`, and every `g i` sits at its own place. -/
theorem sup_table_eq {ι P : Type*} [Fintype ι] [Fintype P] [Nonempty ι] (g : ι → EReal) (hg : ∀ i, 0 ≤ g i)
    (a : P → EReal) (pos : ι → P) (hhit : ∀ i, a (pos i) = g i) (hmiss : ∀ p, (∀ i, pos i ≠ p) → a p = 0) :
    Finset.univ.sup a = Finset.univ.sup g := by
  classical
  apply le_antisymm
  · refine Finset.sup_le fun p _ => ?_
    by_cases hp : ∃ i, pos i = p
    · obtain ⟨i, rfl⟩ := hp
      rw [hhit]
      exact Finset.le_sup (f := g) (Finset.mem_univ i)
    · rw [hmiss p (fun i hi => hp ⟨i, hi⟩)]
      exact (hg (Classical.arbitrary ι)).trans (Finset.le_sup (f := g) (Finset.mem_univ _))
  · refine Finset.sup_le fun i _ => ?_
    rw [← hhit i]
    exact Finset.le_sup (f := a) (Finset.mem_univ (pos i))

/-- A maximum folded from the bottom of the extended reals is the supremum. -/
theorem fold_max_bot {ι : Type*} (s : Finset ι) (f : ι → EReal) : s.fold max ⊥ f = s.sup f := rfl

end Cert.Algebra

end
-- ==== Proof.RefConcat.lean ====
/-
  `mfeat` (stage 92) is the two products side by side: columns `[0, 1024)` are `atten @ msg` (stage 89), columns
  `[1024, 2048)` are `attenᵀ @ msg` (stage 91). So `h0' = mfeat @ o1_w + o1_b` (stage 96) is the first product times
  the upper 1024 rows of the weights plus the second product times the lower 1024 rows, plus the bias.
-/
import proofs.«120229_j77704548319709_2_alg».proof.Proof.RefStages
import proofs.«120229_j77704548319709_2_alg».proof.Proof.Algebra

noncomputable section

namespace Cert.RefValue

open Cert.ReferenceIdeal Cert.ReferenceIdeal.Gen Cert.ReferenceIdeal.ReadP Idealize.ShloMosaic Idealize.ShloMosaic.TcCoe Idealize.SL.Sem Idealize.ShloMosaic.StableHlo
open Idealize.ShloMosaic.ValueIdx

/-- The left half of `mfeat`: column `j < 1024` is `atten @ msg` at column `j`. -/
theorem v92_left (x0 : (⟨S8192x2048, .f32⟩ : BufTy).Contents (Elt Ideal)) (x1 : (⟨S131072x2048, .f32⟩ : BufTy).Contents (Elt Ideal)) (x2 : (⟨S2048x512, .f32⟩ : BufTy).Contents (Elt Ideal)) (x3 : (⟨S512, .f32⟩ : BufTy).Contents (Elt Ideal)) (x4 : (⟨S2048x512, .f32⟩ : BufTy).Contents (Elt Ideal)) (x5 : (⟨S512, .f32⟩ : BufTy).Contents (Elt Ideal)) (x6 : (⟨S2048x512, .f32⟩ : BufTy).Contents (Elt Ideal)) (x7 : (⟨S512, .f32⟩ : BufTy).Contents (Elt Ideal)) (x8 : (⟨S512x32, .f32⟩ : BufTy).Contents (Elt Ideal)) (x9 : (⟨S32, .f32⟩ : BufTy).Contents (Elt Ideal)) (x10 : (⟨S2048x1024, .f32⟩ : BufTy).Contents (Elt Ideal)) (x11 : (⟨S1024, .f32⟩ : BufTy).Contents (Elt Ideal)) (x20 : (⟨S131072x2, .i32⟩ : BufTy).Contents (Elt Ideal)) (n : Fin 8192) (j : Fin 1024) :
    val_main_v92 (F := Ideal) x0 x1 x2 x3 x4 x5 x6 x7 x8 x9 x10 x11 x20 (ix2 n (⟨j.val, by have := j.isLt; omega⟩ : Fin 2048)) = val_main_v89 (F := Ideal) x0 x1 x2 x3 x4 x5 x6 x7 x8 x9 x10 x11 x20 (ix2 n j) := by
  unfold val_main_v92
  exact concatenate_pair_apply_left (t := S8192x2048) (s₁ := S8192x1024) (s₂ := S8192x1024) 1 _ _
    concatenates_S8192x1024_S8192x1024_S8192x2048_d1 (ix2 n (⟨j.val, by have := j.isLt; omega⟩ : Fin 2048)) rfl (ix2 n j)
    (fun c => by match c with | ⟨0, _⟩ => rfl | ⟨1, _⟩ => rfl)

/-- The right half of `mfeat`: column `1024 + j` is `attenᵀ @ msg` at column `j`. -/
theorem v92_right (x0 : (⟨S8192x2048, .f32⟩ : BufTy).Contents (Elt Ideal)) (x1 : (⟨S131072x2048, .f32⟩ : BufTy).Contents (Elt Ideal)) (x2 : (⟨S2048x512, .f32⟩ : BufTy).Contents (Elt Ideal)) (x3 : (⟨S512, .f32⟩ : BufTy).Contents (Elt Ideal)) (x4 : (⟨S2048x512, .f32⟩ : BufTy).Contents (Elt Ideal)) (x5 : (⟨S512, .f32⟩ : BufTy).Contents (Elt Ideal)) (x6 : (⟨S2048x512, .f32⟩ : BufTy).Contents (Elt Ideal)) (x7 : (⟨S512, .f32⟩ : BufTy).Contents (Elt Ideal)) (x8 : (⟨S512x32, .f32⟩ : BufTy).Contents (Elt Ideal)) (x9 : (⟨S32, .f32⟩ : BufTy).Contents (Elt Ideal)) (x10 : (⟨S2048x1024, .f32⟩ : BufTy).Contents (Elt Ideal)) (x11 : (⟨S1024, .f32⟩ : BufTy).Contents (Elt Ideal)) (x20 : (⟨S131072x2, .i32⟩ : BufTy).Contents (Elt Ideal)) (n : Fin 8192) (j : Fin 1024) :
    val_main_v92 (F := Ideal) x0 x1 x2 x3 x4 x5 x6 x7 x8 x9 x10 x11 x20 (ix2 n (⟨1024 + j.val, by have := j.isLt; omega⟩ : Fin 2048)) = val_main_v91 (F := Ideal) x0 x1 x2 x3 x4 x5 x6 x7 x8 x9 x10 x11 x20 (ix2 n j) := by
  unfold val_main_v92
  exact concatenate_pair_apply_right (t := S8192x2048) (s₁ := S8192x1024) (s₂ := S8192x1024) 1 _ _
    concatenates_S8192x1024_S8192x1024_S8192x2048_d1 (ix2 n (⟨1024 + j.val, by have := j.isLt; omega⟩ : Fin 2048)) rfl rfl (ix2 n j)
    (fun c hc => by
      match c with
      | ⟨0, _⟩ => rfl
      | ⟨1, _⟩ => exact absurd rfl hc)
    (by show j.val + 1024 = 1024 + j.val; omega)

/-- `h0'` at `(n, c)` with the contraction split at the seam of `mfeat`: `atten @ msg` against rows `[0, 1024)` of
    the first output weights, `attenᵀ @ msg` against rows `[1024, 2048)`, plus the bias. -/
theorem v96_split (x0 : (⟨S8192x2048, .f32⟩ : BufTy).Contents (Elt Ideal)) (x1 : (⟨S131072x2048, .f32⟩ : BufTy).Contents (Elt Ideal)) (x2 : (⟨S2048x512, .f32⟩ : BufTy).Contents (Elt Ideal)) (x3 : (⟨S512, .f32⟩ : BufTy).Contents (Elt Ideal)) (x4 : (⟨S2048x512, .f32⟩ : BufTy).Contents (Elt Ideal)) (x5 : (⟨S512, .f32⟩ : BufTy).Contents (Elt Ideal)) (x6 : (⟨S2048x512, .f32⟩ : BufTy).Contents (Elt Ideal)) (x7 : (⟨S512, .f32⟩ : BufTy).Contents (Elt Ideal)) (x8 : (⟨S512x32, .f32⟩ : BufTy).Contents (Elt Ideal)) (x9 : (⟨S32, .f32⟩ : BufTy).Contents (Elt Ideal)) (x10 : (⟨S2048x1024, .f32⟩ : BufTy).Contents (Elt Ideal)) (x11 : (⟨S1024, .f32⟩ : BufTy).Contents (Elt Ideal)) (x12 : (⟨S2048x512, .f32⟩ : BufTy).Contents (Elt Ideal)) (x13 : (⟨S512, .f32⟩ : BufTy).Contents (Elt Ideal)) (x20 : (⟨S131072x2, .i32⟩ : BufTy).Contents (Elt Ideal)) (n : Fin 8192) (c : Fin 512) :
    val_main_v96 (F := Ideal) x0 x1 x2 x3 x4 x5 x6 x7 x8 x9 x10 x11 x12 x13 x20 (ix2 n c) =
      ((∑ j : Fin 1024, val_main_v89 (F := Ideal) x0 x1 x2 x3 x4 x5 x6 x7 x8 x9 x10 x11 x20 (ix2 n j) * x12 (ix2 (⟨j.val, by have := j.isLt; omega⟩ : Fin 2048) c))
        + ∑ j : Fin 1024, val_main_v91 (F := Ideal) x0 x1 x2 x3 x4 x5 x6 x7 x8 x9 x10 x11 x20 (ix2 n j) * x12 (ix2 (⟨1024 + j.val, by have := j.isLt; omega⟩ : Fin 2048) c))
      + x13 (ix1 c) := by
  rw [v96_at, Cert.Algebra.sum_split_1024]
  simp only [v92_left, v92_right]

end Cert.RefValue

end
-- ==== Proof.Spec.lean ====
/-
  The quantities both programs compute before the dense table, as functions of the argument arrays read as
  matrices (`fun n d => x (ix2 n d)`), over the extended reals.

  * `lin x w b`: a linear layer, `(∑ k, x a k · w k j) + b j`;
  * `relu`: the maximum with the zero word;
  * `node x w b`: a linear layer followed by relu, row by row — applied to the node features it gives the subject and
    object projections at NODE level; a pair reads the row of its subject / object, which is the same number whether the
    row of the features is gathered before the layer or the row of the layer's output is gathered after it;
  * `gate`: the per-pair gate, the mean over the 32 filters of relu of the filter layer applied to the product of the
    three projections;
  * `msg`: the message projection of the node features.
  The zero word (a sum's start, relu's floor) and the word of 32 are kept as the programs spell them.
-/
import Idealize.ShloMosaic.PureOps.Ideal
import Mathlib.Algebra.BigOperators.Fin
import Idealize.ShloMosaic.Lib.ValueIdx

noncomputable section

namespace Cert.Spec

open Idealize.ShloMosaic

/-- The f32 zero word at the ideal instance (what a host sum starts from and relu compares with). -/
abbrev z : EReal := Ideal.ofBits .f32 0x00000000#32

/-- The f32 word of 32.0 at the ideal instance (the number of filters the gate is averaged over). -/
abbrev c32 : EReal := Ideal.ofBits .f32 0x42000000#32

/-- relu: the maximum with the zero word. -/
def relu (x : EReal) : EReal := max x z

/-- A linear layer at one output entry: `(∑ k, x a k · w k j) + b j`. -/
def lin {A K B : Nat} (x : Fin A → Fin K → EReal) (w : Fin K → Fin B → EReal) (b : Fin B → EReal) (a : Fin A) (j : Fin B) : EReal :=
  (∑ k : Fin K, x a k * w k j) + b j

/-- A linear layer followed by relu. -/
def node {A K B : Nat} (x : Fin A → Fin K → EReal) (w : Fin K → Fin B → EReal) (b : Fin B → EReal) (a : Fin A) (j : Fin B) : EReal :=
  relu (lin x w b a j)

/-- The gate of pair `i`: with `ps`, `po` the subject / object projections of the nodes and `pu` the projection of the
    pair's own features, the mean over the 32 filters of `relu ((∑ h, (ps (s i) h · po (o i) h · pu i h) · gw h f) + gb f)`,
    the sum started from the zero word. -/
def gate (s o : Fin 131072 → Fin 8192)
    (inst : Fin 8192 → Fin 2048 → EReal) (ruf : Fin 131072 → Fin 2048 → EReal)
    (ws_w : Fin 2048 → Fin 512 → EReal) (ws_b : Fin 512 → EReal) (wo_w : Fin 2048 → Fin 512 → EReal) (wo_b : Fin 512 → EReal)
    (wu_w : Fin 2048 → Fin 512 → EReal) (wu_b : Fin 512 → EReal) (gw : Fin 512 → Fin 32 → EReal) (gb : Fin 32 → EReal)
    (i : Fin 131072) : EReal :=
  Ideal.div
    (z + ∑ f : Fin 32,
      relu ((∑ h : Fin 512, ((node inst ws_w ws_b (s i) h * node inst wo_w wo_b (o i) h) * node ruf wu_w wu_b i h) * gw h f) + gb f))
    c32

/-- The message projection of the node features. -/
def msg (inst : Fin 8192 → Fin 2048 → EReal) (msg_w : Fin 2048 → Fin 1024 → EReal) (msg_b : Fin 1024 → EReal)
    (n : Fin 8192) (d : Fin 1024) : EReal :=
  lin inst msg_w msg_b n d

/-- The array of pairs: 131072 rows of two 32-bit words (subject, object). -/
abbrev PairIdx : Type := IVec (⟨2, ![131072, 2]⟩ : Shape) 32

/-- Every entry of the array of pairs names a node: it is in `[0, 8192)`. -/
def InRange (a : PairIdx) : Prop :=
  ∀ (i : Fin 131072) (c : Fin 2), 0 ≤ (a (ValueIdx.ix2 i c)).toInt ∧ (a (ValueIdx.ix2 i c)).toInt < 8192

/-- The rows of the array of pairs are pairwise distinct. -/
def Distinct (a : PairIdx) : Prop :=
  ∀ i j : Fin 131072, (∀ c : Fin 2, a (ValueIdx.ix2 i c) = a (ValueIdx.ix2 j c)) → i = j

/-- Column `c` of the array of pairs as node numbers (`c = 0`: the subjects, `c = 1`: the objects). -/
def col (a : PairIdx) (h : InRange a) (c : Fin 2) (i : Fin 131072) : Fin 8192 :=
  ⟨(a (ValueIdx.ix2 i c)).toInt.toNat, by have := h i c; omega⟩

end Cert.Spec

end
-- ==== Proof.LibScatterSet.lean ====
import Idealize.ShloMosaic.PureOps
import Idealize.ShloMosaic.Lib.ValueIdx

/-!
# A "set" scatter read at one index

`stablehlo.scatter` whose body returns the update (`x.at[idx].set(upd)`) is a left fold, over the update indices in
row-major order, of the step "replace the element at the update's result index by the update". Read at ONE operand
index `p`, the fold is the update of the LAST update index that lands on `p`, and the operand's own element when none
does. From that: an index no update lands on keeps the operand's element; an index exactly one update lands on holds
that update; and when all updates are one constant, an index some update lands on holds the constant.
-/

namespace Cert.Lib.ScatterSet

open Idealize.ShloMosaic Idealize.ShloMosaic.ValueIdx

/-! ## The fold, for any list of update labels -/

section Fold
variable {ι κ α : Type} [DecidableEq κ]

/-- One step of a "set" scatter: update label `n` lands on `g n` (or nowhere) and carries the value `v n`; the step
    replaces the array's element at `g n` by `v n`. -/
def setStep (g : ι → Option κ) (v : ι → α) (r : κ → α) (n : ι) : κ → α :=
  match g n with
  | some i => fun i' => if i' = i then v n else r i'
  | none => r

/-- The step read at `p`: the new value when `n` lands on `p`, the old element otherwise. -/
theorem setStep_apply (g : ι → Option κ) (v : ι → α) (r : κ → α) (n : ι) (p : κ) :
    setStep g v r n p = if g n = some p then v n else r p := by
  unfold setStep
  cases h : g n with
  | none => simp
  | some i =>
    by_cases hp : p = i
    · subst hp; simp
    · have : ¬ (some i = some p) := fun e => hp (Option.some.inj e).symm
      simp [hp, this]

/-- THE FOLD AT ONE INDEX: folding the steps over the list `l` from the array `x`, the element at `p` is the value of the
    LAST label of `l` that lands on `p`, and `x p` when no label of `l` lands on `p`. -/
theorem foldl_setStep_apply (g : ι → Option κ) (v : ι → α) (l : List ι) (x : κ → α) (p : κ) :
    l.foldl (setStep g v) x p =
      match l.reverse.find? (fun n => decide (g n = some p)) with
      | some n => v n
      | none => x p := by
  induction l using List.reverseRecOn with
  | nil => rfl
  | append_singleton l n ih =>
    rw [List.foldl_append, List.foldl_cons, List.foldl_nil, setStep_apply, List.reverse_append,
      List.reverse_singleton, List.singleton_append, List.find?_cons]
    by_cases h : g n = some p
    · simp [h]
    · simp only [h, decide_false, if_false]
      exact ih

/-- No label of the list lands on `p`: the element at `p` is the starting array's. -/
theorem foldl_setStep_miss (g : ι → Option κ) (v : ι → α) (l : List ι) (x : κ → α) (p : κ)
    (h : ∀ n ∈ l, g n ≠ some p) : l.foldl (setStep g v) x p = x p := by
  rw [foldl_setStep_apply]
  have : l.reverse.find? (fun n => decide (g n = some p)) = none := by
    rw [List.find?_eq_none]
    intro n hn
    simpa using h n (List.mem_reverse.1 hn)
  rw [this]

/-- Some label of the list lands on `p`: the element at `p` is the value of a label that lands on `p`. -/
theorem foldl_setStep_some (g : ι → Option κ) (v : ι → α) (l : List ι) (x : κ → α) (p : κ)
    (h : ∃ n ∈ l, g n = some p) : ∃ m ∈ l, g m = some p ∧ l.foldl (setStep g v) x p = v m := by
  rw [foldl_setStep_apply]
  cases hf : l.reverse.find? (fun n => decide (g n = some p)) with
  | none =>
    obtain ⟨n, hn, hg⟩ := h
    rw [List.find?_eq_none] at hf
    exact absurd (by simpa using hg) (hf n (List.mem_reverse.2 hn))
  | some m =>
    have h1 := List.find?_some hf
    have h2 := List.mem_of_find?_eq_some hf
    exact ⟨m, List.mem_reverse.1 h2, by simpa using h1, rfl⟩

end Fold

/-! ## `Host.scatter` with the body "return the update", read at one operand index -/

section Scatter
variable {α : Type} {s si u : Shape} {w : Nat}

/-- A "set" scatter is the fold of `setStep` over the update indices in row-major order: update number `n` lands on
    the result index of the `n`-th update index and carries that update. -/
theorem scatter_set_eq_foldl (d : ScatterDims s si u) (x : s.Idx → α) (idx : IVec si w) (upd : u.Idx → α) :
    Host.scatter d (fun _ b => b) x idx upd =
      (List.finRange u.numel).foldl
        (setStep (fun n => d.resultIdx? (u.rowMajor.symm n) idx) (fun n => upd (u.rowMajor.symm n))) x := by
  unfold Host.scatter
  congr 1
  funext r n
  unfold setStep
  dsimp only
  cases d.resultIdx? (u.rowMajor.symm n) idx with
  | none => rfl
  | some i => rfl

/-- (1) MISS: an operand index `p` that no update index lands on keeps the operand's element. -/
theorem scatter_set_miss (d : ScatterDims s si u) (x : s.Idx → α) (idx : IVec si w) (upd : u.Idx → α) (p : s.Idx)
    (h : ∀ j, d.resultIdx? j idx ≠ some p) : Host.scatter d (fun _ b => b) x idx upd p = x p := by
  rw [scatter_set_eq_foldl]
  exact foldl_setStep_miss _ _ _ _ _ fun n _ => h _

/-- Some update index lands on `p`: the element at `p` is the update at an update index that lands on `p`. -/
theorem scatter_set_some (d : ScatterDims s si u) (x : s.Idx → α) (idx : IVec si w) (upd : u.Idx → α) (p : s.Idx)
    (j : u.Idx) (hj : d.resultIdx? j idx = some p) :
    ∃ m, d.resultIdx? m idx = some p ∧ Host.scatter d (fun _ b => b) x idx upd p = upd m := by
  rw [scatter_set_eq_foldl]
  obtain ⟨n, _, hn, e⟩ := foldl_setStep_some (fun n => d.resultIdx? (u.rowMajor.symm n) idx)
    (fun n => upd (u.rowMajor.symm n)) (List.finRange u.numel) x p
    ⟨u.rowMajor j, List.mem_finRange _, by simpa using hj⟩
  exact ⟨u.rowMajor.symm n, hn, e⟩

/-- (2) HIT: when update index `j` lands on `p` and it is the only update index that does, the element at `p` is the
    update at `j`. -/
theorem scatter_set_hit (d : ScatterDims s si u) (x : s.Idx → α) (idx : IVec si w) (upd : u.Idx → α) (p : s.Idx)
    (j : u.Idx) (hj : d.resultIdx? j idx = some p) (huniq : ∀ j', d.resultIdx? j' idx = some p → j' = j) :
    Host.scatter d (fun _ b => b) x idx upd p = upd j := by
  obtain ⟨m, hm, e⟩ := scatter_set_some d x idx upd p j hj
  rw [e, huniq m hm]

/-- (3) CONSTANT UPDATES: when every update is the one value `v` and some update index lands on `p` (several may), the
    element at `p` is `v`. -/
theorem scatter_const_hit (d : ScatterDims s si u) (x : s.Idx → α) (idx : IVec si w) (v : α) (p : s.Idx)
    (j : u.Idx) (hj : d.resultIdx? j idx = some p) :
    Host.scatter d (fun _ b => b) x idx (fun _ => v) p = v := by
  obtain ⟨m, _, e⟩ := scatter_set_some d x idx (fun _ => v) p j hj
  exact e

end Scatter

/-! ## The point scatter `x.at[idx[:, 0], idx[:, 1]].set(upd)`: where update `i` lands -/

section PairDims
variable {N M R w : Nat}

/-- The dimension numbers of a point scatter into an operand `[N, M]` at scatter indices `[R, 2]` (row `i` is the index
    pair of update `i`) with updates `[R]`: no window axes, both operand axes inserted, component `c` of an index pair
    goes to operand axis `c`. Their conditions `wf` are decided on a program's literal shapes. -/
abbrev pairDims (N M R : Nat) (wf : ScatterDims.WF ⟨2, ![N, M]⟩ ⟨2, ![R, 2]⟩ ⟨1, ![R]⟩ [] [0, 1] [0, 1] 1) :
    ScatterDims ⟨2, ![N, M]⟩ ⟨2, ![R, 2]⟩ ⟨1, ![R]⟩ where
  updateWindowDims := []
  insertedWindowDims := [0, 1]
  scatterDimsToOperandDims := [0, 1]
  indexVectorDim := 1
  wf := wf

variable (wf : ScatterDims.WF ⟨2, ![N, M]⟩ ⟨2, ![R, 2]⟩ ⟨1, ![R]⟩ [] [0, 1] [0, 1] 1)

/-- Update `i`'s start on operand axis 0 is the entry `idx[i, 0]`, read signed. -/
theorem pairDims_start0 (idx : IVec ⟨2, ![R, 2]⟩ w) (i : Fin R) :
    (pairDims N M R wf).start (ix1 i) idx 0 = (idx (ix2 i 0)).toInt := by
  unfold ScatterDims.start
  rw [dif_pos (show (0 : Fin 2) ∈ (pairDims N M R wf).scatterDimsToOperandDims from by simp)]
  congr 2
  funext b; refine Fin.ext ?_
  match b with
  | ⟨0, _⟩ => rfl
  | ⟨1, _⟩ => rfl

/-- Update `i`'s start on operand axis 1 is the entry `idx[i, 1]`, read signed. -/
theorem pairDims_start1 (idx : IVec ⟨2, ![R, 2]⟩ w) (i : Fin R) :
    (pairDims N M R wf).start (ix1 i) idx 1 = (idx (ix2 i 1)).toInt := by
  unfold ScatterDims.start
  rw [dif_pos (show (1 : Fin 2) ∈ (pairDims N M R wf).scatterDimsToOperandDims from by simp)]
  congr 2
  funext b; refine Fin.ext ?_
  match b with
  | ⟨0, _⟩ => rfl
  | ⟨1, _⟩ => rfl

/-- A point scatter has no window: the window coordinate is `0` on both operand axes. -/
theorem pairDims_window (j : (⟨1, ![R]⟩ : Shape).Idx) (a : Fin 2) : (pairDims N M R wf).window j a = 0 := by
  unfold ScatterDims.window
  rw [dif_neg]
  intro h
  have h2 : a ∉ ([0, 1] : List (Fin 2)) := by simpa using (List.mem_filter.1 h).2
  match a with
  | ⟨0, _⟩ => exact h2 (by simp)
  | ⟨1, _⟩ => exact h2 (by simp)

/-- WHERE UPDATE `i` LANDS: at the operand index `(idx[i, 0], idx[i, 1])` when both entries, read signed, are inside the
    operand (`0 ≤ idx[i, 0] < N` and `0 ≤ idx[i, 1] < M`), and nowhere (the update is dropped) otherwise. -/
theorem pairDims_resultIdx? (idx : IVec ⟨2, ![R, 2]⟩ w) (i : Fin R) :
    (pairDims N M R wf).resultIdx? (ix1 i) idx =
      if h : (0 ≤ (idx (ix2 i 0)).toInt ∧ (idx (ix2 i 0)).toInt < N) ∧
          (0 ≤ (idx (ix2 i 1)).toInt ∧ (idx (ix2 i 1)).toInt < M) then
        some (ix2 ⟨(idx (ix2 i 0)).toInt.toNat, by omega⟩ ⟨(idx (ix2 i 1)).toInt.toNat, by omega⟩)
      else none := by
  have e0 : (pairDims N M R wf).start (ix1 i) idx 0 + ((pairDims N M R wf).window (ix1 i) 0 : ℤ)
      = (idx (ix2 i 0)).toInt := by
    rw [pairDims_start0, pairDims_window]; simp
  have e1 : (pairDims N M R wf).start (ix1 i) idx 1 + ((pairDims N M R wf).window (ix1 i) 1 : ℤ)
      = (idx (ix2 i 1)).toInt := by
    rw [pairDims_start1, pairDims_window]; simp
  unfold ScatterDims.resultIdx?
  by_cases h : (0 ≤ (idx (ix2 i 0)).toInt ∧ (idx (ix2 i 0)).toInt < N) ∧
      (0 ≤ (idx (ix2 i 1)).toInt ∧ (idx (ix2 i 1)).toInt < M)
  · have h' : ∀ a : Fin 2, 0 ≤ (pairDims N M R wf).start (ix1 i) idx a + ((pairDims N M R wf).window (ix1 i) a : ℤ) ∧
        (pairDims N M R wf).start (ix1 i) idx a + ((pairDims N M R wf).window (ix1 i) a : ℤ)
          < ((⟨2, ![N, M]⟩ : Shape).size a : ℤ) := by
      have h0 : 0 ≤ (pairDims N M R wf).start (ix1 i) idx 0 + ((pairDims N M R wf).window (ix1 i) 0 : ℤ) ∧
          (pairDims N M R wf).start (ix1 i) idx 0 + ((pairDims N M R wf).window (ix1 i) 0 : ℤ) < (N : ℤ) := by
        rw [e0]; exact h.1
      have h1 : 0 ≤ (pairDims N M R wf).start (ix1 i) idx 1 + ((pairDims N M R wf).window (ix1 i) 1 : ℤ) ∧
          (pairDims N M R wf).start (ix1 i) idx 1 + ((pairDims N M R wf).window (ix1 i) 1 : ℤ) < (M : ℤ) := by
        rw [e1]; exact h.2
      intro a
      match a with
      | ⟨0, _⟩ => exact h0
      | ⟨1, _⟩ => exact h1
    rw [dif_pos h', dif_pos h]
    congr 1
    funext a
    match a with
    | ⟨0, _⟩ => exact Fin.ext (congrArg Int.toNat e0)
    | ⟨1, _⟩ => exact Fin.ext (congrArg Int.toNat e1)
  · have h' : ¬ ∀ a : Fin 2, 0 ≤ (pairDims N M R wf).start (ix1 i) idx a + ((pairDims N M R wf).window (ix1 i) a : ℤ) ∧
        (pairDims N M R wf).start (ix1 i) idx a + ((pairDims N M R wf).window (ix1 i) a : ℤ)
          < ((⟨2, ![N, M]⟩ : Shape).size a : ℤ) := by
      intro H
      have H0 : _ ∧ _ < (N : ℤ) := H 0
      have H1 : _ ∧ _ < (M : ℤ) := H 1
      rw [e0] at H0; rw [e1] at H1
      exact h ⟨H0, H1⟩
    rw [dif_neg h', dif_neg h]

end PairDims

section PairDimsUse
variable {N M R w : Nat} (wf : ScatterDims.WF ⟨2, ![N, M]⟩ ⟨2, ![R, 2]⟩ ⟨1, ![R]⟩ [] [0, 1] [0, 1] 1)

/-- Update `i` lands on `(a, b)` exactly when its index pair, read signed, is `(a, b)`. -/
theorem pairDims_resultIdx?_eq_some_iff (idx : IVec ⟨2, ![R, 2]⟩ w) (i : Fin R) (a : Fin N) (b : Fin M) :
    (pairDims N M R wf).resultIdx? (ix1 i) idx = some (ix2 a b) ↔
      (idx (ix2 i 0)).toInt = (a : ℕ) ∧ (idx (ix2 i 1)).toInt = (b : ℕ) := by
  rw [pairDims_resultIdx?]
  have ha := a.isLt
  have hb := b.isLt
  by_cases h : (0 ≤ (idx (ix2 i 0)).toInt ∧ (idx (ix2 i 0)).toInt < N) ∧
      (0 ≤ (idx (ix2 i 1)).toInt ∧ (idx (ix2 i 1)).toInt < M)
  · rw [dif_pos h]
    constructor
    · intro e
      have e' := Option.some.inj e
      have e0 : (idx (ix2 i 0)).toInt.toNat = a.val := congrArg Fin.val (congrFun e' 0)
      have e1 : (idx (ix2 i 1)).toInt.toNat = b.val := congrArg Fin.val (congrFun e' 1)
      omega
    · rintro ⟨e0, e1⟩
      congr 1
      funext c
      match c with
      | ⟨0, _⟩ => exact Fin.ext (show (idx (ix2 i 0)).toInt.toNat = a.val by omega)
      | ⟨1, _⟩ => exact Fin.ext (show (idx (ix2 i 1)).toInt.toNat = b.val by omega)
  · rw [dif_neg h]
    constructor
    · intro e; exact absurd e (by simp)
    · rintro ⟨e0, e1⟩
      exact absurd ⟨⟨by omega, by omega⟩, ⟨by omega, by omega⟩⟩ h

/-- An update whose index pair has an entry outside the operand (`idx[i, 0]` not in `[0, N)` or `idx[i, 1]` not in
    `[0, M)`) lands nowhere. -/
theorem pairDims_resultIdx?_eq_none (idx : IVec ⟨2, ![R, 2]⟩ w) (i : Fin R)
    (h : ¬ ((0 ≤ (idx (ix2 i 0)).toInt ∧ (idx (ix2 i 0)).toInt < N) ∧
      (0 ≤ (idx (ix2 i 1)).toInt ∧ (idx (ix2 i 1)).toInt < M))) :
    (pairDims N M R wf).resultIdx? (ix1 i) idx = none := by
  rw [pairDims_resultIdx?, dif_neg h]

/-- THE POINT SCATTER AT A WRITTEN INDEX: when row `i` of the indices, read signed, is `(a, b)` and no other row is, the
    scattered array holds update `i` at `(a, b)`. -/
theorem pair_scatter_hit {α : Type} (x : (⟨2, ![N, M]⟩ : Shape).Idx → α) (idx : IVec ⟨2, ![R, 2]⟩ w)
    (upd : (⟨1, ![R]⟩ : Shape).Idx → α) (i : Fin R) (a : Fin N) (b : Fin M)
    (hi : (idx (ix2 i 0)).toInt = (a : ℕ) ∧ (idx (ix2 i 1)).toInt = (b : ℕ))
    (huniq : ∀ i' : Fin R, (idx (ix2 i' 0)).toInt = (a : ℕ) ∧ (idx (ix2 i' 1)).toInt = (b : ℕ) → i' = i) :
    Host.scatter (pairDims N M R wf) (fun _ b => b) x idx upd (ix2 a b) = upd (ix1 i) := by
  refine scatter_set_hit _ x idx upd (ix2 a b) (ix1 i) ((pairDims_resultIdx?_eq_some_iff wf idx i a b).2 hi) ?_
  intro j' hj'
  rw [eq_ix1 j'] at hj' ⊢
  exact congrArg ix1 (huniq _ ((pairDims_resultIdx?_eq_some_iff wf idx _ a b).1 hj'))

/-- THE POINT SCATTER AT AN UNWRITTEN INDEX: when no row of the indices, read signed, is `(a, b)`, the scattered array
    keeps the operand's element at `(a, b)`. -/
theorem pair_scatter_miss {α : Type} (x : (⟨2, ![N, M]⟩ : Shape).Idx → α) (idx : IVec ⟨2, ![R, 2]⟩ w)
    (upd : (⟨1, ![R]⟩ : Shape).Idx → α) (a : Fin N) (b : Fin M)
    (h : ∀ i : Fin R, ¬ ((idx (ix2 i 0)).toInt = (a : ℕ) ∧ (idx (ix2 i 1)).toInt = (b : ℕ))) :
    Host.scatter (pairDims N M R wf) (fun _ b => b) x idx upd (ix2 a b) = x (ix2 a b) := by
  refine scatter_set_miss _ x idx upd (ix2 a b) ?_
  intro j hj
  rw [eq_ix1 j] at hj
  exact h _ ((pairDims_resultIdx?_eq_some_iff wf idx _ a b).1 hj)

end PairDimsUse

/-! ## The one-axis point scatter `x.at[idx[:, 0]].set(upd)`: where update `i` lands -/

section PointDims
variable {N R w : Nat}

/-- The dimension numbers of a point scatter into an operand `[N]` at scatter indices `[R, 1]` with updates `[R]`: no
    window axes, the operand's one axis inserted, the one index component goes to it. -/
abbrev pointDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

variable (wf : ScatterDims.WF ⟨1, ![N]⟩ ⟨2, ![R, 1]⟩ ⟨1, ![R]⟩ [] [0] [0] 1)

/-- Update `i`'s start on the operand's axis is the entry `idx[i, 0]`, read signed. -/
theorem pointDims_start (idx : IVec ⟨2, ![R, 1]⟩ w) (i : Fin R) :
    (pointDims N R wf).start (ix1 i) idx 0 = (idx (ix2 i 0)).toInt := by
  unfold ScatterDims.start
  rw [dif_pos (show (0 : Fin 1) ∈ (pointDims N R wf).scatterDimsToOperandDims from by simp)]
  congr 2
  funext b; refine Fin.ext ?_
  match b with
  | ⟨0, _⟩ => rfl
  | ⟨1, _⟩ => rfl

/-- A point scatter has no window: the window coordinate is `0`. -/
theorem pointDims_window (j : (⟨1, ![R]⟩ : Shape).Idx) (a : Fin 1) : (pointDims N R wf).window j a = 0 := by
  unfold ScatterDims.window
  rw [dif_neg]
  intro h
  have h2 : a ∉ ([0] : List (Fin 1)) := by simpa using (List.mem_filter.1 h).2
  exact h2 (by simp [Subsingleton.elim a 0])

/-- WHERE UPDATE `i` LANDS: at the operand index `idx[i, 0]` when that entry, read signed, is in `[0, N)`, and nowhere
    otherwise. -/
theorem pointDims_resultIdx? (idx : IVec ⟨2, ![R, 1]⟩ w) (i : Fin R) :
    (pointDims N R wf).resultIdx? (ix1 i) idx =
      if h : 0 ≤ (idx (ix2 i 0)).toInt ∧ (idx (ix2 i 0)).toInt < N then
        some (ix1 ⟨(idx (ix2 i 0)).toInt.toNat, by omega⟩)
      else none := by
  have e0 : (pointDims N R wf).start (ix1 i) idx 0 + ((pointDims N R wf).window (ix1 i) 0 : ℤ)
      = (idx (ix2 i 0)).toInt := by
    rw [pointDims_start, pointDims_window]; simp
  unfold ScatterDims.resultIdx?
  by_cases h : 0 ≤ (idx (ix2 i 0)).toInt ∧ (idx (ix2 i 0)).toInt < N
  · have h' : ∀ a : Fin 1, 0 ≤ (pointDims N R wf).start (ix1 i) idx a + ((pointDims N R wf).window (ix1 i) a : ℤ) ∧
        (pointDims N R wf).start (ix1 i) idx a + ((pointDims N R wf).window (ix1 i) a : ℤ)
          < ((⟨1, ![N]⟩ : Shape).size a : ℤ) := by
      have h0 : 0 ≤ (pointDims N R wf).start (ix1 i) idx 0 + ((pointDims N R wf).window (ix1 i) 0 : ℤ) ∧
          (pointDims N R wf).start (ix1 i) idx 0 + ((pointDims N R wf).window (ix1 i) 0 : ℤ) < (N : ℤ) := by
        rw [e0]; exact h
      intro a
      match a with
      | ⟨0, _⟩ => exact h0
    rw [dif_pos h', dif_pos h]
    congr 1
    funext a
    match a with
    | ⟨0, _⟩ => exact Fin.ext (congrArg Int.toNat e0)
  · have h' : ¬ ∀ a : Fin 1, 0 ≤ (pointDims N R wf).start (ix1 i) idx a + ((pointDims N R wf).window (ix1 i) a : ℤ) ∧
        (pointDims N R wf).start (ix1 i) idx a + ((pointDims N R wf).window (ix1 i) a : ℤ)
          < ((⟨1, ![N]⟩ : Shape).size a : ℤ) := by
      intro H
      have H0 : _ ∧ _ < (N : ℤ) := H 0
      rw [e0] at H0
      exact h H0
    rw [dif_neg h', dif_neg h]

/-- Update `i` lands on `a` exactly when its index, read signed, is `a`. -/
theorem pointDims_resultIdx?_eq_some_iff (idx : IVec ⟨2, ![R, 1]⟩ w) (i : Fin R) (a : Fin N) :
    (pointDims N R wf).resultIdx? (ix1 i) idx = some (ix1 a) ↔ (idx (ix2 i 0)).toInt = (a : ℕ) := by
  rw [pointDims_resultIdx?]
  have ha := a.isLt
  by_cases h : 0 ≤ (idx (ix2 i 0)).toInt ∧ (idx (ix2 i 0)).toInt < N
  · rw [dif_pos h]
    constructor
    · intro e
      have e0 : (idx (ix2 i 0)).toInt.toNat = a.val := congrArg Fin.val (congrFun (Option.some.inj e) 0)
      omega
    · intro e0
      congr 1
      funext c
      match c with
      | ⟨0, _⟩ => exact Fin.ext (show (idx (ix2 i 0)).toInt.toNat = a.val by omega)
  · rw [dif_neg h]
    constructor
    · intro e; exact absurd e (by simp)
    · intro e0
      exact absurd ⟨by omega, by omega⟩ h

/-- An update whose index is outside `[0, N)` lands nowhere. -/
theorem pointDims_resultIdx?_eq_none (idx : IVec ⟨2, ![R, 1]⟩ w) (i : Fin R)
    (h : ¬ (0 ≤ (idx (ix2 i 0)).toInt ∧ (idx (ix2 i 0)).toInt < N)) :
    (pointDims N R wf).resultIdx? (ix1 i) idx = none := by
  rw [pointDims_resultIdx?, dif_neg h]

/-- A CONSTANT SCATTERED AT THE POINTS: when some row's index, read signed, is `a`, the array holds the constant at `a`
    (several rows may share the index). -/
theorem point_scatter_const_hit {α : Type} (x : (⟨1, ![N]⟩ : Shape).Idx → α) (idx : IVec ⟨2, ![R, 1]⟩ w) (v : α)
    (i : Fin R) (a : Fin N) (hi : (idx (ix2 i 0)).toInt = (a : ℕ)) :
    Host.scatter (pointDims N R wf) (fun _ b => b) x idx (fun _ => v) (ix1 a) = v :=
  scatter_const_hit _ x idx v (ix1 a) (ix1 i) ((pointDims_resultIdx?_eq_some_iff wf idx i a).2 hi)

/-- At an index no row names, the scattered array keeps the operand's element. -/
theorem point_scatter_miss {α : Type} (x : (⟨1, ![N]⟩ : Shape).Idx → α) (idx : IVec ⟨2, ![R, 1]⟩ w)
    (upd : (⟨1, ![R]⟩ : Shape).Idx → α) (a : Fin N) (h : ∀ i : Fin R, (idx (ix2 i 0)).toInt ≠ (a : ℕ)) :
    Host.scatter (pointDims N R wf) (fun _ b => b) x idx upd (ix1 a) = x (ix1 a) := by
  refine scatter_set_miss _ x idx upd (ix1 a) ?_
  intro j hj
  rw [eq_ix1 j] at hj
  exact h _ ((pointDims_resultIdx?_eq_some_iff wf idx _ a).1 hj)

end PointDims

/-! ## The row gather `x[idx[:, 0], :]` read at an index -/

section RowGather
variable {α : Type} {N C R w : Nat}

/-- The dimension numbers of a row gather: operand `[N, C]`, start indices `[R, 1]` (row `i` holds the one row number),
    result `[R, C]`: axis 0 of the operand collapsed and indexed, axis 1 taken whole as the result's axis 1. -/
abbrev rowGatherDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

variable (wf : GatherDims.WF ⟨2, ![N, C]⟩ ⟨2, ![R, 1]⟩ ⟨2, ![R, C]⟩ [1] [0] [] [0] [] 1 ![1, C])

/-- On operand axis 0 result index `(i, h)` reads the start index `idx[i, 0]`, signed and clamped into `[0, N − 1]`. -/
theorem rowGather_coord0 (idx : IVec ⟨2, ![R, 1]⟩ w) (i : Fin R) (h : Fin C) :
    ((rowGatherDims N C R wf).operandIdx (ix2 i h) idx 0).val = min (idx (ix2 i 0)).toInt.toNat (N - 1) := by
  show (rowGatherDims N C R wf).start (ix2 i h) idx 0 + (rowGatherDims N C R wf).batchCoord (ix2 i h) 0
    + (rowGatherDims N C R wf).offCoord (ix2 i h) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N C R wf).startIndexMap from List.mem_singleton.mpr rfl)]
  have hsi : (rowGatherDims N C R wf).siIdx (ix2 i h) ⟨List.idxOf (0 : Fin 2) (rowGatherDims N C R wf).startIndexMap,
      List.idxOf_lt_length_iff.2 (List.mem_singleton.mpr rfl)⟩ = ix2 i 0 := by
    funext b; refine Fin.ext ?_
    match b with
    | ⟨0, _⟩ => rfl
    | ⟨1, _⟩ => rfl
  rw [hsi]
  rfl

/-- On operand axis 1 result index `(i, h)` reads column `h`. -/
theorem rowGather_coord1 (idx : IVec ⟨2, ![R, 1]⟩ w) (i : Fin R) (h : Fin C) :
    ((rowGatherDims N C R wf).operandIdx (ix2 i h) idx 1).val = h.val := by
  show (rowGatherDims N C R wf).start (ix2 i h) idx 1 + (rowGatherDims N C R wf).batchCoord (ix2 i h) 1
    + (rowGatherDims N C R wf).offCoord (ix2 i h) 1 = _
  rw [GatherDims.batchCoord_eq_zero _ _ _ List.not_mem_nil]
  have hs : (rowGatherDims N C R wf).start (ix2 i h) idx 1 = 0 := by
    unfold GatherDims.start
    rw [dif_neg (show (1 : Fin 2) ∉ (rowGatherDims N C R wf).startIndexMap from by simp)]
  have hk : (1 : Fin 2) ∈ (rowGatherDims N C R wf).sKept :=
    (GatherDims.mem_sKept _ _).2 ⟨by simp, List.not_mem_nil⟩
  rw [hs]
  unfold GatherDims.offCoord
  rw [dif_pos hk]
  simp only [Nat.zero_add, Nat.add_zero]
  rfl

/-- THE ROW GATHER READ AT `(i, h)`: the operand at row `idx[i, 0]` (read signed and clamped into `[0, N − 1]`),
    column `h`. -/
theorem row_gather_apply (hN : 0 < N) (x : (⟨2, ![N, C]⟩ : Shape).Idx → α) (idx : IVec ⟨2, ![R, 1]⟩ w)
    (i : Fin R) (h : Fin C) :
    Host.gather (rowGatherDims N C R wf) x idx (ix2 i h)
      = x (ix2 ⟨min (idx (ix2 i 0)).toInt.toNat (N - 1), by omega⟩ h) := by
  unfold Host.gather
  congr 1
  funext a
  match a with
  | ⟨0, _⟩ => exact Fin.ext (rowGather_coord0 wf idx i h)
  | ⟨1, _⟩ => exact Fin.ext (rowGather_coord1 wf idx i h)

/-- The row gather at `(i, h)` when the start index, read signed, is the row number `a` (in range, so the clamp does
    nothing): the operand at `(a, h)`. -/
theorem row_gather_apply_of_eq (x : (⟨2, ![N, C]⟩ : Shape).Idx → α) (idx : IVec ⟨2, ![R, 1]⟩ w)
    (i : Fin R) (h : Fin C) (a : Fin N) (ha : (idx (ix2 i 0)).toInt = (a : ℕ)) :
    Host.gather (rowGatherDims N C R wf) x idx (ix2 i h) = x (ix2 a h) := by
  have hN : 0 < N := Nat.lt_of_le_of_lt (Nat.zero_le _) a.isLt
  rw [row_gather_apply wf hN]
  congr 2
  refine Fin.ext ?_
  have := a.isLt
  show min (idx (ix2 i 0)).toInt.toNat (N - 1) = a.val
  omega

end RowGather

/-! ## The point gather `x[idx[:, 0], idx[:, 1]]` read at an index -/

section PairGather
variable {α : Type} {N M R w : Nat}

/-- The dimension numbers of a point gather: operand `[N, M]`, start indices `[R, 2]` (row `i` is the index pair of result
    element `i`), result `[R]`: both operand axes collapsed and indexed. -/
abbrev pairGatherDims (N M R : Nat)
    (wf : GatherDims.WF ⟨2, ![N, M]⟩ ⟨2, ![R, 2]⟩ ⟨1, ![R]⟩ [] [0, 1] [] [0, 1] [] 1 ![1, 1]) :
    GatherDims ⟨2, ![N, M]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

variable (wf : GatherDims.WF ⟨2, ![N, M]⟩ ⟨2, ![R, 2]⟩ ⟨1, ![R]⟩ [] [0, 1] [] [0, 1] [] 1 ![1, 1])

/-- On operand axis 0 result element `i` reads the start index `idx[i, 0]`, signed and clamped into `[0, N − 1]`. -/
theorem pairGather_coord0 (idx : IVec ⟨2, ![R, 2]⟩ w) (i : Fin R) :
    ((pairGatherDims N M R wf).operandIdx (ix1 i) idx 0).val = min (idx (ix2 i 0)).toInt.toNat (N - 1) := by
  show (pairGatherDims N M R wf).start (ix1 i) idx 0 + (pairGatherDims N M R wf).batchCoord (ix1 i) 0
    + (pairGatherDims N M R wf).offCoord (ix1 i) 0 = _
  rw [GatherDims.batchCoord_eq_zero _ _ _ List.not_mem_nil,
    GatherDims.offCoord_eq_zero _ _ _ (fun h => ((GatherDims.mem_sKept _ _).mp h).1 (by simp))]
  simp only [Nat.add_zero]
  unfold GatherDims.start
  rw [dif_pos (show (0 : Fin 2) ∈ (pairGatherDims N M R wf).startIndexMap from by simp)]
  have hsi : (pairGatherDims N M R wf).siIdx (ix1 i) ⟨List.idxOf (0 : Fin 2) (pairGatherDims N M R wf).startIndexMap,
      List.idxOf_lt_length_iff.2 (by simp)⟩ = ix2 i 0 := by
    funext b; refine Fin.ext ?_
    match b with
    | ⟨0, _⟩ => rfl
    | ⟨1, _⟩ => rfl
  rw [hsi]
  rfl

/-- On operand axis 1 result element `i` reads the start index `idx[i, 1]`, signed and clamped into `[0, M − 1]`. -/
theorem pairGather_coord1 (idx : IVec ⟨2, ![R, 2]⟩ w) (i : Fin R) :
    ((pairGatherDims N M R wf).operandIdx (ix1 i) idx 1).val = min (idx (ix2 i 1)).toInt.toNat (M - 1) := by
  show (pairGatherDims N M R wf).start (ix1 i) idx 1 + (pairGatherDims N M R wf).batchCoord (ix1 i) 1
    + (pairGatherDims N M R wf).offCoord (ix1 i) 1 = _
  rw [GatherDims.batchCoord_eq_zero _ _ _ List.not_mem_nil,
    GatherDims.offCoord_eq_zero _ _ _ (fun h => ((GatherDims.mem_sKept _ _).mp h).1 (by simp))]
  simp only [Nat.add_zero]
  unfold GatherDims.start
  rw [dif_pos (show (1 : Fin 2) ∈ (pairGatherDims N M R wf).startIndexMap from by simp)]
  have hsi : (pairGatherDims N M R wf).siIdx (ix1 i) ⟨List.idxOf (1 : Fin 2) (pairGatherDims N M R wf).startIndexMap,
      List.idxOf_lt_length_iff.2 (by simp)⟩ = ix2 i 1 := by
    funext b; refine Fin.ext ?_
    match b with
    | ⟨0, _⟩ => rfl
    | ⟨1, _⟩ => rfl
  rw [hsi]
  rfl

/-- THE POINT GATHER READ AT `i`: the operand at `(idx[i, 0], idx[i, 1])`, each entry read signed and clamped into the
    operand's range on its axis. -/
theorem pair_gather_apply (hN : 0 < N) (hM : 0 < M) (x : (⟨2, ![N, M]⟩ : Shape).Idx → α) (idx : IVec ⟨2, ![R, 2]⟩ w)
    (i : Fin R) :
    Host.gather (pairGatherDims N M R wf) x idx (ix1 i)
      = x (ix2 ⟨min (idx (ix2 i 0)).toInt.toNat (N - 1), by omega⟩ ⟨min (idx (ix2 i 1)).toInt.toNat (M - 1), by omega⟩) := by
  unfold Host.gather
  congr 1
  funext a
  match a with
  | ⟨0, _⟩ => exact Fin.ext (pairGather_coord0 wf idx i)
  | ⟨1, _⟩ => exact Fin.ext (pairGather_coord1 wf idx i)

/-- The point gather at `i` when row `i` of the indices, read signed, is the pair `(a, b)` (in range, so the clamps do
    nothing): the operand at `(a, b)`. -/
theorem pair_gather_apply_of_eq (x : (⟨2, ![N, M]⟩ : Shape).Idx → α) (idx : IVec ⟨2, ![R, 2]⟩ w)
    (i : Fin R) (a : Fin N) (b : Fin M)
    (hi : (idx (ix2 i 0)).toInt = (a : ℕ) ∧ (idx (ix2 i 1)).toInt = (b : ℕ)) :
    Host.gather (pairGatherDims N M R wf) x idx (ix1 i) = x (ix2 a b) := by
  have hN : 0 < N := Nat.lt_of_le_of_lt (Nat.zero_le _) a.isLt
  have hM : 0 < M := Nat.lt_of_le_of_lt (Nat.zero_le _) b.isLt
  have ha := a.isLt
  have hb := b.isLt
  rw [pair_gather_apply wf hN hM]
  congr 1
  funext c
  match c with
  | ⟨0, _⟩ => exact Fin.ext (show min (idx (ix2 i 0)).toInt.toNat (N - 1) = a.val by omega)
  | ⟨1, _⟩ => exact Fin.ext (show min (idx (ix2 i 1)).toInt.toNat (M - 1) = b.val by omega)

/-- Two result elements whose index rows are equal read the same operand element. -/
theorem pairGather_operandIdx_congr (idx : IVec ⟨2, ![R, 2]⟩ w) (i j : Fin R)
    (h0 : idx (ix2 i 0) = idx (ix2 j 0)) (h1 : idx (ix2 i 1) = idx (ix2 j 1)) :
    (pairGatherDims N M R wf).operandIdx (ix1 i) idx = (pairGatherDims N M R wf).operandIdx (ix1 j) idx := by
  funext a
  match a with
  | ⟨0, _⟩ =>
    exact Fin.ext ((pairGather_coord0 wf idx i).trans (by rw [h0]; exact (pairGather_coord0 wf idx j).symm))
  | ⟨1, _⟩ =>
    exact Fin.ext ((pairGather_coord1 wf idx i).trans (by rw [h1]; exact (pairGather_coord1 wf idx j).symm))

end PairGather

/-! ## jnp's index normalisation on a nonnegative index -/

section Normalise

/-- "If `v < 0` then `v + c` else `v`" on a 32-bit word whose signed value is nonnegative is `v`. -/
theorem normalise_word (v c : BitVec 32) (h : 0 ≤ v.toInt) :
    Scalar.select (IntOp.cmpi .slt v 0#32) (IntOp.addi v c) v = v := by
  have hs : v.slt 0#32 = false := by
    simp only [BitVec.slt, BitVec.toInt_zero, decide_eq_false_iff_not, not_lt]
    exact h
  simp [Scalar.select, IntOp.cmpi, hs]

/-- The same on vectors, read at an index: where the compared vector is zero and the element is nonnegative, the
    select returns the element. -/
theorem normalise_apply {s : Shape} (x z c : IVec s 32) (i : s.Idx) (hz : z i = 0#32) (h : 0 ≤ (x i).toInt) :
    select (cmpi .slt x z) (addi x c) x i = x i := by
  show Scalar.select (IntOp.cmpi .slt (x i) (z i)) (IntOp.addi (x i) (c i)) (x i) = x i
  rw [hz]
  exact normalise_word (x i) (c i) h

end Normalise

/-! ## Distinct index rows from a point gather that reads distinct values -/

section Distinct
variable {β : Type} {N M R w : Nat}
  (wf : GatherDims.WF ⟨2, ![N, M]⟩ ⟨2, ![R, 2]⟩ ⟨1, ![R]⟩ [] [0, 1] [] [0, 1] [] 1 ![1, 1])

/-- If the point gather of some array `y` at the index rows reads `g i` at every `i`, with `g` injective, then the index
    rows are pairwise distinct: two equal rows read the same element of `y`, so `g` agrees on them. -/
theorem rows_distinct_of_pair_gather (y : (⟨2, ![N, M]⟩ : Shape).Idx → β) (idx : IVec ⟨2, ![R, 2]⟩ w) (g : Fin R → β)
    (hg : Function.Injective g) (hy : ∀ i, Host.gather (pairGatherDims N M R wf) y idx (ix1 i) = g i) (i j : Fin R)
    (h0 : idx (ix2 i 0) = idx (ix2 j 0)) (h1 : idx (ix2 i 1) = idx (ix2 j 1)) : i = j := by
  apply hg
  rw [← hy i, ← hy j]
  unfold Host.gather
  rw [pairGather_operandIdx_congr wf idx i j h0 h1]

/-- The 32-bit words of the numbers below `R ≤ 2 ^ 32` are pairwise distinct. -/
theorem ofNat32_injective (hR : R ≤ 2 ^ 32) : Function.Injective (fun i : Fin R => BitVec.ofNat 32 i.val) := by
  intro i j h
  have h' := congrArg BitVec.toNat h
  simp only [BitVec.toNat_ofNat] at h'
  have hi := i.isLt
  have hj := j.isLt
  rw [Nat.mod_eq_of_lt (by omega), Nat.mod_eq_of_lt (by omega)] at h'
  exact Fin.ext h'

end Distinct

end Cert.Lib.ScatterSet
-- ==== Proof.RefPairs.lean ====
/-
  The pair array `rel_pair_idx : i32[131072, 2]` as the reference uses it. Before every gather and scatter each column
  goes through jnp's index normalisation, `select (s < 0) (s + 8192) s`; on an entry that is not negative that is the
  entry itself. So when every entry, read signed, is a node number in `[0, 8192)`, each normalised column (stages 8, 20,
  48, 53, 63, 68) is the column, and the two index arrays the scatters read (stages 56 and 71, the two normalised columns
  side by side) are the pair array.
-/
import proofs.«120229_j77704548319709_2_alg».proof.Proof.RefReadP
import proofs.«120229_j77704548319709_2_alg».proof.Proof.Spec
import proofs.«120229_j77704548319709_2_alg».proof.Proof.LibScatterSet

noncomputable section

namespace Cert.RefValue

open Cert.ReferenceIdeal Cert.ReferenceIdeal.Gen Cert.ReferenceIdeal.ReadP Idealize.ShloMosaic Idealize.ShloMosaic.TcCoe Idealize.SL.Sem Idealize.ShloMosaic.StableHlo
open Idealize.ShloMosaic.ValueIdx Cert.Spec Cert.Lib.ScatterSet

/-- In range, an entry read signed IS its node number. -/
theorem toInt_eq_col {a : Cert.Spec.PairIdx} (hr : InRange a) (c : Fin 2) (i : Fin 131072) :
    (a (ix2 i c)).toInt = ((col a hr c i : Fin 8192) : ℕ) := by
  have := hr i c
  show _ = (((a (ix2 i c)).toInt.toNat : ℕ) : ℤ)
  omega

/-! ## The two columns -/

theorem idx0_1 (i : Fin 131072) : idx_main_v0 (idx_main_v1 (ix1 i)) = ix2 i 0 :=
  funext fun a => by match a with | ⟨0, _⟩ => exact Fin.ext (Nat.div_one _) | ⟨1, _⟩ => rfl
theorem idx2_3 (i : Fin 131072) : idx_main_v2 (idx_main_v3 (ix1 i)) = ix2 i 1 :=
  funext fun a => by match a with | ⟨0, _⟩ => exact Fin.ext (Nat.div_one _) | ⟨1, _⟩ => rfl

/-- Stage 1 is column 0 of the pair array. -/
theorem v1_at (x20 : Cert.Spec.PairIdx) (i : Fin 131072) : val_main_v1 (F := Ideal) x20 (ix1 i) = x20 (ix2 i 0) := by
  rw [val_main_v1_apply, val_main_v0_apply, idx0_1]
/-- Stage 3 is column 1 of the pair array. -/
theorem v3_at (x20 : Cert.Spec.PairIdx) (i : Fin 131072) : val_main_v3 (F := Ideal) x20 (ix1 i) = x20 (ix2 i 1) := by
  rw [val_main_v3_apply, val_main_v2_apply, idx2_3]

/-! ## The normalised columns, in range -/

/-- Stage 8 (column 0 normalised) is column 0 of the pair array when its entries are not negative. -/
theorem v8_at {x20 : Cert.Spec.PairIdx} (hr : InRange x20) (i : Fin 131072) :
    val_main_v8 (F := Ideal) x20 (ix1 i) = x20 (ix2 i 0) := by
  rw [val_main_v8_apply, val_main_v5_apply, val_main_v7_apply, val_main_v4_apply, val_main_v6_apply,
    val_main_c_apply, val_main_c_0_apply, v1_at]
  exact normalise_word _ _ (hr i 0).1

/-- Stage 20 (column 1 normalised) is column 1 of the pair array when its entries are not negative. -/
theorem v20_at {x20 : Cert.Spec.PairIdx} (hr : InRange x20) (i : Fin 131072) :
    val_main_v20 (F := Ideal) x20 (ix1 i) = x20 (ix2 i 1) := by
  rw [val_main_v20_apply, val_main_v17_apply, val_main_v19_apply, val_main_v16_apply, val_main_v18_apply,
    val_main_c_1_apply, val_main_c_2_apply, v3_at]
  exact normalise_word _ _ (hr i 1).1

/-- Stage 48 (column 0 normalised) is column 0 of the pair array when its entries are not negative. -/
theorem v48_at {x20 : Cert.Spec.PairIdx} (hr : InRange x20) (i : Fin 131072) :
    val_main_v48 (F := Ideal) x20 (ix1 i) = x20 (ix2 i 0) := by
  rw [val_main_v48_apply, val_main_v45_apply, val_main_v47_apply, val_main_v44_apply, val_main_v46_apply,
    val_main_c_5_apply, val_main_c_6_apply, v1_at]
  exact normalise_word _ _ (hr i 0).1

/-- Stage 53 (column 1 normalised) is column 1 of the pair array when its entries are not negative. -/
theorem v53_at {x20 : Cert.Spec.PairIdx} (hr : InRange x20) (i : Fin 131072) :
    val_main_v53 (F := Ideal) x20 (ix1 i) = x20 (ix2 i 1) := by
  rw [val_main_v53_apply, val_main_v50_apply, val_main_v52_apply, val_main_v49_apply, val_main_v51_apply,
    val_main_c_7_apply, val_main_c_8_apply, v3_at]
  exact normalise_word _ _ (hr i 1).1

/-- Stage 63 (column 0 normalised) is column 0 of the pair array when its entries are not negative. -/
theorem v63_at {x20 : Cert.Spec.PairIdx} (hr : InRange x20) (i : Fin 131072) :
    val_main_v63 (F := Ideal) x20 (ix1 i) = x20 (ix2 i 0) := by
  rw [val_main_v63_apply, val_main_v60_apply, val_main_v62_apply, val_main_v59_apply, val_main_v61_apply,
    val_main_c_10_apply, val_main_c_11_apply, v1_at]
  exact normalise_word _ _ (hr i 0).1

/-- Stage 68 (column 1 normalised) is column 1 of the pair array when its entries are not negative. -/
theorem v68_at {x20 : Cert.Spec.PairIdx} (hr : InRange x20) (i : Fin 131072) :
    val_main_v68 (F := Ideal) x20 (ix1 i) = x20 (ix2 i 1) := by
  rw [val_main_v68_apply, val_main_v65_apply, val_main_v67_apply, val_main_v64_apply, val_main_v66_apply,
    val_main_c_12_apply, val_main_c_13_apply, v3_at]
  exact normalise_word _ _ (hr i 1).1

/-! ## The index arrays of the two scatters -/

private theorem concat_cols (a b : S131072x1.Idx → BitVec 32) (i : Fin 131072) :
    concatenate S131072x2 1 [⟨S131072x1, a⟩, ⟨S131072x1, b⟩] concatenates_S131072x1_S131072x1_S131072x2_d1 (ix2 i (0 : Fin 2))
        = a (ix2 i (0 : Fin 1)) ∧
      concatenate S131072x2 1 [⟨S131072x1, a⟩, ⟨S131072x1, b⟩] concatenates_S131072x1_S131072x1_S131072x2_d1 (ix2 i (1 : Fin 2))
        = b (ix2 i (0 : Fin 1)) := by
  constructor
  · exact concatenate_pair_apply_left (t := S131072x2) (s₁ := S131072x1) (s₂ := S131072x1) 1 a b
      concatenates_S131072x1_S131072x1_S131072x2_d1 (ix2 i (0 : Fin 2)) rfl (ix2 i (0 : Fin 1))
      (fun c => by match c with | ⟨0, _⟩ => rfl | ⟨1, _⟩ => rfl)
  · exact concatenate_pair_apply_right (t := S131072x2) (s₁ := S131072x1) (s₂ := S131072x1) 1 a b
      concatenates_S131072x1_S131072x1_S131072x2_d1 (ix2 i (1 : Fin 2)) rfl rfl (ix2 i (0 : Fin 1))
      (fun c hc => by
        match c with
        | ⟨0, _⟩ => rfl
        | ⟨1, _⟩ => exact absurd rfl hc)
      (by rfl)

theorem idx54 (i : Fin 131072) : idx_main_v54 (ix2 i 0) = ix1 i := funext fun a => by match a with | ⟨0, _⟩ => rfl
theorem idx55 (i : Fin 131072) : idx_main_v55 (ix2 i 0) = ix1 i := funext fun a => by match a with | ⟨0, _⟩ => rfl
theorem idx69 (i : Fin 131072) : idx_main_v69 (ix2 i 0) = ix1 i := funext fun a => by match a with | ⟨0, _⟩ => rfl
theorem idx70 (i : Fin 131072) : idx_main_v70 (ix2 i 0) = ix1 i := funext fun a => by match a with | ⟨0, _⟩ => rfl

/-- The index array of the gate scatter (stage 56) is the pair array, in range. -/
theorem v56_at {x20 : Cert.Spec.PairIdx} (hr : InRange x20) (i : Fin 131072) (c : Fin 2) :
    val_main_v56 (F := Ideal) x20 (ix2 i c) = x20 (ix2 i c) := by
  unfold val_main_v56
  match c with
  | ⟨0, _⟩ =>
    show concatenate S131072x2 1 _ _ (ix2 i 0) = x20 (ix2 i 0)
    rw [(concat_cols _ _ i).1, val_main_v54_apply, idx54, v48_at hr]
  | ⟨1, _⟩ =>
    show concatenate S131072x2 1 _ _ (ix2 i 1) = x20 (ix2 i 1)
    rw [(concat_cols _ _ i).2, val_main_v55_apply, idx55, v53_at hr]

/-- The index array of the mask scatter (stage 71) is the pair array, in range. -/
theorem v71_at {x20 : Cert.Spec.PairIdx} (hr : InRange x20) (i : Fin 131072) (c : Fin 2) :
    val_main_v71 (F := Ideal) x20 (ix2 i c) = x20 (ix2 i c) := by
  unfold val_main_v71
  match c with
  | ⟨0, _⟩ =>
    show concatenate S131072x2 1 _ _ (ix2 i 0) = x20 (ix2 i 0)
    rw [(concat_cols _ _ i).1, val_main_v69_apply, idx69, v63_at hr]
  | ⟨1, _⟩ =>
    show concatenate S131072x2 1 _ _ (ix2 i 1) = x20 (ix2 i 1)
    rw [(concat_cols _ _ i).2, val_main_v70_apply, idx70, v68_at hr]

end Cert.RefValue

end
-- ==== Proof.RefScatter.lean ====
/-
  The reference's two dense tables. `aex` (stage 57) is the zero table with the gate of pair `i` set at
  `(subject i, object i)`; `mask` (stage 73) is the zero table with the f32 word of one set at the same places. With
  every entry of the pair array in range and its rows pairwise distinct, each place is written by exactly one pair, so
  `aex` holds that pair's gate there; a place no pair names keeps the zero word. For `mask` the updates are one constant,
  so a written place holds it whether or not the rows are distinct. `M'` (stage 74) is the maximum of all of `aex`,
  started from the word of minus infinity: read here as the fold of `max` over all the table's places.
-/
import proofs.«120229_j77704548319709_2_alg».proof.Proof.RefPairs

noncomputable section

namespace Cert.RefValue

open Cert.ReferenceIdeal Cert.ReferenceIdeal.Gen Cert.ReferenceIdeal.ReadP Idealize.ShloMosaic Idealize.ShloMosaic.TcCoe Idealize.SL.Sem Idealize.ShloMosaic.StableHlo
open Idealize.ShloMosaic.ValueIdx Cert.Spec Cert.Lib.ScatterSet

/-- The update array of the mask scatter is the constant one. -/
theorem v72_const : val_main_v72 (F := Ideal) = fun _ => Ideal.ofBits .f32 0x3F800000#32 :=
  funext fun i => by rw [val_main_v72_apply]; rfl

/-- `aex` at the place pair `i` names: the gate of pair `i`. -/
theorem v57_hit (x0 : (⟨S8192x2048, .f32⟩ : BufTy).Contents (Elt Ideal)) (x1 : (⟨S131072x2048, .f32⟩ : BufTy).Contents (Elt Ideal)) (x2 : (⟨S2048x512, .f32⟩ : BufTy).Contents (Elt Ideal)) (x3 : (⟨S512, .f32⟩ : BufTy).Contents (Elt Ideal)) (x4 : (⟨S2048x512, .f32⟩ : BufTy).Contents (Elt Ideal)) (x5 : (⟨S512, .f32⟩ : BufTy).Contents (Elt Ideal)) (x6 : (⟨S2048x512, .f32⟩ : BufTy).Contents (Elt Ideal)) (x7 : (⟨S512, .f32⟩ : BufTy).Contents (Elt Ideal)) (x8 : (⟨S512x32, .f32⟩ : BufTy).Contents (Elt Ideal)) (x9 : (⟨S32, .f32⟩ : BufTy).Contents (Elt Ideal)) {x20 : Cert.Spec.PairIdx} (hr : InRange x20) (hd : Distinct x20) (i : Fin 131072) :
    val_main_v57 (F := Ideal) x0 x1 x2 x3 x4 x5 x6 x7 x8 x9 x20 (ix2 (col x20 hr 0 i) (col x20 hr 1 i)) = val_main_v42 (F := Ideal) x0 x1 x2 x3 x4 x5 x6 x7 x8 x9 x20 (ix1 i) := by
  unfold val_main_v57
  refine pair_scatter_hit scatter_S8192x8192_S131072x2_S131072_n_01_01_1.wf _ _ _ i (col x20 hr 0 i) (col x20 hr 1 i) ?_ ?_
  · rw [v56_at hr, v56_at hr]
    exact ⟨toInt_eq_col hr 0 i, toInt_eq_col hr 1 i⟩
  · intro i' h
    rw [v56_at hr, v56_at hr] at h
    refine hd i' i fun c => BitVec.eq_of_toInt_eq ?_
    match c with
    | ⟨0, _⟩ => exact h.1.trans (toInt_eq_col hr 0 i).symm
    | ⟨1, _⟩ => exact h.2.trans (toInt_eq_col hr 1 i).symm

/-- `aex` at a place no pair names: the zero word. -/
theorem v57_miss (x0 : (⟨S8192x2048, .f32⟩ : BufTy).Contents (Elt Ideal)) (x1 : (⟨S131072x2048, .f32⟩ : BufTy).Contents (Elt Ideal)) (x2 : (⟨S2048x512, .f32⟩ : BufTy).Contents (Elt Ideal)) (x3 : (⟨S512, .f32⟩ : BufTy).Contents (Elt Ideal)) (x4 : (⟨S2048x512, .f32⟩ : BufTy).Contents (Elt Ideal)) (x5 : (⟨S512, .f32⟩ : BufTy).Contents (Elt Ideal)) (x6 : (⟨S2048x512, .f32⟩ : BufTy).Contents (Elt Ideal)) (x7 : (⟨S512, .f32⟩ : BufTy).Contents (Elt Ideal)) (x8 : (⟨S512x32, .f32⟩ : BufTy).Contents (Elt Ideal)) (x9 : (⟨S32, .f32⟩ : BufTy).Contents (Elt Ideal)) {x20 : Cert.Spec.PairIdx} (hr : InRange x20) (a b : Fin 8192)
    (h : ∀ i : Fin 131072, ¬ (col x20 hr 0 i = a ∧ col x20 hr 1 i = b)) :
    val_main_v57 (F := Ideal) x0 x1 x2 x3 x4 x5 x6 x7 x8 x9 x20 (ix2 a b) = Ideal.ofBits .f32 0x00000000#32 := by
  unfold val_main_v57
  refine (pair_scatter_miss scatter_S8192x8192_S131072x2_S131072_n_01_01_1.wf _ _ _ a b ?_).trans (by rw [val_main_v43_apply]; rfl)
  · intro i hi
    rw [v56_at hr, v56_at hr, toInt_eq_col hr 0 i, toInt_eq_col hr 1 i] at hi
    exact h i ⟨Fin.ext (by exact_mod_cast hi.1), Fin.ext (by exact_mod_cast hi.2)⟩

/-- The same at a place given as an index of the table: one that is the place of no pair. -/
theorem v57_miss_idx (x0 : (⟨S8192x2048, .f32⟩ : BufTy).Contents (Elt Ideal)) (x1 : (⟨S131072x2048, .f32⟩ : BufTy).Contents (Elt Ideal)) (x2 : (⟨S2048x512, .f32⟩ : BufTy).Contents (Elt Ideal)) (x3 : (⟨S512, .f32⟩ : BufTy).Contents (Elt Ideal)) (x4 : (⟨S2048x512, .f32⟩ : BufTy).Contents (Elt Ideal)) (x5 : (⟨S512, .f32⟩ : BufTy).Contents (Elt Ideal)) (x6 : (⟨S2048x512, .f32⟩ : BufTy).Contents (Elt Ideal)) (x7 : (⟨S512, .f32⟩ : BufTy).Contents (Elt Ideal)) (x8 : (⟨S512x32, .f32⟩ : BufTy).Contents (Elt Ideal)) (x9 : (⟨S32, .f32⟩ : BufTy).Contents (Elt Ideal)) {x20 : Cert.Spec.PairIdx} (hr : InRange x20) (p : S8192x8192.Idx)
    (h : ∀ i : Fin 131072, ix2 (col x20 hr 0 i) (col x20 hr 1 i) ≠ p) :
    val_main_v57 (F := Ideal) x0 x1 x2 x3 x4 x5 x6 x7 x8 x9 x20 p = Ideal.ofBits .f32 0x00000000#32 := by
  rw [eq_ix2 p]
  exact v57_miss x0 x1 x2 x3 x4 x5 x6 x7 x8 x9 hr (p 0) (p 1) fun i hi => h i (by rw [hi.1, hi.2]; exact (eq_ix2 p).symm)

/-- `mask` at the place pair `i` names: the word of one. -/
theorem v73_hit {x20 : Cert.Spec.PairIdx} (hr : InRange x20) (i : Fin 131072) :
    val_main_v73 (F := Ideal) x20 (ix2 (col x20 hr 0 i) (col x20 hr 1 i)) = Ideal.ofBits .f32 0x3F800000#32 := by
  unfold val_main_v73
  rw [v72_const]
  refine scatter_const_hit (pairDims 8192 8192 131072 scatter_S8192x8192_S131072x2_S131072_n_01_01_1.wf) _ _ _ _ (ix1 i)
    ((pairDims_resultIdx?_eq_some_iff scatter_S8192x8192_S131072x2_S131072_n_01_01_1.wf _ i _ _).2 ?_)
  rw [v71_at hr, v71_at hr]
  exact ⟨toInt_eq_col hr 0 i, toInt_eq_col hr 1 i⟩

/-- `mask` at a place no pair names: the zero word. -/
theorem v73_miss {x20 : Cert.Spec.PairIdx} (hr : InRange x20) (a b : Fin 8192)
    (h : ∀ i : Fin 131072, ¬ (col x20 hr 0 i = a ∧ col x20 hr 1 i = b)) :
    val_main_v73 (F := Ideal) x20 (ix2 a b) = Ideal.ofBits .f32 0x00000000#32 := by
  unfold val_main_v73
  refine (pair_scatter_miss scatter_S8192x8192_S131072x2_S131072_n_01_01_1.wf _ _ _ a b ?_).trans (by rw [val_main_v58_apply]; rfl)
  · intro i hi
    rw [v71_at hr, v71_at hr, toInt_eq_col hr 0 i, toInt_eq_col hr 1 i] at hi
    exact h i ⟨Fin.ext (by exact_mod_cast hi.1), Fin.ext (by exact_mod_cast hi.2)⟩

/-- The same at a place given as an index of the table: one that is the place of no pair. -/
theorem v73_miss_idx {x20 : Cert.Spec.PairIdx} (hr : InRange x20) (p : S8192x8192.Idx)
    (h : ∀ i : Fin 131072, ix2 (col x20 hr 0 i) (col x20 hr 1 i) ≠ p) :
    val_main_v73 (F := Ideal) x20 p = Ideal.ofBits .f32 0x00000000#32 := by
  rw [eq_ix2 p]
  exact v73_miss hr (p 0) (p 1) fun i hi => h i (by rw [hi.1, hi.2]; exact (eq_ix2 p).symm)

/-- `M'`: the maximum over all places of `aex`, started from the word of minus infinity. -/
theorem v74_eq_fold (x0 : (⟨S8192x2048, .f32⟩ : BufTy).Contents (Elt Ideal)) (x1 : (⟨S131072x2048, .f32⟩ : BufTy).Contents (Elt Ideal)) (x2 : (⟨S2048x512, .f32⟩ : BufTy).Contents (Elt Ideal)) (x3 : (⟨S512, .f32⟩ : BufTy).Contents (Elt Ideal)) (x4 : (⟨S2048x512, .f32⟩ : BufTy).Contents (Elt Ideal)) (x5 : (⟨S512, .f32⟩ : BufTy).Contents (Elt Ideal)) (x6 : (⟨S2048x512, .f32⟩ : BufTy).Contents (Elt Ideal)) (x7 : (⟨S512, .f32⟩ : BufTy).Contents (Elt Ideal)) (x8 : (⟨S512x32, .f32⟩ : BufTy).Contents (Elt Ideal)) (x9 : (⟨S32, .f32⟩ : BufTy).Contents (Elt Ideal)) (x20 : (⟨S131072x2, .i32⟩ : BufTy).Contents (Elt Ideal)) :
    val_main_v74 (F := Ideal) x0 x1 x2 x3 x4 x5 x6 x7 x8 x9 x20 ix0 =
      (Finset.univ : Finset S8192x8192.Idx).fold max (Ideal.ofBits .f32 0xFF800000#32) (val_main_v57 (F := Ideal) x0 x1 x2 x3 x4 x5 x6 x7 x8 x9 x20) := by
  unfold val_main_v74
  rw [Host.reduce_eq_fold]
  have hf : (Finset.univ.filter fun i : S8192x8192.Idx =>
      (reducesTo_S8192x8192_S_d0_1 : S8192x8192.ReducesTo [0, 1] S_).drop i = ix0) = Finset.univ :=
    Finset.filter_true_of_mem fun i _ => funext fun a => a.elim0
  rw [hf]
  rfl

end Cert.RefValue

end
-- ==== Proof.RefGate.lean ====
/-
  The reference's gate (stage 42) at pair `i`. The reference gathers the rows of the node features named by the
  subject column and by the object column (stages 10 and 22), applies a linear layer and relu to each (stages 15 and 27)
  and to the pair's own features (stage 32), multiplies the three, applies the filter layer and relu (stage 39), sums the
  32 filters from the zero word and divides by 32. In range, the gathered row of pair `i` is the row of its subject /
  object node, so each gathered projection is the node-level projection at that node, and the stage is the shared gate.
-/
import proofs.«120229_j77704548319709_2_alg».proof.Proof.RefPairs

noncomputable section

namespace Cert.RefValue

open Cert.ReferenceIdeal Cert.ReferenceIdeal.Gen Cert.ReferenceIdeal.ReadP Idealize.ShloMosaic Idealize.ShloMosaic.TcCoe Idealize.SL.Sem Idealize.ShloMosaic.StableHlo
open Idealize.ShloMosaic.ValueIdx Cert.Spec Cert.Lib.ScatterSet

/-! ## The index functions of the generated read lemmas, at coordinates -/

theorem idx9 (i : Fin 131072) : idx_main_v9 (ix2 i 0) = ix1 i := funext fun a => by match a with | ⟨0, _⟩ => rfl
theorem idx21 (i : Fin 131072) : idx_main_v21 (ix2 i 0) = ix1 i := funext fun a => by match a with | ⟨0, _⟩ => rfl
theorem lidx11 (i : Fin 131072) (h : Fin 512) (k : Fin 2048) : lidx_main_v11 (ix2 i h) k = ix2 i k := funext (fun a => by match a with | ⟨0, _⟩ => rfl | ⟨1, _⟩ => rfl)
theorem ridx11 (i : Fin 131072) (h : Fin 512) (k : Fin 2048) : ridx_main_v11 (ix2 i h) k = ix2 k h := funext (fun a => by match a with | ⟨0, _⟩ => rfl | ⟨1, _⟩ => rfl)
theorem lidx23 (i : Fin 131072) (h : Fin 512) (k : Fin 2048) : lidx_main_v23 (ix2 i h) k = ix2 i k := funext (fun a => by match a with | ⟨0, _⟩ => rfl | ⟨1, _⟩ => rfl)
theorem ridx23 (i : Fin 131072) (h : Fin 512) (k : Fin 2048) : ridx_main_v23 (ix2 i h) k = ix2 k h := funext (fun a => by match a with | ⟨0, _⟩ => rfl | ⟨1, _⟩ => rfl)
theorem lidx28 (i : Fin 131072) (h : Fin 512) (k : Fin 2048) : lidx_main_v28 (ix2 i h) k = ix2 i k := funext (fun a => by match a with | ⟨0, _⟩ => rfl | ⟨1, _⟩ => rfl)
theorem ridx28 (i : Fin 131072) (h : Fin 512) (k : Fin 2048) : ridx_main_v28 (ix2 i h) k = ix2 k h := funext (fun a => by match a with | ⟨0, _⟩ => rfl | ⟨1, _⟩ => rfl)
theorem lidx35 (i : Fin 131072) (h : Fin 32) (k : Fin 512) : lidx_main_v35 (ix2 i h) k = ix2 i k := funext (fun a => by match a with | ⟨0, _⟩ => rfl | ⟨1, _⟩ => rfl)
theorem ridx35 (i : Fin 131072) (h : Fin 32) (k : Fin 512) : ridx_main_v35 (ix2 i h) k = ix2 k h := funext (fun a => by match a with | ⟨0, _⟩ => rfl | ⟨1, _⟩ => rfl)
theorem idx12_13 (i : Fin 131072) (h : Fin 512) : idx_main_v12 (idx_main_v13 (ix2 i h)) = ix1 h := funext fun a => by match a with | ⟨0, _⟩ => rfl
theorem idx24_25 (i : Fin 131072) (h : Fin 512) : idx_main_v24 (idx_main_v25 (ix2 i h)) = ix1 h := funext fun a => by match a with | ⟨0, _⟩ => rfl
theorem idx29_30 (i : Fin 131072) (h : Fin 512) : idx_main_v29 (idx_main_v30 (ix2 i h)) = ix1 h := funext fun a => by match a with | ⟨0, _⟩ => rfl
theorem idx36_37 (i : Fin 131072) (h : Fin 32) : idx_main_v36 (idx_main_v37 (ix2 i h)) = ix1 h := funext fun a => by match a with | ⟨0, _⟩ => rfl
theorem idx40 (i : Fin 131072) (f : Fin 32) : idx_main_v40 (ix1 i) f = ix2 i f := funext (fun a => by match a with | ⟨0, _⟩ => rfl | ⟨1, _⟩ => rfl)

/-! ## The gathered rows -/

/-- Row `i` of the gather by subjects (stage 10) is the feature row of pair `i`'s subject. -/
theorem v10_at (x0 : (⟨S8192x2048, .f32⟩ : BufTy).Contents (Elt Ideal)) {x20 : Cert.Spec.PairIdx} (hr : InRange x20) (i : Fin 131072) (d : Fin 2048) :
    val_main_v10 (F := Ideal) x0 x20 (ix2 i d) = x0 (ix2 (col x20 hr 0 i) d) := by
  unfold val_main_v10
  refine row_gather_apply_of_eq gather_S8192x2048_S131072x1_S131072x2048_1_0_n_n_0_1_12048.wf x0 _ i d (col x20 hr 0 i) ?_
  rw [val_main_v9_apply, idx9, v8_at hr]
  exact toInt_eq_col hr 0 i

/-- Row `i` of the gather by objects (stage 22) is the feature row of pair `i`'s object. -/
theorem v22_at (x0 : (⟨S8192x2048, .f32⟩ : BufTy).Contents (Elt Ideal)) {x20 : Cert.Spec.PairIdx} (hr : InRange x20) (i : Fin 131072) (d : Fin 2048) :
    val_main_v22 (F := Ideal) x0 x20 (ix2 i d) = x0 (ix2 (col x20 hr 1 i) d) := by
  unfold val_main_v22
  refine row_gather_apply_of_eq gather_S8192x2048_S131072x1_S131072x2048_1_0_n_n_0_1_12048.wf x0 _ i d (col x20 hr 1 i) ?_
  rw [val_main_v21_apply, idx21, v20_at hr]
  exact toInt_eq_col hr 1 i

/-! ## The three projections -/

/-- The subject projection of pair `i` (stage 15) is the node-level projection at its subject. -/
theorem v15_at (x0 : (⟨S8192x2048, .f32⟩ : BufTy).Contents (Elt Ideal)) (x2 : (⟨S2048x512, .f32⟩ : BufTy).Contents (Elt Ideal)) (x3 : (⟨S512, .f32⟩ : BufTy).Contents (Elt Ideal)) {x20 : Cert.Spec.PairIdx} (hr : InRange x20) (i : Fin 131072) (h : Fin 512) :
    val_main_v15 (F := Ideal) x0 x2 x3 x20 (ix2 i h) = node (fun a b => x0 (ix2 a b)) (fun a b => x2 (ix2 a b)) (fun a => x3 (ix1 a)) (col x20 hr 0 i) h := by
  rw [val_main_v15_apply, val_main_v14_apply, val_main_v11_apply, val_main_v13_apply, val_main_v12_apply, idx12_13,
    val_main_call0_v0_apply, val_main_call0_cst_apply]
  simp only [lidx11, ridx11, v10_at x0 hr, Ideal.maximumf_def, Ideal.addf_def, Ideal.ofBits_def]
  rfl

/-- The object projection of pair `i` (stage 27) is the node-level projection at its object. -/
theorem v27_at (x0 : (⟨S8192x2048, .f32⟩ : BufTy).Contents (Elt Ideal)) (x4 : (⟨S2048x512, .f32⟩ : BufTy).Contents (Elt Ideal)) (x5 : (⟨S512, .f32⟩ : BufTy).Contents (Elt Ideal)) {x20 : Cert.Spec.PairIdx} (hr : InRange x20) (i : Fin 131072) (h : Fin 512) :
    val_main_v27 (F := Ideal) x0 x4 x5 x20 (ix2 i h) = node (fun a b => x0 (ix2 a b)) (fun a b => x4 (ix2 a b)) (fun a => x5 (ix1 a)) (col x20 hr 1 i) h := by
  rw [val_main_v27_apply, val_main_v26_apply, val_main_v23_apply, val_main_v25_apply, val_main_v24_apply, idx24_25,
    val_main_call1_v0_apply, val_main_call1_cst_apply]
  simp only [lidx23, ridx23, v22_at x0 hr, Ideal.maximumf_def, Ideal.addf_def, Ideal.ofBits_def]
  rfl

/-- The projection of pair `i`'s own features (stage 32). -/
theorem v32_at (x1 : (⟨S131072x2048, .f32⟩ : BufTy).Contents (Elt Ideal)) (x6 : (⟨S2048x512, .f32⟩ : BufTy).Contents (Elt Ideal)) (x7 : (⟨S512, .f32⟩ : BufTy).Contents (Elt Ideal)) (i : Fin 131072) (h : Fin 512) :
    val_main_v32 (F := Ideal) x1 x6 x7 (ix2 i h) = node (fun a b => x1 (ix2 a b)) (fun a b => x6 (ix2 a b)) (fun a => x7 (ix1 a)) i h := by
  rw [val_main_v32_apply, val_main_v31_apply, val_main_v28_apply, val_main_v30_apply, val_main_v29_apply, idx29_30,
    val_main_call2_v0_apply, val_main_call2_cst_apply]
  simp only [lidx28, ridx28, Ideal.maximumf_def, Ideal.addf_def, Ideal.ofBits_def]
  rfl

/-! ## The filters and the gate -/

/-- Filter `f` of pair `i` after relu (stage 39). -/
theorem v39_at (x0 : (⟨S8192x2048, .f32⟩ : BufTy).Contents (Elt Ideal)) (x1 : (⟨S131072x2048, .f32⟩ : BufTy).Contents (Elt Ideal)) (x2 : (⟨S2048x512, .f32⟩ : BufTy).Contents (Elt Ideal)) (x3 : (⟨S512, .f32⟩ : BufTy).Contents (Elt Ideal)) (x4 : (⟨S2048x512, .f32⟩ : BufTy).Contents (Elt Ideal)) (x5 : (⟨S512, .f32⟩ : BufTy).Contents (Elt Ideal)) (x6 : (⟨S2048x512, .f32⟩ : BufTy).Contents (Elt Ideal)) (x7 : (⟨S512, .f32⟩ : BufTy).Contents (Elt Ideal)) (x8 : (⟨S512x32, .f32⟩ : BufTy).Contents (Elt Ideal)) (x9 : (⟨S32, .f32⟩ : BufTy).Contents (Elt Ideal)) {x20 : Cert.Spec.PairIdx} (hr : InRange x20) (i : Fin 131072) (f : Fin 32) :
    val_main_v39 (F := Ideal) x0 x1 x2 x3 x4 x5 x6 x7 x8 x9 x20 (ix2 i f) =
      relu ((∑ h : Fin 512, ((node (fun a b => x0 (ix2 a b)) (fun a b => x2 (ix2 a b)) (fun a => x3 (ix1 a)) (col x20 hr 0 i) h
          * node (fun a b => x0 (ix2 a b)) (fun a b => x4 (ix2 a b)) (fun a => x5 (ix1 a)) (col x20 hr 1 i) h)
          * node (fun a b => x1 (ix2 a b)) (fun a b => x6 (ix2 a b)) (fun a => x7 (ix1 a)) i h) * x8 (ix2 h f)) + x9 (ix1 f)) := by
  rw [val_main_v39_apply, val_main_v38_apply, val_main_v35_apply, val_main_v37_apply, val_main_v36_apply, idx36_37,
    val_main_call3_v0_apply, val_main_call3_cst_apply]
  simp only [lidx35, ridx35, val_main_v34_apply, val_main_v33_apply, v15_at x0 x2 x3 hr, v27_at x0 x4 x5 hr, v32_at,
    Ideal.maximumf_def, Ideal.addf_def, Ideal.mulf_def, Ideal.ofBits_def]
  rfl

/-- THE GATE: stage 42 at pair `i` is the shared gate of the subject and object columns and the arrays as matrices. -/
theorem v42_at (x0 : (⟨S8192x2048, .f32⟩ : BufTy).Contents (Elt Ideal)) (x1 : (⟨S131072x2048, .f32⟩ : BufTy).Contents (Elt Ideal)) (x2 : (⟨S2048x512, .f32⟩ : BufTy).Contents (Elt Ideal)) (x3 : (⟨S512, .f32⟩ : BufTy).Contents (Elt Ideal)) (x4 : (⟨S2048x512, .f32⟩ : BufTy).Contents (Elt Ideal)) (x5 : (⟨S512, .f32⟩ : BufTy).Contents (Elt Ideal)) (x6 : (⟨S2048x512, .f32⟩ : BufTy).Contents (Elt Ideal)) (x7 : (⟨S512, .f32⟩ : BufTy).Contents (Elt Ideal)) (x8 : (⟨S512x32, .f32⟩ : BufTy).Contents (Elt Ideal)) (x9 : (⟨S32, .f32⟩ : BufTy).Contents (Elt Ideal)) {x20 : Cert.Spec.PairIdx} (hr : InRange x20) (i : Fin 131072) :
    val_main_v42 (F := Ideal) x0 x1 x2 x3 x4 x5 x6 x7 x8 x9 x20 (ix1 i) =
      gate (col x20 hr 0) (col x20 hr 1) (fun a b => x0 (ix2 a b)) (fun a b => x1 (ix2 a b)) (fun a b => x2 (ix2 a b)) (fun a => x3 (ix1 a)) (fun a b => x4 (ix2 a b)) (fun a => x5 (ix1 a))
        (fun a b => x6 (ix2 a b)) (fun a => x7 (ix1 a)) (fun a b => x8 (ix2 a b)) (fun a => x9 (ix1 a)) i := by
  rw [val_main_v42_apply, val_main_v40_apply, val_main_v41_apply, val_main_cst_3_apply, val_main_cst_apply]
  simp only [idx40, v39_at x0 x1 x2 x3 x4 x5 x6 x7 x8 x9 hr, Ideal.hostDivf_def, Ideal.ofBits_def]
  rfl

end Cert.RefValue

end
-- ==== Proof.IsReal.lean ====
/-
  Being a real number, inside the extended reals, is kept by the operations the two programs apply to their finite
  inputs: sums, products, differences, maxima, the exponential, a quotient by a nonzero real, finite sums. The
  precondition makes every input entry real; these lemmas carry that to the gates, the messages and the table.
-/
import Idealize.ShloMosaic.PureOps.Ideal
import Mathlib.Data.EReal.Basic

noncomputable section

namespace Cert

open Idealize.ShloMosaic

/-- An extended real that is a real number. -/
def IsReal (x : EReal) : Prop := ∃ r : ℝ, x = ((r : ℝ) : EReal)

namespace IsReal

theorem coe (r : ℝ) : IsReal ((r : ℝ) : EReal) := ⟨r, rfl⟩

theorem zero : IsReal (0 : EReal) := ⟨0, rfl⟩

theorem one : IsReal (1 : EReal) := ⟨1, rfl⟩

theorem add {x y : EReal} (hx : IsReal x) (hy : IsReal y) : IsReal (x + y) := by
  obtain ⟨a, rfl⟩ := hx; obtain ⟨b, rfl⟩ := hy; exact ⟨a + b, (EReal.coe_add a b).symm⟩

theorem sub {x y : EReal} (hx : IsReal x) (hy : IsReal y) : IsReal (x - y) := by
  obtain ⟨a, rfl⟩ := hx; obtain ⟨b, rfl⟩ := hy; exact ⟨a - b, (EReal.coe_sub a b).symm⟩

theorem mul {x y : EReal} (hx : IsReal x) (hy : IsReal y) : IsReal (x * y) := by
  obtain ⟨a, rfl⟩ := hx; obtain ⟨b, rfl⟩ := hy; exact ⟨a * b, (EReal.coe_mul a b).symm⟩

theorem max {x y : EReal} (hx : IsReal x) (hy : IsReal y) : IsReal (Max.max x y) := by
  rcases max_cases x y with h | h <;> rw [h.1] <;> assumption

theorem exp {x : EReal} (hx : IsReal x) : IsReal (Ideal.exp x) := by
  obtain ⟨a, rfl⟩ := hx; exact ⟨Real.exp a, rfl⟩

/-- A quotient of a real by a nonzero real. -/
theorem div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h]; rfl)
  rw [Ideal.div_coe hb]
  exact ⟨a * (1 / b), (EReal.coe_mul a (1 / b)).symm⟩

theorem sum {ι : Type*} (s : Finset ι) (f : ι → EReal) (h : ∀ i ∈ s, IsReal (f i)) : IsReal (∑ i ∈ s, f i) := by
  classical
  induction s using Finset.induction_on with
  | empty => simpa using zero
  | insert a s ha ih =>
    rw [Finset.sum_insert ha]
    exact add (h a (Finset.mem_insert_self a s)) (ih fun i hi => h i (Finset.mem_insert_of_mem hi))

end IsReal

end Cert

end
-- ==== Proof.Consts.lean ====
/-
  The float constants the two programs spell that the proof has to read as numbers: the zero a sum starts from and a
  table is filled with, the one written at an existing pair and divided to make a reciprocal, the bottom a maximum
  starts from, and the small positive ε added to a row sum before dividing (only that it is a positive real).
-/
import Idealize.ShloMosaic.PureOps.Ideal

noncomputable section

namespace Cert.Consts

open Idealize.ShloMosaic

/-- The f32 word of `+0.0` denotes `0`. -/
theorem ofBits_zero : Ideal.ofBits .f32 0x00000000#32 = 0 := by
  simp [Ideal.ofBits, Ideal.ieee]

/-- The bf16 word of `+0.0` denotes `0`. -/
theorem ofBits_zero_bf16 : Ideal.ofBits .bf16 0x0000#16 = 0 := by
  simp [Ideal.ofBits, Ideal.ieee]

/-- The f32 word of `1.0` denotes `1`. -/
theorem ofBits_one : Ideal.ofBits .f32 0x3F800000#32 = 1 := by
  simp [Ideal.ofBits, Ideal.ieee, -EReal.coe_mul]; norm_num

/-- The f32 word of `-∞` denotes the bottom of the extended reals. -/
theorem ofBits_neg_inf : Ideal.ofBits .f32 0xFF800000#32 = ⊥ := by
  simp [Ideal.ofBits, Ideal.ieee]

/-- The f32 word `0x358637BD` (the ε added to a row sum) denotes a positive real number. -/
theorem ofBits_eps : ∃ r : ℝ, 0 < r ∧ Ideal.ofBits .f32 0x358637BD#32 = ((r : ℝ) : EReal) := by
  refine ⟨(8796093 : ℝ) / 2 ^ 43, by positivity, ?_⟩
  simp [Ideal.ofBits, Ideal.ieee, -EReal.coe_mul]; norm_num

end Cert.Consts

end
-- ==== Proof.TableFacts.lean ====
/-
  The dense tables both programs build by scattering one value per pair at the place (subject, object) of the pair,
  read through the pairs' node numbers.

  With every entry of the array of pairs a node number and the rows pairwise distinct, each pair owns its place: the
  table holds pair `i`'s value at `(subject i, object i)` and keeps the operand (zero) at every place no pair names.
  From that: the maximum of the table of gates is the maximum of the gates; the reference's masked exponential table is
  the kernel's table of exponentials; that table is a table of nonnegative reals, with a nonzero entry in row `n`
  exactly when some pair has subject `n`; and the vector of ones scattered at the subjects is nonzero at exactly
  those `n`.
-/
import proofs.«120229_j77704548319709_2_alg».proof.Proof.LibScatterSet
import proofs.«120229_j77704548319709_2_alg».proof.Proof.Spec
import proofs.«120229_j77704548319709_2_alg».proof.Proof.IsReal
import proofs.«120229_j77704548319709_2_alg».proof.Proof.Algebra
import proofs.«120229_j77704548319709_2_alg».proof.Proof.Consts

noncomputable section

namespace Cert.TableFacts

open Idealize.ShloMosaic Idealize.ShloMosaic.ValueIdx Cert.Lib.ScatterSet Cert.Spec

/-! ## The pairs' node numbers -/

section Col
variable (a : PairIdx) (hr : InRange a)

/-- An entry of the array of pairs, read signed, is its node number. -/
theorem col_toInt (c : Fin 2) (i : Fin 131072) : (a (ix2 i c)).toInt = ((col a hr c i : Fin 8192) : ℕ) := by
  have h := hr i c
  show _ = (((a (ix2 i c)).toInt.toNat : ℕ) : ℤ)
  omega

/-- Column `c` of pair `i` is the node `p` exactly when the entry, read signed, is `p`. -/
theorem col_eq_iff (c : Fin 2) (i : Fin 131072) (p : Fin 8192) :
    col a hr c i = p ↔ (a (ix2 i c)).toInt = (p : ℕ) := by
  constructor
  · intro h; rw [← h]; exact col_toInt a hr c i
  · intro h
    refine Fin.ext ?_
    show (a (ix2 i c)).toInt.toNat = p.val
    omega

/-- The place of pair `i` in a dense table: (its subject, its object). -/
abbrev pos (i : Fin 131072) : (⟨2, ![8192, 8192]⟩ : Shape).Idx := ix2 (col a hr 0 i) (col a hr 1 i)

/-- Two pairs with the same subject and the same object are the same pair, when the rows are pairwise distinct. -/
theorem eq_of_col_eq (hd : Distinct a) (i j : Fin 131072) (h0 : col a hr 0 i = col a hr 0 j)
    (h1 : col a hr 1 i = col a hr 1 j) : i = j := by
  apply hd
  intro c
  apply BitVec.eq_of_toInt_eq
  match c with
  | ⟨0, _⟩ => exact (col_toInt a hr 0 i).trans ((congrArg (fun p : Fin 8192 => ((p : ℕ) : ℤ)) h0).trans (col_toInt a hr 0 j).symm)
  | ⟨1, _⟩ => exact (col_toInt a hr 1 i).trans ((congrArg (fun p : Fin 8192 => ((p : ℕ) : ℤ)) h1).trans (col_toInt a hr 1 j).symm)

end Col

/-! ## (C0) A value per pair scattered at the pairs' places -/

section Table
variable {α : Type} (a : PairIdx) (hr : InRange a)
  (wf2 : ScatterDims.WF ⟨2, ![8192, 8192]⟩ ⟨2, ![131072, 2]⟩ ⟨1, ![131072]⟩ [] [0, 1] [0, 1] 1)

/-- HIT: the scattered table holds pair `i`'s update at the place (subject `i`, object `i`): no other pair has that
    place, the rows being pairwise distinct. -/
theorem table_hit (hd : Distinct a) (x : (⟨2, ![8192, 8192]⟩ : Shape).Idx → α) (u : (⟨1, ![131072]⟩ : Shape).Idx → α) (i : Fin 131072) :
    Host.scatter (pairDims 8192 8192 131072 wf2) (fun _ b => b) x a u (ix2 (col a hr 0 i) (col a hr 1 i)) = u (ix1 i) := by
  refine pair_scatter_hit wf2 x a u i (col a hr 0 i) (col a hr 1 i) ⟨col_toInt a hr 0 i, col_toInt a hr 1 i⟩ ?_
  rintro i' ⟨e0, e1⟩
  exact eq_of_col_eq a hr hd i' i ((col_eq_iff a hr 0 i' _).2 e0) ((col_eq_iff a hr 1 i' _).2 e1)

/-- MISS: at a place `(p, q)` that is no pair's (subject, object), the scattered table keeps the operand's element. -/
theorem table_miss (x : (⟨2, ![8192, 8192]⟩ : Shape).Idx → α) (u : (⟨1, ![131072]⟩ : Shape).Idx → α) (p q : Fin 8192)
    (h : ∀ i, ¬ (col a hr 0 i = p ∧ col a hr 1 i = q)) :
    Host.scatter (pairDims 8192 8192 131072 wf2) (fun _ b => b) x a u (ix2 p q) = x (ix2 p q) := by
  refine pair_scatter_miss wf2 x a u p q ?_
  rintro i ⟨e0, e1⟩
  exact h i ⟨(col_eq_iff a hr 0 i p).2 e0, (col_eq_iff a hr 1 i q).2 e1⟩

/-- Every place of the table is some pair's place or no pair's place. -/
theorem place_cases (p : (⟨2, ![8192, 8192]⟩ : Shape).Idx) :
    (∃ i, p = ix2 (col a hr 0 i) (col a hr 1 i)) ∨ (∀ i, ¬ (col a hr 0 i = p 0 ∧ col a hr 1 i = p 1)) := by
  by_cases h : ∃ i, col a hr 0 i = p 0 ∧ col a hr 1 i = p 1
  · obtain ⟨i, h0, h1⟩ := h
    exact Or.inl ⟨i, by rw [h0, h1]; exact eq_ix2 p⟩
  · exact Or.inr fun i hi => h ⟨i, hi⟩

/-- MISS, at an index: at a place that is no pair's, the scattered table keeps the operand's element. -/
theorem table_miss' (x : (⟨2, ![8192, 8192]⟩ : Shape).Idx → α) (u : (⟨1, ![131072]⟩ : Shape).Idx → α)
    (p : (⟨2, ![8192, 8192]⟩ : Shape).Idx) (h : ∀ i, ¬ (col a hr 0 i = p 0 ∧ col a hr 1 i = p 1)) :
    Host.scatter (pairDims 8192 8192 131072 wf2) (fun _ b => b) x a u p = x p := by
  rw [eq_ix2 p]
  exact table_miss a hr wf2 x u (p 0) (p 1) h

end Table

/-! ## (C1)–(C3) The tables of gates, of the mask and of the exponentials -/

section Gates
variable (a : PairIdx)
  (wf2 : ScatterDims.WF ⟨2, ![8192, 8192]⟩ ⟨2, ![131072, 2]⟩ ⟨1, ![131072]⟩ [] [0, 1] [0, 1] 1)
  (g : Fin 131072 → EReal)

/-- (C1) The maximum over the whole table of gates (gate `i` at pair `i`'s place, zero elsewhere) is the maximum of the
    gates, the gates being nonnegative. -/
theorem sup_gate_table (hr : InRange a) (hd : Distinct a) (hg0 : ∀ i, 0 ≤ g i) :
    Finset.univ.sup (Host.scatter (pairDims 8192 8192 131072 wf2) (fun _ b => b) (fun _ => (0 : EReal)) a
        (fun j => g (j 0)))
      = Finset.univ.sup g := by
  haveI : Nonempty (Fin 131072) := ⟨⟨0, by norm_num⟩⟩
  refine Cert.Algebra.sup_table_eq g hg0 _ (fun i => ix2 (col a hr 0 i) (col a hr 1 i)) (fun i => ?_) (fun p hp => ?_)
  · exact table_hit a hr wf2 hd _ _ i
  · rcases place_cases a hr p with ⟨i, hi⟩ | h
    · exact absurd hi.symm (hp i)
    · exact table_miss' a hr wf2 _ _ p h

/-- (C2) The exponential of (table of gates minus the maximum) times the mask table is the table of the exponentials
    of (gate minus the maximum): at a pair's place the mask is one, elsewhere both sides are zero. -/
theorem masked_exp_table (hr : InRange a) (hd : Distinct a) (m : EReal) (p : (⟨2, ![8192, 8192]⟩ : Shape).Idx) :
    Ideal.exp (Host.scatter (pairDims 8192 8192 131072 wf2) (fun _ b => b) (fun _ => (0 : EReal)) a
          (fun j => g (j 0)) p - m)
        * Host.scatter (pairDims 8192 8192 131072 wf2) (fun _ b => b) (fun _ => (0 : EReal)) a (fun _ => (1 : EReal)) p
      = Host.scatter (pairDims 8192 8192 131072 wf2) (fun _ b => b) (fun _ => (0 : EReal)) a
          (fun j => Ideal.exp (g (j 0) - m)) p := by
  rcases place_cases a hr p with ⟨i, rfl⟩ | h
  · rw [table_hit a hr wf2 hd _ (fun j => g (j 0)) i, table_hit a hr wf2 hd _ (fun _ => (1 : EReal)) i,
      table_hit a hr wf2 hd _ (fun j => Ideal.exp (g (j 0) - m)) i]
    exact mul_one _
  · rw [table_miss' a hr wf2 _ (fun _ => (1 : EReal)) p h, table_miss' a hr wf2 _ (fun j => Ideal.exp (g (j 0) - m)) p h]
    exact mul_zero _

/-- (C3) The table of the exponentials of (gate minus the maximum gate) is a table of nonnegative real numbers, and
    row `n` has a nonzero entry exactly when some pair has subject `n`: the maximum is one of the gates, so each
    difference is real and its exponential a positive real; the other places hold zero. -/
theorem exp_table_real (hr : InRange a) (hd : Distinct a) (hg : ∀ i, IsReal (g i)) :
    ∃ Tr : Fin 8192 → Fin 8192 → ℝ, (∀ p q, 0 ≤ Tr p q) ∧
      (∀ p q, Host.scatter (pairDims 8192 8192 131072 wf2) (fun _ b => b) (fun _ => (0 : EReal)) a
          (fun j => Ideal.exp (g (j 0) - Finset.univ.sup g)) (ix2 p q) = ((Tr p q : ℝ) : EReal)) ∧
      ∀ n, (∃ q, Tr n q ≠ 0) ↔ ∃ i, col a hr 0 i = n := by
  haveI : Nonempty (Fin 131072) := ⟨⟨0, by norm_num⟩⟩
  obtain ⟨i0, _, hM⟩ := Finset.exists_mem_eq_sup Finset.univ Finset.univ_nonempty g
  have hMr : IsReal (Finset.univ.sup g) := by rw [hM]; exact hg i0
  have hE : ∀ i, ∃ r : ℝ, 0 < r ∧ Ideal.exp (g i - Finset.univ.sup g) = ((r : ℝ) : EReal) := by
    intro i
    obtain ⟨x, hx⟩ := (hg i).sub hMr
    exact ⟨Real.exp x, Real.exp_pos x, by rw [hx]; rfl⟩
  have key : ∀ p q : Fin 8192,
      (∃ i, ∃ r : ℝ, col a hr 0 i = p ∧ col a hr 1 i = q ∧ 0 < r ∧
        Host.scatter (pairDims 8192 8192 131072 wf2) (fun _ b => b) (fun _ => (0 : EReal)) a
          (fun j => Ideal.exp (g (j 0) - Finset.univ.sup g)) (ix2 p q) = ((r : ℝ) : EReal)) ∨
      ((∀ i, ¬ (col a hr 0 i = p ∧ col a hr 1 i = q)) ∧
        Host.scatter (pairDims 8192 8192 131072 wf2) (fun _ b => b) (fun _ => (0 : EReal)) a
          (fun j => Ideal.exp (g (j 0) - Finset.univ.sup g)) (ix2 p q) = 0) := by
    intro p q
    by_cases h : ∃ i, col a hr 0 i = p ∧ col a hr 1 i = q
    · obtain ⟨i, h0, h1⟩ := h
      obtain ⟨r, hr0, hre⟩ := hE i
      refine Or.inl ⟨i, r, h0, h1, hr0, ?_⟩
      rw [← h0, ← h1, table_hit a hr wf2 hd _ _ i]
      exact hre
    · exact Or.inr ⟨fun i hi => h ⟨i, hi⟩, table_miss a hr wf2 _ _ p q fun i hi => h ⟨i, hi⟩⟩
  refine ⟨fun p q => (Host.scatter (pairDims 8192 8192 131072 wf2) (fun _ b => b) (fun _ => (0 : EReal)) a
      (fun j => Ideal.exp (g (j 0) - Finset.univ.sup g)) (ix2 p q)).toReal, ?_, ?_, ?_⟩
  · intro p q
    rcases key p q with ⟨i, r, _, _, hr0, e⟩ | ⟨_, e⟩
    · show 0 ≤ EReal.toReal _
      rw [e, EReal.toReal_coe]; exact hr0.le
    · show 0 ≤ EReal.toReal _
      rw [e, EReal.toReal_zero]
  · intro p q
    rcases key p q with ⟨i, r, _, _, hr0, e⟩ | ⟨_, e⟩
    · show _ = ((EReal.toReal _ : ℝ) : EReal)
      rw [e, EReal.toReal_coe]
    · show _ = ((EReal.toReal _ : ℝ) : EReal)
      rw [e, EReal.toReal_zero, EReal.coe_zero]
  · intro n
    constructor
    · rintro ⟨q, hq⟩
      rcases key n q with ⟨i, r, h0, _, _, _⟩ | ⟨_, e⟩
      · exact ⟨i, h0⟩
      · exact absurd (show EReal.toReal _ = 0 by rw [e, EReal.toReal_zero]) hq
    · rintro ⟨i, hi⟩
      refine ⟨col a hr 1 i, ?_⟩
      rcases key n (col a hr 1 i) with ⟨i', r, _, _, hr0, e⟩ | ⟨hno, _⟩
      · show EReal.toReal _ ≠ 0
        rw [e, EReal.toReal_coe]; exact hr0.ne'
      · exact absurd ⟨hi, rfl⟩ (hno i)

end Gates

/-! ## (C4) The vector of ones scattered at the subjects -/

section Valid
variable (a : PairIdx) (hr : InRange a)
  (wf1 : ScatterDims.WF ⟨1, ![8192]⟩ ⟨2, ![131072, 1]⟩ ⟨1, ![131072]⟩ [] [0] [0] 1)

/-- (C4) With `idx1` the column of subjects, the vector that starts as zeros and gets a one written at every subject is
    nonzero at node `n` exactly when some pair has subject `n`. -/
theorem valid_ne_zero_iff (idx1 : IVec ⟨2, ![131072, 1]⟩ 32) (h1 : ∀ i, idx1 (ix2 i 0) = a (ix2 i 0)) (n : Fin 8192) :
    Host.scatter (pointDims 8192 131072 wf1) (fun _ b => b) (fun _ => (0 : EReal)) idx1 (fun _ => (1 : EReal)) (ix1 n) ≠ 0
      ↔ ∃ i, col a hr 0 i = n := by
  constructor
  · intro hne
    by_contra hno
    apply hne
    rw [point_scatter_miss wf1 _ idx1 _ n
      (fun i e => hno ⟨i, (col_eq_iff a hr 0 i n).2 (by rw [← h1 i]; exact e)⟩)]
  · rintro ⟨i, hi⟩
    rw [point_scatter_const_hit wf1 _ idx1 1 i n (by rw [h1 i]; exact (col_eq_iff a hr 0 i n).1 hi)]
    exact one_ne_zero

end Valid

end Cert.TableFacts

end
-- ==== Proof.GateFacts.lean ====
/-
  What the precondition's "every input entry is a real" gives for the gates and the messages: each gate is a
  nonnegative real, each message entry is a real, the largest gate is a real that bounds every gate, and the
  exponential of a gate minus the largest gate is a positive real, at most one.
-/
import proofs.«120229_j77704548319709_2_alg».proof.Proof.Spec
import proofs.«120229_j77704548319709_2_alg».proof.Proof.IsReal
import proofs.«120229_j77704548319709_2_alg».proof.Proof.Consts

noncomputable section

open scoped BigOperators

namespace Cert.GateFacts

open Idealize.ShloMosaic Cert Cert.Spec

/-- The zero word denotes `0`. -/
theorem z_eq : Spec.z = 0 := Consts.ofBits_zero

/-- The word of 32.0 denotes `32`. -/
theorem c32_eq : Spec.c32 = ((32 : ℝ) : EReal) := by
  show Ideal.ofBits .f32 0x42000000#32 = _
  simp [Ideal.ofBits, Ideal.ieee, -EReal.coe_mul]; norm_num

theorem c32_ne_zero : Spec.c32 ≠ 0 := by
  rw [c32_eq]; exact_mod_cast (by norm_num : (32 : ℝ) ≠ 0)

theorem isReal_z : IsReal Spec.z := by rw [z_eq]; exact IsReal.zero

theorem isReal_c32 : IsReal Spec.c32 := by rw [c32_eq]; exact IsReal.coe 32

/-- relu of a real is a real. -/
theorem isReal_relu {x : EReal} (hx : IsReal x) : IsReal (relu x) := IsReal.max hx isReal_z

/-- relu is nonnegative. -/
theorem relu_nonneg (x : EReal) : 0 ≤ relu x := by
  unfold relu; rw [z_eq]; exact le_max_right _ _

section Layers

variable {A K B : Nat} {x : Fin A → Fin K → EReal} {w : Fin K → Fin B → EReal} {b : Fin B → EReal}

/-- A linear layer of real matrices has real entries. -/
theorem isReal_lin (hx : ∀ a k, IsReal (x a k)) (hw : ∀ k j, IsReal (w k j)) (hb : ∀ j, IsReal (b j))
    (a : Fin A) (j : Fin B) : IsReal (lin x w b a j) :=
  IsReal.add (IsReal.sum _ _ fun k _ => IsReal.mul (hx a k) (hw k j)) (hb j)

/-- So has a linear layer followed by relu. -/
theorem isReal_node (hx : ∀ a k, IsReal (x a k)) (hw : ∀ k j, IsReal (w k j)) (hb : ∀ j, IsReal (b j))
    (a : Fin A) (j : Fin B) : IsReal (node x w b a j) :=
  isReal_relu (isReal_lin hx hw hb a j)

end Layers

section Gate

variable (s o : Fin 131072 → Fin 8192)
  (inst : Fin 8192 → Fin 2048 → EReal) (ruf : Fin 131072 → Fin 2048 → EReal)
  (ws_w : Fin 2048 → Fin 512 → EReal) (ws_b : Fin 512 → EReal) (wo_w : Fin 2048 → Fin 512 → EReal) (wo_b : Fin 512 → EReal)
  (wu_w : Fin 2048 → Fin 512 → EReal) (wu_b : Fin 512 → EReal) (gw : Fin 512 → Fin 32 → EReal) (gb : Fin 32 → EReal)

/-- The sum the gate divides by 32 is a real. -/
theorem isReal_gate_num (hinst : ∀ n d, IsReal (inst n d)) (hruf : ∀ n d, IsReal (ruf n d))
    (hws_w : ∀ k j, IsReal (ws_w k j)) (hws_b : ∀ j, IsReal (ws_b j))
    (hwo_w : ∀ k j, IsReal (wo_w k j)) (hwo_b : ∀ j, IsReal (wo_b j))
    (hwu_w : ∀ k j, IsReal (wu_w k j)) (hwu_b : ∀ j, IsReal (wu_b j))
    (hgw : ∀ h f, IsReal (gw h f)) (hgb : ∀ f, IsReal (gb f)) (i : Fin 131072) :
    IsReal (z + ∑ f : Fin 32,
      relu ((∑ h : Fin 512, ((node inst ws_w ws_b (s i) h * node inst wo_w wo_b (o i) h) * node ruf wu_w wu_b i h) * gw h f) + gb f)) :=
  IsReal.add isReal_z (IsReal.sum _ _ fun f _ => isReal_relu (IsReal.add
    (IsReal.sum _ _ fun h _ => IsReal.mul (IsReal.mul (IsReal.mul (isReal_node hinst hws_w hws_b _ _)
      (isReal_node hinst hwo_w hwo_b _ _)) (isReal_node hruf hwu_w hwu_b _ _)) (hgw h f)) (hgb f)))

/-- That sum is nonnegative: it starts from zero and adds relus. -/
theorem gate_num_nonneg (i : Fin 131072) :
    0 ≤ z + ∑ f : Fin 32,
      relu ((∑ h : Fin 512, ((node inst ws_w ws_b (s i) h * node inst wo_w wo_b (o i) h) * node ruf wu_w wu_b i h) * gw h f) + gb f) := by
  rw [z_eq, zero_add]
  exact Finset.sum_nonneg fun f _ => relu_nonneg _

/-- Every gate is a real. -/
theorem isReal_gate (hinst : ∀ n d, IsReal (inst n d)) (hruf : ∀ n d, IsReal (ruf n d))
    (hws_w : ∀ k j, IsReal (ws_w k j)) (hws_b : ∀ j, IsReal (ws_b j))
    (hwo_w : ∀ k j, IsReal (wo_w k j)) (hwo_b : ∀ j, IsReal (wo_b j))
    (hwu_w : ∀ k j, IsReal (wu_w k j)) (hwu_b : ∀ j, IsReal (wu_b j))
    (hgw : ∀ h f, IsReal (gw h f)) (hgb : ∀ f, IsReal (gb f)) (i : Fin 131072) :
    IsReal (gate s o inst ruf ws_w ws_b wo_w wo_b wu_w wu_b gw gb i) :=
  IsReal.div (isReal_gate_num s o inst ruf ws_w ws_b wo_w wo_b wu_w wu_b gw gb hinst hruf hws_w hws_b hwo_w hwo_b
    hwu_w hwu_b hgw hgb i) isReal_c32 c32_ne_zero

/-- Every gate is nonnegative. -/
theorem gate_nonneg (hinst : ∀ n d, IsReal (inst n d)) (hruf : ∀ n d, IsReal (ruf n d))
    (hws_w : ∀ k j, IsReal (ws_w k j)) (hws_b : ∀ j, IsReal (ws_b j))
    (hwo_w : ∀ k j, IsReal (wo_w k j)) (hwo_b : ∀ j, IsReal (wo_b j))
    (hwu_w : ∀ k j, IsReal (wu_w k j)) (hwu_b : ∀ j, IsReal (wu_b j))
    (hgw : ∀ h f, IsReal (gw h f)) (hgb : ∀ f, IsReal (gb f)) (i : Fin 131072) :
    0 ≤ gate s o inst ruf ws_w ws_b wo_w wo_b wu_w wu_b gw gb i := by
  obtain ⟨r, hr⟩ := isReal_gate_num s o inst ruf ws_w ws_b wo_w wo_b wu_w wu_b gw gb hinst hruf hws_w hws_b hwo_w hwo_b
    hwu_w hwu_b hgw hgb i
  have h0 := gate_num_nonneg s o inst ruf ws_w ws_b wo_w wo_b wu_w wu_b gw gb i
  rw [hr] at h0
  have hr0 : 0 ≤ r := EReal.coe_nonneg.1 h0
  unfold gate
  rw [hr, c32_eq, Ideal.div_coe (by norm_num : (32 : ℝ) ≠ 0), ← EReal.coe_mul]
  exact EReal.coe_nonneg.2 (mul_nonneg hr0 (by norm_num))

end Gate

/-- Every message entry is a real. -/
theorem isReal_msg {inst : Fin 8192 → Fin 2048 → EReal} {msg_w : Fin 2048 → Fin 1024 → EReal} {msg_b : Fin 1024 → EReal}
    (hinst : ∀ n d, IsReal (inst n d)) (hw : ∀ k j, IsReal (msg_w k j)) (hb : ∀ j, IsReal (msg_b j))
    (n : Fin 8192) (d : Fin 1024) : IsReal (msg inst msg_w msg_b n d) :=
  isReal_lin hinst hw hb n d

section Sup

variable {n : Nat} [NeZero n] (G : Fin n → EReal)

/-- The largest of finitely many (at least one) reals is one of them, so a real. -/
theorem isReal_sup (hG : ∀ i, IsReal (G i)) : IsReal (Finset.univ.sup G) := by
  obtain ⟨i, -, hi⟩ := Finset.exists_mem_eq_sup Finset.univ ⟨(0 : Fin n), Finset.mem_univ _⟩ G
  rw [hi]; exact hG i

/-- Every value is at most the largest. -/
theorem le_sup (i : Fin n) : G i ≤ Finset.univ.sup G := Finset.le_sup (Finset.mem_univ i)

/-- The exponential of a value minus the largest value is a positive real, at most one. -/
theorem exp_sub_sup (hG : ∀ i, IsReal (G i)) :
    ∃ E : Fin n → ℝ, (∀ i, 0 < E i) ∧ (∀ i, E i ≤ 1) ∧ ∀ i, Ideal.exp (G i - Finset.univ.sup G) = ((E i : ℝ) : EReal) := by
  obtain ⟨m, hm⟩ := isReal_sup G hG
  choose g hg using hG
  refine ⟨fun i => Real.exp (g i - m), fun i => Real.exp_pos _, fun i => ?_, fun i => ?_⟩
  · have hle := le_sup G i
    rw [hm, hg i] at hle
    have : g i ≤ m := EReal.coe_le_coe_iff.1 hle
    exact Real.exp_le_one_iff.2 (by linarith)
  · rw [hm, hg i, ← EReal.coe_sub]; rfl

end Sup

section GateSup

variable (s o : Fin 131072 → Fin 8192)
  (inst : Fin 8192 → Fin 2048 → EReal) (ruf : Fin 131072 → Fin 2048 → EReal)
  (ws_w : Fin 2048 → Fin 512 → EReal) (ws_b : Fin 512 → EReal) (wo_w : Fin 2048 → Fin 512 → EReal) (wo_b : Fin 512 → EReal)
  (wu_w : Fin 2048 → Fin 512 → EReal) (wu_b : Fin 512 → EReal) (gw : Fin 512 → Fin 32 → EReal) (gb : Fin 32 → EReal)

/-- The largest gate is a real. -/
theorem isReal_gate_sup (hinst : ∀ n d, IsReal (inst n d)) (hruf : ∀ n d, IsReal (ruf n d))
    (hws_w : ∀ k j, IsReal (ws_w k j)) (hws_b : ∀ j, IsReal (ws_b j))
    (hwo_w : ∀ k j, IsReal (wo_w k j)) (hwo_b : ∀ j, IsReal (wo_b j))
    (hwu_w : ∀ k j, IsReal (wu_w k j)) (hwu_b : ∀ j, IsReal (wu_b j))
    (hgw : ∀ h f, IsReal (gw h f)) (hgb : ∀ f, IsReal (gb f)) :
    IsReal (Finset.univ.sup (gate s o inst ruf ws_w ws_b wo_w wo_b wu_w wu_b gw gb)) :=
  isReal_sup _ (isReal_gate s o inst ruf ws_w ws_b wo_w wo_b wu_w wu_b gw gb hinst hruf hws_w hws_b hwo_w hwo_b hwu_w hwu_b hgw hgb)

/-- Every gate is at most the largest gate. -/
theorem gate_le_sup (i : Fin 131072) :
    gate s o inst ruf ws_w ws_b wo_w wo_b wu_w wu_b gw gb i ≤ Finset.univ.sup (gate s o inst ruf ws_w ws_b wo_w wo_b wu_w wu_b gw gb) :=
  le_sup _ i

/-- The exponential of a gate minus the largest gate is a positive real, at most one. -/
theorem gate_exp (hinst : ∀ n d, IsReal (inst n d)) (hruf : ∀ n d, IsReal (ruf n d))
    (hws_w : ∀ k j, IsReal (ws_w k j)) (hws_b : ∀ j, IsReal (ws_b j))
    (hwo_w : ∀ k j, IsReal (wo_w k j)) (hwo_b : ∀ j, IsReal (wo_b j))
    (hwu_w : ∀ k j, IsReal (wu_w k j)) (hwu_b : ∀ j, IsReal (wu_b j))
    (hgw : ∀ h f, IsReal (gw h f)) (hgb : ∀ f, IsReal (gb f)) :
    ∃ E : Fin 131072 → ℝ, (∀ i, 0 < E i) ∧ (∀ i, E i ≤ 1) ∧
      ∀ i, Ideal.exp (gate s o inst ruf ws_w ws_b wo_w wo_b wu_w wu_b gw gb i - Finset.univ.sup (gate s o inst ruf ws_w ws_b wo_w wo_b wu_w wu_b gw gb)) = ((E i : ℝ) : EReal) :=
  exp_sub_sup _ (isReal_gate s o inst ruf ws_w ws_b wo_w wo_b wu_w wu_b gw gb hinst hruf hws_w hws_b hwo_w hwo_b hwu_w hwu_b hgw hgb)

end GateSup

end Cert.GateFacts

end
-- ==== Proof.Attention.lean ====
/-
  The two passes over the dense table, computed the kernel's way and the reference's way.

  `T` is the table of exponentiated gates (real, nonnegative), `Ms` the messages (real), `ε` a positive real. The kernel
  sums a row of the table block by block (16 blocks of 512 columns), divides the weighted sum of messages by
  (row sum + ε) at the end of the row, and, for the transposed product, multiplies each entry by the reciprocal of
  (its row's sum + ε) before the product. The reference divides every entry of the table by (its row's sum + ε) first
  and then takes the two products. Over the reals these agree: the division distributes over the finite sum because
  the row sum plus ε is a nonzero real, and a product with a reciprocal is a quotient.
-/
import proofs.«120229_j77704548319709_2_alg».proof.Proof.Algebra

noncomputable section

namespace Cert.Attention

open Idealize.ShloMosaic Cert.Algebra

variable (T : Fin 8192 → Fin 8192 → ℝ) (hT : ∀ a b, 0 ≤ T a b) (Ms : Fin 8192 → Fin 1024 → ℝ) (eps : ℝ) (heps : 0 < eps)

/-- The row sum of the table, block by block, is the row sum. -/
theorem rowsum_blocks (n : Fin 8192) :
    (∑ k : Fin 16, ∑ r : Fin 512, ((T n ⟨512 * k.val + r.val, by omega⟩ : ℝ) : EReal)) = ∑ o : Fin 8192, ((T n o : ℝ) : EReal) :=
  (sum_blocks fun o => ((T n o : ℝ) : EReal)).symm

include hT heps in
/-- The row sum plus ε is a nonzero real. -/
theorem den_ne (n : Fin 8192) : (∑ o : Fin 8192, T n o) + eps ≠ 0 :=
  ne_of_gt (add_pos_of_nonneg_of_pos (Finset.sum_nonneg fun o _ => hT n o) heps)

include hT heps in
/-- The first pass: the block-summed weighted messages divided by (block-summed row sum + ε) is the row-normalised
    table applied to the messages. -/
theorem first_pass (n : Fin 8192) (d : Fin 1024) :
    Ideal.div (∑ k : Fin 16, ∑ r : Fin 512, ((T n ⟨512 * k.val + r.val, by omega⟩ : ℝ) : EReal) * ((Ms ⟨512 * k.val + r.val, by omega⟩ d : ℝ) : EReal))
        ((∑ k : Fin 16, ∑ r : Fin 512, ((T n ⟨512 * k.val + r.val, by omega⟩ : ℝ) : EReal)) + ((eps : ℝ) : EReal))
      = ∑ o : Fin 8192, Ideal.div ((T n o : ℝ) : EReal) ((∑ o' : Fin 8192, ((T n o' : ℝ) : EReal)) + ((eps : ℝ) : EReal)) * ((Ms o d : ℝ) : EReal) := by
  rw [rowsum_blocks T n, ← sum_blocks fun o => ((T n o : ℝ) : EReal) * ((Ms o d : ℝ) : EReal)]
  exact sum_div_eq (fun o => T n o) (fun o => Ms o d) eps (den_ne T hT eps heps n)

include hT heps in
/-- The second pass: each entry times the reciprocal of (its row's block-summed sum + ε), times the message, summed
    block by block over the rows, is the transposed row-normalised table applied to the messages. -/
theorem second_pass (o : Fin 8192) (d : Fin 1024) :
    (∑ k : Fin 16, ∑ r : Fin 512,
        (((T ⟨512 * k.val + r.val, by omega⟩ o : ℝ) : EReal)
          * Ideal.div ((1 : ℝ) : EReal) ((∑ k' : Fin 16, ∑ r' : Fin 512, ((T ⟨512 * k.val + r.val, by omega⟩ ⟨512 * k'.val + r'.val, by omega⟩ : ℝ) : EReal)) + ((eps : ℝ) : EReal)))
          * ((Ms ⟨512 * k.val + r.val, by omega⟩ d : ℝ) : EReal))
      = ∑ s : Fin 8192, Ideal.div ((T s o : ℝ) : EReal) ((∑ o' : Fin 8192, ((T s o' : ℝ) : EReal)) + ((eps : ℝ) : EReal)) * ((Ms s d : ℝ) : EReal) := by
  rw [sum_blocks fun s => Ideal.div ((T s o : ℝ) : EReal) ((∑ o' : Fin 8192, ((T s o' : ℝ) : EReal)) + ((eps : ℝ) : EReal)) * ((Ms s d : ℝ) : EReal)]
  refine Finset.sum_congr rfl fun k _ => Finset.sum_congr rfl fun r _ => ?_
  rw [rowsum_blocks T ⟨512 * k.val + r.val, by omega⟩, coe_sum, ← EReal.coe_add,
    mul_one_div_eq _ _ (den_ne T hT eps heps ⟨512 * k.val + r.val, by omega⟩)]

end Cert.Attention

end
-- ==== Proof.ValidFacts.lean ====
/-
  Which rows keep their result. Both programs test a per-node number against the zero word with the float
  comparison "not equal": one tests the indicator of "this node is some pair's subject", the other the row sum of the
  row-normalised table. A row of the nonnegative table divided by (its sum plus a positive ε) sums to a nonzero number
  exactly when the row has a nonzero entry; so two numbers that are nonzero under the same condition give the same
  comparison bit.
-/
import proofs.«120229_j77704548319709_2_alg».proof.Proof.Attention
import proofs.«120229_j77704548319709_2_alg».proof.Proof.GateFacts

noncomputable section

open scoped BigOperators

namespace Cert.ValidFacts

open Idealize.ShloMosaic Cert Cert.Algebra

/-! ## The comparison "not equal" on the extended reals -/

/-- The float comparison "not equal" is 1 exactly when the two numbers differ. -/
theorem cmp_une_eq_one (x y : EReal) : Ideal.cmp .une x y = 1#1 ↔ x ≠ y := by
  unfold Ideal.cmp
  by_cases h : x = y <;> simp [h]

/-- … and 0 exactly when they are equal. -/
theorem cmp_une_eq_zero (x y : EReal) : Ideal.cmp .une x y = 0#1 ↔ x = y := by
  unfold Ideal.cmp
  by_cases h : x = y <;> simp [h]

theorem cmp_une_of_ne {x y : EReal} (h : x ≠ y) : Ideal.cmp .une x y = 1#1 := (cmp_une_eq_one x y).2 h

theorem cmp_une_of_eq {x y : EReal} (h : x = y) : Ideal.cmp .une x y = 0#1 := (cmp_une_eq_zero x y).2 h

/-- The vector comparison read at an index. -/
theorem cmpf_une_apply {s : Shape} {φ : FTy} (a b : FVec Ideal s φ) (i : s.Idx) :
    cmpf .une a b i = Ideal.cmp .une (a i) (b i) := rfl

/-- Two comparisons whose operands differ under the same condition give the same bit. -/
theorem cmp_une_congr {x y x' y' : EReal} (h : x ≠ y ↔ x' ≠ y') : Ideal.cmp .une x y = Ideal.cmp .une x' y' := by
  by_cases hx : x = y
  · rw [cmp_une_of_eq hx, cmp_une_of_eq (not_not.1 fun h' => (h.2 h') hx)]
  · rw [cmp_une_of_ne hx, cmp_une_of_ne (h.1 hx)]

/-- Two numbers that are nonzero under the same condition compare alike with the zero word. -/
theorem cmp_une_zero_congr {v s : EReal} {P : Prop} (hv : v ≠ 0 ↔ P) (hs : s ≠ 0 ↔ P) :
    Ideal.cmp .une v Spec.z = Ideal.cmp .une s Spec.z := by
  rw [GateFacts.z_eq]
  exact cmp_une_congr (hv.trans hs.symm)

/-! ## The row sum of the row-normalised table -/

section RowSum

variable (T : Fin 8192 → Fin 8192 → ℝ) (hT : ∀ a b, 0 ≤ T a b) (eps : ℝ) (heps : 0 < eps)

include hT heps in
/-- The row-normalised row sums to a nonzero number exactly when the row has a nonzero entry. -/
theorem rowsum_ne_zero_iff (n : Fin 8192) :
    (∑ o : Fin 8192, Ideal.div ((T n o : ℝ) : EReal) ((∑ o' : Fin 8192, ((T n o' : ℝ) : EReal)) + ((eps : ℝ) : EReal))) ≠ 0
      ↔ ∃ q, T n q ≠ 0 := by
  have hD := Attention.den_ne T hT eps heps n
  have hDpos : 0 < (∑ o, T n o) + eps :=
    add_pos_of_nonneg_of_pos (Finset.sum_nonneg fun o _ => hT n o) heps
  rw [coe_sum, ← EReal.coe_add]
  simp only [Ideal.div_coe hD, ← EReal.coe_mul]
  rw [coe_sum, Ne, EReal.coe_eq_zero, ← Ne,
    sum_ne_zero_iff _ (fun o => mul_nonneg (hT n o) (one_div_nonneg.2 hDpos.le))]
  constructor
  · rintro ⟨q, hq⟩; exact ⟨q, fun h => hq (by rw [h, zero_mul])⟩
  · rintro ⟨q, hq⟩; exact ⟨q, mul_ne_zero hq (one_div_ne_zero hD)⟩

include hT heps in
/-- The same with the sum started from the zero word. -/
theorem z_add_rowsum_ne_zero_iff (n : Fin 8192) :
    (Spec.z + ∑ o : Fin 8192, Ideal.div ((T n o : ℝ) : EReal) ((∑ o' : Fin 8192, ((T n o' : ℝ) : EReal)) + ((eps : ℝ) : EReal))) ≠ 0
      ↔ ∃ q, T n q ≠ 0 := by
  rw [GateFacts.z_eq, zero_add]
  exact rowsum_ne_zero_iff T hT eps heps n

include hT heps in
/-- The same with the zero word added last. -/
theorem rowsum_add_z_ne_zero_iff (n : Fin 8192) :
    ((∑ o : Fin 8192, Ideal.div ((T n o : ℝ) : EReal) ((∑ o' : Fin 8192, ((T n o' : ℝ) : EReal)) + ((eps : ℝ) : EReal))) + Spec.z) ≠ 0
      ↔ ∃ q, T n q ≠ 0 := by
  rw [GateFacts.z_eq, add_zero]
  exact rowsum_ne_zero_iff T hT eps heps n

include hT heps in
/-- THE TWO TESTS AGREE: a number `v` that is nonzero exactly under `P`, and the row sum of a row that has a nonzero
    entry exactly under `P`, give the same comparison bit against the zero word. -/
theorem valid_eq (n : Fin 8192) {v : EReal} {P : Prop} (hv : v ≠ 0 ↔ P) (hrow : (∃ q, T n q ≠ 0) ↔ P) :
    Ideal.cmp .une v Spec.z
      = Ideal.cmp .une
          (∑ o : Fin 8192, Ideal.div ((T n o : ℝ) : EReal) ((∑ o' : Fin 8192, ((T n o' : ℝ) : EReal)) + ((eps : ℝ) : EReal)))
          Spec.z :=
  cmp_une_zero_congr hv ((rowsum_ne_zero_iff T hT eps heps n).trans hrow)

include hT heps in
/-- The same with the row sum started from the zero word. -/
theorem valid_eq_z (n : Fin 8192) {v : EReal} {P : Prop} (hv : v ≠ 0 ↔ P) (hrow : (∃ q, T n q ≠ 0) ↔ P) :
    Ideal.cmp .une v Spec.z
      = Ideal.cmp .une
          (Spec.z + ∑ o : Fin 8192, Ideal.div ((T n o : ℝ) : EReal) ((∑ o' : Fin 8192, ((T n o' : ℝ) : EReal)) + ((eps : ℝ) : EReal)))
          Spec.z :=
  cmp_une_zero_congr hv ((z_add_rowsum_ne_zero_iff T hT eps heps n).trans hrow)

end RowSum

end Cert.ValidFacts

end
-- ==== Proof.H0Facts.lean ====
/-
  The two programs' activations before the normalisation layer agree, abstractly.

  `T` is the nonnegative real table, `Ms` the real messages, `ε` a positive real; `w`, `b` are a weight matrix with 2048
  rows and a bias, any extended reals. One program forms, per node, the weighted messages divided by (row sum + ε) with
  the sums taken block by block (`out1K`) and the transposed product with reciprocals (`out2K`), and applies the first
  1024 rows of `w` to the one and the last 1024 rows to the other. The other row-normalises the table first (`attn`),
  takes the two products, joins them side by side into 2048 features (`mfeat`) and applies `w`. The sum over 2048
  features splits into the two halves, and each half agrees by the two passes of the attention algebra.
-/
import proofs.«120229_j77704548319709_2_alg».proof.Proof.Attention
import proofs.«120229_j77704548319709_2_alg».proof.Proof.Algebra

noncomputable section

open scoped BigOperators

namespace Cert.H0Facts

open Idealize.ShloMosaic Cert.Algebra

section Defs

variable (T : Fin 8192 → Fin 8192 → ℝ) (Ms : Fin 8192 → Fin 1024 → ℝ) (eps : ℝ)
  (w : Fin 2048 → Fin 512 → EReal) (b : Fin 512 → EReal)

/-- The row-normalised table. -/
def attn (n o : Fin 8192) : EReal := Ideal.div ((T n o : ℝ) : EReal) ((∑ o' : Fin 8192, ((T n o' : ℝ) : EReal)) + ((eps : ℝ) : EReal))

/-- The first product, the block-by-block way: weighted messages divided by (row sum + ε). -/
def out1K (n : Fin 8192) (d : Fin 1024) : EReal :=
  Ideal.div (∑ k : Fin 16, ∑ r : Fin 512, ((T n ⟨512 * k.val + r.val, by omega⟩ : ℝ) : EReal) * ((Ms ⟨512 * k.val + r.val, by omega⟩ d : ℝ) : EReal)) ((∑ k : Fin 16, ∑ r : Fin 512, ((T n ⟨512 * k.val + r.val, by omega⟩ : ℝ) : EReal)) + ((eps : ℝ) : EReal))

/-- The transposed product, the block-by-block way: each entry times the reciprocal of (its row's sum + ε). -/
def out2K (o : Fin 8192) (d : Fin 1024) : EReal :=
  (∑ k : Fin 16, ∑ r : Fin 512, (((T ⟨512 * k.val + r.val, by omega⟩ o : ℝ) : EReal) * Ideal.div ((1 : ℝ) : EReal) ((∑ k' : Fin 16, ∑ r' : Fin 512, ((T ⟨512 * k.val + r.val, by omega⟩ ⟨512 * k'.val + r'.val, by omega⟩ : ℝ) : EReal)) + ((eps : ℝ) : EReal))) * ((Ms ⟨512 * k.val + r.val, by omega⟩ d : ℝ) : EReal))

/-- The activation from the two block-by-block products: the first 1024 rows of `w` on the one, the last 1024 on the other. -/
def h0K (n : Fin 8192) (j : Fin 512) : EReal :=
  ((∑ j' : Fin 1024, out1K T Ms eps n j' * w ⟨j'.val, by omega⟩ j)
    + (∑ j' : Fin 1024, out2K T Ms eps n j' * w ⟨1024 + j'.val, by omega⟩ j)) + b j

/-- The 2048 joined features: the row-normalised table applied to the messages, then its transpose applied to them. -/
def mfeat (n : Fin 8192) (j' : Fin 2048) : EReal :=
  if h : j'.val < 1024 then ∑ o : Fin 8192, attn T eps n o * ((Ms o ⟨j'.val, h⟩ : ℝ) : EReal)
  else ∑ s : Fin 8192, attn T eps s n * ((Ms s ⟨j'.val - 1024, by omega⟩ : ℝ) : EReal)

/-- The activation from the joined features. -/
def h0R (n : Fin 8192) (j : Fin 512) : EReal :=
  (∑ j' : Fin 2048, mfeat T Ms eps n j' * w j' j) + b j

end Defs

section Eq

variable (T : Fin 8192 → Fin 8192 → ℝ) (hT : ∀ a b, 0 ≤ T a b) (Ms : Fin 8192 → Fin 1024 → ℝ) (eps : ℝ) (heps : 0 < eps)
  (w : Fin 2048 → Fin 512 → EReal) (b : Fin 512 → EReal)

include hT heps in
/-- The first half of the features is the first block-by-block product. -/
theorem out1K_eq (n : Fin 8192) (d : Fin 1024) :
    out1K T Ms eps n d = mfeat T Ms eps n ⟨d.val, by omega⟩ := by
  unfold mfeat
  rw [dif_pos (show (⟨d.val, by omega⟩ : Fin 2048).val < 1024 from d.isLt)]
  exact Attention.first_pass T hT Ms eps heps n d

include hT heps in
/-- The second half of the features is the transposed block-by-block product. -/
theorem out2K_eq (n : Fin 8192) (d : Fin 1024) :
    out2K T Ms eps n d = mfeat T Ms eps n ⟨1024 + d.val, by omega⟩ := by
  unfold mfeat
  rw [dif_neg (show ¬ (⟨1024 + d.val, by omega⟩ : Fin 2048).val < 1024 from by simp)]
  have hd : ∀ (hlt : 1024 + d.val - 1024 < 1024), (⟨1024 + d.val - 1024, hlt⟩ : Fin 1024) = d :=
    fun _ => Fin.ext (Nat.add_sub_cancel_left 1024 d.val)
  simp only [hd]
  exact Attention.second_pass T hT Ms eps heps n d

include hT heps in
/-- THE TWO ACTIVATIONS AGREE. -/
theorem h0_eq (n : Fin 8192) (j : Fin 512) : h0K T Ms eps w b n j = h0R T Ms eps w b n j := by
  unfold h0K h0R
  rw [sum_split_1024 fun j' => mfeat T Ms eps n j' * w j' j]
  simp only [out1K_eq T hT Ms eps heps, out2K_eq T hT Ms eps heps]

include hT heps in
/-- The same, every definition written out. -/
theorem h0_eq_unfolded (n : Fin 8192) (j : Fin 512) :
    ((∑ j' : Fin 1024, Ideal.div (∑ k : Fin 16, ∑ r : Fin 512, ((T n ⟨512 * k.val + r.val, by omega⟩ : ℝ) : EReal) * ((Ms ⟨512 * k.val + r.val, by omega⟩ j' : ℝ) : EReal)) ((∑ k : Fin 16, ∑ r : Fin 512, ((T n ⟨512 * k.val + r.val, by omega⟩ : ℝ) : EReal)) + ((eps : ℝ) : EReal)) * w ⟨j'.val, by omega⟩ j) + (∑ j' : Fin 1024, (∑ k : Fin 16, ∑ r : Fin 512, (((T ⟨512 * k.val + r.val, by omega⟩ n : ℝ) : EReal) * Ideal.div ((1 : ℝ) : EReal) ((∑ k' : Fin 16, ∑ r' : Fin 512, ((T ⟨512 * k.val + r.val, by omega⟩ ⟨512 * k'.val + r'.val, by omega⟩ : ℝ) : EReal)) + ((eps : ℝ) : EReal))) * ((Ms ⟨512 * k.val + r.val, by omega⟩ j' : ℝ) : EReal)) * w ⟨1024 + j'.val, by omega⟩ j)) + b j
      = (∑ j' : Fin 2048, (if h : j'.val < 1024 then ∑ o : Fin 8192, Ideal.div ((T n o : ℝ) : EReal) ((∑ o' : Fin 8192, ((T n o' : ℝ) : EReal)) + ((eps : ℝ) : EReal)) * ((Ms o ⟨j'.val, h⟩ : ℝ) : EReal) else ∑ s : Fin 8192, Ideal.div ((T s n : ℝ) : EReal) ((∑ o' : Fin 8192, ((T s o' : ℝ) : EReal)) + ((eps : ℝ) : EReal)) * ((Ms s ⟨j'.val - 1024, by omega⟩ : ℝ) : EReal)) * w j' j) + b j :=
  h0_eq T hT Ms eps heps w b n j

include hT heps in
/-- The same with the table and the messages given as matrices of extended reals that are those reals. -/
theorem h0_eq_ereal (Te : Fin 8192 → Fin 8192 → EReal) (Me : Fin 8192 → Fin 1024 → EReal)
    (hTe : ∀ a b, Te a b = ((T a b : ℝ) : EReal)) (hMe : ∀ n d, Me n d = ((Ms n d : ℝ) : EReal))
    (n : Fin 8192) (j : Fin 512) :
    ((∑ j' : Fin 1024, Ideal.div (∑ k : Fin 16, ∑ r : Fin 512, (Te n ⟨512 * k.val + r.val, by omega⟩) * (Me ⟨512 * k.val + r.val, by omega⟩ j')) ((∑ k : Fin 16, ∑ r : Fin 512, (Te n ⟨512 * k.val + r.val, by omega⟩)) + ((eps : ℝ) : EReal)) * w ⟨j'.val, by omega⟩ j) + (∑ j' : Fin 1024, (∑ k : Fin 16, ∑ r : Fin 512, ((Te ⟨512 * k.val + r.val, by omega⟩ n) * Ideal.div ((1 : ℝ) : EReal) ((∑ k' : Fin 16, ∑ r' : Fin 512, (Te ⟨512 * k.val + r.val, by omega⟩ ⟨512 * k'.val + r'.val, by omega⟩)) + ((eps : ℝ) : EReal))) * (Me ⟨512 * k.val + r.val, by omega⟩ j')) * w ⟨1024 + j'.val, by omega⟩ j)) + b j
      = (∑ j' : Fin 2048, (if h : j'.val < 1024 then ∑ o : Fin 8192, Ideal.div (Te n o) ((∑ o' : Fin 8192, (Te n o')) + ((eps : ℝ) : EReal)) * (Me o ⟨j'.val, h⟩) else ∑ s : Fin 8192, Ideal.div (Te s n) ((∑ o' : Fin 8192, (Te s o')) + ((eps : ℝ) : EReal)) * (Me s ⟨j'.val - 1024, by omega⟩)) * w j' j) + b j := by
  obtain rfl : Te = fun a b => ((T a b : ℝ) : EReal) := funext fun a => funext fun b => hTe a b
  obtain rfl : Me = fun n d => ((Ms n d : ℝ) : EReal) := funext fun n => funext fun d => hMe n d
  exact h0_eq T hT Ms eps heps w b n j

end Eq

end Cert.H0Facts

end
-- ==== Proof.Master.lean ====
/-
  The two programs' activations before the normalisation layer, and their tests of which rows keep a result, agree.

  The setting is abstract: `a` is the array of pairs (every entry a node number, rows pairwise distinct), `g` the gates
  (nonnegative reals), `Me` the messages (reals). One program holds the table `F` with `exp (g i − max g)` at pair `i`'s
  place (subject, object) and zero elsewhere, sums its rows block by block, and tests a vector that is nonzero exactly
  at the subjects. The other holds the table `AX` of gates and the mask `MK` of ones at the pairs' places, takes the
  maximum `M'` over all of `AX`, forms `exp (AX − M') · MK`, row-normalises, and tests the row sums. Each pair owning
  its place makes `M'` the largest gate and the masked exponential the first program's table; the table is one of
  nonnegative reals, so the attention algebra and the row-sum test apply.
-/
import proofs.«120229_j77704548319709_2_alg».proof.Proof.Spec
import proofs.«120229_j77704548319709_2_alg».proof.Proof.TableFacts
import proofs.«120229_j77704548319709_2_alg».proof.Proof.GateFacts
import proofs.«120229_j77704548319709_2_alg».proof.Proof.ValidFacts
import proofs.«120229_j77704548319709_2_alg».proof.Proof.H0Facts
import proofs.«120229_j77704548319709_2_alg».proof.Proof.Consts
import proofs.«120229_j77704548319709_2_alg».proof.Proof.LibScatterSet

noncomputable section

open scoped BigOperators

namespace Cert.Master

open Idealize.ShloMosaic Idealize.ShloMosaic.ValueIdx Cert Cert.Spec Cert.Lib.ScatterSet Cert.TableFacts

/-- The places of the dense tables. -/
abbrev Idx2 : Type := (⟨2, ![8192, 8192]⟩ : Shape).Idx

/-! ## The two sides, as functions of their tables -/

section Sides

variable (F : Fin 8192 → Fin 8192 → EReal) (Me : Fin 8192 → Fin 1024 → EReal) (zw epsw onew : EReal)
  (o1w : Fin 2048 → Fin 512 → EReal) (o1b : Fin 512 → EReal)

/-- A row of the table summed block by block (16 blocks of 512 columns). -/
def rowsumK (n : Fin 8192) : EReal := ∑ k : Fin 16, ∑ r : Fin 512, F n ⟨512 * k.val + r.val, by omega⟩

/-- The weighted messages of row `n`, summed block by block, over (the row sum plus ε). -/
def out1 (n : Fin 8192) (d : Fin 1024) : EReal :=
  Ideal.div (∑ k : Fin 16, ∑ r : Fin 512, F n ⟨512 * k.val + r.val, by omega⟩ * Me ⟨512 * k.val + r.val, by omega⟩ d) (rowsumK F n + epsw)

/-- The transposed product: each entry of column `o` times the reciprocal of (its row's sum plus ε), times the message. -/
def out2 (o : Fin 8192) (d : Fin 1024) : EReal :=
  ∑ k : Fin 16, ∑ r : Fin 512, (F ⟨512 * k.val + r.val, by omega⟩ o * Ideal.div onew (rowsumK F ⟨512 * k.val + r.val, by omega⟩ + epsw)) * Me ⟨512 * k.val + r.val, by omega⟩ d

/-- The activation from the two block-by-block products. -/
def h0K (n : Fin 8192) (j : Fin 512) : EReal :=
  ((∑ j' : Fin 1024, out1 F Me epsw n j' * o1w ⟨j'.val, by omega⟩ j)
    + (∑ j' : Fin 1024, out2 F Me epsw onew n j' * o1w ⟨1024 + j'.val, by omega⟩ j)) + o1b j

/-- The row-normalised table: an entry over (the zero word plus its row's sum, plus ε). -/
def atten (n o : Fin 8192) : EReal := Ideal.div (F n o) ((zw + ∑ k : Fin 8192, F n k) + epsw)

/-- The activation from the row-normalised table: it applied to the messages against the first 1024 rows of the
    weights, its transpose applied to them against the last 1024 rows. -/
def h0R (n : Fin 8192) (j : Fin 512) : EReal :=
  ((∑ j' : Fin 1024, (∑ k : Fin 8192, atten F zw epsw n k * Me k j') * o1w ⟨j'.val, by omega⟩ j)
    + ∑ j' : Fin 1024, (∑ k : Fin 8192, atten F zw epsw k n * Me k j') * o1w ⟨1024 + j'.val, by omega⟩ j) + o1b j

/-- The test on the row sums of the row-normalised table. -/
def validR (n : Fin 8192) : BitVec 1 := Ideal.cmp .une (zw + ∑ k : Fin 8192, atten F zw epsw n k) zw

/-- The test on a per-node number. -/
def validK (vk : Fin 8192 → EReal) (n : Fin 8192) : BitVec 1 := Ideal.cmp .une (vk n) zw

/-- The masked exponential table: `exp (AX − M') · MK` with `M'` the maximum over all of `AX`, folded from `lo`. -/
def aexp (AX MK : Idx2 → EReal) (lo : EReal) (n o : Fin 8192) : EReal :=
  Ideal.exp (AX (ix2 n o) - (Finset.univ : Finset Idx2).fold max lo AX) * MK (ix2 n o)

end Sides

/-! ## Over a table of nonnegative reals -/

section Core

variable (T : Fin 8192 → Fin 8192 → ℝ) (hT : ∀ a b, 0 ≤ T a b) (Ms : Fin 8192 → Fin 1024 → ℝ) (eps : ℝ) (heps : 0 < eps)
  (o1w : Fin 2048 → Fin 512 → EReal) (o1b : Fin 512 → EReal)

include hT heps in
/-- The activations agree. -/
theorem h0_core (n : Fin 8192) (j : Fin 512) :
    h0K (fun p q => ((T p q : ℝ) : EReal)) (fun p d => ((Ms p d : ℝ) : EReal)) ((eps : ℝ) : EReal) ((1 : ℝ) : EReal) o1w o1b n j
      = h0R (fun p q => ((T p q : ℝ) : EReal)) (fun p d => ((Ms p d : ℝ) : EReal)) 0 ((eps : ℝ) : EReal) o1w o1b n j := by
  dsimp only [h0K, h0R, out1, out2, rowsumK, atten]
  simp only [zero_add, Attention.first_pass T hT Ms eps heps, Attention.second_pass T hT Ms eps heps]

include hT heps in
/-- The tests agree, when the tested number is nonzero under the condition under which the row has a nonzero entry. -/
theorem valid_core (vk : Fin 8192 → EReal) (n : Fin 8192) {P : Prop} (hv : vk n ≠ 0 ↔ P) (hrow : (∃ q, T n q ≠ 0) ↔ P) :
    validK 0 vk n = validR (fun p q => ((T p q : ℝ) : EReal)) 0 ((eps : ℝ) : EReal) n := by
  dsimp only [validK, validR, atten]
  simp only [zero_add]
  exact ValidFacts.cmp_une_congr (hv.trans ((ValidFacts.rowsum_ne_zero_iff T hT eps heps n).trans hrow).symm)

end Core

/-! ## A table given by its values at the pairs' places is the scattered table -/

section Bridge

variable (a : PairIdx) (hr : InRange a) (hd : Distinct a)
  (wf2 : ScatterDims.WF ⟨2, ![8192, 8192]⟩ ⟨2, ![131072, 2]⟩ ⟨1, ![131072]⟩ [] [0, 1] [0, 1] 1)

include hd in
/-- A table that holds `u i` at pair `i`'s place and `x0` at every place no pair names is the table `x0` with the
    `u i` scattered at the pairs. -/
theorem eq_scatter {α : Type} (X : Fin 8192 → Fin 8192 → α) (x0 : α) (u : Fin 131072 → α)
    (hhit : ∀ i, X (col a hr 0 i) (col a hr 1 i) = u i)
    (hmiss : ∀ p q, (∀ i, ¬ (col a hr 0 i = p ∧ col a hr 1 i = q)) → X p q = x0) (p q : Fin 8192) :
    X p q = Host.scatter (pairDims 8192 8192 131072 wf2) (fun _ b => b) (fun _ => x0) a (fun j => u (j 0)) (ix2 p q) := by
  by_cases h : ∃ i, col a hr 0 i = p ∧ col a hr 1 i = q
  · obtain ⟨i, rfl, rfl⟩ := h
    rw [table_hit a hr wf2 hd _ _ i]
    exact hhit i
  · rw [table_miss a hr wf2 _ _ p q (fun i hi => h ⟨i, hi⟩)]
    exact hmiss p q (fun i hi => h ⟨i, hi⟩)

end Bridge

/-! ## The theorem -/

section Main

variable (a : PairIdx) (hr : InRange a) (hd : Distinct a)
  (g : Fin 131072 → EReal) (hg : ∀ i, IsReal (g i)) (hg0 : ∀ i, 0 ≤ g i)
  (Me : Fin 8192 → Fin 1024 → EReal) (hMe : ∀ n d, IsReal (Me n d))
  (o1w : Fin 2048 → Fin 512 → EReal) (o1b : Fin 512 → EReal)
  (F : Fin 8192 → Fin 8192 → EReal)
  (hFhit : ∀ i, F (col a hr 0 i) (col a hr 1 i) = Ideal.exp (g i - Finset.univ.sup g))
  (hFmiss : ∀ p q, (∀ i, ¬ (col a hr 0 i = p ∧ col a hr 1 i = q)) → F p q = 0)
  (vk : Fin 8192 → EReal) (hvk : ∀ n, vk n ≠ 0 ↔ ∃ i, col a hr 0 i = n)
  (AX MK : Idx2 → EReal)
  (hAXhit : ∀ i, AX (ix2 (col a hr 0 i) (col a hr 1 i)) = g i)
  (hAXmiss : ∀ p q, (∀ i, ¬ (col a hr 0 i = p ∧ col a hr 1 i = q)) → AX (ix2 p q) = Ideal.ofBits .f32 0x00000000#32)
  (hMKhit : ∀ i, MK (ix2 (col a hr 0 i) (col a hr 1 i)) = Ideal.ofBits .f32 0x3F800000#32)
  (hMKmiss : ∀ p q, (∀ i, ¬ (col a hr 0 i = p ∧ col a hr 1 i = q)) → MK (ix2 p q) = Ideal.ofBits .f32 0x00000000#32)

include hd hg hg0 hAXhit hAXmiss hMKhit hMKmiss in
/-- The masked exponential table of the one program is the table of the other. -/
theorem aexp_eq (n o : Fin 8192) :
    aexp AX MK (Ideal.ofBits .f32 0xFF800000#32) n o
      = Host.scatter (pairDims 8192 8192 131072 (by decide)) (fun _ b => b) (fun _ => (0 : EReal)) a
          (fun j => Ideal.exp (g (j 0) - Finset.univ.sup g)) (ix2 n o) := by
  have eAX : AX = Host.scatter (pairDims 8192 8192 131072 (by decide)) (fun _ b => b) (fun _ => (0 : EReal)) a
      (fun j => g (j 0)) := funext fun p => by
    rw [eq_ix2 p]
    exact eq_scatter a hr hd _ (fun p q => AX (ix2 p q)) 0 g hAXhit
      (fun p q h => (hAXmiss p q h).trans Consts.ofBits_zero) (p 0) (p 1)
  have eMK : MK = Host.scatter (pairDims 8192 8192 131072 (by decide)) (fun _ b => b) (fun _ => (0 : EReal)) a
      (fun _ => (1 : EReal)) := funext fun p => by
    rw [eq_ix2 p]
    exact eq_scatter a hr hd _ (fun p q => MK (ix2 p q)) 0 (fun _ => 1) (fun i => (hMKhit i).trans Consts.ofBits_one)
      (fun p q h => (hMKmiss p q h).trans Consts.ofBits_zero) (p 0) (p 1)
  have eM : (Finset.univ : Finset Idx2).fold max (Ideal.ofBits .f32 0xFF800000#32) AX = Finset.univ.sup g := by
    rw [Consts.ofBits_neg_inf, Cert.Algebra.fold_max_bot, eAX]
    exact sup_gate_table a _ g hr hd hg0
  unfold aexp
  rw [eM, eAX, eMK]
  exact masked_exp_table a _ g hr hd _ (ix2 n o)

include hd hg hg0 hMe hFhit hFmiss hvk hAXhit hAXmiss hMKhit hMKmiss in
/-- THE TWO PROGRAMS AGREE on the activation before the normalisation layer and on which rows keep a result. -/
theorem master (n : Fin 8192) (j : Fin 512) :
    h0K F Me (Ideal.ofBits .f32 0x358637BD#32) (Ideal.ofBits .f32 0x3F800000#32) o1w o1b n j
        = h0R (aexp AX MK (Ideal.ofBits .f32 0xFF800000#32)) Me (Ideal.ofBits .f32 0x00000000#32)
            (Ideal.ofBits .f32 0x358637BD#32) o1w o1b n j
      ∧ validK (Ideal.ofBits .f32 0x00000000#32) vk n
        = validR (aexp AX MK (Ideal.ofBits .f32 0xFF800000#32)) (Ideal.ofBits .f32 0x00000000#32)
            (Ideal.ofBits .f32 0x358637BD#32) n := by
  obtain ⟨Tr, hTr0, hTrE, hTrRow⟩ := exp_table_real a (by decide) g hr hd hg
  have eA : aexp AX MK (Ideal.ofBits .f32 0xFF800000#32) = fun p q => ((Tr p q : ℝ) : EReal) :=
    funext fun p => funext fun q =>
      (aexp_eq a hr hd g hg hg0 AX MK hAXhit hAXmiss hMKhit hMKmiss p q).trans (hTrE p q)
  have eF : F = fun p q => ((Tr p q : ℝ) : EReal) := funext fun p => funext fun q =>
    (eq_scatter a hr hd (by decide) F 0 (fun i => Ideal.exp (g i - Finset.univ.sup g)) hFhit hFmiss p q).trans (hTrE p q)
  choose Ms hMs using hMe
  have eMe : Me = fun p d => ((Ms p d : ℝ) : EReal) := funext fun p => funext fun d => hMs p d
  obtain ⟨eps, heps, heps_eq⟩ := Consts.ofBits_eps
  rw [eA, eF, eMe, heps_eq, Consts.ofBits_zero, Consts.ofBits_one, ← EReal.coe_one]
  exact ⟨h0_core Tr hTr0 Ms eps heps o1w o1b n j, valid_core Tr hTr0 eps heps vk n (hvk n) (hTrRow n)⟩

end Main

/-! ## The theorem at the programs' quantities -/

section Spec

variable (a : PairIdx) (hr : InRange a) (hd : Distinct a)
  (wf2 : ScatterDims.WF ⟨2, ![8192, 8192]⟩ ⟨2, ![131072, 2]⟩ ⟨1, ![131072]⟩ [] [0, 1] [0, 1] 1)
  (wf1 : ScatterDims.WF ⟨1, ![8192]⟩ ⟨2, ![131072, 1]⟩ ⟨1, ![131072]⟩ [] [0] [0] 1)
  (inst : Fin 8192 → Fin 2048 → EReal) (ruf : Fin 131072 → Fin 2048 → EReal)
  (ws_w : Fin 2048 → Fin 512 → EReal) (ws_b : Fin 512 → EReal) (wo_w : Fin 2048 → Fin 512 → EReal) (wo_b : Fin 512 → EReal)
  (wu_w : Fin 2048 → Fin 512 → EReal) (wu_b : Fin 512 → EReal) (gw : Fin 512 → Fin 32 → EReal) (gb : Fin 32 → EReal)
  (msg_w : Fin 2048 → Fin 1024 → EReal) (msg_b : Fin 1024 → EReal)
  (hinst : ∀ n d, IsReal (inst n d)) (hruf : ∀ n d, IsReal (ruf n d))
  (hws_w : ∀ k j, IsReal (ws_w k j)) (hws_b : ∀ j, IsReal (ws_b j))
  (hwo_w : ∀ k j, IsReal (wo_w k j)) (hwo_b : ∀ j, IsReal (wo_b j))
  (hwu_w : ∀ k j, IsReal (wu_w k j)) (hwu_b : ∀ j, IsReal (wu_b j))
  (hgw : ∀ h f, IsReal (gw h f)) (hgb : ∀ f, IsReal (gb f))
  (hmsg_w : ∀ k j, IsReal (msg_w k j)) (hmsg_b : ∀ j, IsReal (msg_b j))
  (o1w : Fin 2048 → Fin 512 → EReal) (o1b : Fin 512 → EReal)
  (x : Idx2 → EReal) (hx : ∀ p, x p = 0)
  (idx1 : IVec ⟨2, ![131072, 1]⟩ 32) (h1 : ∀ i, idx1 (ix2 i 0) = a (ix2 i 0))
  (AX MK : Idx2 → EReal)
  (hAXhit : ∀ i, AX (ix2 (col a hr 0 i) (col a hr 1 i)) = (Spec.gate (col a hr 0) (col a hr 1) inst ruf ws_w ws_b wo_w wo_b wu_w wu_b gw gb) i)
  (hAXmiss : ∀ p q, (∀ i, ¬ (col a hr 0 i = p ∧ col a hr 1 i = q)) → AX (ix2 p q) = Ideal.ofBits .f32 0x00000000#32)
  (hMKhit : ∀ i, MK (ix2 (col a hr 0 i) (col a hr 1 i)) = Ideal.ofBits .f32 0x3F800000#32)
  (hMKmiss : ∀ p q, (∀ i, ¬ (col a hr 0 i = p ∧ col a hr 1 i = q)) → MK (ix2 p q) = Ideal.ofBits .f32 0x00000000#32)

include hd hinst hruf hws_w hws_b hwo_w hwo_b hwu_w hwu_b hgw hgb hmsg_w hmsg_b hx h1 hAXhit hAXmiss hMKhit hMKmiss in
/-- THE TWO PROGRAMS AGREE, with the gates and the messages those of the inputs, one program's table the zero table with
    the exponentials scattered at the pairs, and its tested vector the zero vector with ones scattered at the subjects. -/
theorem master_spec (n : Fin 8192) (j : Fin 512) :
    h0K (fun p q => Host.scatter (pairDims 8192 8192 131072 wf2) (fun _ b => b) x a
          (fun j => Ideal.exp ((Spec.gate (col a hr 0) (col a hr 1) inst ruf ws_w ws_b wo_w wo_b wu_w wu_b gw gb) (j 0) - Finset.univ.sup (Spec.gate (col a hr 0) (col a hr 1) inst ruf ws_w ws_b wo_w wo_b wu_w wu_b gw gb))) (ix2 p q))
        (Spec.msg inst msg_w msg_b) (Ideal.ofBits .f32 0x358637BD#32) (Ideal.ofBits .f32 0x3F800000#32) o1w o1b n j
      = h0R (aexp AX MK (Ideal.ofBits .f32 0xFF800000#32)) (Spec.msg inst msg_w msg_b) (Ideal.ofBits .f32 0x00000000#32) (Ideal.ofBits .f32 0x358637BD#32) o1w o1b n j
    ∧ validK (Ideal.ofBits .f32 0x00000000#32) (fun m => Host.scatter (pointDims 8192 131072 wf1) (fun _ b => b) (fun _ => (Ideal.ofBits .f32 0x00000000#32)) idx1
          (fun _ => (Ideal.ofBits .f32 0x3F800000#32)) (ix1 m)) n
      = validR (aexp AX MK (Ideal.ofBits .f32 0xFF800000#32)) (Ideal.ofBits .f32 0x00000000#32) (Ideal.ofBits .f32 0x358637BD#32) n := by
  refine master a hr hd (Spec.gate (col a hr 0) (col a hr 1) inst ruf ws_w ws_b wo_w wo_b wu_w wu_b gw gb)
    (GateFacts.isReal_gate _ _ inst ruf ws_w ws_b wo_w wo_b wu_w wu_b gw gb hinst hruf hws_w hws_b hwo_w hwo_b hwu_w hwu_b hgw hgb)
    (GateFacts.gate_nonneg _ _ inst ruf ws_w ws_b wo_w wo_b wu_w wu_b gw gb hinst hruf hws_w hws_b hwo_w hwo_b hwu_w hwu_b hgw hgb)
    (Spec.msg inst msg_w msg_b) (GateFacts.isReal_msg hinst hmsg_w hmsg_b) o1w o1b _ (fun i => ?_) (fun p q h => ?_) _ (fun m => ?_)
    AX MK hAXhit hAXmiss hMKhit hMKmiss n j
  · exact table_hit a hr wf2 hd x _ i
  · exact (table_miss a hr wf2 x _ p q h).trans (hx _)
  · show Host.scatter (pointDims 8192 131072 wf1) (fun _ b => b) (fun _ => (Ideal.ofBits .f32 0x00000000#32)) idx1 (fun _ => (Ideal.ofBits .f32 0x3F800000#32)) (ix1 m) ≠ 0 ↔ _
    rw [Consts.ofBits_zero, Consts.ofBits_one]
    exact valid_ne_zero_iff a hr wf1 idx1 h1 m

end Spec

end Cert.Master

end
-- ==== Proof.RefFinal.lean ====
/-
  The reference's stages in the shared vocabulary. With `AX` the scattered gates (stage 57), `MK` the scattered ones
  (stage 73): the masked exponential (stage 78) is `aexp AX MK (-∞ word)`, the row-normalised table (stage 84) is
  `atten` of it, the activation before the normalisation layer (stage 96) is `h0R` of it and of the messages
  (stage 88, the shared message projection of the node features), and the row test (stage 129) is `validR` of it.
  `AX` holds the shared gate of pair `i` at pair `i`'s place.
-/
import proofs.«120229_j77704548319709_2_alg».proof.Proof.RefConcat
import proofs.«120229_j77704548319709_2_alg».proof.Proof.RefScatter
import proofs.«120229_j77704548319709_2_alg».proof.Proof.RefGate
import proofs.«120229_j77704548319709_2_alg».proof.Proof.Master

noncomputable section

namespace Cert.RefValue

open Cert.ReferenceIdeal Cert.ReferenceIdeal.Gen Cert.ReferenceIdeal.ReadP Idealize.ShloMosaic Idealize.ShloMosaic.TcCoe Idealize.SL.Sem Idealize.ShloMosaic.StableHlo
open Idealize.ShloMosaic.ValueIdx Cert.Spec

/-- The masked exponential (stage 78) is the shared one of the two scattered tables. -/
theorem v78_eq_aexp (x0 : (⟨S8192x2048, .f32⟩ : BufTy).Contents (Elt Ideal)) (x1 : (⟨S131072x2048, .f32⟩ : BufTy).Contents (Elt Ideal)) (x2 : (⟨S2048x512, .f32⟩ : BufTy).Contents (Elt Ideal)) (x3 : (⟨S512, .f32⟩ : BufTy).Contents (Elt Ideal)) (x4 : (⟨S2048x512, .f32⟩ : BufTy).Contents (Elt Ideal)) (x5 : (⟨S512, .f32⟩ : BufTy).Contents (Elt Ideal)) (x6 : (⟨S2048x512, .f32⟩ : BufTy).Contents (Elt Ideal)) (x7 : (⟨S512, .f32⟩ : BufTy).Contents (Elt Ideal)) (x8 : (⟨S512x32, .f32⟩ : BufTy).Contents (Elt Ideal)) (x9 : (⟨S32, .f32⟩ : BufTy).Contents (Elt Ideal)) (x20 : (⟨S131072x2, .i32⟩ : BufTy).Contents (Elt Ideal)) (n o : Fin 8192) :
    val_main_v78 (F := Ideal) x0 x1 x2 x3 x4 x5 x6 x7 x8 x9 x20 (ix2 n o) = Cert.Master.aexp (val_main_v57 (F := Ideal) x0 x1 x2 x3 x4 x5 x6 x7 x8 x9 x20) (val_main_v73 (F := Ideal) x20) (Ideal.ofBits .f32 0xFF800000#32) n o := by
  rw [v78_at, v74_eq_fold]
  rfl

/-- The row-normalised table (stage 84) is the shared `atten` of the masked exponential. -/
theorem v84_eq_atten (x0 : (⟨S8192x2048, .f32⟩ : BufTy).Contents (Elt Ideal)) (x1 : (⟨S131072x2048, .f32⟩ : BufTy).Contents (Elt Ideal)) (x2 : (⟨S2048x512, .f32⟩ : BufTy).Contents (Elt Ideal)) (x3 : (⟨S512, .f32⟩ : BufTy).Contents (Elt Ideal)) (x4 : (⟨S2048x512, .f32⟩ : BufTy).Contents (Elt Ideal)) (x5 : (⟨S512, .f32⟩ : BufTy).Contents (Elt Ideal)) (x6 : (⟨S2048x512, .f32⟩ : BufTy).Contents (Elt Ideal)) (x7 : (⟨S512, .f32⟩ : BufTy).Contents (Elt Ideal)) (x8 : (⟨S512x32, .f32⟩ : BufTy).Contents (Elt Ideal)) (x9 : (⟨S32, .f32⟩ : BufTy).Contents (Elt Ideal)) (x20 : (⟨S131072x2, .i32⟩ : BufTy).Contents (Elt Ideal)) (n o : Fin 8192) :
    val_main_v84 (F := Ideal) x0 x1 x2 x3 x4 x5 x6 x7 x8 x9 x20 (ix2 n o) =
      Cert.Master.atten (Cert.Master.aexp (val_main_v57 (F := Ideal) x0 x1 x2 x3 x4 x5 x6 x7 x8 x9 x20) (val_main_v73 (F := Ideal) x20) (Ideal.ofBits .f32 0xFF800000#32)) (Ideal.ofBits .f32 0x00000000#32) (Ideal.ofBits .f32 0x358637BD#32) n o := by
  rw [v84_at]
  simp only [v78_eq_aexp]
  rfl

/-- The messages (stage 88) are the shared message projection of the node features. -/
theorem v88_eq_msg (x0 : (⟨S8192x2048, .f32⟩ : BufTy).Contents (Elt Ideal)) (x10 : (⟨S2048x1024, .f32⟩ : BufTy).Contents (Elt Ideal)) (x11 : (⟨S1024, .f32⟩ : BufTy).Contents (Elt Ideal)) (k : Fin 8192) (d : Fin 1024) :
    val_main_v88 (F := Ideal) x0 x10 x11 (ix2 k d) = msg (fun a b => x0 (ix2 a b)) (fun a b => x10 (ix2 a b)) (fun a => x11 (ix1 a)) k d := by
  rw [v88_at]
  rfl

/-- THE ACTIVATION (stage 96) is the shared `h0R` of the masked exponential, the messages and the first output layer. -/
theorem v96_eq_h0R (x0 : (⟨S8192x2048, .f32⟩ : BufTy).Contents (Elt Ideal)) (x1 : (⟨S131072x2048, .f32⟩ : BufTy).Contents (Elt Ideal)) (x2 : (⟨S2048x512, .f32⟩ : BufTy).Contents (Elt Ideal)) (x3 : (⟨S512, .f32⟩ : BufTy).Contents (Elt Ideal)) (x4 : (⟨S2048x512, .f32⟩ : BufTy).Contents (Elt Ideal)) (x5 : (⟨S512, .f32⟩ : BufTy).Contents (Elt Ideal)) (x6 : (⟨S2048x512, .f32⟩ : BufTy).Contents (Elt Ideal)) (x7 : (⟨S512, .f32⟩ : BufTy).Contents (Elt Ideal)) (x8 : (⟨S512x32, .f32⟩ : BufTy).Contents (Elt Ideal)) (x9 : (⟨S32, .f32⟩ : BufTy).Contents (Elt Ideal)) (x10 : (⟨S2048x1024, .f32⟩ : BufTy).Contents (Elt Ideal)) (x11 : (⟨S1024, .f32⟩ : BufTy).Contents (Elt Ideal)) (x12 : (⟨S2048x512, .f32⟩ : BufTy).Contents (Elt Ideal)) (x13 : (⟨S512, .f32⟩ : BufTy).Contents (Elt Ideal)) (x20 : (⟨S131072x2, .i32⟩ : BufTy).Contents (Elt Ideal)) (n : Fin 8192) (c : Fin 512) :
    val_main_v96 (F := Ideal) x0 x1 x2 x3 x4 x5 x6 x7 x8 x9 x10 x11 x12 x13 x20 (ix2 n c) =
      Cert.Master.h0R (Cert.Master.aexp (val_main_v57 (F := Ideal) x0 x1 x2 x3 x4 x5 x6 x7 x8 x9 x20) (val_main_v73 (F := Ideal) x20) (Ideal.ofBits .f32 0xFF800000#32))
        (fun k j' => val_main_v88 (F := Ideal) x0 x10 x11 (ix2 k j')) (Ideal.ofBits .f32 0x00000000#32) (Ideal.ofBits .f32 0x358637BD#32)
        (fun j c => x12 (ix2 j c)) (fun c => x13 (ix1 c)) n c := by
  rw [v96_split]
  simp only [v89_at, v91_at, v84_eq_atten]
  rfl

/-- THE ROW TEST (stage 129) is the shared `validR` of the masked exponential. -/
theorem v129_eq_validR (x0 : (⟨S8192x2048, .f32⟩ : BufTy).Contents (Elt Ideal)) (x1 : (⟨S131072x2048, .f32⟩ : BufTy).Contents (Elt Ideal)) (x2 : (⟨S2048x512, .f32⟩ : BufTy).Contents (Elt Ideal)) (x3 : (⟨S512, .f32⟩ : BufTy).Contents (Elt Ideal)) (x4 : (⟨S2048x512, .f32⟩ : BufTy).Contents (Elt Ideal)) (x5 : (⟨S512, .f32⟩ : BufTy).Contents (Elt Ideal)) (x6 : (⟨S2048x512, .f32⟩ : BufTy).Contents (Elt Ideal)) (x7 : (⟨S512, .f32⟩ : BufTy).Contents (Elt Ideal)) (x8 : (⟨S512x32, .f32⟩ : BufTy).Contents (Elt Ideal)) (x9 : (⟨S32, .f32⟩ : BufTy).Contents (Elt Ideal)) (x20 : (⟨S131072x2, .i32⟩ : BufTy).Contents (Elt Ideal)) (n : Fin 8192) :
    val_main_v129 (F := Ideal) x0 x1 x2 x3 x4 x5 x6 x7 x8 x9 x20 (ix1 n) =
      Cert.Master.validR (Cert.Master.aexp (val_main_v57 (F := Ideal) x0 x1 x2 x3 x4 x5 x6 x7 x8 x9 x20) (val_main_v73 (F := Ideal) x20) (Ideal.ofBits .f32 0xFF800000#32)) (Ideal.ofBits .f32 0x00000000#32) (Ideal.ofBits .f32 0x358637BD#32) n := by
  rw [v129_at]
  simp only [v84_eq_atten]
  rfl

/-- The scattered gates hold, at pair `i`'s place, the shared gate of pair `i`. -/
theorem v57_hit_gate (x0 : (⟨S8192x2048, .f32⟩ : BufTy).Contents (Elt Ideal)) (x1 : (⟨S131072x2048, .f32⟩ : BufTy).Contents (Elt Ideal)) (x2 : (⟨S2048x512, .f32⟩ : BufTy).Contents (Elt Ideal)) (x3 : (⟨S512, .f32⟩ : BufTy).Contents (Elt Ideal)) (x4 : (⟨S2048x512, .f32⟩ : BufTy).Contents (Elt Ideal)) (x5 : (⟨S512, .f32⟩ : BufTy).Contents (Elt Ideal)) (x6 : (⟨S2048x512, .f32⟩ : BufTy).Contents (Elt Ideal)) (x7 : (⟨S512, .f32⟩ : BufTy).Contents (Elt Ideal)) (x8 : (⟨S512x32, .f32⟩ : BufTy).Contents (Elt Ideal)) (x9 : (⟨S32, .f32⟩ : BufTy).Contents (Elt Ideal)) {x20 : Cert.Spec.PairIdx} (hr : InRange x20) (hd : Distinct x20) (i : Fin 131072) :
    val_main_v57 (F := Ideal) x0 x1 x2 x3 x4 x5 x6 x7 x8 x9 x20 (ix2 (col x20 hr 0 i) (col x20 hr 1 i)) =
      gate (col x20 hr 0) (col x20 hr 1) (fun a b => x0 (ix2 a b)) (fun a b => x1 (ix2 a b)) (fun a b => x2 (ix2 a b)) (fun a => x3 (ix1 a)) (fun a b => x4 (ix2 a b)) (fun a => x5 (ix1 a))
        (fun a b => x6 (ix2 a b)) (fun a => x7 (ix1 a)) (fun a b => x8 (ix2 a b)) (fun a => x9 (ix1 a)) i := by
  rw [v57_hit x0 x1 x2 x3 x4 x5 x6 x7 x8 x9 hr hd i, v42_at x0 x1 x2 x3 x4 x5 x6 x7 x8 x9 hr i]

end Cert.RefValue

end
-- ==== Proof.BridgeRef.lean ====
/-
  The reference's result is the shared last stretch applied to the other program's activations and row test.

  The reference's result is its last stretch (layer normalisation, two linear layers, the zeroing of rows without a
  result) applied to its own activations (stage 96) and row test (stage 129). Those two stages are, entry by entry, the
  shared quantities `h0R` / `validR` of the masked exponential table; the other program's activations and row test are the
  shared `h0K` / `validK` of its own table and tested vector. The precondition (every float entry real, every pair entry
  a node number, the rows pairwise distinct) makes the two agree; so the reference's result is the last stretch applied
  to the other program's two arrays.
-/
import proofs.«120229_j77704548319709_2_alg».proof.Proof.RefTail
import proofs.«120229_j77704548319709_2_alg».proof.Proof.RefFinal
import proofs.«120229_j77704548319709_2_alg».proof.Proof.Master
import proofs.«120229_j77704548319709_2_alg».proof.Proof.GateFacts

noncomputable section

namespace Cert.Bridge

open Cert.ReferenceIdeal Cert.ReferenceIdeal.Gen Cert.ReferenceIdeal.ReadP Idealize.ShloMosaic Idealize.ShloMosaic.TcCoe Idealize.SL.Sem Idealize.ShloMosaic.StableHlo
open Idealize.ShloMosaic.ValueIdx Cert Cert.Spec Cert.RefValue

section Core

variable (x0 : (⟨S8192x2048, .f32⟩ : BufTy).Contents (Elt Ideal)) (x1 : (⟨S131072x2048, .f32⟩ : BufTy).Contents (Elt Ideal)) (x2 : (⟨S2048x512, .f32⟩ : BufTy).Contents (Elt Ideal)) (x3 : (⟨S512, .f32⟩ : BufTy).Contents (Elt Ideal)) (x4 : (⟨S2048x512, .f32⟩ : BufTy).Contents (Elt Ideal)) (x5 : (⟨S512, .f32⟩ : BufTy).Contents (Elt Ideal)) (x6 : (⟨S2048x512, .f32⟩ : BufTy).Contents (Elt Ideal)) (x7 : (⟨S512, .f32⟩ : BufTy).Contents (Elt Ideal)) (x8 : (⟨S512x32, .f32⟩ : BufTy).Contents (Elt Ideal)) (x9 : (⟨S32, .f32⟩ : BufTy).Contents (Elt Ideal)) (x10 : (⟨S2048x1024, .f32⟩ : BufTy).Contents (Elt Ideal)) (x11 : (⟨S1024, .f32⟩ : BufTy).Contents (Elt Ideal)) (x12 : (⟨S2048x512, .f32⟩ : BufTy).Contents (Elt Ideal)) (x13 : (⟨S512, .f32⟩ : BufTy).Contents (Elt Ideal)) (x14 : (⟨S512, .f32⟩ : BufTy).Contents (Elt Ideal)) (x15 : (⟨S512, .f32⟩ : BufTy).Contents (Elt Ideal)) (x16 : (⟨S512x512, .f32⟩ : BufTy).Contents (Elt Ideal)) (x17 : (⟨S512, .f32⟩ : BufTy).Contents (Elt Ideal)) (x18 : (⟨S512x2048, .f32⟩ : BufTy).Contents (Elt Ideal)) (x19 : (⟨S2048, .f32⟩ : BufTy).Contents (Elt Ideal))
  (x20 : Cert.Spec.PairIdx) (hr : InRange x20) (hd : Distinct x20)
  (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (h8 : ∀ i, IsReal (x8 i)) (h9 : ∀ i, IsReal (x9 i)) (h10 : ∀ i, IsReal (x10 i)) (h11 : ∀ i, IsReal (x11 i))
  (F : Fin 8192 → Fin 8192 → EReal)
  (hFhit : ∀ i, F (col x20 hr 0 i) (col x20 hr 1 i) = Ideal.exp ((Spec.gate (col x20 hr 0) (col x20 hr 1) (fun a b => x0 (ix2 a b)) (fun a b => x1 (ix2 a b)) (fun a b => x2 (ix2 a b)) (fun a => x3 (ix1 a)) (fun a b => x4 (ix2 a b)) (fun a => x5 (ix1 a)) (fun a b => x6 (ix2 a b)) (fun a => x7 (ix1 a)) (fun a b => x8 (ix2 a b)) (fun a => x9 (ix1 a))) i - Finset.univ.sup (Spec.gate (col x20 hr 0) (col x20 hr 1) (fun a b => x0 (ix2 a b)) (fun a b => x1 (ix2 a b)) (fun a b => x2 (ix2 a b)) (fun a => x3 (ix1 a)) (fun a b => x4 (ix2 a b)) (fun a => x5 (ix1 a)) (fun a b => x6 (ix2 a b)) (fun a => x7 (ix1 a)) (fun a b => x8 (ix2 a b)) (fun a => x9 (ix1 a)))))
  (hFmiss : ∀ p q, (∀ i, ¬ (col x20 hr 0 i = p ∧ col x20 hr 1 i = q)) → F p q = 0)
  (vk : Fin 8192 → EReal) (hvk : ∀ n, vk n ≠ 0 ↔ ∃ i, col x20 hr 0 i = n)
  (H0 : (⟨S8192x512, .f32⟩ : BufTy).Contents (Elt Ideal)) (VAL : (⟨S8192, .i1⟩ : BufTy).Contents (Elt Ideal))
  (hH0 : ∀ n j, H0 (ix2 n j) = Master.h0K F (Spec.msg (fun a b => x0 (ix2 a b)) (fun a b => x10 (ix2 a b)) (fun a => x11 (ix1 a))) (Ideal.ofBits .f32 0x358637BD#32) (Ideal.ofBits .f32 0x3F800000#32)
      (fun j c => x12 (ix2 j c)) (fun c => x13 (ix1 c)) n j)
  (hVAL : ∀ n, VAL (ix1 n) = Master.validK (Ideal.ofBits .f32 0x00000000#32) vk n)

include hd h0 h1 h2 h3 h4 h5 h6 h7 h8 h9 h10 h11 hFhit hFmiss hvk in
/-- The two programs' activations and row tests, at the shared quantities. -/
theorem shared (n : Fin 8192) (j : Fin 512) :
    Master.h0K F (Spec.msg (fun a b => x0 (ix2 a b)) (fun a b => x10 (ix2 a b)) (fun a => x11 (ix1 a))) (Ideal.ofBits .f32 0x358637BD#32) (Ideal.ofBits .f32 0x3F800000#32)
        (fun j c => x12 (ix2 j c)) (fun c => x13 (ix1 c)) n j
      = val_main_v96 (F := Ideal) x0 x1 x2 x3 x4 x5 x6 x7 x8 x9 x10 x11 x12 x13 x20 (ix2 n j)
    ∧ Master.validK (Ideal.ofBits .f32 0x00000000#32) vk n = val_main_v129 (F := Ideal) x0 x1 x2 x3 x4 x5 x6 x7 x8 x9 x20 (ix1 n) := by
  have hm := Master.master x20 hr hd (Spec.gate (col x20 hr 0) (col x20 hr 1) (fun a b => x0 (ix2 a b)) (fun a b => x1 (ix2 a b)) (fun a b => x2 (ix2 a b)) (fun a => x3 (ix1 a)) (fun a b => x4 (ix2 a b)) (fun a => x5 (ix1 a)) (fun a b => x6 (ix2 a b)) (fun a => x7 (ix1 a)) (fun a b => x8 (ix2 a b)) (fun a => x9 (ix1 a)))
    (GateFacts.isReal_gate _ _ _ _ _ _ _ _ _ _ _ _ (fun a b => h0 _) (fun a b => h1 _) (fun a b => h2 _) (fun a => h3 _)
      (fun a b => h4 _) (fun a => h5 _) (fun a b => h6 _) (fun a => h7 _) (fun a b => h8 _) (fun a => h9 _))
    (GateFacts.gate_nonneg _ _ _ _ _ _ _ _ _ _ _ _ (fun a b => h0 _) (fun a b => h1 _) (fun a b => h2 _) (fun a => h3 _)
      (fun a b => h4 _) (fun a => h5 _) (fun a b => h6 _) (fun a => h7 _) (fun a b => h8 _) (fun a => h9 _))
    (Spec.msg (fun a b => x0 (ix2 a b)) (fun a b => x10 (ix2 a b)) (fun a => x11 (ix1 a))) (GateFacts.isReal_msg (fun a b => h0 _) (fun a b => h10 _) (fun a => h11 _))
    (fun j c => x12 (ix2 j c)) (fun c => x13 (ix1 c)) F hFhit hFmiss vk hvk
    (val_main_v57 (F := Ideal) x0 x1 x2 x3 x4 x5 x6 x7 x8 x9 x20) (val_main_v73 (F := Ideal) x20)
    (v57_hit_gate x0 x1 x2 x3 x4 x5 x6 x7 x8 x9 hr hd) (v57_miss x0 x1 x2 x3 x4 x5 x6 x7 x8 x9 hr) (v73_hit hr) (v73_miss hr) n j
  have eMe : (fun k j' => val_main_v88 (F := Ideal) x0 x10 x11 (ix2 k j')) = (Spec.msg (fun a b => x0 (ix2 a b)) (fun a b => x10 (ix2 a b)) (fun a => x11 (ix1 a))) :=
    funext fun k => funext fun d => v88_eq_msg x0 x10 x11 k d
  rw [v96_eq_h0R, v129_eq_validR, eMe]
  exact hm

include hd h0 h1 h2 h3 h4 h5 h6 h7 h8 h9 h10 h11 hFhit hFmiss hvk hH0 hVAL in
/-- THE REFERENCE'S RESULT is the shared last stretch applied to the other program's activations and row test. -/
theorem ref_eq_tail :
    val_main_v136 (F := Ideal) x0 x1 x2 x3 x4 x5 x6 x7 x8 x9 x10 x11 x12 x13 x14 x15 x16 x17 x18 x19 x20
      = tailR H0 VAL x14 x15 x16 x17 x18 x19 := by
  have e1 : val_main_v96 (F := Ideal) x0 x1 x2 x3 x4 x5 x6 x7 x8 x9 x10 x11 x12 x13 x20 = H0 := funext fun (p : S8192x512.Idx) => by
    obtain ⟨a, b, rfl⟩ : ∃ (a : Fin 8192) (b : Fin 512), p = ix2 a b := ⟨p 0, p 1, eq_ix2 p⟩
    rw [hH0]
    exact ((shared x0 x1 x2 x3 x4 x5 x6 x7 x8 x9 x10 x11 x12 x13 x20 hr hd h0 h1 h2 h3 h4 h5 h6 h7 h8 h9 h10 h11 F hFhit hFmiss vk hvk a b).1).symm
  have e2 : val_main_v129 (F := Ideal) x0 x1 x2 x3 x4 x5 x6 x7 x8 x9 x20 = VAL := funext fun (p : S8192.Idx) => by
    obtain ⟨a, rfl⟩ : ∃ a : Fin 8192, p = ix1 a := ⟨p 0, eq_ix1 p⟩
    rw [hVAL]
    exact ((shared x0 x1 x2 x3 x4 x5 x6 x7 x8 x9 x10 x11 x12 x13 x20 hr hd h0 h1 h2 h3 h4 h5 h6 h7 h8 h9 h10 h11 F hFhit hFmiss vk hvk a 0).2).symm
  rw [val_main_v136_eq_tailR, e1, e2]

end Core

end Cert.Bridge

end
-- ==== Proof.PreFacts.lean ====
import proofs.«120229_j77704548319709_2_alg».proof.Proof.Gen.Pre_finite_inputs
import Idealize.ShloMosaic.Lib.ReduceAll
import Idealize.ShloMosaic.Lib.ValueIdx

noncomputable section

namespace Cert.PreFacts

open Idealize.ShloMosaic Idealize.ShloMosaic.ValueIdx Cert.Pre_finite_inputs

variable [Cert.Pre_finite_inputs.Facts]

/-- The scalar shape has one index. -/
instance : Subsingleton S_.Idx := ⟨fun a b => funext fun d => d.elim0⟩

/-- What the last part of the predicate says when it is 1: the conjunction carried in, the range test
    at every entry of the pair array, and the gather-of-scatter identity at every pair. -/
theorem part6_one (a20 : IVec S131072x2 32) (v98 : IVec S_ 1) (v100 : IVec S131072x2 1) (v101 : IVec S131072x2 32)
    (h : fn_part6 (F := Ideal) a20 v98 v100 v101 ix0 = 1#1) :
    v98 ix0 = 1#1 ∧ (∀ i, v100 i = 1#1 ∧ IntOp.cmpi .slt (a20 i) (v101 i) = 1#1) ∧
    (∀ k, Host.gather gather_S8192x8192_S131072x2_S131072_n_01_n_n_01_1_11
        (addi (Host.scatter scatter_S8192x8192_S131072x2_S131072_n_01_01_1 (fun _ b => b)
          (broadcastInDim S8192x8192 ![] Facts.bcast_S_S8192x8192 (constantI S_ 32 0#32)) a20 (iotaInDim S131072 32 0))
          (broadcastInDim S8192x8192 ![] Facts.bcast_S_S8192x8192 (constantI S_ 32 0#32))) a20 k
      = iotaInDim S131072 32 0 k) := by
  dsimp only [fn_part6] at h
  obtain ⟨h1, h3⟩ := IntOp.andi_eq_one.1 h
  obtain ⟨h1, h2⟩ := IntOp.andi_eq_one.1 h1
  refine ⟨h1, fun i => ?_, fun k => ?_⟩
  · exact IntOp.andi_eq_one.1 (Host.reduce_andi_all _ _ _ _ _ h2 i)
  · exact IntOp.cmpi_eq.1 (Host.reduce_andi_all _ _ _ _ _ h3 k)

/-- The gather's dimension numbers of the distinctness conjunct. -/
local notation "gd" => gather_S8192x8192_S131072x2_S131072_n_01_n_n_01_1_11

/-- Pair `i` of the gather reads component `c` of its start index at `[i, c]` of the pair array. -/
theorem gd_siIdx (i : Fin 131072) (c : Fin (gd).startIndexMap.length) :
    (gd).siIdx (ix1 i) c = ix2 i (⟨c.val, c.isLt⟩ : Fin 2) := by
  funext b; refine Fin.ext ?_
  match b with
  | ⟨0, _⟩ => rfl
  | ⟨1, _⟩ => rfl

/-- The operand index pair `i` reads depends on the pair array only through row `i`. -/
theorem gd_operandIdx_congr (idx : IVec S131072x2 32) (i j : Fin 131072)
    (hrow : ∀ c : Fin 2, idx (ix2 i c) = idx (ix2 j c)) :
    (gd).operandIdx (ix1 i) idx = (gd).operandIdx (ix1 j) idx := by
  funext a
  refine Fin.ext ?_
  show (gd).start (ix1 i) idx a + (gd).batchCoord (ix1 i) a + (gd).offCoord (ix1 i) a
    = (gd).start (ix1 j) idx a + (gd).batchCoord (ix1 j) a + (gd).offCoord (ix1 j) a
  have hnk : a ∉ (gd).sKept := fun h => ((GatherDims.mem_sKept _ _).mp h).1 (by
    show a ∈ [0, 1]
    match a with
    | ⟨0, _⟩ => exact List.mem_cons_self
    | ⟨1, _⟩ => exact List.mem_cons_of_mem _ List.mem_cons_self)
  rw [GatherDims.batchCoord_eq_zero _ _ _ List.not_mem_nil, GatherDims.batchCoord_eq_zero _ _ _ List.not_mem_nil,
    GatherDims.offCoord_eq_zero _ _ _ hnk, GatherDims.offCoord_eq_zero _ _ _ hnk]
  simp only [Nat.add_zero]
  have hmem : a ∈ (gd).startIndexMap := by
    show a ∈ [0, 1]
    match a with
    | ⟨0, _⟩ => exact List.mem_cons_self
    | ⟨1, _⟩ => exact List.mem_cons_of_mem _ List.mem_cons_self
  unfold GatherDims.start
  rw [dif_pos hmem, dif_pos hmem]
  rw [gd_siIdx i, gd_siIdx j, hrow]

/-- So two pairs with equal rows gather the same element of any operand. -/
theorem gather_rows_congr {α : Type} (X : S8192x8192.Idx → α) (idx : IVec S131072x2 32) (i j : Fin 131072)
    (hrow : ∀ c : Fin 2, idx (ix2 i c) = idx (ix2 j c)) :
    Host.gather gd X idx (ix1 i) = Host.gather gd X idx (ix1 j) := by
  unfold Host.gather
  rw [gd_operandIdx_congr idx i j hrow]

/-- The pair counter is injective: a pair's number is below `2 ^ 32`. -/
theorem iota_inj (i j : Fin 131072) (h : iotaInDim S131072 32 0 (ix1 i) = iotaInDim S131072 32 0 (ix1 j)) : i = j := by
  have h' : BitVec.ofNat 32 i.val = BitVec.ofNat 32 j.val := h
  have := congrArg BitVec.toNat h'
  rw [BitVec.toNat_ofNat, BitVec.toNat_ofNat] at this
  have hi := i.isLt
  have hj := j.isLt
  exact Fin.ext (by omega)

/-- If gathering at the pairs gives back the pair counter, whatever the operand, the rows are pairwise distinct. -/
theorem rows_distinct_of_gather {X : S8192x8192.Idx → BitVec 32} (idx : IVec S131072x2 32)
    (hg : ∀ k, Host.gather gd X idx k = iotaInDim S131072 32 0 k) (i j : Fin 131072)
    (hrow : ∀ c : Fin 2, idx (ix2 i c) = idx (ix2 j c)) : i = j :=
  iota_inj i j (by rw [← hg, ← hg]; exact gather_rows_congr X idx i j hrow)

/-- The range test read at an entry: between 0 and 8192. -/
theorem range_of_tests (a20 : IVec S131072x2 32)
    (h : ∀ i, cmpi .sge a20 (broadcastInDim S131072x2 ![] Facts.bcast_S_S131072x2 (constantI S_ 32 0#32)) i = 1#1 ∧
      IntOp.cmpi .slt (a20 i) (broadcastInDim S131072x2 ![] Facts.bcast_S_S131072x2 (constantI S_ 32 8192#32) i) = 1#1)
    (i : Fin 131072) (c : Fin 2) : 0 ≤ (a20 (ix2 i c)).toInt ∧ (a20 (ix2 i c)).toInt < 8192 := by
  obtain ⟨h1, h2⟩ := h (ix2 i c)
  have h1' : (0#32 : BitVec 32).toInt ≤ (a20 (ix2 i c)).toInt := IntOp.cmpi_sge.1 h1
  have h2' : (a20 (ix2 i c)).toInt < (8192#32 : BitVec 32).toInt := IntOp.cmpi_slt.1 h2
  rw [show (0#32 : BitVec 32).toInt = 0 from by decide] at h1'
  rw [show (8192#32 : BitVec 32).toInt = 8192 from by decide] at h2'
  exact ⟨h1', h2'⟩

/-- `|x| < +∞`, as the predicate tests it, says `x` is a real. -/
theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = (⊤ : EReal) := by simp [Ideal.ofBits, Ideal.ieee]
  rw [hinf] at h
  induction x using EReal.rec with
  | bot => simp [Ideal.cmp] at h
  | coe r => exact ⟨r, rfl⟩
  | top => simp [Ideal.cmp] at h

/-- `all (|x| < +∞)` is 1: every entry of `x` is a real. -/
theorem finite_of_all {s : Shape} {axes : List (Fin s.rank)} (x : FVec Ideal s .f32)
    (bc : S_.BroadcastsInDim s (![] : Fin 0 → Fin s.rank)) (red : s.ReducesTo axes S_) (hu : 0 < S_.numel)
    (h : Host.reduce IntOp.andi (cmpf .olt (Host.absf x) (broadcastInDim s ![] bc (constant S_ .f32 0x7F800000#32)))
      (constantI S_ 1 1#1) red hu ix0 = 1#1) (i : s.Idx) : ∃ r : ℝ, x i = (r : EReal) :=
  real_of_abs_lt_inf (x i) (Host.reduce_andi_all _ _ red hu ix0 h i)

section Decode

variable (a0 : FVec Ideal S8192x2048 .f32) (a1 : FVec Ideal S131072x2048 .f32) (a2 : FVec Ideal S2048x512 .f32) (a3 : FVec Ideal S512 .f32) (a4 : FVec Ideal S2048x512 .f32) (a5 : FVec Ideal S512 .f32) (a6 : FVec Ideal S2048x512 .f32) (a7 : FVec Ideal S512 .f32) (a8 : FVec Ideal S512x32 .f32) (a9 : FVec Ideal S32 .f32) (a10 : FVec Ideal S2048x1024 .f32) (a11 : FVec Ideal S1024 .f32) (a12 : FVec Ideal S2048x512 .f32) (a13 : FVec Ideal S512 .f32) (a14 : FVec Ideal S512 .f32) (a15 : FVec Ideal S512 .f32) (a16 : FVec Ideal S512x512 .f32) (a17 : FVec Ideal S512 .f32) (a18 : FVec Ideal S512x2048 .f32) (a19 : FVec Ideal S2048 .f32) (a20 : IVec S131072x2 32)

/-- The whole predicate, decoded: every float entry real, the range test at every entry of the pair array,
    the gather-of-scatter identity at every pair. -/
theorem decode (h : fn (F := Ideal) a0 a1 a2 a3 a4 a5 a6 a7 a8 a9 a10 a11 a12 a13 a14 a15 a16 a17 a18 a19 a20 = fun _ => 1#1) :
    (∀ i, ∃ r : ℝ, a0 i = (r : EReal)) ∧
    (∀ i, ∃ r : ℝ, a1 i = (r : EReal)) ∧
    (∀ i, ∃ r : ℝ, a2 i = (r : EReal)) ∧
    (∀ i, ∃ r : ℝ, a3 i = (r : EReal)) ∧
    (∀ i, ∃ r : ℝ, a4 i = (r : EReal)) ∧
    (∀ i, ∃ r : ℝ, a5 i = (r : EReal)) ∧
    (∀ i, ∃ r : ℝ, a6 i = (r : EReal)) ∧
    (∀ i, ∃ r : ℝ, a7 i = (r : EReal)) ∧
    (∀ i, ∃ r : ℝ, a8 i = (r : EReal)) ∧
    (∀ i, ∃ r : ℝ, a9 i = (r : EReal)) ∧
    (∀ i, ∃ r : ℝ, a10 i = (r : EReal)) ∧
    (∀ i, ∃ r : ℝ, a11 i = (r : EReal)) ∧
    (∀ i, ∃ r : ℝ, a12 i = (r : EReal)) ∧
    (∀ i, ∃ r : ℝ, a13 i = (r : EReal)) ∧
    (∀ i, ∃ r : ℝ, a14 i = (r : EReal)) ∧
    (∀ i, ∃ r : ℝ, a15 i = (r : EReal)) ∧
    (∀ i, ∃ r : ℝ, a16 i = (r : EReal)) ∧
    (∀ i, ∃ r : ℝ, a17 i = (r : EReal)) ∧
    (∀ i, ∃ r : ℝ, a18 i = (r : EReal)) ∧
    (∀ i, ∃ r : ℝ, a19 i = (r : EReal)) ∧
    (∀ i, cmpi .sge a20 (broadcastInDim S131072x2 ![] Facts.bcast_S_S131072x2 (constantI S_ 32 0#32)) i = 1#1 ∧
      IntOp.cmpi .slt (a20 i) (broadcastInDim S131072x2 ![] Facts.bcast_S_S131072x2 (constantI S_ 32 8192#32) i) = 1#1) ∧
    (∀ k, Host.gather gd
        (addi (Host.scatter scatter_S8192x8192_S131072x2_S131072_n_01_01_1 (fun _ b => b)
          (broadcastInDim S8192x8192 ![] Facts.bcast_S_S8192x8192 (constantI S_ 32 0#32)) a20 (iotaInDim S131072 32 0))
          (broadcastInDim S8192x8192 ![] Facts.bcast_S_S8192x8192 (constantI S_ 32 0#32))) a20 k
      = iotaInDim S131072 32 0 k) := by
  have h0 := congrFun h ix0
  dsimp only [fn, fn_part1, fn_part2, fn_part3, fn_part4, fn_part5] at h0
  obtain ⟨hc, hr, hg⟩ := part6_one _ _ _ _ h0
  obtain ⟨hc, h19⟩ := IntOp.andi_eq_one.1 hc
  obtain ⟨hc, h18⟩ := IntOp.andi_eq_one.1 hc
  obtain ⟨hc, h17⟩ := IntOp.andi_eq_one.1 hc
  obtain ⟨hc, h16⟩ := IntOp.andi_eq_one.1 hc
  obtain ⟨hc, h15⟩ := IntOp.andi_eq_one.1 hc
  obtain ⟨hc, h14⟩ := IntOp.andi_eq_one.1 hc
  obtain ⟨hc, h13⟩ := IntOp.andi_eq_one.1 hc
  obtain ⟨hc, h12⟩ := IntOp.andi_eq_one.1 hc
  obtain ⟨hc, h11⟩ := IntOp.andi_eq_one.1 hc
  obtain ⟨hc, h10⟩ := IntOp.andi_eq_one.1 hc
  obtain ⟨hc, h9⟩ := IntOp.andi_eq_one.1 hc
  obtain ⟨hc, h8⟩ := IntOp.andi_eq_one.1 hc
  obtain ⟨hc, h7⟩ := IntOp.andi_eq_one.1 hc
  obtain ⟨hc, h6⟩ := IntOp.andi_eq_one.1 hc
  obtain ⟨hc, h5⟩ := IntOp.andi_eq_one.1 hc
  obtain ⟨hc, h4⟩ := IntOp.andi_eq_one.1 hc
  obtain ⟨hc, h3⟩ := IntOp.andi_eq_one.1 hc
  obtain ⟨hc, h2⟩ := IntOp.andi_eq_one.1 hc
  obtain ⟨hc, h1⟩ := IntOp.andi_eq_one.1 hc
  exact ⟨finite_of_all _ _ _ _ hc, finite_of_all _ _ _ _ h1, finite_of_all _ _ _ _ h2, finite_of_all _ _ _ _ h3, finite_of_all _ _ _ _ h4, finite_of_all _ _ _ _ h5, finite_of_all _ _ _ _ h6, finite_of_all _ _ _ _ h7, finite_of_all _ _ _ _ h8, finite_of_all _ _ _ _ h9, finite_of_all _ _ _ _ h10, finite_of_all _ _ _ _ h11, finite_of_all _ _ _ _ h12, finite_of_all _ _ _ _ h13, finite_of_all _ _ _ _ h14, finite_of_all _ _ _ _ h15, finite_of_all _ _ _ _ h16, finite_of_all _ _ _ _ h17, finite_of_all _ _ _ _ h18, finite_of_all _ _ _ _ h19, hr, hg⟩

/-- (ii) Every entry of the pair array is a node number: in `[0, 8192)`. -/
theorem idx_range (h : fn (F := Ideal) a0 a1 a2 a3 a4 a5 a6 a7 a8 a9 a10 a11 a12 a13 a14 a15 a16 a17 a18 a19 a20 = fun _ => 1#1) (i : Fin 131072) (c : Fin 2) :
    0 ≤ (a20 (ix2 i c)).toInt ∧ (a20 (ix2 i c)).toInt < 8192 :=
  range_of_tests a20 (decode a0 a1 a2 a3 a4 a5 a6 a7 a8 a9 a10 a11 a12 a13 a14 a15 a16 a17 a18 a19 a20 h).2.2.2.2.2.2.2.2.2.2.2.2.2.2.2.2.2.2.2.2.1 i c

/-- (iii) The rows of the pair array are pairwise distinct. -/
theorem rows_distinct (h : fn (F := Ideal) a0 a1 a2 a3 a4 a5 a6 a7 a8 a9 a10 a11 a12 a13 a14 a15 a16 a17 a18 a19 a20 = fun _ => 1#1) (i j : Fin 131072)
    (hrow : ∀ c : Fin 2, a20 (ix2 i c) = a20 (ix2 j c)) : i = j :=
  rows_distinct_of_gather a20 (decode a0 a1 a2 a3 a4 a5 a6 a7 a8 a9 a10 a11 a12 a13 a14 a15 a16 a17 a18 a19 a20 h).2.2.2.2.2.2.2.2.2.2.2.2.2.2.2.2.2.2.2.2.2 i j hrow

/-- (i) Argument 0 is real at every index. -/
theorem finite_a0 (h : fn (F := Ideal) a0 a1 a2 a3 a4 a5 a6 a7 a8 a9 a10 a11 a12 a13 a14 a15 a16 a17 a18 a19 a20 = fun _ => 1#1) (i : S8192x2048.Idx) : ∃ r : ℝ, a0 i = (r : EReal) :=
  (decode a0 a1 a2 a3 a4 a5 a6 a7 a8 a9 a10 a11 a12 a13 a14 a15 a16 a17 a18 a19 a20 h).1 i

/-- (i) Argument 1 is real at every index. -/
theorem finite_a1 (h : fn (F := Ideal) a0 a1 a2 a3 a4 a5 a6 a7 a8 a9 a10 a11 a12 a13 a14 a15 a16 a17 a18 a19 a20 = fun _ => 1#1) (i : S131072x2048.Idx) : ∃ r : ℝ, a1 i = (r : EReal) :=
  (decode a0 a1 a2 a3 a4 a5 a6 a7 a8 a9 a10 a11 a12 a13 a14 a15 a16 a17 a18 a19 a20 h).2.1 i

/-- (i) Argument 2 is real at every index. -/
theorem finite_a2 (h : fn (F := Ideal) a0 a1 a2 a3 a4 a5 a6 a7 a8 a9 a10 a11 a12 a13 a14 a15 a16 a17 a18 a19 a20 = fun _ => 1#1) (i : S2048x512.Idx) : ∃ r : ℝ, a2 i = (r : EReal) :=
  (decode a0 a1 a2 a3 a4 a5 a6 a7 a8 a9 a10 a11 a12 a13 a14 a15 a16 a17 a18 a19 a20 h).2.2.1 i

/-- (i) Argument 3 is real at every index. -/
theorem finite_a3 (h : fn (F := Ideal) a0 a1 a2 a3 a4 a5 a6 a7 a8 a9 a10 a11 a12 a13 a14 a15 a16 a17 a18 a19 a20 = fun _ => 1#1) (i : S512.Idx) : ∃ r : ℝ, a3 i = (r : EReal) :=
  (decode a0 a1 a2 a3 a4 a5 a6 a7 a8 a9 a10 a11 a12 a13 a14 a15 a16 a17 a18 a19 a20 h).2.2.2.1 i

/-- (i) Argument 4 is real at every index. -/
theorem finite_a4 (h : fn (F := Ideal) a0 a1 a2 a3 a4 a5 a6 a7 a8 a9 a10 a11 a12 a13 a14 a15 a16 a17 a18 a19 a20 = fun _ => 1#1) (i : S2048x512.Idx) : ∃ r : ℝ, a4 i = (r : EReal) :=
  (decode a0 a1 a2 a3 a4 a5 a6 a7 a8 a9 a10 a11 a12 a13 a14 a15 a16 a17 a18 a19 a20 h).2.2.2.2.1 i

/-- (i) Argument 5 is real at every index. -/
theorem finite_a5 (h : fn (F := Ideal) a0 a1 a2 a3 a4 a5 a6 a7 a8 a9 a10 a11 a12 a13 a14 a15 a16 a17 a18 a19 a20 = fun _ => 1#1) (i : S512.Idx) : ∃ r : ℝ, a5 i = (r : EReal) :=
  (decode a0 a1 a2 a3 a4 a5 a6 a7 a8 a9 a10 a11 a12 a13 a14 a15 a16 a17 a18 a19 a20 h).2.2.2.2.2.1 i

/-- (i) Argument 6 is real at every index. -/
theorem finite_a6 (h : fn (F := Ideal) a0 a1 a2 a3 a4 a5 a6 a7 a8 a9 a10 a11 a12 a13 a14 a15 a16 a17 a18 a19 a20 = fun _ => 1#1) (i : S2048x512.Idx) : ∃ r : ℝ, a6 i = (r : EReal) :=
  (decode a0 a1 a2 a3 a4 a5 a6 a7 a8 a9 a10 a11 a12 a13 a14 a15 a16 a17 a18 a19 a20 h).2.2.2.2.2.2.1 i

/-- (i) Argument 7 is real at every index. -/
theorem finite_a7 (h : fn (F := Ideal) a0 a1 a2 a3 a4 a5 a6 a7 a8 a9 a10 a11 a12 a13 a14 a15 a16 a17 a18 a19 a20 = fun _ => 1#1) (i : S512.Idx) : ∃ r : ℝ, a7 i = (r : EReal) :=
  (decode a0 a1 a2 a3 a4 a5 a6 a7 a8 a9 a10 a11 a12 a13 a14 a15 a16 a17 a18 a19 a20 h).2.2.2.2.2.2.2.1 i

/-- (i) Argument 8 is real at every index. -/
theorem finite_a8 (h : fn (F := Ideal) a0 a1 a2 a3 a4 a5 a6 a7 a8 a9 a10 a11 a12 a13 a14 a15 a16 a17 a18 a19 a20 = fun _ => 1#1) (i : S512x32.Idx) : ∃ r : ℝ, a8 i = (r : EReal) :=
  (decode a0 a1 a2 a3 a4 a5 a6 a7 a8 a9 a10 a11 a12 a13 a14 a15 a16 a17 a18 a19 a20 h).2.2.2.2.2.2.2.2.1 i

/-- (i) Argument 9 is real at every index. -/
theorem finite_a9 (h : fn (F := Ideal) a0 a1 a2 a3 a4 a5 a6 a7 a8 a9 a10 a11 a12 a13 a14 a15 a16 a17 a18 a19 a20 = fun _ => 1#1) (i : S32.Idx) : ∃ r : ℝ, a9 i = (r : EReal) :=
  (decode a0 a1 a2 a3 a4 a5 a6 a7 a8 a9 a10 a11 a12 a13 a14 a15 a16 a17 a18 a19 a20 h).2.2.2.2.2.2.2.2.2.1 i

/-- (i) Argument 10 is real at every index. -/
theorem finite_a10 (h : fn (F := Ideal) a0 a1 a2 a3 a4 a5 a6 a7 a8 a9 a10 a11 a12 a13 a14 a15 a16 a17 a18 a19 a20 = fun _ => 1#1) (i : S2048x1024.Idx) : ∃ r : ℝ, a10 i = (r : EReal) :=
  (decode a0 a1 a2 a3 a4 a5 a6 a7 a8 a9 a10 a11 a12 a13 a14 a15 a16 a17 a18 a19 a20 h).2.2.2.2.2.2.2.2.2.2.1 i

/-- (i) Argument 11 is real at every index. -/
theorem finite_a11 (h : fn (F := Ideal) a0 a1 a2 a3 a4 a5 a6 a7 a8 a9 a10 a11 a12 a13 a14 a15 a16 a17 a18 a19 a20 = fun _ => 1#1) (i : S1024.Idx) : ∃ r : ℝ, a11 i = (r : EReal) :=
  (decode a0 a1 a2 a3 a4 a5 a6 a7 a8 a9 a10 a11 a12 a13 a14 a15 a16 a17 a18 a19 a20 h).2.2.2.2.2.2.2.2.2.2.2.1 i

/-- (i) Argument 12 is real at every index. -/
theorem finite_a12 (h : fn (F := Ideal) a0 a1 a2 a3 a4 a5 a6 a7 a8 a9 a10 a11 a12 a13 a14 a15 a16 a17 a18 a19 a20 = fun _ => 1#1) (i : S2048x512.Idx) : ∃ r : ℝ, a12 i = (r : EReal) :=
  (decode a0 a1 a2 a3 a4 a5 a6 a7 a8 a9 a10 a11 a12 a13 a14 a15 a16 a17 a18 a19 a20 h).2.2.2.2.2.2.2.2.2.2.2.2.1 i

/-- (i) Argument 13 is real at every index. -/
theorem finite_a13 (h : fn (F := Ideal) a0 a1 a2 a3 a4 a5 a6 a7 a8 a9 a10 a11 a12 a13 a14 a15 a16 a17 a18 a19 a20 = fun _ => 1#1) (i : S512.Idx) : ∃ r : ℝ, a13 i = (r : EReal) :=
  (decode a0 a1 a2 a3 a4 a5 a6 a7 a8 a9 a10 a11 a12 a13 a14 a15 a16 a17 a18 a19 a20 h).2.2.2.2.2.2.2.2.2.2.2.2.2.1 i

/-- (i) Argument 14 is real at every index. -/
theorem finite_a14 (h : fn (F := Ideal) a0 a1 a2 a3 a4 a5 a6 a7 a8 a9 a10 a11 a12 a13 a14 a15 a16 a17 a18 a19 a20 = fun _ => 1#1) (i : S512.Idx) : ∃ r : ℝ, a14 i = (r : EReal) :=
  (decode a0 a1 a2 a3 a4 a5 a6 a7 a8 a9 a10 a11 a12 a13 a14 a15 a16 a17 a18 a19 a20 h).2.2.2.2.2.2.2.2.2.2.2.2.2.2.1 i

/-- (i) Argument 15 is real at every index. -/
theorem finite_a15 (h : fn (F := Ideal) a0 a1 a2 a3 a4 a5 a6 a7 a8 a9 a10 a11 a12 a13 a14 a15 a16 a17 a18 a19 a20 = fun _ => 1#1) (i : S512.Idx) : ∃ r : ℝ, a15 i = (r : EReal) :=
  (decode a0 a1 a2 a3 a4 a5 a6 a7 a8 a9 a10 a11 a12 a13 a14 a15 a16 a17 a18 a19 a20 h).2.2.2.2.2.2.2.2.2.2.2.2.2.2.2.1 i

/-- (i) Argument 16 is real at every index. -/
theorem finite_a16 (h : fn (F := Ideal) a0 a1 a2 a3 a4 a5 a6 a7 a8 a9 a10 a11 a12 a13 a14 a15 a16 a17 a18 a19 a20 = fun _ => 1#1) (i : S512x512.Idx) : ∃ r : ℝ, a16 i = (r : EReal) :=
  (decode a0 a1 a2 a3 a4 a5 a6 a7 a8 a9 a10 a11 a12 a13 a14 a15 a16 a17 a18 a19 a20 h).2.2.2.2.2.2.2.2.2.2.2.2.2.2.2.2.1 i

/-- (i) Argument 17 is real at every index. -/
theorem finite_a17 (h : fn (F := Ideal) a0 a1 a2 a3 a4 a5 a6 a7 a8 a9 a10 a11 a12 a13 a14 a15 a16 a17 a18 a19 a20 = fun _ => 1#1) (i : S512.Idx) : ∃ r : ℝ, a17 i = (r : EReal) :=
  (decode a0 a1 a2 a3 a4 a5 a6 a7 a8 a9 a10 a11 a12 a13 a14 a15 a16 a17 a18 a19 a20 h).2.2.2.2.2.2.2.2.2.2.2.2.2.2.2.2.2.1 i

/-- (i) Argument 18 is real at every index. -/
theorem finite_a18 (h : fn (F := Ideal) a0 a1 a2 a3 a4 a5 a6 a7 a8 a9 a10 a11 a12 a13 a14 a15 a16 a17 a18 a19 a20 = fun _ => 1#1) (i : S512x2048.Idx) : ∃ r : ℝ, a18 i = (r : EReal) :=
  (decode a0 a1 a2 a3 a4 a5 a6 a7 a8 a9 a10 a11 a12 a13 a14 a15 a16 a17 a18 a19 a20 h).2.2.2.2.2.2.2.2.2.2.2.2.2.2.2.2.2.2.1 i

/-- (i) Argument 19 is real at every index. -/
theorem finite_a19 (h : fn (F := Ideal) a0 a1 a2 a3 a4 a5 a6 a7 a8 a9 a10 a11 a12 a13 a14 a15 a16 a17 a18 a19 a20 = fun _ => 1#1) (i : S2048.Idx) : ∃ r : ℝ, a19 i = (r : EReal) :=
  (decode a0 a1 a2 a3 a4 a5 a6 a7 a8 a9 a10 a11 a12 a13 a14 a15 a16 a17 a18 a19 a20 h).2.2.2.2.2.2.2.2.2.2.2.2.2.2.2.2.2.2.2.1 i

/-- (i) Every float argument is real at every index. -/
theorem finite_args (h : fn (F := Ideal) a0 a1 a2 a3 a4 a5 a6 a7 a8 a9 a10 a11 a12 a13 a14 a15 a16 a17 a18 a19 a20 = fun _ => 1#1) :
    (∀ i, ∃ r : ℝ, a0 i = (r : EReal)) ∧
    (∀ i, ∃ r : ℝ, a1 i = (r : EReal)) ∧
    (∀ i, ∃ r : ℝ, a2 i = (r : EReal)) ∧
    (∀ i, ∃ r : ℝ, a3 i = (r : EReal)) ∧
    (∀ i, ∃ r : ℝ, a4 i = (r : EReal)) ∧
    (∀ i, ∃ r : ℝ, a5 i = (r : EReal)) ∧
    (∀ i, ∃ r : ℝ, a6 i = (r : EReal)) ∧
    (∀ i, ∃ r : ℝ, a7 i = (r : EReal)) ∧
    (∀ i, ∃ r : ℝ, a8 i = (r : EReal)) ∧
    (∀ i, ∃ r : ℝ, a9 i = (r : EReal)) ∧
    (∀ i, ∃ r : ℝ, a10 i = (r : EReal)) ∧
    (∀ i, ∃ r : ℝ, a11 i = (r : EReal)) ∧
    (∀ i, ∃ r : ℝ, a12 i = (r : EReal)) ∧
    (∀ i, ∃ r : ℝ, a13 i = (r : EReal)) ∧
    (∀ i, ∃ r : ℝ, a14 i = (r : EReal)) ∧
    (∀ i, ∃ r : ℝ, a15 i = (r : EReal)) ∧
    (∀ i, ∃ r : ℝ, a16 i = (r : EReal)) ∧
    (∀ i, ∃ r : ℝ, a17 i = (r : EReal)) ∧
    (∀ i, ∃ r : ℝ, a18 i = (r : EReal)) ∧
    (∀ i, ∃ r : ℝ, a19 i = (r : EReal)) :=
  ⟨finite_a0 a0 a1 a2 a3 a4 a5 a6 a7 a8 a9 a10 a11 a12 a13 a14 a15 a16 a17 a18 a19 a20 h, finite_a1 a0 a1 a2 a3 a4 a5 a6 a7 a8 a9 a10 a11 a12 a13 a14 a15 a16 a17 a18 a19 a20 h, finite_a2 a0 a1 a2 a3 a4 a5 a6 a7 a8 a9 a10 a11 a12 a13 a14 a15 a16 a17 a18 a19 a20 h, finite_a3 a0 a1 a2 a3 a4 a5 a6 a7 a8 a9 a10 a11 a12 a13 a14 a15 a16 a17 a18 a19 a20 h, finite_a4 a0 a1 a2 a3 a4 a5 a6 a7 a8 a9 a10 a11 a12 a13 a14 a15 a16 a17 a18 a19 a20 h, finite_a5 a0 a1 a2 a3 a4 a5 a6 a7 a8 a9 a10 a11 a12 a13 a14 a15 a16 a17 a18 a19 a20 h, finite_a6 a0 a1 a2 a3 a4 a5 a6 a7 a8 a9 a10 a11 a12 a13 a14 a15 a16 a17 a18 a19 a20 h, finite_a7 a0 a1 a2 a3 a4 a5 a6 a7 a8 a9 a10 a11 a12 a13 a14 a15 a16 a17 a18 a19 a20 h, finite_a8 a0 a1 a2 a3 a4 a5 a6 a7 a8 a9 a10 a11 a12 a13 a14 a15 a16 a17 a18 a19 a20 h, finite_a9 a0 a1 a2 a3 a4 a5 a6 a7 a8 a9 a10 a11 a12 a13 a14 a15 a16 a17 a18 a19 a20 h, finite_a10 a0 a1 a2 a3 a4 a5 a6 a7 a8 a9 a10 a11 a12 a13 a14 a15 a16 a17 a18 a19 a20 h, finite_a11 a0 a1 a2 a3 a4 a5 a6 a7 a8 a9 a10 a11 a12 a13 a14 a15 a16 a17 a18 a19 a20 h, finite_a12 a0 a1 a2 a3 a4 a5 a6 a7 a8 a9 a10 a11 a12 a13 a14 a15 a16 a17 a18 a19 a20 h, finite_a13 a0 a1 a2 a3 a4 a5 a6 a7 a8 a9 a10 a11 a12 a13 a14 a15 a16 a17 a18 a19 a20 h, finite_a14 a0 a1 a2 a3 a4 a5 a6 a7 a8 a9 a10 a11 a12 a13 a14 a15 a16 a17 a18 a19 a20 h, finite_a15 a0 a1 a2 a3 a4 a5 a6 a7 a8 a9 a10 a11 a12 a13 a14 a15 a16 a17 a18 a19 a20 h, finite_a16 a0 a1 a2 a3 a4 a5 a6 a7 a8 a9 a10 a11 a12 a13 a14 a15 a16 a17 a18 a19 a20 h, finite_a17 a0 a1 a2 a3 a4 a5 a6 a7 a8 a9 a10 a11 a12 a13 a14 a15 a16 a17 a18 a19 a20 h, finite_a18 a0 a1 a2 a3 a4 a5 a6 a7 a8 a9 a10 a11 a12 a13 a14 a15 a16 a17 a18 a19 a20 h, finite_a19 a0 a1 a2 a3 a4 a5 a6 a7 a8 a9 a10 a11 a12 a13 a14 a15 a16 a17 a18 a19 a20 h⟩

end Decode

end Cert.PreFacts
-- ==== Proof.BridgeK.lean ====
/-
  The precondition read at a core's argument arrays, and the other program's activation read through the two
  regions' results.
-/
import proofs.«120229_j77704548319709_2_alg».proof.Defs
import proofs.«120229_j77704548319709_2_alg».proof.Proof.Gen.KernelIdeal
import proofs.«120229_j77704548319709_2_alg».proof.Proof.Gen.KernelIdeal.Regions
import proofs.«120229_j77704548319709_2_alg».proof.Proof.Gen.Pre_finite_inputs
import proofs.«120229_j77704548319709_2_alg».proof.Proof.PreFacts
import proofs.«120229_j77704548319709_2_alg».proof.Proof.Master

noncomputable section

namespace Cert.Bridge

open Cert.KernelIdeal Cert.KernelIdeal.Gen Idealize.ShloMosaic Idealize.ShloMosaic.TcCoe Idealize.SL.Sem Idealize.ShloMosaic.StableHlo
open Idealize.ShloMosaic.ValueIdx Cert Cert.Spec

section Pre

variable (m : (ℓ : Loc nD τ sig) → Buf (Elt Ideal) ℓ) (hpre : Cert.Pre_KernelIdeal m) (c : Dev nD)

include hpre in
/-- Every entry of the pair array is a node number. -/
theorem pre_range : InRange ((m ((c.tc : Thread nD τ).loc main_arg20)) : Spec.PairIdx) :=
  fun i k => PreFacts.idx_range _ _ _ _ _ _ _ _ _ _ _ _ _ _ _ _ _ _ _ _ _ (hpre c) i k

include hpre in
/-- The rows of the pair array are pairwise distinct. -/
theorem pre_distinct : Distinct ((m ((c.tc : Thread nD τ).loc main_arg20)) : Spec.PairIdx) :=
  fun i j h => PreFacts.rows_distinct _ _ _ _ _ _ _ _ _ _ _ _ _ _ _ _ _ _ _ _ _ (hpre c) i j h

include hpre in
/-- Argument 0 is real at every index. -/
theorem pre_real0 (i : S8192x2048.Idx) : IsReal (((m ((c.tc : Thread nD τ).loc main_arg0)) : FVec Ideal S8192x2048 .f32) i) :=
  PreFacts.finite_a0 _ _ _ _ _ _ _ _ _ _ _ _ _ _ _ _ _ _ _ _ _ (hpre c) i

include hpre in
/-- Argument 1 is real at every index. -/
theorem pre_real1 (i : S131072x2048.Idx) : IsReal (((m ((c.tc : Thread nD τ).loc main_arg1)) : FVec Ideal S131072x2048 .f32) i) :=
  PreFacts.finite_a1 _ _ _ _ _ _ _ _ _ _ _ _ _ _ _ _ _ _ _ _ _ (hpre c) i

include hpre in
/-- Argument 2 is real at every index. -/
theorem pre_real2 (i : S2048x512.Idx) : IsReal (((m ((c.tc : Thread nD τ).loc main_arg2)) : FVec Ideal S2048x512 .f32) i) :=
  PreFacts.finite_a2 _ _ _ _ _ _ _ _ _ _ _ _ _ _ _ _ _ _ _ _ _ (hpre c) i

include hpre in
/-- Argument 3 is real at every index. -/
theorem pre_real3 (i : S512.Idx) : IsReal (((m ((c.tc : Thread nD τ).loc main_arg3)) : FVec Ideal S512 .f32) i) :=
  PreFacts.finite_a3 _ _ _ _ _ _ _ _ _ _ _ _ _ _ _ _ _ _ _ _ _ (hpre c) i

include hpre in
/-- Argument 4 is real at every index. -/
theorem pre_real4 (i : S2048x512.Idx) : IsReal (((m ((c.tc : Thread nD τ).loc main_arg4)) : FVec Ideal S2048x512 .f32) i) :=
  PreFacts.finite_a4 _ _ _ _ _ _ _ _ _ _ _ _ _ _ _ _ _ _ _ _ _ (hpre c) i

include hpre in
/-- Argument 5 is real at every index. -/
theorem pre_real5 (i : S512.Idx) : IsReal (((m ((c.tc : Thread nD τ).loc main_arg5)) : FVec Ideal S512 .f32) i) :=
  PreFacts.finite_a5 _ _ _ _ _ _ _ _ _ _ _ _ _ _ _ _ _ _ _ _ _ (hpre c) i

include hpre in
/-- Argument 6 is real at every index. -/
theorem pre_real6 (i : S2048x512.Idx) : IsReal (((m ((c.tc : Thread nD τ).loc main_arg6)) : FVec Ideal S2048x512 .f32) i) :=
  PreFacts.finite_a6 _ _ _ _ _ _ _ _ _ _ _ _ _ _ _ _ _ _ _ _ _ (hpre c) i

include hpre in
/-- Argument 7 is real at every index. -/
theorem pre_real7 (i : S512.Idx) : IsReal (((m ((c.tc : Thread nD τ).loc main_arg7)) : FVec Ideal S512 .f32) i) :=
  PreFacts.finite_a7 _ _ _ _ _ _ _ _ _ _ _ _ _ _ _ _ _ _ _ _ _ (hpre c) i

include hpre in
/-- Argument 8 is real at every index. -/
theorem pre_real8 (i : S512x32.Idx) : IsReal (((m ((c.tc : Thread nD τ).loc main_arg8)) : FVec Ideal S512x32 .f32) i) :=
  PreFacts.finite_a8 _ _ _ _ _ _ _ _ _ _ _ _ _ _ _ _ _ _ _ _ _ (hpre c) i

include hpre in
/-- Argument 9 is real at every index. -/
theorem pre_real9 (i : S32.Idx) : IsReal (((m ((c.tc : Thread nD τ).loc main_arg9)) : FVec Ideal S32 .f32) i) :=
  PreFacts.finite_a9 _ _ _ _ _ _ _ _ _ _ _ _ _ _ _ _ _ _ _ _ _ (hpre c) i

include hpre in
/-- Argument 10 is real at every index. -/
theorem pre_real10 (i : S2048x1024.Idx) : IsReal (((m ((c.tc : Thread nD τ).loc main_arg10)) : FVec Ideal S2048x1024 .f32) i) :=
  PreFacts.finite_a10 _ _ _ _ _ _ _ _ _ _ _ _ _ _ _ _ _ _ _ _ _ (hpre c) i

include hpre in
/-- Argument 11 is real at every index. -/
theorem pre_real11 (i : S1024.Idx) : IsReal (((m ((c.tc : Thread nD τ).loc main_arg11)) : FVec Ideal S1024 .f32) i) :=
  PreFacts.finite_a11 _ _ _ _ _ _ _ _ _ _ _ _ _ _ _ _ _ _ _ _ _ (hpre c) i

end Pre

section Activation

/-- The activation, read through the two regions' results: the host stretch after the regions applies the first 1024
    rows of the weights to the one result and the last 1024 to the other; each result is the shared block-by-block
    product of the table and the messages the regions found. -/
theorem h0_of_regions (H : FVec Ideal S8192x512 .f32) (O1 O2 : FVec Ideal S8192x1024 .f32)
    (W : FVec Ideal S2048x512 .f32) (B : FVec Ideal S512 .f32)
    (Fk : Fin 8192 → Fin 8192 → EReal) (Mek : Fin 8192 → Fin 1024 → EReal)
    (hH : ∀ (n : Fin 8192) (j : Fin 512), H (ix2 n j)
      = ((∑ j' : Fin 1024, O1 (ix2 n j') * W (ix2 (⟨j'.val, by omega⟩ : Fin 2048) j))
          + (∑ j' : Fin 1024, O2 (ix2 n j') * W (ix2 (⟨1024 + j'.val, by omega⟩ : Fin 2048) j)))
        + B (ix1 j))
    (hOut1 : ∀ n d, O1 (ix2 n d) = Master.out1 Fk Mek (Ideal.ofBits .f32 0x358637BD#32) n d)
    (hOut2 : ∀ o d, O2 (ix2 o d)
      = Master.out2 Fk Mek (Ideal.ofBits .f32 0x358637BD#32) (Ideal.ofBits .f32 0x3F800000#32) o d)
    (n : Fin 8192) (j : Fin 512) :
    H (ix2 n j)
      = Master.h0K Fk Mek (Ideal.ofBits .f32 0x358637BD#32) (Ideal.ofBits .f32 0x3F800000#32)
          (fun a b => W (ix2 a b)) (fun a => B (ix1 a)) n j := by
  rw [hH]
  simp only [hOut1, hOut2]
  rfl

end Activation

end Cert.Bridge

end
-- ==== Proof.KernelTail.lean ====
/-
  The kernel program's last stretch, named, and its equality with the reference's.

  From the pre-normalisation activations `h0` (rows of nodes, 512 features) and the row-validity mask `valid` the
  kernel program does what the reference does: layer normalisation over the features — the mean `μ = (∑ h0) / 512`,
  the centred second moment `σ² = (∑ (h0 − μ)²) / 512`, `(h0 − μ) · rsqrt (σ² + ε)` with `ε` the f32 word 0x3727C5AC,
  scaled by parameter 14 and shifted by parameter 15 —, relu, the linear layer of parameters 16 and 17, relu, zeroing of
  the rows that are not valid, the linear layer of parameters 18 and 19, relu. `tailK` is that stretch as the kernel
  program spells it, one `let` per value; `tail_eq` says it is the reference's `tailR`: the two programs spell the same
  operations over shapes and dimension records that are the same literals, so the two terms are the same term.
-/
import proofs.«120229_j77704548319709_2_alg».proof.KernelIdeal
import proofs.«120229_j77704548319709_2_alg».proof.Proof.Gen.KernelIdeal
import proofs.«120229_j77704548319709_2_alg».proof.Proof.RefTailDef
import Idealize.ShloMosaic.PureOps.Ideal

noncomputable section

namespace Cert.KernelHost

open Cert.KernelIdeal Cert.KernelIdeal.Gen Idealize.ShloMosaic Idealize.ShloMosaic.TcCoe Idealize.SL.Sem Idealize.ShloMosaic.StableHlo

/-- Everything the kernel program does after `h0` and `valid`, as one function of them and of the parameters it reads. -/
def tailK (h0 : (⟨S8192x512, .f32⟩ : BufTy).Contents (Elt Ideal)) (valid : (⟨S8192, .i1⟩ : BufTy).Contents (Elt Ideal))
    (x14 : (⟨S512, .f32⟩ : BufTy).Contents (Elt Ideal)) (x15 : (⟨S512, .f32⟩ : BufTy).Contents (Elt Ideal))
    (x16 : (⟨S512x512, .f32⟩ : BufTy).Contents (Elt Ideal)) (x17 : (⟨S512, .f32⟩ : BufTy).Contents (Elt Ideal))
    (x18 : (⟨S512x2048, .f32⟩ : BufTy).Contents (Elt Ideal)) (x19 : (⟨S2048, .f32⟩ : BufTy).Contents (Elt Ideal)) :
    (⟨S8192x2048, .f32⟩ : BufTy).Contents (Elt Ideal) :=
  -- the mean over the features, as a column
  let rowSum : FVec Ideal S8192 .f32 :=
    Host.reduceAdd (F := Ideal) h0 (constant (F := Ideal) S_ .f32 0x00000000#32) reducesTo_S8192x512_S8192_d1 h_S_
  let mean : FVec Ideal S8192x1 .f32 :=
    Host.divf (F := Ideal) (broadcastInDim S8192x1 ![0] bcast_S8192_S8192x1_0 rowSum)
      (broadcastInDim S8192x1 ![] bcast_S_S8192x1 (constant (F := Ideal) S_ .f32 0x44000000#32))
  -- the centred activations and their second moment
  let centred : FVec Ideal S8192x512 .f32 :=
    subf (F := Ideal) h0 (broadcastInDim S8192x512 ![0, 1] bcast_S8192x1_S8192x512_0_1 mean)
  let sqSum : FVec Ideal S8192 .f32 :=
    Host.reduceAdd (F := Ideal) (mulf (F := Ideal) centred centred) (constant (F := Ideal) S_ .f32 0x00000000#32)
      reducesTo_S8192x512_S8192_d1 h_S_
  let var : FVec Ideal S8192x1 .f32 :=
    Host.divf (F := Ideal) (broadcastInDim S8192x1 ![0] bcast_S8192_S8192x1_0 sqSum)
      (broadcastInDim S8192x1 ![] bcast_S_S8192x1 (constant (F := Ideal) S_ .f32 0x44000000#32))
  -- normalise, scale, shift
  let normed : FVec Ideal S8192x512 .f32 :=
    mulf (F := Ideal) (subf (F := Ideal) h0 (broadcastInDim S8192x512 ![0, 1] bcast_S8192x1_S8192x512_0_1 mean))
      (broadcastInDim S8192x512 ![0, 1] bcast_S8192x1_S8192x512_0_1
        (Host.rsqrt (F := Ideal)
          (addf (F := Ideal) var (broadcastInDim S8192x1 ![] bcast_S_S8192x1 (constant (F := Ideal) S_ .f32 0x3727C5AC#32)))))
  let affine : FVec Ideal S8192x512 .f32 :=
    addf (F := Ideal)
      (mulf (F := Ideal) normed
        (broadcastInDim S8192x512 ![0, 1] bcast_S1x512_S8192x512_0_1 (broadcastInDim S1x512 ![1] bcast_S512_S1x512_1 x14)))
      (broadcastInDim S8192x512 ![0, 1] bcast_S1x512_S8192x512_0_1 (broadcastInDim S1x512 ![1] bcast_S512_S1x512_1 x15))
  -- relu, the first linear layer, relu
  let act0 : FVec Ideal S8192x512 .f32 :=
    maximumf (F := Ideal) affine (broadcastInDim S8192x512 ![] bcast_S_S8192x512 (constant (F := Ideal) S_ .f32 0x00000000#32))
  let lin1 : FVec Ideal S8192x512 .f32 :=
    addf (F := Ideal) (Host.dotGeneral (F := Ideal) (φ₁ := .f32) (φ₂ := .f32) dot_S8192x512_S512x512_S8192x512_1_0_0_1_n_n none act0 x16)
      (broadcastInDim S8192x512 ![0, 1] bcast_S1x512_S8192x512_0_1 (broadcastInDim S1x512 ![1] bcast_S512_S1x512_1 x17))
  let act1 : FVec Ideal S8192x512 .f32 :=
    maximumf (F := Ideal) lin1 (broadcastInDim S8192x512 ![] bcast_S_S8192x512 (constant (F := Ideal) S_ .f32 0x00000000#32))
  -- the rows that are not valid become zero
  let kept : FVec Ideal S8192x512 .f32 :=
    select
      (broadcastInDim S8192x512 ![0, 1] bcast_S8192x1_S8192x512_0_1 (broadcastInDim S8192x1 ![0] bcast_S8192_S8192x1_0 valid))
      act1
      (broadcastInDim S8192x512 ![] bcast_S_S8192x512 (id (constant (F := Ideal) S_ .f32 0x00000000#32)))
  -- the last linear layer and relu
  let lin2 : FVec Ideal S8192x2048 .f32 :=
    addf (F := Ideal) (Host.dotGeneral (F := Ideal) (φ₁ := .f32) (φ₂ := .f32) dot_S8192x512_S512x2048_S8192x2048_1_0_0_1_n_n none kept x18)
      (broadcastInDim S8192x2048 ![0, 1] bcast_S1x2048_S8192x2048_0_1 (broadcastInDim S1x2048 ![1] bcast_S2048_S1x2048_1 x19))
  maximumf (F := Ideal) lin2 (broadcastInDim S8192x2048 ![] bcast_S_S8192x2048 (constant (F := Ideal) S_ .f32 0x00000000#32))

/-- The two programs' last stretches are the same function: they spell the same operations, over shapes and dimension
    records that unfold to the same literals (the records' side conditions are propositions, so any two proofs agree). -/
theorem tail_eq (h0 : (⟨S8192x512, .f32⟩ : BufTy).Contents (Elt Ideal)) (valid : (⟨S8192, .i1⟩ : BufTy).Contents (Elt Ideal))
    (x14 : (⟨S512, .f32⟩ : BufTy).Contents (Elt Ideal)) (x15 : (⟨S512, .f32⟩ : BufTy).Contents (Elt Ideal))
    (x16 : (⟨S512x512, .f32⟩ : BufTy).Contents (Elt Ideal)) (x17 : (⟨S512, .f32⟩ : BufTy).Contents (Elt Ideal))
    (x18 : (⟨S512x2048, .f32⟩ : BufTy).Contents (Elt Ideal)) (x19 : (⟨S2048, .f32⟩ : BufTy).Contents (Elt Ideal)) :
    tailK h0 valid x14 x15 x16 x17 x18 x19 = Cert.RefValue.tailR h0 valid x14 x15 x16 x17 x18 x19 := rfl

end Cert.KernelHost

end
-- ==== Proof.KernelHost.StretchA.lean ====
import proofs.«120229_j77704548319709_2_alg».proof.Proof.Gen.KernelIdeal.Regions
import Idealize.ShloMosaic.Lib.ValueIdx
import Idealize.ShloMosaic.Lib.Pipeline.Value

set_option maxRecDepth 16384

noncomputable section

namespace Cert.KernelHost

open Idealize.ShloMosaic Idealize.ShloMosaic.TcCoe Idealize.ShloMosaic.StableHlo
open Cert.KernelIdeal Cert.KernelIdeal.Gen

/-! The kernel's host operations before the first region, one stretch at a time: each result buffer as a term over
    the buffers the stretch reads, for ANY valuation the stretch starts from. -/

/-- Column 0 of the pair array: the subjects. -/
def subjT (a20 : IVec S131072x2 32) : IVec S131072 32 :=
  shapeCast _ (extractStridedSlice S131072x1 ![0, 0] a20 slices_S131072x2_S131072x1_0_0) shapeCasts_S131072x1_S131072
/-- Column 1 of the pair array: the objects. -/
def objT (a20 : IVec S131072x2 32) : IVec S131072 32 :=
  shapeCast _ (extractStridedSlice S131072x1 ![0, 1] a20 slices_S131072x2_S131072x1_0_1) shapeCasts_S131072x1_S131072
/-- A node-level layer before its activation: `x @ w + b`, rows of 2048 to rows of 512. -/
def nodePreT (a0 : FVec Ideal S8192x2048 .f32) (w : FVec Ideal S2048x512 .f32) (b : FVec Ideal S512 .f32) : FVec Ideal S8192x512 .f32 :=
  addf (Host.dotGeneral dot_S8192x2048_S2048x512_S8192x512_1_0_0_1_n_n none (truncf .bf16 a0 bitsLt_bf16_f32) (truncf .bf16 w bitsLt_bf16_f32))
    (broadcastInDim S8192x512 ![0, 1] bcast_S1x512_S8192x512_0_1 (broadcastInDim S1x512 ![1] bcast_S512_S1x512_1 b))
/-- `max(x, 0)` of an array. -/
def reluT {s : Shape} (h : S_.BroadcastsInDim s (![] : Fin 0 → Fin s.rank)) (x : FVec Ideal s .f32) : FVec Ideal s .f32 :=
  maximumf x (broadcastInDim s ![] h (constant S_ .f32 0x00000000#32))
/-- The index normalisation before a gather or scatter: a negative index counts from the end. -/
def nrmT (x : IVec S131072 32) : IVec S131072 32 :=
  select (cmpi .slt x (broadcastInDim S131072 ![] bcast_S_S131072 (constantI S_ 32 0#32)))
    (addi x (broadcastInDim S131072 ![] bcast_S_S131072 (constantI S_ 32 8192#32))) x
/-- The normalised indices as a column of start indices. -/
def colT (x : IVec S131072 32) : IVec S131072x1 32 :=
  broadcastInDim S131072x1 ![0] bcast_S131072_S131072x1_0 (nrmT x)
/-- Rows of a node-level array gathered at per-pair node indices. -/
def rowsT (x : FVec Ideal S8192x512 .f32) (idx : IVec S131072 32) : FVec Ideal S131072x512 .f32 :=
  Host.gather gather_S8192x512_S131072x1_S131072x512_1_0_n_n_0_1_1512 x (colT idx)
/-- The pair-level layer before its activation. -/
def pairPreT (a1 : FVec Ideal S131072x2048 .f32) (w : FVec Ideal S2048x512 .f32) (b : FVec Ideal S512 .f32) : FVec Ideal S131072x512 .f32 :=
  addf (Host.dotGeneral dot_S131072x2048_S2048x512_S131072x512_1_0_0_1_n_n none (truncf .bf16 a1 bitsLt_bf16_f32) (truncf .bf16 w bitsLt_bf16_f32))
    (broadcastInDim S131072x512 ![0, 1] bcast_S1x512_S131072x512_0_1 (broadcastInDim S1x512 ![1] bcast_S512_S1x512_1 b))
/-- The gate layer before its activation: the product of the three projections, times the gate weights, plus the bias. -/
def gatePreT (ps po pu : FVec Ideal S131072x512 .f32) (gw : FVec Ideal S512x32 .f32) (gb : FVec Ideal S32 .f32) : FVec Ideal S131072x32 .f32 :=
  addf (Host.dotGeneral dot_S131072x512_S512x32_S131072x32_1_0_0_1_n_n none (mulf (mulf ps po) pu) gw)
    (broadcastInDim S131072x32 ![0, 1] bcast_S1x32_S131072x32_0_1 (broadcastInDim S1x32 ![1] bcast_S32_S1x32_1 gb))

variable (W : Valuation τ sig (Elt Ideal))

theorem stretch0_v1 : StableHlo.after (hostOps0 (F := Ideal)) W main_v1 = subjT (W main_arg20) := by
  after_results; rfl
theorem stretch0_v3 : StableHlo.after (hostOps0 (F := Ideal)) W main_v3 = objT (W main_arg20) := by
  after_results; rfl
theorem stretch0_v9 : StableHlo.after (hostOps0 (F := Ideal)) W main_v9 = nodePreT (W main_arg0) (W main_arg2) (W main_arg3) := by
  after_results; rfl
theorem stretch1_v10 : StableHlo.after (hostOps0_1 (F := Ideal)) W main_v10 = reluT bcast_S_S8192x512 (W main_v9) := by
  after_results; rfl
theorem stretch2_v16 : StableHlo.after (hostOps0_2 (F := Ideal)) W main_v16 = nodePreT (W main_arg0) (W main_arg4) (W main_arg5) := by
  after_results; rfl
theorem stretch3_v17 : StableHlo.after (hostOps0_3 (F := Ideal)) W main_v17 = reluT bcast_S_S8192x512 (W main_v16) := by
  after_results; rfl
theorem stretch4_v24 : StableHlo.after (hostOps0_4 (F := Ideal)) W main_v24 = rowsT (W main_v10) (W main_v1) := by
  after_results_simp; rfl
theorem stretch4_v31 : StableHlo.after (hostOps0_4 (F := Ideal)) W main_v31 = rowsT (W main_v17) (W main_v3) := by
  after_results_simp; rfl
theorem stretch4_v37 : StableHlo.after (hostOps0_4 (F := Ideal)) W main_v37 = pairPreT (W main_arg1) (W main_arg6) (W main_arg7) := by
  after_results_simp; rfl
theorem stretch5_v38 : StableHlo.after (hostOps0_5 (F := Ideal)) W main_v38 = reluT bcast_S_S131072x512 (W main_v37) := by
  after_results; rfl
theorem stretch6_v44 : StableHlo.after (hostOps0_6 (F := Ideal)) W main_v44
    = gatePreT (W main_v24) (W main_v31) (W main_v38) (W main_arg8) (W main_arg9) := by
  after_results; rfl
theorem stretch7_v45 : StableHlo.after (hostOps0_7 (F := Ideal)) W main_v45 = reluT bcast_S_S131072x32 (W main_v44) := by
  after_results; rfl

end Cert.KernelHost
-- ==== Proof.KernelHost.StretchB.lean ====
import proofs.«120229_j77704548319709_2_alg».proof.Proof.Gen.KernelIdeal.Regions
import proofs.«120229_j77704548319709_2_alg».proof.Proof.KernelHost.StretchA
import Idealize.ShloMosaic.Lib.ValueIdx
import Idealize.ShloMosaic.Lib.Pipeline.Value

set_option maxRecDepth 16384

noncomputable section

namespace Cert.KernelHost

open Idealize.ShloMosaic Idealize.ShloMosaic.TcCoe Idealize.ShloMosaic.StableHlo
open Cert.KernelIdeal Cert.KernelIdeal.Gen

/-! The last stretch of host operations before the first region: the gate, its maximum, the exponentials, the two
    scatters, the validity mask and the messages, each as a term over the buffers the stretch reads. -/

/-- The gate of a pair from the activated gate layer: the mean of its 32 entries. -/
def gateOfT (x45 : FVec Ideal S131072x32 .f32) : FVec Ideal S131072 .f32 :=
  Host.divf (Host.reduceAdd x45 (constant S_ .f32 0x00000000#32) reducesTo_S131072x32_S131072_d1 h_S_)
    (broadcastInDim S131072 ![] bcast_S_S131072 (constant S_ .f32 0x42000000#32))
/-- The largest gate. -/
def maxT (g : FVec Ideal S131072 .f32) : FVec Ideal S_ .f32 :=
  Host.reduce FloatOps.maximumf g (constant S_ .f32 0xFF800000#32) reducesTo_S131072_S_d0 h_S_
/-- `exp(gate − max gate)` per pair. -/
def expT (g : FVec Ideal S131072 .f32) : FVec Ideal S131072 .bf16 :=
  truncf .bf16 (Host.exp (subf g (broadcastInDim S131072 ![] bcast_S_S131072 (maxT g)))) bitsLt_bf16_f32
/-- The two normalised index columns side by side: the scatter's index vectors. -/
def pairIdxT (s o : IVec S131072 32) : IVec S131072x2 32 :=
  concatenate S131072x2 1 [⟨S131072x1, colT s⟩, ⟨S131072x1, colT o⟩] concatenates_S131072x1_S131072x1_S131072x2_d1
/-- The dense array holding each pair's value at (subject, object), zero elsewhere. -/
def filledT (s o : IVec S131072 32) (e : FVec Ideal S131072 .bf16) : FVec Ideal S8192x8192 .bf16 :=
  Host.scatter scatter_S8192x8192_S131072x2_S131072_n_01_01_1 (fun _ b => b)
    (broadcastInDim S8192x8192 ![] bcast_S_S8192x8192 (constant S_ .bf16 0x0000#16)) (pairIdxT s o) e
/-- One at every node that is some pair's subject, zero elsewhere. -/
def hasSubjT (s : IVec S131072 32) : FVec Ideal S8192 .f32 :=
  Host.scatter scatter_S8192_S131072x1_S131072_n_0_0_1 (fun _ b => b)
    (broadcastInDim S8192 ![] bcast_S_S8192 (constant S_ .f32 0x00000000#32)) (colT s)
    (broadcastInDim S131072 ![] bcast_S_S131072 (constant S_ .f32 0x3F800000#32))
/-- The validity mask: the nodes that are some pair's subject. -/
def validT (s : IVec S131072 32) : IVec S8192 1 :=
  cmpf .une (hasSubjT s) (broadcastInDim S8192 ![] bcast_S_S8192 (constant S_ .f32 0x00000000#32))
/-- The messages: `inst @ msg_w + msg_b`. -/
def msgT (a0 : FVec Ideal S8192x2048 .f32) (w : FVec Ideal S2048x1024 .f32) (b : FVec Ideal S1024 .f32) : FVec Ideal S8192x1024 .bf16 :=
  truncf .bf16 (addf (Host.dotGeneral dot_S8192x2048_S2048x1024_S8192x1024_1_0_0_1_n_n none a0 w)
    (broadcastInDim S8192x1024 ![0, 1] bcast_S1x1024_S8192x1024_0_1 (broadcastInDim S1x1024 ![1] bcast_S1024_S1x1024_1 b))) bitsLt_bf16_f32

variable (W : Valuation τ sig (Elt Ideal))

theorem stretch8_v48 : StableHlo.after (hostOps0_8 (F := Ideal)) W main_v48 = gateOfT (W main_v45) := by
  after_results_simp; rfl
theorem stretch8_v49 : StableHlo.after (hostOps0_8 (F := Ideal)) W main_v49 = maxT (gateOfT (W main_v45)) := by
  after_results_simp; rfl
theorem stretch8_v53 : StableHlo.after (hostOps0_8 (F := Ideal)) W main_v53 = expT (gateOfT (W main_v45)) := by
  after_results_simp; rfl
theorem stretch8_v68 : StableHlo.after (hostOps0_8 (F := Ideal)) W main_v68
    = filledT (W main_v1) (W main_v3) (expT (gateOfT (W main_v45))) := by
  after_results_simp; rfl
theorem stretch8_v79 : StableHlo.after (hostOps0_8 (F := Ideal)) W main_v79 = validT (W main_v1) := by
  after_results_simp; rfl
theorem stretch8_v84 : StableHlo.after (hostOps0_8 (F := Ideal)) W main_v84
    = msgT (W main_arg0) (W main_arg10) (W main_arg11) := by
  after_results_simp; rfl

end Cert.KernelHost
-- ==== Proof.KernelHost.ReadLib.lean ====
import Idealize.ShloMosaic.PureOps
import Idealize.ShloMosaic.Lib.ValueIdx
import Idealize.ShloMosaic.Lib.Pipeline.Value
import Idealize.ShloMosaic.PureOps.Ideal.Laws
import proofs.«120229_j77704548319709_2_alg».proof.Proof.Spec
import proofs.«120229_j77704548319709_2_alg».proof.Proof.LibScatterSet

/-!
# Host operations read at one index

The shapes a dense layer, an activation, a row mean, a maximum and an index column take on the host, each read at one
index at the ideal values: a plain matrix product is the sum over the contraction coordinate; a bias broadcast along
the rows reads the bias at the column; a scalar broadcast reads the scalar; a sum over the last axis is the start
value plus the sum of the row; a maximum over a vector from the word of minus infinity is the supremum of its entries.
-/

noncomputable section

namespace Cert.KernelHost

open Idealize.ShloMosaic Idealize.ShloMosaic.ValueIdx
open scoped BigOperators

/-- A plain matrix product's dimension numbers: rows by contraction times contraction by columns. -/
def IsPlain {A K B : Nat} (D : DotDims ⟨2, ![A, K]⟩ ⟨2, ![K, B]⟩ ⟨2, ![A, B]⟩) : Prop :=
  D.lhsContracting = [1] ∧ D.rhsContracting = [0] ∧ D.lhsNonContracting = [0] ∧ D.rhsNonContracting = [1] ∧
  D.lhsBatch = [] ∧ D.rhsBatch = []

/-- A plain matrix product at the ideal values, read at row `a` and column `b`: the sum over the contraction
    coordinate of the left operand's row entry times the right operand's column entry. -/
theorem dot_plain_apply {A K B : Nat} {φ₁ φ₂ : FTy} (D : DotDims ⟨2, ![A, K]⟩ ⟨2, ![K, B]⟩ ⟨2, ![A, B]⟩) (hD : IsPlain D)
    (l : FVec Ideal ⟨2, ![A, K]⟩ φ₁) (r : FVec Ideal ⟨2, ![K, B]⟩ φ₂) (a : Fin A) (b : Fin B) :
    Host.dotGeneral D none l r (ix2 a b) = ∑ k : Fin K, l (ix2 a k) * r (ix2 k b) := by
  obtain ⟨lc, rc, ln, rn, lb, rb, wf⟩ := D
  obtain ⟨h1, h2, h3, h4, h5, h6⟩ := hD
  dsimp only at h1 h2 h3 h4 h5 h6
  subst h1 h2 h3 h4 h5 h6
  generalize hDD : (DotDims.mk [1] [0] [0] [1] [] [] wf : DotDims ⟨2, ![A, K]⟩ ⟨2, ![K, B]⟩ ⟨2, ![A, B]⟩) = D
  have hr : D.contr.rank = 1 := by subst hDD; rfl
  have hs : D.contr.size ⟨0, by omega⟩ = K := by subst hDD; rfl
  simp only [Host.dotGeneral]
  rw [Ideal.dotGeneral_apply, ← Equiv.sum_comp (contrEquiv1 D K hr hs).symm]
  refine Finset.sum_congr rfl fun k _ => ?_
  have hk := contrEquiv1_symm_val D K hr hs k
  generalize (contrEquiv1 D K hr hs).symm k = q at hk ⊢
  subst hDD
  have el : (DotDims.mk [1] [0] [0] [1] [] [] wf : DotDims ⟨2, ![A, K]⟩ ⟨2, ![K, B]⟩ ⟨2, ![A, B]⟩).lhsIdx (ix2 a b) q = ix2 a k :=
    funext fun x => Fin.ext (by
      match x with
      | ⟨0, _⟩ =>
        unfold DotDims.lhsIdx
        rw [dif_neg (by simp), dif_pos (by simp)]
        rfl
      | ⟨1, _⟩ => exact (DotDims.lhsIdx_val_of_single _ rfl (ix2 a b) q).trans hk)
  have er : (DotDims.mk [1] [0] [0] [1] [] [] wf : DotDims ⟨2, ![A, K]⟩ ⟨2, ![K, B]⟩ ⟨2, ![A, B]⟩).rhsIdx (ix2 a b) q = ix2 k b :=
    funext fun x => Fin.ext (by
      match x with
      | ⟨0, _⟩ => exact (DotDims.rhsIdx_val_of_single _ rfl (ix2 a b) q).trans hk
      | ⟨1, _⟩ =>
        unfold DotDims.rhsIdx
        rw [dif_neg (by simp), dif_pos (by simp)]
        rfl)
  rw [el, er]

/-- A scalar broadcast to any shape reads the scalar. -/
theorem scalar_bcast_apply {α : Type} {s : Shape} (h : (⟨0, ![]⟩ : Shape).BroadcastsInDim s (![] : Fin 0 → Fin s.rank))
    (x : (⟨0, ![]⟩ : Shape).Idx → α) (i : s.Idx) : broadcastInDim s ![] h x i = x ix0 :=
  broadcastInDim_apply _ h x i ix0 (fun a => a.elim0)

/-- A bias `[B]` broadcast to `[1, B]` and then along `A` rows reads the bias at the column. -/
theorem bias_apply {α : Type} {A B : Nat} (hB : B ≠ 1)
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2))
    (b : (⟨1, ![B]⟩ : Shape).Idx → α) (a : Fin A) (j : Fin B) :
    broadcastInDim ⟨2, ![A, B]⟩ ![0, 1] h2 (broadcastInDim ⟨2, ![1, B]⟩ ![1] h1 b) (ix2 a j) = b (ix1 j) := by
  rw [broadcastInDim_apply _ h2 _ (ix2 a j) (ix2 (0 : Fin 1) j) (fun x => by
    match x with
    | ⟨0, _⟩ => show (0 : Nat) = if (1 : Nat) = 1 then 0 else a.val; rw [if_pos rfl]
    | ⟨1, _⟩ => show j.val = if B = 1 then 0 else j.val; rw [if_neg hB])]
  exact broadcastInDim_apply _ h1 b (ix2 (0 : Fin 1) j) (ix1 j) (fun x => by
    match x with
    | ⟨0, _⟩ => show j.val = if B = 1 then 0 else j.val; rw [if_neg hB])

/-- A dense layer `x @ w + b` read at row `a`, column `j`: the linear layer of the specification on the arrays read as
    matrices. -/
theorem lin_apply {A K B : Nat} {φ₁ φ₂ : FTy} (hB : B ≠ 1) (D : DotDims ⟨2, ![A, K]⟩ ⟨2, ![K, B]⟩ ⟨2, ![A, B]⟩) (hD : IsPlain D)
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2))
    (x : FVec Ideal ⟨2, ![A, K]⟩ φ₁) (w : FVec Ideal ⟨2, ![K, B]⟩ φ₂) (b : FVec Ideal ⟨1, ![B]⟩ .f32) (a : Fin A) (j : Fin B) :
    addf (Host.dotGeneral D none x w) (broadcastInDim ⟨2, ![A, B]⟩ ![0, 1] h2 (broadcastInDim ⟨2, ![1, B]⟩ ![1] h1 b)) (ix2 a j)
      = Cert.Spec.lin (fun a k => x (ix2 a k)) (fun k j => w (ix2 k j)) (fun j => b (ix1 j)) a j := by
  rw [addf_apply, dot_plain_apply D hD, bias_apply hB]
  rfl

/-- The maximum with a broadcast zero word, read at an index, is the specification's relu of the entry. -/
theorem relu_apply {s : Shape} (h : (⟨0, ![]⟩ : Shape).BroadcastsInDim s (![] : Fin 0 → Fin s.rank)) (x : FVec Ideal s .f32)
    (i : s.Idx) :
    maximumf x (broadcastInDim s ![] h (constant (F := Ideal) ⟨0, ![]⟩ .f32 0x00000000#32)) i = Cert.Spec.relu (x i) := by
  rw [maximumf_apply, scalar_bcast_apply]
  rfl

/-- Column `c` of the pair array, as the vector the host slices and reshapes it to, read at pair `i`. -/
theorem column_apply {α : Type} (off : Fin 2 → Nat) (c : Fin 2) (h0 : off 0 = 0) (h1 : off 1 = c.val)
    (hs : (⟨2, ![131072, 2]⟩ : Shape).Slices off ⟨2, ![131072, 1]⟩)
    (hc : (⟨2, ![131072, 1]⟩ : Shape).ShapeCasts ⟨1, ![131072]⟩)
    (x : (⟨2, ![131072, 2]⟩ : Shape).Idx → α) (i : Fin 131072) :
    shapeCast ⟨1, ![131072]⟩ (extractStridedSlice ⟨2, ![131072, 1]⟩ off x hs) hc (ix1 i) = x (ix2 i c) := by
  rw [shapeCast_apply _ hc (ix1 i) (ix2 i (0 : Fin 1)) (by
    rw [Shape.rowMajor_val_two, Shape.rowMajor_val_one]
    show i.val * 1 + 0 = i.val
    omega)]
  exact extractStridedSlice_apply off x hs (ix2 i (0 : Fin 1)) (ix2 i c) (fun a => by
    match a with
    | ⟨0, _⟩ => show i.val = off 0 + i.val; rw [h0]; omega
    | ⟨1, _⟩ => show c.val = off 1 + 0; rw [h1]; omega)

/-- The normalised index column read at pair `i`: a nonnegative index is left as it is. -/
theorem col_apply (hb0 : (⟨0, ![]⟩ : Shape).BroadcastsInDim ⟨1, ![131072]⟩ (![] : Fin 0 → Fin 1))
    (hb1 : (⟨1, ![131072]⟩ : Shape).BroadcastsInDim ⟨2, ![131072, 1]⟩ (![0] : Fin 1 → Fin 2))
    (x : IVec ⟨1, ![131072]⟩ 32) (v : BitVec 32) (i : Fin 131072) (h : 0 ≤ (x (ix1 i)).toInt) :
    broadcastInDim ⟨2, ![131072, 1]⟩ ![0] hb1
      (select (cmpi .slt x (broadcastInDim ⟨1, ![131072]⟩ ![] hb0 (constantI ⟨0, ![]⟩ 32 0#32)))
        (addi x (broadcastInDim ⟨1, ![131072]⟩ ![] hb0 (constantI ⟨0, ![]⟩ 32 v))) x) (ix2 i (0 : Fin 1)) = x (ix1 i) := by
  rw [broadcastInDim_apply _ hb1 _ (ix2 i (0 : Fin 1)) (ix1 i) (fun a => by
    match a with
    | ⟨0, _⟩ => show i.val = if (131072 : Nat) = 1 then 0 else i.val; rw [if_neg (by decide)])]
  exact Cert.Lib.ScatterSet.normalise_apply x _ _ (ix1 i) (scalar_bcast_apply hb0 _ _) h

/-- Two index columns side by side, read at pair `i`: component 0 is the first column's entry … -/
theorem pairIdx_apply0 {α : Type} (h : Shape.Concatenates [(⟨2, ![131072, 1]⟩ : Shape), ⟨2, ![131072, 1]⟩] ⟨2, ![131072, 2]⟩ 1)
    (c0 c1 : (⟨2, ![131072, 1]⟩ : Shape).Idx → α) (i : Fin 131072) :
    concatenate ⟨2, ![131072, 2]⟩ 1 [⟨⟨2, ![131072, 1]⟩, c0⟩, ⟨⟨2, ![131072, 1]⟩, c1⟩] h (ix2 i (0 : Fin 2)) = c0 (ix2 i (0 : Fin 1)) :=
  concatenate_pair_apply_left 1 c0 c1 h (ix2 i (0 : Fin 2)) rfl (ix2 i (0 : Fin 1)) (fun b => by
    match b with
    | ⟨0, _⟩ => rfl
    | ⟨1, _⟩ => rfl)

/-- … and component 1 the second column's. -/
theorem pairIdx_apply1 {α : Type} (h : Shape.Concatenates [(⟨2, ![131072, 1]⟩ : Shape), ⟨2, ![131072, 1]⟩] ⟨2, ![131072, 2]⟩ 1)
    (c0 c1 : (⟨2, ![131072, 1]⟩ : Shape).Idx → α) (i : Fin 131072) :
    concatenate ⟨2, ![131072, 2]⟩ 1 [⟨⟨2, ![131072, 1]⟩, c0⟩, ⟨⟨2, ![131072, 1]⟩, c1⟩] h (ix2 i (1 : Fin 2)) = c1 (ix2 i (0 : Fin 1)) :=
  concatenate_pair_apply_right 1 c0 c1 h (ix2 i (1 : Fin 2)) rfl rfl (ix2 i (0 : Fin 1)) (fun b hb => by
    match b, hb with
    | ⟨0, _⟩, _ => rfl
    | ⟨1, _⟩, hb => exact absurd rfl hb) rfl

/-- The mean of a row of 32 entries as the host computes it: the sum from the zero word over the row, divided by the
    word of 32. -/
theorem rowMean_apply (hr : (⟨2, ![131072, 32]⟩ : Shape).ReducesTo [1] ⟨1, ![131072]⟩) (hu : 0 < (⟨0, ![]⟩ : Shape).numel)
    (hb : (⟨0, ![]⟩ : Shape).BroadcastsInDim ⟨1, ![131072]⟩ (![] : Fin 0 → Fin 1))
    (x : FVec Ideal ⟨2, ![131072, 32]⟩ .f32) (i : Fin 131072) :
    Host.divf (Host.reduceAdd x (constant (F := Ideal) ⟨0, ![]⟩ .f32 0x00000000#32) hr hu)
        (broadcastInDim ⟨1, ![131072]⟩ ![] hb (constant (F := Ideal) ⟨0, ![]⟩ .f32 0x42000000#32)) (ix1 i)
      = Ideal.div (Cert.Spec.z + ∑ f : Fin 32, x (ix2 i f)) Cert.Spec.c32 := by
  have hR : (⟨2, ![131072, 32]⟩ : Shape).Reduces [1] ⟨1, ![131072]⟩ := by decide
  have e : ∀ f : Fin 32, hR.lift (ix1 i) f = ix2 i f := fun f => funext fun a => Fin.ext (by
    match a with
    | ⟨0, _⟩ => rfl
    | ⟨1, _⟩ => rfl)
  show Ideal.div (Ideal.hostReduceAdd hr x (Ideal.ofBits .f32 0x00000000#32) (ix1 i))
    (broadcastInDim ⟨1, ![131072]⟩ ![] hb (constant (F := Ideal) ⟨0, ![]⟩ .f32 0x42000000#32) (ix1 i)) = _
  rw [Ideal.hostReduceAdd_single hr hR, scalar_bcast_apply hb]
  exact congrArg (fun t => Ideal.div (Cert.Spec.z + t) Cert.Spec.c32) (Finset.sum_congr rfl fun f _ => congrArg x (e f))

/-- The maximum of a vector from the word of minus infinity is the supremum of its entries. -/
theorem vecMax_apply (hr : (⟨1, ![131072]⟩ : Shape).ReducesTo [0] ⟨0, ![]⟩) (hu : 0 < (⟨0, ![]⟩ : Shape).numel)
    (g : FVec Ideal ⟨1, ![131072]⟩ .f32) :
    Host.reduce (FloatOps.maximumf (F := Ideal) (φ := .f32)) g (constant (F := Ideal) ⟨0, ![]⟩ .f32 0xFF800000#32) hr hu ix0
      = Finset.univ.sup (fun i : Fin 131072 => g (ix1 i)) := by
  have hbot : Ideal.ofBits .f32 0xFF800000#32 = (⊥ : EReal) := by simp [Ideal.ofBits, Ideal.ieee]
  show Host.reduce (max : EReal → EReal → EReal) g _ hr hu ix0 = _
  rw [Host.reduce_eq_fold (max : EReal → EReal → EReal) g _ hr hu ix0,
    Finset.filter_true_of_mem (fun i _ => funext fun a => a.elim0)]
  show Finset.univ.fold max (Ideal.ofBits .f32 0xFF800000#32) g = _
  rw [hbot]
  show Finset.univ.sup g = _
  apply le_antisymm
  · exact Finset.sup_le fun j _ => by
      rw [eq_ix1 j]; exact Finset.le_sup (f := fun i : Fin 131072 => g (ix1 i)) (Finset.mem_univ _)
  · exact Finset.sup_le fun i _ => Finset.le_sup (f := g) (Finset.mem_univ (ix1 i))

end Cert.KernelHost
-- ==== Proof.KernelHost.Before.lean ====
import proofs.«120229_j77704548319709_2_alg».proof.Proof.KernelHost.StretchB
import proofs.«120229_j77704548319709_2_alg».proof.Proof.KernelHost.ReadLib
import proofs.«120229_j77704548319709_2_alg».proof.Proof.TableFacts

set_option maxRecDepth 16384

noncomputable section

namespace Cert.KernelHost

open Idealize.ShloMosaic Idealize.ShloMosaic.TcCoe Idealize.ShloMosaic.StableHlo Idealize.ShloMosaic.ValueIdx
open Cert.KernelIdeal Cert.KernelIdeal.Gen Cert.Lib.ScatterSet
open scoped BigOperators

/-! The kernel's host side before the first region, read at an index: each composed term, over arrays of the literal
    types, is the specification's quantity on the arrays read as matrices. -/

/-- The subject projection of each pair: the node-level layer, activated, its rows gathered at the subjects. -/
def psT (a0 : FVec Ideal S8192x2048 .f32) (w : FVec Ideal S2048x512 .f32) (b : FVec Ideal S512 .f32) (a20 : IVec S131072x2 32) :
    FVec Ideal S131072x512 .f32 :=
  rowsT (reluT bcast_S_S8192x512 (nodePreT a0 w b)) (subjT a20)
/-- The object projection of each pair: the same at the objects. -/
def poT (a0 : FVec Ideal S8192x2048 .f32) (w : FVec Ideal S2048x512 .f32) (b : FVec Ideal S512 .f32) (a20 : IVec S131072x2 32) :
    FVec Ideal S131072x512 .f32 :=
  rowsT (reluT bcast_S_S8192x512 (nodePreT a0 w b)) (objT a20)
/-- The projection of each pair's own features. -/
def puT (a1 : FVec Ideal S131072x2048 .f32) (w : FVec Ideal S2048x512 .f32) (b : FVec Ideal S512 .f32) : FVec Ideal S131072x512 .f32 :=
  reluT bcast_S_S131072x512 (pairPreT a1 w b)
/-- The activated gate layer. -/
def gateActT (a0 : FVec Ideal S8192x2048 .f32) (a1 : FVec Ideal S131072x2048 .f32)
    (a2 : FVec Ideal S2048x512 .f32) (a3 : FVec Ideal S512 .f32) (a4 : FVec Ideal S2048x512 .f32) (a5 : FVec Ideal S512 .f32)
    (a6 : FVec Ideal S2048x512 .f32) (a7 : FVec Ideal S512 .f32) (a8 : FVec Ideal S512x32 .f32) (a9 : FVec Ideal S32 .f32)
    (a20 : IVec S131072x2 32) : FVec Ideal S131072x32 .f32 :=
  reluT bcast_S_S131072x32 (gatePreT (psT a0 a2 a3 a20) (poT a0 a4 a5 a20) (puT a1 a6 a7) a8 a9)
/-- The gate of every pair. -/
def gateT (a0 : FVec Ideal S8192x2048 .f32) (a1 : FVec Ideal S131072x2048 .f32)
    (a2 : FVec Ideal S2048x512 .f32) (a3 : FVec Ideal S512 .f32) (a4 : FVec Ideal S2048x512 .f32) (a5 : FVec Ideal S512 .f32)
    (a6 : FVec Ideal S2048x512 .f32) (a7 : FVec Ideal S512 .f32) (a8 : FVec Ideal S512x32 .f32) (a9 : FVec Ideal S32 .f32)
    (a20 : IVec S131072x2 32) : FVec Ideal S131072 .f32 :=
  gateOfT (gateActT a0 a1 a2 a3 a4 a5 a6 a7 a8 a9 a20)

/-! ## The pieces at an index -/

theorem subjT_apply (a20 : IVec S131072x2 32) (i : Fin 131072) : subjT a20 (ix1 i) = a20 (ix2 i 0) :=
  column_apply ![0, 0] 0 rfl rfl slices_S131072x2_S131072x1_0_0 shapeCasts_S131072x1_S131072 a20 i
theorem objT_apply (a20 : IVec S131072x2 32) (i : Fin 131072) : objT a20 (ix1 i) = a20 (ix2 i 1) :=
  column_apply ![0, 1] 1 rfl rfl slices_S131072x2_S131072x1_0_1 shapeCasts_S131072x1_S131072 a20 i

/-- A nonnegative index passes the normalisation unchanged. -/
theorem colT_apply (x : IVec S131072 32) (i : Fin 131072) (h : 0 ≤ (x (ix1 i)).toInt) :
    colT x (ix2 i (0 : Fin 1)) = x (ix1 i) := by
  unfold colT nrmT
  exact col_apply bcast_S_S131072 bcast_S131072_S131072x1_0 x 8192#32 i h

/-- A gathered row: pair `i` reads the row its index names. -/
theorem rowsT_apply (x : FVec Ideal S8192x512 .f32) (idx : IVec S131072 32) (i : Fin 131072) (h : Fin 512) (a : Fin 8192)
    (ha : (idx (ix1 i)).toInt = (a : ℕ)) : rowsT x idx (ix2 i h) = x (ix2 a h) := by
  have e : colT idx (ix2 i (0 : Fin 1)) = idx (ix1 i) := colT_apply idx i (by omega)
  unfold rowsT
  exact row_gather_apply_of_eq (N := 8192) (C := 512) (R := 131072)
    gather_S8192x512_S131072x1_S131072x512_1_0_n_n_0_1_1512.wf x (colT idx) i h a (by rw [e]; exact ha)

theorem reluT_apply {s : Shape} (h : S_.BroadcastsInDim s (![] : Fin 0 → Fin s.rank)) (x : FVec Ideal s .f32) (i : s.Idx) :
    reluT h x i = Cert.Spec.relu (x i) := by
  unfold reluT; exact relu_apply h x i

theorem nodePreT_apply (a0 : FVec Ideal S8192x2048 .f32) (w : FVec Ideal S2048x512 .f32) (b : FVec Ideal S512 .f32)
    (n : Fin 8192) (j : Fin 512) :
    nodePreT a0 w b (ix2 n j) = Cert.Spec.lin (fun n d => a0 (ix2 n d)) (fun n d => w (ix2 n d)) (fun j => b (ix1 j)) n j := by
  unfold nodePreT
  exact lin_apply (by decide) dot_S8192x2048_S2048x512_S8192x512_1_0_0_1_n_n ⟨rfl, rfl, rfl, rfl, rfl, rfl⟩
    bcast_S512_S1x512_1 bcast_S1x512_S8192x512_0_1 (truncf .bf16 a0 bitsLt_bf16_f32) (truncf .bf16 w bitsLt_bf16_f32) b n j

theorem pairPreT_apply (a1 : FVec Ideal S131072x2048 .f32) (w : FVec Ideal S2048x512 .f32) (b : FVec Ideal S512 .f32)
    (i : Fin 131072) (j : Fin 512) :
    pairPreT a1 w b (ix2 i j) = Cert.Spec.lin (fun n d => a1 (ix2 n d)) (fun n d => w (ix2 n d)) (fun j => b (ix1 j)) i j := by
  unfold pairPreT
  exact lin_apply (by decide) dot_S131072x2048_S2048x512_S131072x512_1_0_0_1_n_n ⟨rfl, rfl, rfl, rfl, rfl, rfl⟩
    bcast_S512_S1x512_1 bcast_S1x512_S131072x512_0_1 (truncf .bf16 a1 bitsLt_bf16_f32) (truncf .bf16 w bitsLt_bf16_f32) b i j

theorem gatePreT_apply (ps po pu : FVec Ideal S131072x512 .f32) (gw : FVec Ideal S512x32 .f32) (gb : FVec Ideal S32 .f32)
    (i : Fin 131072) (f : Fin 32) :
    gatePreT ps po pu gw gb (ix2 i f)
      = (∑ h : Fin 512, ((ps (ix2 i h) * po (ix2 i h)) * pu (ix2 i h)) * gw (ix2 h f)) + gb (ix1 f) := by
  unfold gatePreT
  exact lin_apply (by decide) dot_S131072x512_S512x32_S131072x32_1_0_0_1_n_n ⟨rfl, rfl, rfl, rfl, rfl, rfl⟩
    bcast_S32_S1x32_1 bcast_S1x32_S131072x32_0_1 (mulf (mulf ps po) pu) gw gb i f

/-- The messages at node `n`, feature `d`: the specification's message projection. -/
theorem msgT_apply (a0 : FVec Ideal S8192x2048 .f32) (w : FVec Ideal S2048x1024 .f32) (b : FVec Ideal S1024 .f32)
    (n : Fin 8192) (d : Fin 1024) :
    msgT a0 w b (ix2 n d) = Cert.Spec.msg (fun n d => a0 (ix2 n d)) (fun n d => w (ix2 n d)) (fun j => b (ix1 j)) n d := by
  unfold msgT
  exact lin_apply (by decide) dot_S8192x2048_S2048x1024_S8192x1024_1_0_0_1_n_n ⟨rfl, rfl, rfl, rfl, rfl, rfl⟩
    bcast_S1024_S1x1024_1 bcast_S1x1024_S8192x1024_0_1 a0 w b n d

/-! ## The projections and the gate -/

section Gate
variable (a0 : FVec Ideal S8192x2048 .f32) (a1 : FVec Ideal S131072x2048 .f32)
    (a2 : FVec Ideal S2048x512 .f32) (a3 : FVec Ideal S512 .f32) (a4 : FVec Ideal S2048x512 .f32) (a5 : FVec Ideal S512 .f32)
    (a6 : FVec Ideal S2048x512 .f32) (a7 : FVec Ideal S512 .f32) (a8 : FVec Ideal S512x32 .f32) (a9 : FVec Ideal S32 .f32)
    (a20 : IVec S131072x2 32) (hr : Cert.Spec.InRange a20)

/-- The subject projection of pair `i` is the node-level projection at the pair's subject. -/
theorem psT_apply (i : Fin 131072) (h : Fin 512) :
    psT a0 a2 a3 a20 (ix2 i h) = Cert.Spec.node (fun n d => a0 (ix2 n d)) (fun n d => a2 (ix2 n d)) (fun j => a3 (ix1 j)) (Cert.Spec.col a20 hr 0 i) h := by
  unfold psT
  rw [rowsT_apply _ _ i h (Cert.Spec.col a20 hr 0 i) (by rw [subjT_apply]; exact Cert.TableFacts.col_toInt a20 hr 0 i),
    reluT_apply, nodePreT_apply]
  rfl
/-- The object projection of pair `i` is the node-level projection at the pair's object. -/
theorem poT_apply (i : Fin 131072) (h : Fin 512) :
    poT a0 a4 a5 a20 (ix2 i h) = Cert.Spec.node (fun n d => a0 (ix2 n d)) (fun n d => a4 (ix2 n d)) (fun j => a5 (ix1 j)) (Cert.Spec.col a20 hr 1 i) h := by
  unfold poT
  rw [rowsT_apply _ _ i h (Cert.Spec.col a20 hr 1 i) (by rw [objT_apply]; exact Cert.TableFacts.col_toInt a20 hr 1 i),
    reluT_apply, nodePreT_apply]
  rfl
theorem puT_apply (i : Fin 131072) (h : Fin 512) :
    puT a1 a6 a7 (ix2 i h) = Cert.Spec.node (fun n d => a1 (ix2 n d)) (fun n d => a6 (ix2 n d)) (fun j => a7 (ix1 j)) i h := by
  unfold puT
  rw [reluT_apply, pairPreT_apply]
  rfl

/-- THE GATE of pair `i` as the kernel's host side computes it is the specification's gate. -/
theorem gateT_apply (i : Fin 131072) :
    gateT a0 a1 a2 a3 a4 a5 a6 a7 a8 a9 a20 (ix1 i) = Cert.Spec.gate (Cert.Spec.col a20 hr 0) (Cert.Spec.col a20 hr 1) (fun n d => a0 (ix2 n d)) (fun n d => a1 (ix2 n d)) (fun n d => a2 (ix2 n d)) (fun j => a3 (ix1 j)) (fun n d => a4 (ix2 n d)) (fun j => a5 (ix1 j)) (fun n d => a6 (ix2 n d)) (fun j => a7 (ix1 j)) (fun n d => a8 (ix2 n d)) (fun j => a9 (ix1 j)) i := by
  unfold gateT gateOfT
  rw [rowMean_apply]
  unfold Cert.Spec.gate
  refine congrArg (fun t => Ideal.div (Cert.Spec.z + t) Cert.Spec.c32) (Finset.sum_congr rfl fun f _ => ?_)
  unfold gateActT
  rw [reluT_apply, gatePreT_apply]
  refine congrArg Cert.Spec.relu (congrArg (· + a9 (ix1 f)) (Finset.sum_congr rfl fun h _ => ?_))
  rw [psT_apply a0 a2 a3 a20 hr, poT_apply a0 a4 a5 a20 hr, puT_apply a1 a6 a7]

end Gate

/-! ## The maximum, the exponentials, the table and the mask -/

/-- The largest gate is the supremum of the gates. -/
theorem maxT_apply (g : FVec Ideal S131072 .f32) : maxT g ix0 = Finset.univ.sup (fun i : Fin 131072 => g (ix1 i)) := by
  unfold maxT
  exact vecMax_apply reducesTo_S131072_S_d0 h_S_ g

/-- Pair `i`'s exponential: `exp(gate i − max gate)`. -/
theorem expT_apply (g : FVec Ideal S131072 .f32) (i : Fin 131072) :
    expT g (ix1 i) = Ideal.exp (g (ix1 i) - Finset.univ.sup (fun i : Fin 131072 => g (ix1 i))) := by
  unfold expT
  show Ideal.exp (g (ix1 i) - broadcastInDim S131072 ![] bcast_S_S131072 (maxT g) (ix1 i)) = _
  rw [scalar_bcast_apply, maxT_apply]

/-- With every entry a node number, the normalised index columns put side by side are the pair array itself. -/
theorem pairIdxT_eq (a20 : IVec S131072x2 32) (hr : Cert.Spec.InRange a20) : pairIdxT (subjT a20) (objT a20) = a20 := by
  funext j
  obtain ⟨i, c, rfl⟩ : ∃ (i : Fin 131072) (c : Fin 2), j = ix2 i c := ⟨j 0, j 1, eq_ix2 j⟩
  unfold pairIdxT
  match c with
  | ⟨0, _⟩ =>
    show concatenate S131072x2 1 _ _ (ix2 i (0 : Fin 2)) = a20 (ix2 i (0 : Fin 2))
    rw [pairIdx_apply0, colT_apply _ i (by rw [subjT_apply]; exact (hr i 0).1), subjT_apply]
  | ⟨1, _⟩ =>
    show concatenate S131072x2 1 _ _ (ix2 i (1 : Fin 2)) = a20 (ix2 i (1 : Fin 2))
    rw [pairIdx_apply1, colT_apply _ i (by rw [objT_apply]; exact (hr i 1).1), objT_apply]

/-- THE TABLE: the values `e` scattered from zeros at the pairs themselves. -/
theorem filledT_eq (a20 : IVec S131072x2 32) (hr : Cert.Spec.InRange a20) (e : FVec Ideal S131072 .bf16) :
    filledT (subjT a20) (objT a20) e
      = Host.scatter (pairDims 8192 8192 131072 scatter_S8192x8192_S131072x2_S131072_n_01_01_1.wf) (fun _ b => b)
          (fun _ => (0 : EReal)) a20 e := by
  unfold filledT
  rw [pairIdxT_eq a20 hr]
  have hz : broadcastInDim S8192x8192 ![] bcast_S_S8192x8192 (constant (F := Ideal) S_ .bf16 0x0000#16) = fun _ => (0 : EReal) :=
    funext fun p => (scalar_bcast_apply bcast_S_S8192x8192 _ p).trans Cert.Consts.ofBits_zero_bf16
  rw [hz]
  rfl

/-- The indicator of the subjects: ones scattered from zeros at the normalised subject column. -/
theorem hasSubjT_eq (s : IVec S131072 32) :
    hasSubjT s = Host.scatter (pointDims 8192 131072 scatter_S8192_S131072x1_S131072_n_0_0_1.wf) (fun _ b => b)
      (fun _ => (0 : EReal)) (colT s) (fun _ => (1 : EReal)) := by
  unfold hasSubjT
  have hz : broadcastInDim S8192 ![] bcast_S_S8192 (constant (F := Ideal) S_ .f32 0x00000000#32) = fun _ => (0 : EReal) :=
    funext fun p => (scalar_bcast_apply bcast_S_S8192 _ p).trans Cert.Consts.ofBits_zero
  have ho : broadcastInDim S131072 ![] bcast_S_S131072 (constant (F := Ideal) S_ .f32 0x3F800000#32) = fun _ => (1 : EReal) :=
    funext fun p => (scalar_bcast_apply bcast_S_S131072 _ p).trans Cert.Consts.ofBits_one
  rw [hz, ho]
  rfl

/-- The same with the two words kept as the program spells them. -/
theorem hasSubjT_words (s : IVec S131072 32) :
    hasSubjT s = Host.scatter (pointDims 8192 131072 scatter_S8192_S131072x1_S131072_n_0_0_1.wf) (fun _ b => b)
      (fun _ => Ideal.ofBits .f32 0x00000000#32) (colT s) (fun _ => Ideal.ofBits .f32 0x3F800000#32) := by
  unfold hasSubjT
  have hz : broadcastInDim S8192 ![] bcast_S_S8192 (constant (F := Ideal) S_ .f32 0x00000000#32)
      = fun _ => Ideal.ofBits .f32 0x00000000#32 := funext fun p => scalar_bcast_apply bcast_S_S8192 _ p
  have ho : broadcastInDim S131072 ![] bcast_S_S131072 (constant (F := Ideal) S_ .f32 0x3F800000#32)
      = fun _ => Ideal.ofBits .f32 0x3F800000#32 := funext fun p => scalar_bcast_apply bcast_S_S131072 _ p
  rw [hz, ho]
  rfl

/-- The normalised subject column is the pair array's column 0. -/
theorem colT_subjT (a20 : IVec S131072x2 32) (hr : Cert.Spec.InRange a20) (i : Fin 131072) :
    colT (subjT a20) (ix2 i (0 : Fin 1)) = a20 (ix2 i 0) := by
  rw [colT_apply _ i (by rw [subjT_apply]; exact (hr i 0).1), subjT_apply]

/-- The validity bit of node `n`: the indicator of the subjects compared "not equal" with the zero word. -/
theorem validT_apply (s : IVec S131072 32) (n : Fin 8192) :
    validT s (ix1 n) = Ideal.cmp .une (hasSubjT s (ix1 n)) Cert.Spec.z := by
  unfold validT
  rw [cmpf_apply, scalar_bcast_apply]
  rfl

/-! ## The stretches chained -/

variable (m : (ℓ : Loc nD τ sig) → Buf (Elt Ideal) ℓ) (c : Dev nD)

/-- An argument array as launched. -/
abbrev arg (r : Ref sig .tc) : Buf (Elt Ideal) ((c : Thread nD τ).loc r) := m ((c : Thread nD τ).loc r)

theorem V1_v1 : V1 m c main_v1 = subjT (arg m c main_arg20) := stretch0_v1 (V0 m c)
theorem V1_v3 : V1 m c main_v3 = objT (arg m c main_arg20) := stretch0_v3 (V0 m c)
theorem V1_v9 : V1 m c main_v9 = nodePreT (arg m c main_arg0) (arg m c main_arg2) (arg m c main_arg3) := stretch0_v9 (V0 m c)
theorem V2_v10 : V2 m c main_v10 = reluT bcast_S_S8192x512 (nodePreT (arg m c main_arg0) (arg m c main_arg2) (arg m c main_arg3)) := by
  rw [← V1_v9]; exact stretch1_v10 (V1 m c)
theorem V3_v16 : V3 m c main_v16 = nodePreT (arg m c main_arg0) (arg m c main_arg4) (arg m c main_arg5) := by
  have h := stretch2_v16 (V2 m c)
  rw [V2_of m c main_arg0 (by decide), V1_of m c main_arg0 (by decide), V2_of m c main_arg4 (by decide), V1_of m c main_arg4 (by decide), V2_of m c main_arg5 (by decide), V1_of m c main_arg5 (by decide)] at h
  exact h
theorem V4_v17 : V4 m c main_v17 = reluT bcast_S_S8192x512 (nodePreT (arg m c main_arg0) (arg m c main_arg4) (arg m c main_arg5)) := by
  rw [← V3_v16]; exact stretch3_v17 (V3 m c)
theorem V4_v1 : V4 m c main_v1 = subjT (arg m c main_arg20) := by
  rw [V4_of m c main_v1 (by decide), V3_of m c main_v1 (by decide), V2_of m c main_v1 (by decide)]; exact V1_v1 m c
theorem V4_v3 : V4 m c main_v3 = objT (arg m c main_arg20) := by
  rw [V4_of m c main_v3 (by decide), V3_of m c main_v3 (by decide), V2_of m c main_v3 (by decide)]; exact V1_v3 m c
theorem V4_v10 : V4 m c main_v10 = reluT bcast_S_S8192x512 (nodePreT (arg m c main_arg0) (arg m c main_arg2) (arg m c main_arg3)) := by
  rw [V4_of m c main_v10 (by decide), V3_of m c main_v10 (by decide)]; exact V2_v10 m c
theorem V5_v24 : V5 m c main_v24 = psT (arg m c main_arg0) (arg m c main_arg2) (arg m c main_arg3) (arg m c main_arg20) := by
  unfold psT; rw [← V4_v10, ← V4_v1]; exact stretch4_v24 (V4 m c)
theorem V5_v31 : V5 m c main_v31 = poT (arg m c main_arg0) (arg m c main_arg4) (arg m c main_arg5) (arg m c main_arg20) := by
  unfold poT; rw [← V4_v17, ← V4_v3]; exact stretch4_v31 (V4 m c)
theorem V5_v37 : V5 m c main_v37 = pairPreT (arg m c main_arg1) (arg m c main_arg6) (arg m c main_arg7) := by
  have h := stretch4_v37 (V4 m c)
  rw [V4_of m c main_arg1 (by decide), V3_of m c main_arg1 (by decide), V2_of m c main_arg1 (by decide), V1_of m c main_arg1 (by decide), V4_of m c main_arg6 (by decide), V3_of m c main_arg6 (by decide), V2_of m c main_arg6 (by decide), V1_of m c main_arg6 (by decide), V4_of m c main_arg7 (by decide), V3_of m c main_arg7 (by decide), V2_of m c main_arg7 (by decide), V1_of m c main_arg7 (by decide)] at h
  exact h
theorem V6_v38 : V6 m c main_v38 = puT (arg m c main_arg1) (arg m c main_arg6) (arg m c main_arg7) := by
  unfold puT; rw [← V5_v37]; exact stretch5_v38 (V5 m c)
theorem V7_v44 : V7 m c main_v44 = gatePreT (psT (arg m c main_arg0) (arg m c main_arg2) (arg m c main_arg3) (arg m c main_arg20))
    (poT (arg m c main_arg0) (arg m c main_arg4) (arg m c main_arg5) (arg m c main_arg20))
    (puT (arg m c main_arg1) (arg m c main_arg6) (arg m c main_arg7)) (arg m c main_arg8) (arg m c main_arg9) := by
  have h := stretch6_v44 (V6 m c)
  rw [V6_of m c main_v24 (by decide), V6_of m c main_v31 (by decide), V5_v24, V5_v31, V6_v38,
    V6_of m c main_arg8 (by decide), V5_of m c main_arg8 (by decide), V4_of m c main_arg8 (by decide), V3_of m c main_arg8 (by decide), V2_of m c main_arg8 (by decide), V1_of m c main_arg8 (by decide), V6_of m c main_arg9 (by decide), V5_of m c main_arg9 (by decide), V4_of m c main_arg9 (by decide), V3_of m c main_arg9 (by decide), V2_of m c main_arg9 (by decide), V1_of m c main_arg9 (by decide)] at h
  exact h
theorem V8_v45 : V8 m c main_v45 = gateActT (arg m c main_arg0) (arg m c main_arg1) (arg m c main_arg2) (arg m c main_arg3) (arg m c main_arg4) (arg m c main_arg5) (arg m c main_arg6) (arg m c main_arg7) (arg m c main_arg8) (arg m c main_arg9) (arg m c main_arg20) := by
  unfold gateActT; rw [← V7_v44]; exact stretch7_v45 (V7 m c)
theorem V8_v1 : V8 m c main_v1 = subjT (arg m c main_arg20) := by
  rw [V8_of m c main_v1 (by decide), V7_of m c main_v1 (by decide), V6_of m c main_v1 (by decide), V5_of m c main_v1 (by decide)]; exact V4_v1 m c
theorem V8_v3 : V8 m c main_v3 = objT (arg m c main_arg20) := by
  rw [V8_of m c main_v3 (by decide), V7_of m c main_v3 (by decide), V6_of m c main_v3 (by decide), V5_of m c main_v3 (by decide)]; exact V4_v3 m c

/-- The gate of every pair. -/
theorem V9_v48 : V9 m c main_v48 = gateT (arg m c main_arg0) (arg m c main_arg1) (arg m c main_arg2) (arg m c main_arg3) (arg m c main_arg4) (arg m c main_arg5) (arg m c main_arg6) (arg m c main_arg7) (arg m c main_arg8) (arg m c main_arg9) (arg m c main_arg20) := by
  unfold gateT; rw [← V8_v45]; exact stretch8_v48 (V8 m c)
/-- The largest gate. -/
theorem V9_v49 : V9 m c main_v49 = maxT (gateT (arg m c main_arg0) (arg m c main_arg1) (arg m c main_arg2) (arg m c main_arg3) (arg m c main_arg4) (arg m c main_arg5) (arg m c main_arg6) (arg m c main_arg7) (arg m c main_arg8) (arg m c main_arg9) (arg m c main_arg20)) := by
  unfold gateT; rw [← V8_v45]; exact stretch8_v49 (V8 m c)
/-- The exponentials `exp(gate − max)`. -/
theorem V9_v53 : V9 m c main_v53 = expT (gateT (arg m c main_arg0) (arg m c main_arg1) (arg m c main_arg2) (arg m c main_arg3) (arg m c main_arg4) (arg m c main_arg5) (arg m c main_arg6) (arg m c main_arg7) (arg m c main_arg8) (arg m c main_arg9) (arg m c main_arg20)) := by
  unfold gateT; rw [← V8_v45]; exact stretch8_v53 (V8 m c)
/-- The dense table the regions read. -/
theorem V9_v68 : V9 m c main_v68 = filledT (subjT (arg m c main_arg20)) (objT (arg m c main_arg20)) (expT (gateT (arg m c main_arg0) (arg m c main_arg1) (arg m c main_arg2) (arg m c main_arg3) (arg m c main_arg4) (arg m c main_arg5) (arg m c main_arg6) (arg m c main_arg7) (arg m c main_arg8) (arg m c main_arg9) (arg m c main_arg20))) := by
  unfold gateT; rw [← V8_v45, ← V8_v1, ← V8_v3]; exact stretch8_v68 (V8 m c)
/-- The validity mask. -/
theorem V9_v79 : V9 m c main_v79 = validT (subjT (arg m c main_arg20)) := by
  rw [← V8_v1]; exact stretch8_v79 (V8 m c)
/-- The messages the regions read. -/
theorem V9_v84 : V9 m c main_v84 = msgT (arg m c main_arg0) (arg m c main_arg10) (arg m c main_arg11) := by
  have h := stretch8_v84 (V8 m c)
  rw [V8_of m c main_arg0 (by decide), V7_of m c main_arg0 (by decide), V6_of m c main_arg0 (by decide), V5_of m c main_arg0 (by decide), V4_of m c main_arg0 (by decide), V3_of m c main_arg0 (by decide), V2_of m c main_arg0 (by decide), V1_of m c main_arg0 (by decide), V8_of m c main_arg10 (by decide), V7_of m c main_arg10 (by decide), V6_of m c main_arg10 (by decide), V5_of m c main_arg10 (by decide), V4_of m c main_arg10 (by decide), V3_of m c main_arg10 (by decide), V2_of m c main_arg10 (by decide), V1_of m c main_arg10 (by decide), V8_of m c main_arg11 (by decide), V7_of m c main_arg11 (by decide), V6_of m c main_arg11 (by decide), V5_of m c main_arg11 (by decide), V4_of m c main_arg11 (by decide), V3_of m c main_arg11 (by decide), V2_of m c main_arg11 (by decide), V1_of m c main_arg11 (by decide)] at h
  exact h

/-! ## What the regions find at entry -/

section Entry
variable (hr : Cert.Spec.InRange (arg m c main_arg20))

/-- THE GATES the host side holds before the regions are the specification's gates of the inputs. -/
theorem entry_gate (i : Fin 131072) :
    (V9 m c main_v48 : FVec Ideal S131072 .f32) (ix1 i) = (Cert.Spec.gate (Cert.Spec.col (arg m c main_arg20) hr 0) (Cert.Spec.col (arg m c main_arg20) hr 1) (fun n d => (arg m c main_arg0 : FVec Ideal S8192x2048 .f32) (ix2 n d)) (fun n d => (arg m c main_arg1 : FVec Ideal S131072x2048 .f32) (ix2 n d)) (fun n d => (arg m c main_arg2 : FVec Ideal S2048x512 .f32) (ix2 n d)) (fun j => (arg m c main_arg3 : FVec Ideal S512 .f32) (ix1 j)) (fun n d => (arg m c main_arg4 : FVec Ideal S2048x512 .f32) (ix2 n d)) (fun j => (arg m c main_arg5 : FVec Ideal S512 .f32) (ix1 j)) (fun n d => (arg m c main_arg6 : FVec Ideal S2048x512 .f32) (ix2 n d)) (fun j => (arg m c main_arg7 : FVec Ideal S512 .f32) (ix1 j)) (fun n d => (arg m c main_arg8 : FVec Ideal S512x32 .f32) (ix2 n d)) (fun j => (arg m c main_arg9 : FVec Ideal S32 .f32) (ix1 j))) i := by
  rw [V9_v48]; exact gateT_apply _ _ _ _ _ _ _ _ _ _ _ hr i

/-- The gates as one function. -/
theorem gateT_eq :
    (fun i : Fin 131072 => gateT (arg m c main_arg0) (arg m c main_arg1) (arg m c main_arg2) (arg m c main_arg3) (arg m c main_arg4) (arg m c main_arg5) (arg m c main_arg6) (arg m c main_arg7) (arg m c main_arg8) (arg m c main_arg9) (arg m c main_arg20) (ix1 i)) = (Cert.Spec.gate (Cert.Spec.col (arg m c main_arg20) hr 0) (Cert.Spec.col (arg m c main_arg20) hr 1) (fun n d => (arg m c main_arg0 : FVec Ideal S8192x2048 .f32) (ix2 n d)) (fun n d => (arg m c main_arg1 : FVec Ideal S131072x2048 .f32) (ix2 n d)) (fun n d => (arg m c main_arg2 : FVec Ideal S2048x512 .f32) (ix2 n d)) (fun j => (arg m c main_arg3 : FVec Ideal S512 .f32) (ix1 j)) (fun n d => (arg m c main_arg4 : FVec Ideal S2048x512 .f32) (ix2 n d)) (fun j => (arg m c main_arg5 : FVec Ideal S512 .f32) (ix1 j)) (fun n d => (arg m c main_arg6 : FVec Ideal S2048x512 .f32) (ix2 n d)) (fun j => (arg m c main_arg7 : FVec Ideal S512 .f32) (ix1 j)) (fun n d => (arg m c main_arg8 : FVec Ideal S512x32 .f32) (ix2 n d)) (fun j => (arg m c main_arg9 : FVec Ideal S32 .f32) (ix1 j))) :=
  funext fun i => gateT_apply _ _ _ _ _ _ _ _ _ _ _ hr i

/-- THE LARGEST GATE is the supremum of the specification's gates. -/
theorem entry_max : (V9 m c main_v49 : FVec Ideal S_ .f32) ix0 = Finset.univ.sup (Cert.Spec.gate (Cert.Spec.col (arg m c main_arg20) hr 0) (Cert.Spec.col (arg m c main_arg20) hr 1) (fun n d => (arg m c main_arg0 : FVec Ideal S8192x2048 .f32) (ix2 n d)) (fun n d => (arg m c main_arg1 : FVec Ideal S131072x2048 .f32) (ix2 n d)) (fun n d => (arg m c main_arg2 : FVec Ideal S2048x512 .f32) (ix2 n d)) (fun j => (arg m c main_arg3 : FVec Ideal S512 .f32) (ix1 j)) (fun n d => (arg m c main_arg4 : FVec Ideal S2048x512 .f32) (ix2 n d)) (fun j => (arg m c main_arg5 : FVec Ideal S512 .f32) (ix1 j)) (fun n d => (arg m c main_arg6 : FVec Ideal S2048x512 .f32) (ix2 n d)) (fun j => (arg m c main_arg7 : FVec Ideal S512 .f32) (ix1 j)) (fun n d => (arg m c main_arg8 : FVec Ideal S512x32 .f32) (ix2 n d)) (fun j => (arg m c main_arg9 : FVec Ideal S32 .f32) (ix1 j))) := by
  rw [V9_v49, maxT_apply, gateT_eq m c hr]

/-- THE EXPONENTIALS: pair `i` holds `exp(gate i − max gate)`. -/
theorem entry_exp (i : Fin 131072) :
    (V9 m c main_v53 : FVec Ideal S131072 .bf16) (ix1 i)
      = Ideal.exp ((Cert.Spec.gate (Cert.Spec.col (arg m c main_arg20) hr 0) (Cert.Spec.col (arg m c main_arg20) hr 1) (fun n d => (arg m c main_arg0 : FVec Ideal S8192x2048 .f32) (ix2 n d)) (fun n d => (arg m c main_arg1 : FVec Ideal S131072x2048 .f32) (ix2 n d)) (fun n d => (arg m c main_arg2 : FVec Ideal S2048x512 .f32) (ix2 n d)) (fun j => (arg m c main_arg3 : FVec Ideal S512 .f32) (ix1 j)) (fun n d => (arg m c main_arg4 : FVec Ideal S2048x512 .f32) (ix2 n d)) (fun j => (arg m c main_arg5 : FVec Ideal S512 .f32) (ix1 j)) (fun n d => (arg m c main_arg6 : FVec Ideal S2048x512 .f32) (ix2 n d)) (fun j => (arg m c main_arg7 : FVec Ideal S512 .f32) (ix1 j)) (fun n d => (arg m c main_arg8 : FVec Ideal S512x32 .f32) (ix2 n d)) (fun j => (arg m c main_arg9 : FVec Ideal S32 .f32) (ix1 j))) i - Finset.univ.sup (Cert.Spec.gate (Cert.Spec.col (arg m c main_arg20) hr 0) (Cert.Spec.col (arg m c main_arg20) hr 1) (fun n d => (arg m c main_arg0 : FVec Ideal S8192x2048 .f32) (ix2 n d)) (fun n d => (arg m c main_arg1 : FVec Ideal S131072x2048 .f32) (ix2 n d)) (fun n d => (arg m c main_arg2 : FVec Ideal S2048x512 .f32) (ix2 n d)) (fun j => (arg m c main_arg3 : FVec Ideal S512 .f32) (ix1 j)) (fun n d => (arg m c main_arg4 : FVec Ideal S2048x512 .f32) (ix2 n d)) (fun j => (arg m c main_arg5 : FVec Ideal S512 .f32) (ix1 j)) (fun n d => (arg m c main_arg6 : FVec Ideal S2048x512 .f32) (ix2 n d)) (fun j => (arg m c main_arg7 : FVec Ideal S512 .f32) (ix1 j)) (fun n d => (arg m c main_arg8 : FVec Ideal S512x32 .f32) (ix2 n d)) (fun j => (arg m c main_arg9 : FVec Ideal S32 .f32) (ix1 j)))) := by
  rw [V9_v53, expT_apply, gateT_eq m c hr]
  exact congrArg (fun t => Ideal.exp (t - _)) (gateT_apply _ _ _ _ _ _ _ _ _ _ _ hr i)

/-- THE TABLE the regions read: from the zero table, pair `i`'s exponential written at (subject `i`, object `i`). -/
theorem entry_table :
    (V9 m c main_v68 : FVec Ideal S8192x8192 .bf16)
      = Host.scatter (pairDims 8192 8192 131072 scatter_S8192x8192_S131072x2_S131072_n_01_01_1.wf) (fun _ b => b)
          (fun _ => (0 : EReal)) (arg m c main_arg20)
          (fun j => Ideal.exp ((Cert.Spec.gate (Cert.Spec.col (arg m c main_arg20) hr 0) (Cert.Spec.col (arg m c main_arg20) hr 1) (fun n d => (arg m c main_arg0 : FVec Ideal S8192x2048 .f32) (ix2 n d)) (fun n d => (arg m c main_arg1 : FVec Ideal S131072x2048 .f32) (ix2 n d)) (fun n d => (arg m c main_arg2 : FVec Ideal S2048x512 .f32) (ix2 n d)) (fun j => (arg m c main_arg3 : FVec Ideal S512 .f32) (ix1 j)) (fun n d => (arg m c main_arg4 : FVec Ideal S2048x512 .f32) (ix2 n d)) (fun j => (arg m c main_arg5 : FVec Ideal S512 .f32) (ix1 j)) (fun n d => (arg m c main_arg6 : FVec Ideal S2048x512 .f32) (ix2 n d)) (fun j => (arg m c main_arg7 : FVec Ideal S512 .f32) (ix1 j)) (fun n d => (arg m c main_arg8 : FVec Ideal S512x32 .f32) (ix2 n d)) (fun j => (arg m c main_arg9 : FVec Ideal S32 .f32) (ix1 j))) (j 0) - Finset.univ.sup (Cert.Spec.gate (Cert.Spec.col (arg m c main_arg20) hr 0) (Cert.Spec.col (arg m c main_arg20) hr 1) (fun n d => (arg m c main_arg0 : FVec Ideal S8192x2048 .f32) (ix2 n d)) (fun n d => (arg m c main_arg1 : FVec Ideal S131072x2048 .f32) (ix2 n d)) (fun n d => (arg m c main_arg2 : FVec Ideal S2048x512 .f32) (ix2 n d)) (fun j => (arg m c main_arg3 : FVec Ideal S512 .f32) (ix1 j)) (fun n d => (arg m c main_arg4 : FVec Ideal S2048x512 .f32) (ix2 n d)) (fun j => (arg m c main_arg5 : FVec Ideal S512 .f32) (ix1 j)) (fun n d => (arg m c main_arg6 : FVec Ideal S2048x512 .f32) (ix2 n d)) (fun j => (arg m c main_arg7 : FVec Ideal S512 .f32) (ix1 j)) (fun n d => (arg m c main_arg8 : FVec Ideal S512x32 .f32) (ix2 n d)) (fun j => (arg m c main_arg9 : FVec Ideal S32 .f32) (ix1 j))))) := by
  rw [V9_v68, filledT_eq _ hr]
  refine congrArg (Host.scatter _ _ _ _) (funext fun j => ?_)
  obtain ⟨i, rfl⟩ : ∃ i : Fin 131072, j = ix1 i := ⟨j 0, eq_ix1 j⟩
  rw [expT_apply, gateT_eq m c hr]
  exact congrArg (fun t => Ideal.exp (t - _)) (gateT_apply _ _ _ _ _ _ _ _ _ _ _ hr i)

/-- THE MESSAGES the regions read are the specification's message projection of the inputs. -/
theorem entry_msg (n : Fin 8192) (d : Fin 1024) :
    (V9 m c main_v84 : FVec Ideal S8192x1024 .bf16) (ix2 n d) = Cert.Spec.msg (fun n d => (arg m c main_arg0 : FVec Ideal S8192x2048 .f32) (ix2 n d)) (fun n d => (arg m c main_arg10 : FVec Ideal S2048x1024 .f32) (ix2 n d)) (fun j => (arg m c main_arg11 : FVec Ideal S1024 .f32) (ix1 j)) n d := by
  rw [V9_v84]; exact msgT_apply _ _ _ n d

/-- The index column the validity scatter uses. -/
def idx1K : IVec S131072x1 32 := colT (subjT (arg m c main_arg20))

include hr in
/-- … is column 0 of the pair array. -/
theorem idx1K_apply (i : Fin 131072) : idx1K m c (ix2 i (0 : Fin 1)) = (arg m c main_arg20 : IVec S131072x2 32) (ix2 i 0) :=
  colT_subjT _ hr i

/-- THE VALIDITY BIT of node `n`: the zero vector with the word of one written at every subject, compared "not equal"
    with the zero word. -/
theorem entry_valid (n : Fin 8192) :
    (V9 m c main_v79 : IVec S8192 1) (ix1 n)
      = Ideal.cmp .une
          (Host.scatter (pointDims 8192 131072 scatter_S8192_S131072x1_S131072_n_0_0_1.wf) (fun _ b => b)
            (fun _ => Ideal.ofBits .f32 0x00000000#32) (idx1K m c) (fun _ => Ideal.ofBits .f32 0x3F800000#32) (ix1 n))
          (Ideal.ofBits .f32 0x00000000#32) := by
  rw [V9_v79, validT_apply, hasSubjT_words]
  rfl

end Entry

end Cert.KernelHost
-- ==== Proof.KernelHost.StretchC.lean ====
import proofs.«120229_j77704548319709_2_alg».proof.Proof.Gen.KernelIdeal.Regions
import proofs.«120229_j77704548319709_2_alg».proof.Proof.KernelHost.StretchA
import Idealize.ShloMosaic.Lib.ValueIdx
import Idealize.ShloMosaic.Lib.Pipeline.Value

set_option maxRecDepth 16384

noncomputable section

namespace Cert.KernelHost

open Idealize.ShloMosaic Idealize.ShloMosaic.TcCoe Idealize.ShloMosaic.StableHlo
open Cert.KernelIdeal Cert.KernelIdeal.Gen

/-! The kernel's host operations after the second region, one stretch at a time, for any valuation the stretch starts
    from: the pre-normalisation activations from the two regions' outputs, then layer normalisation, two dense layers
    with relu, the zeroing of the rows that are not valid, and the last dense layer with relu. -/

/-- The pre-normalisation activations: the row-side output times the upper half of the weights plus the column-side
    output times the lower half, plus the bias. -/
def h0T (o1 o2 : FVec Ideal S8192x1024 .f32) (w : FVec Ideal S2048x512 .f32) (b : FVec Ideal S512 .f32) : FVec Ideal S8192x512 .f32 :=
  addf (F := Ideal)
    (addf (F := Ideal)
      (Host.dotGeneral (F := Ideal) (φ₁ := .f32) (φ₂ := .f32) dot_S8192x1024_S1024x512_S8192x512_1_0_0_1_n_n none o1
        (extractStridedSlice S1024x512 ![0, 0] w slices_S2048x512_S1024x512_0_0))
      (Host.dotGeneral (F := Ideal) (φ₁ := .f32) (φ₂ := .f32) dot_S8192x1024_S1024x512_S8192x512_1_0_0_1_n_n none o2
        (extractStridedSlice S1024x512 ![1024, 0] w slices_S2048x512_S1024x512_1024_0)))
    (broadcastInDim S8192x512 ![0, 1] bcast_S1x512_S8192x512_0_1 (broadcastInDim S1x512 ![1] bcast_S512_S1x512_1 b))

/-- Layer normalisation over the features, scaled and shifted. -/
def affT (h0 : FVec Ideal S8192x512 .f32) (x14 x15 : FVec Ideal S512 .f32) : FVec Ideal S8192x512 .f32 :=
  let mean : FVec Ideal S8192x1 .f32 :=
    Host.divf (F := Ideal) (broadcastInDim S8192x1 ![0] bcast_S8192_S8192x1_0
        (Host.reduceAdd (F := Ideal) h0 (constant (F := Ideal) S_ .f32 0x00000000#32) reducesTo_S8192x512_S8192_d1 h_S_))
      (broadcastInDim S8192x1 ![] bcast_S_S8192x1 (constant (F := Ideal) S_ .f32 0x44000000#32))
  let centred : FVec Ideal S8192x512 .f32 :=
    subf (F := Ideal) h0 (broadcastInDim S8192x512 ![0, 1] bcast_S8192x1_S8192x512_0_1 mean)
  let var : FVec Ideal S8192x1 .f32 :=
    Host.divf (F := Ideal) (broadcastInDim S8192x1 ![0] bcast_S8192_S8192x1_0
        (Host.reduceAdd (F := Ideal) (mulf (F := Ideal) centred centred) (constant (F := Ideal) S_ .f32 0x00000000#32)
          reducesTo_S8192x512_S8192_d1 h_S_))
      (broadcastInDim S8192x1 ![] bcast_S_S8192x1 (constant (F := Ideal) S_ .f32 0x44000000#32))
  addf (F := Ideal)
    (mulf (F := Ideal)
      (mulf (F := Ideal) (subf (F := Ideal) h0 (broadcastInDim S8192x512 ![0, 1] bcast_S8192x1_S8192x512_0_1 mean))
        (broadcastInDim S8192x512 ![0, 1] bcast_S8192x1_S8192x512_0_1
          (Host.rsqrt (F := Ideal)
            (addf (F := Ideal) var (broadcastInDim S8192x1 ![] bcast_S_S8192x1 (constant (F := Ideal) S_ .f32 0x3727C5AC#32))))))
      (broadcastInDim S8192x512 ![0, 1] bcast_S1x512_S8192x512_0_1 (broadcastInDim S1x512 ![1] bcast_S512_S1x512_1 x14)))
    (broadcastInDim S8192x512 ![0, 1] bcast_S1x512_S8192x512_0_1 (broadcastInDim S1x512 ![1] bcast_S512_S1x512_1 x15))

/-- A dense layer on 512 features. -/
def lin1T (x : FVec Ideal S8192x512 .f32) (w : FVec Ideal S512x512 .f32) (b : FVec Ideal S512 .f32) : FVec Ideal S8192x512 .f32 :=
  addf (F := Ideal) (Host.dotGeneral (F := Ideal) (φ₁ := .f32) (φ₂ := .f32) dot_S8192x512_S512x512_S8192x512_1_0_0_1_n_n none x w)
    (broadcastInDim S8192x512 ![0, 1] bcast_S1x512_S8192x512_0_1 (broadcastInDim S1x512 ![1] bcast_S512_S1x512_1 b))
/-- The last dense layer, to 2048 features. -/
def lin2T (x : FVec Ideal S8192x512 .f32) (w : FVec Ideal S512x2048 .f32) (b : FVec Ideal S2048 .f32) : FVec Ideal S8192x2048 .f32 :=
  addf (F := Ideal) (Host.dotGeneral (F := Ideal) (φ₁ := .f32) (φ₂ := .f32) dot_S8192x512_S512x2048_S8192x2048_1_0_0_1_n_n none x w)
    (broadcastInDim S8192x2048 ![0, 1] bcast_S1x2048_S8192x2048_0_1 (broadcastInDim S1x2048 ![1] bcast_S2048_S1x2048_1 b))
/-- Rows whose validity bit is not set become the given scalar. -/
def whereT (v : IVec S8192x1 1) (x : FVec Ideal S8192x512 .f32) (z : FVec Ideal S_ .f32) : FVec Ideal S8192x512 .f32 :=
  select (broadcastInDim S8192x512 ![0, 1] bcast_S8192x1_S8192x512_0_1 v) x (broadcastInDim S8192x512 ![] bcast_S_S8192x512 (id z))

variable (W : Valuation τ sig (Elt Ideal))

theorem stretchC_v94 : StableHlo.after (hostOps2 (F := Ideal)) W main_v94
    = h0T (W main_v85_0) (W main_v86) (W main_arg12) (W main_arg13) := by
  after_results_simp; rfl
theorem stretchC_v118 : StableHlo.after (hostOps2 (F := Ideal)) W main_v118
    = affT (h0T (W main_v85_0) (W main_v86) (W main_arg12) (W main_arg13)) (W main_arg14) (W main_arg15) := by
  after_results_simp; rfl
theorem stretchC1_v119 : StableHlo.after (hostOps2_1 (F := Ideal)) W main_v119 = reluT bcast_S_S8192x512 (W main_v118) := by
  after_results; rfl
theorem stretchC2_v123 : StableHlo.after (hostOps2_2 (F := Ideal)) W main_v123 = lin1T (W main_v119) (W main_arg16) (W main_arg17) := by
  after_results; rfl
theorem stretchC3_v124 : StableHlo.after (hostOps2_3 (F := Ideal)) W main_v124 = reluT bcast_S_S8192x512 (W main_v123) := by
  after_results; rfl
theorem stretchC4_v125 : StableHlo.after (hostOps2_4 (F := Ideal)) W main_v125
    = broadcastInDim S8192x1 ![0] bcast_S8192_S8192x1_0 (W main_v79) := by
  after_results
theorem stretchC4_cst20 : StableHlo.after (hostOps2_4 (F := Ideal)) W main_cst_20 = constant (F := Ideal) S_ .f32 0x00000000#32 := by
  after_results
theorem stretchC5_v126 : StableHlo.after (hostOps2_5 (F := Ideal)) W main_v126
    = whereT (W main_v125) (W main_v124) (W main_cst_20) := by
  after_results; rfl
theorem stretchC6_v130 : StableHlo.after (hostOps2_6 (F := Ideal)) W main_v130 = lin2T (W main_v126) (W main_arg18) (W main_arg19) := by
  after_results; rfl
theorem stretchC7_v131 : StableHlo.after (hostOps2_7 (F := Ideal)) W main_v131 = reluT bcast_S_S8192x2048 (W main_v130) := by
  after_results; rfl

end Cert.KernelHost
-- ==== Proof.KernelHost.After.lean ====
import proofs.«120229_j77704548319709_2_alg».proof.Proof.Gen.KernelIdeal.Regions
import proofs.«120229_j77704548319709_2_alg».proof.Proof.KernelHost.StretchC
import proofs.«120229_j77704548319709_2_alg».proof.Proof.KernelHost.ReadLib
import proofs.«120229_j77704548319709_2_alg».proof.Proof.KernelTail
import Idealize.ShloMosaic.Lib.ValueIdx
import Idealize.ShloMosaic.Lib.Pipeline.Value

set_option maxRecDepth 16384

noncomputable section

namespace Cert.KernelHost

open Idealize.ShloMosaic Idealize.ShloMosaic.ValueIdx Idealize.ShloMosaic.TcCoe Idealize.ShloMosaic.StableHlo
open Cert.KernelIdeal Cert.KernelIdeal.Gen
open scoped BigOperators

/-! The kernel program's host side after the two regions, chained: whatever the two regions left in their output
    buffers, the result buffer is the last stretch `tailK` applied to the pre-normalisation activations and to the
    validity mask computed before the regions; and the pre-normalisation activations, read at one entry, are the two
    regions' outputs times the two halves of the weight matrix, summed, plus the bias. A buffer no later stretch writes
    keeps its value; an argument array is never written. -/

/-! ## The pre-normalisation activations at one entry -/

/-- The activations at row `n`, feature `j`: the first output's row times the upper 1024 rows of the weights, plus the
    second output's row times the lower 1024 rows, plus the bias at `j`. -/
theorem h0T_apply (o1 o2 : FVec Ideal S8192x1024 .f32) (w : FVec Ideal S2048x512 .f32) (b : FVec Ideal S512 .f32)
    (n : Fin 8192) (j : Fin 512) :
    h0T o1 o2 w b (ix2 n j)
      = ((∑ j' : Fin 1024, o1 (ix2 n j') * w (ix2 ⟨j'.val, by omega⟩ j))
          + (∑ j' : Fin 1024, o2 (ix2 n j') * w (ix2 ⟨1024 + j'.val, by omega⟩ j))) + b (ix1 j) := by
  unfold h0T
  rw [addf_apply, addf_apply,
    dot_plain_apply dot_S8192x1024_S1024x512_S8192x512_1_0_0_1_n_n ⟨rfl, rfl, rfl, rfl, rfl, rfl⟩,
    dot_plain_apply dot_S8192x1024_S1024x512_S8192x512_1_0_0_1_n_n ⟨rfl, rfl, rfl, rfl, rfl, rfl⟩,
    bias_apply (by decide)]
  congr 2
  · refine Finset.sum_congr rfl fun k _ => ?_
    congr 1
    exact extractStridedSlice_apply _ w slices_S2048x512_S1024x512_0_0 (ix2 k j) (ix2 ⟨k.val, by omega⟩ j) (fun a => by
      match a with
      | ⟨0, _⟩ => show k.val = 0 + k.val; omega
      | ⟨1, _⟩ => show j.val = 0 + j.val; omega)
  · refine Finset.sum_congr rfl fun k _ => ?_
    congr 1
    exact extractStridedSlice_apply _ w slices_S2048x512_S1024x512_1024_0 (ix2 k j) (ix2 ⟨1024 + k.val, by omega⟩ j) (fun a => by
      match a with
      | ⟨0, _⟩ => show 1024 + k.val = 1024 + k.val; rfl
      | ⟨1, _⟩ => show j.val = 0 + j.val; omega)

/-! ## The chain -/

variable (m : (ℓ : Loc nD τ sig) → Buf (Elt Ideal) ℓ) (outs : Outs (F := Ideal)) (c : Dev nD)

/-- A buffer no host stretch before the regions writes, and neither region, holds what was launched, up to the second
    region's end. -/
theorem V11_launched (r : Ref sig .tc) (h0 : r ∉ hostOps0_W) (h1 : r ∉ hostOps0_1_W) (h2 : r ∉ hostOps0_2_W) (h3 : r ∉ hostOps0_3_W) (h4 : r ∉ hostOps0_4_W) (h5 : r ∉ hostOps0_5_W) (h6 : r ∉ hostOps0_6_W) (h7 : r ∉ hostOps0_7_W) (h8 : r ∉ hostOps0_8_W)
    (h9 : r ∉ ([main_v85_0, main_v85_1] : List (Ref sig .tc))) (h10 : r ∉ ([main_v86] : List (Ref sig .tc))) :
    V11 m outs c r = m (c, r) := by
  rw [V11_of m outs c r h10, V10_of m outs c r h9, V9_of m c r h8, V8_of m c r h7, V7_of m c r h6, V6_of m c r h5,
    V5_of m c r h4, V4_of m c r h3, V3_of m c r h2, V2_of m c r h1, V1_of m c r h0]

/-- The first region's first output, after the second region. -/
theorem V11_v85_0 : V11 m outs c main_v85_0 = outs 10 main_v85_0 c := by
  rw [V11_of m outs c main_v85_0 (by decide)]
  show Function.update (Function.update (V9 m c) main_v85_0 (outs 10 main_v85_0 c)) main_v85_1 (outs 10 main_v85_1 c) main_v85_0 = _
  rw [Function.update_of_ne (by decide), Function.update_self]

/-- The second region's output. -/
theorem V11_v86 : V11 m outs c main_v86 = outs 11 main_v86 c := by
  show Function.update (V10 m outs c) main_v86 (outs 11 main_v86 c) main_v86 = _
  rw [Function.update_self]

/-- The pre-normalisation activations, over the two regions' outputs and the launched weights and bias. -/
theorem V12_v94 : V12 m outs c main_v94
    = h0T (outs 10 main_v85_0 c) (outs 11 main_v86 c) (m (c, main_arg12)) (m (c, main_arg13)) := by
  have h := stretchC_v94 (V11 m outs c)
  rw [V11_v85_0, V11_v86,
    V11_launched m outs c main_arg12 (by decide) (by decide) (by decide) (by decide) (by decide) (by decide) (by decide) (by decide) (by decide) (by decide) (by decide),
    V11_launched m outs c main_arg13 (by decide) (by decide) (by decide) (by decide) (by decide) (by decide) (by decide) (by decide) (by decide) (by decide) (by decide)] at h
  exact h

/-- (3) The pre-normalisation activations at row `n`, feature `j`, over the regions' two outputs `o1`, `o2`, the launched
    weights `w` and bias `b`: `((∑ j', o1 n j' · w j' j) + (∑ j', o2 n j' · w (1024 + j') j)) + b j`. -/
theorem V12_v94_apply (n : Fin 8192) (j : Fin 512) :
    let o1 : FVec Ideal S8192x1024 .f32 := outs 10 main_v85_0 c
    let o2 : FVec Ideal S8192x1024 .f32 := outs 11 main_v86 c
    let w : FVec Ideal S2048x512 .f32 := m (c, main_arg12)
    let b : FVec Ideal S512 .f32 := m (c, main_arg13)
    (V12 m outs c main_v94 : FVec Ideal S8192x512 .f32) (ix2 n j)
      = ((∑ j' : Fin 1024, o1 (ix2 n j') * w (ix2 ⟨j'.val, by omega⟩ j))
          + (∑ j' : Fin 1024, o2 (ix2 n j') * w (ix2 ⟨1024 + j'.val, by omega⟩ j))) + b (ix1 j) := by
  intro o1 o2 w b
  rw [V12_v94]
  exact h0T_apply o1 o2 w b n j

/-- The normalised, scaled and shifted activations. -/
theorem V12_v118 : V12 m outs c main_v118 = affT (V12 m outs c main_v94) (m (c, main_arg14)) (m (c, main_arg15)) := by
  have h := stretchC_v118 (V11 m outs c)
  rw [← stretchC_v94 (V11 m outs c),
    V11_launched m outs c main_arg14 (by decide) (by decide) (by decide) (by decide) (by decide) (by decide) (by decide) (by decide) (by decide) (by decide) (by decide),
    V11_launched m outs c main_arg15 (by decide) (by decide) (by decide) (by decide) (by decide) (by decide) (by decide) (by decide) (by decide) (by decide) (by decide)] at h
  exact h

theorem V13_v119 : V13 m outs c main_v119
    = reluT bcast_S_S8192x512 (affT (V12 m outs c main_v94) (m (c, main_arg14)) (m (c, main_arg15))) := by
  rw [← V12_v118]; exact stretchC1_v119 (V12 m outs c)

theorem V14_v123 : V14 m outs c main_v123
    = lin1T (reluT bcast_S_S8192x512 (affT (V12 m outs c main_v94) (m (c, main_arg14)) (m (c, main_arg15))))
        (m (c, main_arg16)) (m (c, main_arg17)) := by
  have h := stretchC2_v123 (V13 m outs c)
  rw [V13_v119,
    V13_of m outs c main_arg16 (by decide), V12_of m outs c main_arg16 (by decide),
    V11_launched m outs c main_arg16 (by decide) (by decide) (by decide) (by decide) (by decide) (by decide) (by decide) (by decide) (by decide) (by decide) (by decide),
    V13_of m outs c main_arg17 (by decide), V12_of m outs c main_arg17 (by decide),
    V11_launched m outs c main_arg17 (by decide) (by decide) (by decide) (by decide) (by decide) (by decide) (by decide) (by decide) (by decide) (by decide) (by decide)] at h
  exact h

theorem V15_v124 : V15 m outs c main_v124
    = reluT bcast_S_S8192x512
        (lin1T (reluT bcast_S_S8192x512 (affT (V12 m outs c main_v94) (m (c, main_arg14)) (m (c, main_arg15))))
          (m (c, main_arg16)) (m (c, main_arg17))) := by
  rw [← V14_v123]; exact stretchC3_v124 (V14 m outs c)

/-- The validity mask computed before the regions is still in its buffer when the rows are zeroed. -/
theorem V15_v79 : V15 m outs c main_v79 = V9 m c main_v79 := by
  rw [V15_of m outs c main_v79 (by decide), V14_of m outs c main_v79 (by decide), V13_of m outs c main_v79 (by decide),
    V12_of m outs c main_v79 (by decide), V11_of m outs c main_v79 (by decide), V10_of m outs c main_v79 (by decide)]

/-- The validity mask as a column. -/
theorem V16_v125 : V16 m outs c main_v125 = broadcastInDim S8192x1 ![0] bcast_S8192_S8192x1_0 (V9 m c main_v79) := by
  rw [← V15_v79]; exact stretchC4_v125 (V15 m outs c)

/-- The zero the dropped rows get. -/
theorem V16_cst20 : V16 m outs c main_cst_20 = constant (F := Ideal) S_ .f32 0x00000000#32 :=
  stretchC4_cst20 (V15 m outs c)

theorem V17_v126 : V17 m outs c main_v126
    = whereT (broadcastInDim S8192x1 ![0] bcast_S8192_S8192x1_0 (V9 m c main_v79))
        (reluT bcast_S_S8192x512
          (lin1T (reluT bcast_S_S8192x512 (affT (V12 m outs c main_v94) (m (c, main_arg14)) (m (c, main_arg15))))
            (m (c, main_arg16)) (m (c, main_arg17))))
        (constant (F := Ideal) S_ .f32 0x00000000#32) := by
  have h := stretchC5_v126 (V16 m outs c)
  rw [V16_v125, V16_cst20, V16_of m outs c main_v124 (by decide), V15_v124] at h
  exact h

theorem V18_v130 : V18 m outs c main_v130
    = lin2T
        (whereT (broadcastInDim S8192x1 ![0] bcast_S8192_S8192x1_0 (V9 m c main_v79))
          (reluT bcast_S_S8192x512
            (lin1T (reluT bcast_S_S8192x512 (affT (V12 m outs c main_v94) (m (c, main_arg14)) (m (c, main_arg15))))
              (m (c, main_arg16)) (m (c, main_arg17))))
          (constant (F := Ideal) S_ .f32 0x00000000#32))
        (m (c, main_arg18)) (m (c, main_arg19)) := by
  have h := stretchC6_v130 (V17 m outs c)
  rw [V17_v126,
    V17_of m outs c main_arg18 (by decide), V16_of m outs c main_arg18 (by decide), V15_of m outs c main_arg18 (by decide),
    V14_of m outs c main_arg18 (by decide), V13_of m outs c main_arg18 (by decide), V12_of m outs c main_arg18 (by decide),
    V11_launched m outs c main_arg18 (by decide) (by decide) (by decide) (by decide) (by decide) (by decide) (by decide) (by decide) (by decide) (by decide) (by decide),
    V17_of m outs c main_arg19 (by decide), V16_of m outs c main_arg19 (by decide), V15_of m outs c main_arg19 (by decide),
    V14_of m outs c main_arg19 (by decide), V13_of m outs c main_arg19 (by decide), V12_of m outs c main_arg19 (by decide),
    V11_launched m outs c main_arg19 (by decide) (by decide) (by decide) (by decide) (by decide) (by decide) (by decide) (by decide) (by decide) (by decide) (by decide)] at h
  exact h

/-- (2) THE RESULT BUFFER is the last stretch applied to the pre-normalisation activations, the validity mask computed
    before the regions, and the six launched parameter arrays — whatever the two regions wrote. -/
theorem V19_v131 : V19 m outs c main_v131
    = tailK (V12 m outs c main_v94) (V9 m c main_v79) (m (c, main_arg14)) (m (c, main_arg15)) (m (c, main_arg16))
        (m (c, main_arg17)) (m (c, main_arg18)) (m (c, main_arg19)) := by
  have h := stretchC7_v131 (V18 m outs c)
  rw [V18_v130] at h
  exact h

end Cert.KernelHost

end
-- ==== Proof.Region0Pay.lean ====
import proofs.«120229_j77704548319709_2_alg».proof.Proof.Gen.KernelIdeal.Skeleton
import Idealize.ShloMosaic.Lib.Pipeline.Value
import Idealize.ShloMosaic.Lib.ValueIdx
import Idealize.ShloMosaic.Lib.ValueIdxCoords
import Idealize.ShloMosaic.PureOps.Ideal.Laws

/-!
# The row kernel's payloads read at an index, over the extended reals

The row kernel keeps two accumulators for a tile of 1024 rows: a [1024,1024] table of partial products of the
edge weights with the messages, and a [1024,1] column of partial row sums of the edge weights. Each grid point
adds the contribution of one block of 512 columns. At the ideal values every payload is an explicit expression
in the coordinates `(p, q)`:

* the two resets are zero;
* the product accumulator gains `∑ r, w (p, r) * msg (r, q)` over the block's 512 columns;
* the row-sum accumulator gains `∑ r, w (p, r)`;
* the normalised output is the product accumulator divided by the row sum plus the regulariser `ε`.
-/

noncomputable section

namespace Cert.KernelIdeal.Region0Pay

open Cert.KernelIdeal Cert.KernelIdeal.Gen Idealize.ShloMosaic Idealize.ShloMosaic.ValueIdx
open scoped BigOperators

/-- The regulariser added to a row sum before dividing: the f32 word `0x358637BD` (about `1e-6`). -/
abbrev ε : EReal := Ideal.ofBits .f32 0x358637BD#32

/-- The reset of the product accumulator is zero everywhere. -/
theorem resetProd_apply (j : S1024x1024.Idx) : k0_pay1 (F := Ideal) j = 0 := by
  unfold k0_pay1
  simp only [shapeCast_self]
  exact Ideal.ofBits_zero_f32

/-- The reset of the row-sum accumulator is zero everywhere. -/
theorem resetRow_apply (j : S1024x1.Idx) : k0_pay2 (F := Ideal) j = 0 := by
  unfold k0_pay2
  simp only [shapeCast_self]
  exact Ideal.ofBits_zero_f32

/-- The left operand's index at output `i`, contraction `k`: row from `i`. -/
theorem lhsRow (i : S1024x1024.Idx) (k : dot_S1024x512_S512x1024_S1024x1024_1_0_0_1_n_n.contr.Idx) :
    (dot_S1024x512_S512x1024_S1024x1024_1_0_0_1_n_n.lhsIdx i k 0).val = (i 0).val := by
  unfold DotDims.lhsIdx
  rw [dif_neg (show ¬(0 : Fin S1024x512.rank) ∈ dot_S1024x512_S512x1024_S1024x1024_1_0_0_1_n_n.lhsBatch by decide),
    dif_pos (show (0 : Fin S1024x512.rank) ∈ dot_S1024x512_S512x1024_S1024x1024_1_0_0_1_n_n.lhsNonContracting by decide)]
  rfl
/-- … column from `k`. -/
theorem lhsCol (i : S1024x1024.Idx) (k : dot_S1024x512_S512x1024_S1024x1024_1_0_0_1_n_n.contr.Idx) :
    (dot_S1024x512_S512x1024_S1024x1024_1_0_0_1_n_n.lhsIdx i k 1).val = (k ⟨0, by decide⟩).val :=
  dot_S1024x512_S512x1024_S1024x1024_1_0_0_1_n_n.lhsIdx_val_of_single rfl i k
/-- The right operand's index: row from `k` … -/
theorem rhsRow (i : S1024x1024.Idx) (k : dot_S1024x512_S512x1024_S1024x1024_1_0_0_1_n_n.contr.Idx) :
    (dot_S1024x512_S512x1024_S1024x1024_1_0_0_1_n_n.rhsIdx i k 0).val = (k ⟨0, by decide⟩).val :=
  dot_S1024x512_S512x1024_S1024x1024_1_0_0_1_n_n.rhsIdx_val_of_single rfl i k
/-- … column from `i`. -/
theorem rhsCol (i : S1024x1024.Idx) (k : dot_S1024x512_S512x1024_S1024x1024_1_0_0_1_n_n.contr.Idx) :
    (dot_S1024x512_S512x1024_S1024x1024_1_0_0_1_n_n.rhsIdx i k 1).val = (i 1).val := by
  unfold DotDims.rhsIdx
  rw [dif_neg (show ¬(1 : Fin S512x1024.rank) ∈ dot_S1024x512_S512x1024_S1024x1024_1_0_0_1_n_n.rhsBatch by decide),
    dif_pos (show (1 : Fin S512x1024.rank) ∈ dot_S1024x512_S512x1024_S1024x1024_1_0_0_1_n_n.rhsNonContracting by decide)]
  rfl

/-- The contraction of the [1024,512] × [512,1024] product at `(p, q)` runs over the 512 shared columns. -/
theorem blockProduct_apply (w : FVec Ideal S1024x512 .bf16) (g : FVec Ideal S512x1024 .bf16) (p q : Fin 1024) :
    matmul dot_S1024x512_S512x1024_S1024x1024_1_0_0_1_n_n none w g (constant S1024x1024 .f32 0x00000000#32) (ix2 p q)
      = ∑ r : Fin 512, w (ix2 p r) * g (ix2 r q) := by
  simp only [matmul]
  rw [Ideal.matmul_constant_zero_apply,
    ← Equiv.sum_comp (ValueIdx.contrEquiv1 dot_S1024x512_S512x1024_S1024x1024_1_0_0_1_n_n 512 rfl rfl).symm]
  refine Finset.sum_congr rfl fun r _ => ?_
  have hr := ValueIdx.contrEquiv1_symm_val dot_S1024x512_S512x1024_S1024x1024_1_0_0_1_n_n 512 rfl rfl r
  have el : dot_S1024x512_S512x1024_S1024x1024_1_0_0_1_n_n.lhsIdx (ix2 p q)
      ((ValueIdx.contrEquiv1 dot_S1024x512_S512x1024_S1024x1024_1_0_0_1_n_n 512 rfl rfl).symm r) = ix2 p r :=
    funext fun a => Fin.ext (by
      match a with
      | ⟨0, _⟩ => exact lhsRow _ _
      | ⟨1, _⟩ => exact (lhsCol _ _).trans hr)
  have er : dot_S1024x512_S512x1024_S1024x1024_1_0_0_1_n_n.rhsIdx (ix2 p q)
      ((ValueIdx.contrEquiv1 dot_S1024x512_S512x1024_S1024x1024_1_0_0_1_n_n 512 rfl rfl).symm r) = ix2 r q :=
    funext fun a => Fin.ext (by
      match a with
      | ⟨0, _⟩ => exact (rhsRow _ _).trans hr
      | ⟨1, _⟩ => exact rhsCol _ _)
  rw [el, er]

/-- One point's update of the product accumulator: the old value plus the block's products summed over its columns. -/
theorem updateProd_apply (w : Vec Ideal S1024x512 .bf16) (g : Vec Ideal S512x1024 .bf16) (acc : Vec Ideal S1024x1024 .f32)
    (p q : Fin 1024) :
    k0_pay3 w g acc (ix2 p q) = acc (ix2 p q) + ∑ r : Fin 512, w (ix2 p r) * g (ix2 r q) := by
  unfold k0_pay3
  simp only [shapeCast_self]
  exact congrArg (acc (ix2 p q) + ·) (blockProduct_apply w g p q)

/-- One point's update of the row-sum accumulator: the old value plus the block's row sum. -/
theorem updateRow_apply (w : Vec Ideal S1024x512 .bf16) (acc : Vec Ideal S1024x1 .f32) (p : Fin 1024) :
    k0_pay4 w acc (ix2 p u0) = acc (ix2 p u0) + ∑ r : Fin 512, w (ix2 p r) := by
  unfold k0_pay4
  simp only [shapeCast_self]
  refine congrArg (acc (ix2 p u0) + ·) ?_
  refine (shapeCast_apply _ shapeCasts_S1024_S1024x1 (ix2 p u0) (ix1 p) ?_).trans ?_
  · rw [Shape.rowMajor_val_one, Shape.rowMajor_val_two]
    show p.val = p.val * 1 + 0
    omega
  · refine (Ideal.multiReduction_add_single _ _ reduces_S1024x512_S1024 (.inl rfl) rfl (ix1 p)).trans ?_
    refine Finset.sum_congr rfl fun r _ => ?_
    show w _ = w _
    refine congrArg w (funext fun a => Fin.ext ?_)
    match a with
    | ⟨0, _⟩ => rfl
    | ⟨1, _⟩ => rfl

/-- The normalised output: the product accumulator over the row sum plus `ε`. -/
theorem quotient_apply (num : Vec Ideal S1024x1024 .f32) (den : Vec Ideal S1024x1 .f32) (p q : Fin 1024) :
    k0_pay5 num den (ix2 p q) = Ideal.div (num (ix2 p q)) (den (ix2 p u0) + ε) := by
  unfold k0_pay5
  refine congrArg (Ideal.div (num (ix2 p q))) ?_
  refine (broadcastTo_apply _ broadcasts_S1024x1_S1024x1024 (ix2 p q) (ix2 p u0) ?_).trans rfl
  intro a
  match a with
  | ⟨0, _⟩ => show p.val = if (1024 : Nat) = 1 then 0 else p.val; rw [if_neg (by decide)]
  | ⟨1, _⟩ => show (0 : Nat) = if (1 : Nat) = 1 then 0 else _; rw [if_pos rfl]

end Cert.KernelIdeal.Region0Pay

end
-- ==== Proof.Region0Pieces.lean ====
import proofs.«120229_j77704548319709_2_alg».proof.Proof.Region0RunA
import proofs.«120229_j77704548319709_2_alg».proof.Proof.Region0RunB
import proofs.«120229_j77704548319709_2_alg».proof.Proof.Region0RunC
import Idealize.ShloMosaic.Lib.Pipeline.Value
import Idealize.ShloMosaic.Lib.Tactic

/-!
# What each case of the row kernel's body leaves, as payloads of its inputs

The body's stores into the two accumulators and the two output windows are whole-buffer stores. So what a case
leaves in a buffer is the payload of its last store there, and a payload's operands are the input blocks and — for a
buffer read after it was stored in the same body — the payload stored before:

* first column block: the accumulators are reset, then gain the block's contribution;
* middle column block: the accumulators gain the block's contribution;
* last column block: likewise, and then the row sum and the quotient are stored into the output windows, computed
  from the accumulators as just updated.
-/

set_option maxRecDepth 16384

noncomputable section

namespace Cert.KernelIdeal.Region0Pieces

open Cert.KernelIdeal Cert.KernelIdeal.Gen Cert.KernelIdeal.Region0
open Idealize.ShloMosaic Idealize.ShloMosaic.TcCoe Idealize.ShloMosaic.Tactic
open Idealize.SL.Sem

variable {F : FTy → Type} [FloatOps F]

theorem origin : (![0, 0] : Fin 2 → Nat) = fun _ => 0 := funext fun a => by fin_cases a <;> rfl

/-- First column block: the product accumulator ends at the block's contribution added to the reset value. -/
theorem accAfterFirst (c : Dev nD) (i : grid0.Coords) (arg2 : Memref sig .tc .vmem S1024x512 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1 .f32) (harg7 : arg7.IsWhole) (hc0 : isFirstBlock i) (hc1 : ¬isLastBlock i) (x0 : Vec F S1024x512 .bf16) (x1 : Vec F S512x1024 .bf16) :
    View.canon (runFirstBlock c i arg2 harg2 arg3 harg3 arg4 harg4 arg5 harg5 arg6 harg6 arg7 harg7 hc0 hc1 x0 x1).1 = k0_pay3 x0 x1 (k0_pay1 (F := F)) := by
  unfold runFirstBlock
  dsimp only
  sl_unfold_words
  rw [View.canon_cons_unit_zero (S := S1024x1024) origin, View.readCov_unit_zero (S := S1024x1024) _ origin]
  simp only [View.readAt_eq_ld, harg2.read_unread, harg3.read_unread, View.ld_unit_zero (S := S1024x512) origin, View.ld_unit_zero (S := S512x1024) origin]

/-- First column block: the row-sum accumulator ends at the block's row sums added to the reset value. -/
theorem sumAfterFirst (c : Dev nD) (i : grid0.Coords) (arg2 : Memref sig .tc .vmem S1024x512 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1 .f32) (harg7 : arg7.IsWhole) (hc0 : isFirstBlock i) (hc1 : ¬isLastBlock i) (x0 : Vec F S1024x512 .bf16) (x1 : Vec F S512x1024 .bf16) :
    View.canon (runFirstBlock c i arg2 harg2 arg3 harg3 arg4 harg4 arg5 harg5 arg6 harg6 arg7 harg7 hc0 hc1 x0 x1).2.1 = k0_pay4 x0 (k0_pay2 (F := F)) := by
  unfold runFirstBlock
  dsimp only
  sl_unfold_words
  rw [View.canon_cons_unit_zero (S := S1024x1) origin, View.readCov_unit_zero (S := S1024x1) _ origin]
  simp only [View.readAt_eq_ld, harg2.read_unread, View.ld_unit_zero (S := S1024x512) origin]

/-- Middle column block: the product accumulator gains the block's contribution. -/
theorem accAfterMiddle (c : Dev nD) (i : grid0.Coords) (arg2 : Memref sig .tc .vmem S1024x512 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1 .f32) (harg7 : arg7.IsWhole) (hc0 : ¬isFirstBlock i) (hc1 : ¬isLastBlock i) (x0 : Vec F S1024x512 .bf16) (x1 : Vec F S512x1024 .bf16) (xa : Vec F S1024x1024 .f32) (xs : Vec F S1024x1 .f32) :
    View.canon (runMiddleBlock c i arg2 harg2 arg3 harg3 arg4 harg4 arg5 harg5 arg6 harg6 arg7 harg7 hc0 hc1 x0 x1 xa xs).1 = k0_pay3 x0 x1 xa := by
  unfold runMiddleBlock
  dsimp only
  rw [View.canon_unit_zero (S := S1024x1024) origin]
  simp only [View.readAt_eq_ld, harg2.read_unread, harg3.read_unread, harg6.read_unread, harg7.read_unread, View.ld_unit_zero (S := S1024x512) origin, View.ld_unit_zero (S := S512x1024) origin, View.ld_unit_zero (S := S1024x1024) origin, View.ld_unit_zero (S := S1024x1) origin]

/-- Middle column block: the row-sum accumulator gains the block's row sums. -/
theorem sumAfterMiddle (c : Dev nD) (i : grid0.Coords) (arg2 : Memref sig .tc .vmem S1024x512 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1 .f32) (harg7 : arg7.IsWhole) (hc0 : ¬isFirstBlock i) (hc1 : ¬isLastBlock i) (x0 : Vec F S1024x512 .bf16) (x1 : Vec F S512x1024 .bf16) (xa : Vec F S1024x1024 .f32) (xs : Vec F S1024x1 .f32) :
    View.canon (runMiddleBlock c i arg2 harg2 arg3 harg3 arg4 harg4 arg5 harg5 arg6 harg6 arg7 harg7 hc0 hc1 x0 x1 xa xs).2.1 = k0_pay4 x0 xs := by
  unfold runMiddleBlock
  dsimp only
  rw [View.canon_unit_zero (S := S1024x1) origin]
  simp only [View.readAt_eq_ld, harg2.read_unread, harg3.read_unread, harg6.read_unread, harg7.read_unread, View.ld_unit_zero (S := S1024x512) origin, View.ld_unit_zero (S := S512x1024) origin, View.ld_unit_zero (S := S1024x1024) origin, View.ld_unit_zero (S := S1024x1) origin]

/-- Last column block: the product accumulator gains the block's contribution. -/
theorem accAfterLast (c : Dev nD) (i : grid0.Coords) (arg2 : Memref sig .tc .vmem S1024x512 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1 .f32) (harg7 : arg7.IsWhole) (hc0 : ¬isFirstBlock i) (hc1 : isLastBlock i) (x0 : Vec F S1024x512 .bf16) (x1 : Vec F S512x1024 .bf16) (xa : Vec F S1024x1024 .f32) (xs : Vec F S1024x1 .f32) :
    View.canon (runLastBlock c i arg2 harg2 arg3 harg3 arg4 harg4 arg5 harg5 arg6 harg6 arg7 harg7 hc0 hc1 x0 x1 xa xs).2.2.1 = k0_pay3 x0 x1 xa := by
  unfold runLastBlock
  dsimp only
  sl_unfold_words
  rw [View.canon_unit_zero (S := S1024x1024) origin]
  simp only [View.readAt_eq_ld, harg2.read_unread, harg3.read_unread, harg6.read_unread, harg7.read_unread, View.ld_unit_zero (S := S1024x512) origin, View.ld_unit_zero (S := S512x1024) origin, View.ld_unit_zero (S := S1024x1024) origin, View.ld_unit_zero (S := S1024x1) origin]

/-- Last column block: the row-sum accumulator gains the block's row sums. -/
theorem sumAfterLast (c : Dev nD) (i : grid0.Coords) (arg2 : Memref sig .tc .vmem S1024x512 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1 .f32) (harg7 : arg7.IsWhole) (hc0 : ¬isFirstBlock i) (hc1 : isLastBlock i) (x0 : Vec F S1024x512 .bf16) (x1 : Vec F S512x1024 .bf16) (xa : Vec F S1024x1024 .f32) (xs : Vec F S1024x1 .f32) :
    View.canon (runLastBlock c i arg2 harg2 arg3 harg3 arg4 harg4 arg5 harg5 arg6 harg6 arg7 harg7 hc0 hc1 x0 x1 xa xs).2.2.2.1 = k0_pay4 x0 xs := by
  unfold runLastBlock
  dsimp only
  sl_unfold_words
  rw [View.canon_unit_zero (S := S1024x1) origin]
  simp only [View.readAt_eq_ld, harg2.read_unread, harg3.read_unread, harg6.read_unread, harg7.read_unread, View.ld_unit_zero (S := S1024x512) origin, View.ld_unit_zero (S := S512x1024) origin, View.ld_unit_zero (S := S1024x1024) origin, View.ld_unit_zero (S := S1024x1) origin]

/-- Last column block: the quotient window receives the updated product accumulator over the updated row sum plus the
    regulariser. -/
theorem quotientStored (c : Dev nD) (i : grid0.Coords) (arg2 : Memref sig .tc .vmem S1024x512 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1 .f32) (harg7 : arg7.IsWhole) (hc0 : ¬isFirstBlock i) (hc1 : isLastBlock i) (x0 : Vec F S1024x512 .bf16) (x1 : Vec F S512x1024 .bf16) (xa : Vec F S1024x1024 .f32) (xs : Vec F S1024x1 .f32) :
    View.canon (runLastBlock c i arg2 harg2 arg3 harg3 arg4 harg4 arg5 harg5 arg6 harg6 arg7 harg7 hc0 hc1 x0 x1 xa xs).1 = k0_pay5 (k0_pay3 x0 x1 xa) (k0_pay4 x0 xs) := by
  unfold runLastBlock
  dsimp only
  sl_unfold_words
  rw [View.canon_unit_zero (S := S1024x1024) origin, View.readCov_unit_zero (S := S1024x1024) _ origin, View.readCov_unit_zero (S := S1024x1) _ origin]
  simp only [View.readAt_eq_ld, harg2.read_unread, harg3.read_unread, harg6.read_unread, harg7.read_unread, View.ld_unit_zero (S := S1024x512) origin, View.ld_unit_zero (S := S512x1024) origin, View.ld_unit_zero (S := S1024x1024) origin, View.ld_unit_zero (S := S1024x1) origin]

/-- Last column block: the row-sum window receives the updated row-sum accumulator. -/
theorem rowSumStored (c : Dev nD) (i : grid0.Coords) (arg2 : Memref sig .tc .vmem S1024x512 .bf16) (harg2 : arg2.IsWhole) (arg3 : Memref sig .tc .vmem S512x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1 .f32) (harg7 : arg7.IsWhole) (hc0 : ¬isFirstBlock i) (hc1 : isLastBlock i) (x0 : Vec F S1024x512 .bf16) (x1 : Vec F S512x1024 .bf16) (xa : Vec F S1024x1024 .f32) (xs : Vec F S1024x1 .f32) :
    View.canon (runLastBlock c i arg2 harg2 arg3 harg3 arg4 harg4 arg5 harg5 arg6 harg6 arg7 harg7 hc0 hc1 x0 x1 xa xs).2.1 = k0_pay4 x0 xs := by
  unfold runLastBlock
  dsimp only
  sl_unfold_words
  rw [View.canon_unit_zero (S := S1024x1) origin, View.readCov_unit_zero (S := S1024x1) _ origin]
  simp only [View.readAt_eq_ld, harg2.read_unread, harg3.read_unread, harg6.read_unread, harg7.read_unread, View.ld_unit_zero (S := S1024x512) origin, View.ld_unit_zero (S := S512x1024) origin, View.ld_unit_zero (S := S1024x1024) origin, View.ld_unit_zero (S := S1024x1) origin]

end Cert.KernelIdeal.Region0Pieces

end
-- ==== Proof.Region0Value.lean ====
import proofs.«120229_j77704548319709_2_alg».proof.Proof.Region0
import proofs.«120229_j77704548319709_2_alg».proof.Proof.Region0Pay
import proofs.«120229_j77704548319709_2_alg».proof.Proof.Region0Pieces
import Idealize.ShloMosaic.Lib.Pipeline.Value

/-!
# The row kernel's two result arrays, in closed form over the extended reals

With `E` the [8192,8192] table of edge weights and `M` the [8192,1024] messages as the region finds them, the
row kernel leaves

* in the row-sum array, at row `n`: `∑ k < 16, ∑ r < 512, E (n, 512 k + r)`;
* in the normalised array, at `(n, d)`: `(∑ k < 16, ∑ r < 512, E (n, 512 k + r) * M (512 k + r, d))` divided by the
  row sum plus the regulariser `ε`.

Row `n` belongs to row tile `n / 1024`, whose sixteen column blocks are points `16 (n / 1024) + k`. After point
`16 i + k` the two accumulators hold the partial sums over column blocks `0 .. k` (induction on the point); the last
column block stores the row sum and the quotient, and that block is the one written back.
-/

set_option maxRecDepth 16384

noncomputable section

namespace Cert.KernelIdeal.Region0Value

open Cert.KernelIdeal Cert.KernelIdeal.Gen Cert.KernelIdeal.Region0 Cert.KernelIdeal.Region0Pay Cert.KernelIdeal.Region0Pieces
open Idealize.ShloMosaic Idealize.ShloMosaic.TcCoe Idealize.ShloMosaic.ValueIdx
open Idealize.SL.Sem
open Idealize.ShloMosaic.Pipeline (Dat)
open scoped BigOperators

variable (V : (c : Dev nD) → (b : Ref sig .tc) → Buf (Elt Ideal) ((c : Thread nD τ).loc b)) (c : Dev nD)

/-! ## The entry arrays over natural coordinates -/

/-- The table of edge weights as the region finds it, by coordinates. -/
abbrev weights (p q : Fin 8192) : EReal := (V c main_v68 : S8192x8192.Idx → EReal) (ix2 p q)
/-- The messages as the region finds them, by coordinates. -/
abbrev messages (p : Fin 8192) (d : Fin 1024) : EReal := (V c main_v84 : S8192x1024.Idx → EReal) (ix2 p d)

/-- The edge weight at `(a, b)`, zero outside the table. -/
def weightAt (a b : ℕ) : EReal := if h : a < 8192 ∧ b < 8192 then weights V c ⟨a, h.1⟩ ⟨b, h.2⟩ else 0
/-- The message entry at `(a, b)`, zero outside the array. -/
def messageAt (a b : ℕ) : EReal := if h : a < 8192 ∧ b < 1024 then messages V c ⟨a, h.1⟩ ⟨b, h.2⟩ else 0

/-- Row `a`'s sum of edge weights over its first `j` column blocks. -/
def rowPart (a j : ℕ) : EReal := ∑ k ∈ Finset.range j, ∑ r : Fin 512, weightAt V c a (512 * k + r.val)
/-- Row `a`'s weighted sum of messages, column `d`, over its first `j` column blocks. -/
def prodPart (a d j : ℕ) : EReal := ∑ k ∈ Finset.range j, ∑ r : Fin 512, weightAt V c a (512 * k + r.val) * messageAt V c (512 * k + r.val) d

theorem rowPart_succ (a j : ℕ) : rowPart V c a (j + 1) = rowPart V c a j + ∑ r : Fin 512, weightAt V c a (512 * j + r.val) :=
  Finset.sum_range_succ _ j
theorem prodPart_succ (a d j : ℕ) :
    prodPart V c a d (j + 1) = prodPart V c a d j + ∑ r : Fin 512, weightAt V c a (512 * j + r.val) * messageAt V c (512 * j + r.val) d :=
  Finset.sum_range_succ _ j
theorem rowPart_one (a : ℕ) : rowPart V c a 1 = 0 + ∑ r : Fin 512, weightAt V c a (512 * 0 + r.val) := by
  rw [rowPart_succ]; exact congrArg (· + _) (Finset.sum_range_zero _)
theorem prodPart_one (a d : ℕ) : prodPart V c a d 1 = 0 + ∑ r : Fin 512, weightAt V c a (512 * 0 + r.val) * messageAt V c (512 * 0 + r.val) d := by
  rw [prodPart_succ]; exact congrArg (· + _) (Finset.sum_range_zero _)

/-! ## The windows' block indices, decided over the grid -/

theorem points_count : cfg0.N = 128 := N_0

theorem weightsBlock_index : ∀ t : Fin cfg0.N, win0_0.index t (0 : Fin 2) = t.val / 16 ∧ win0_0.index t (1 : Fin 2) = t.val % 16 :=
  (by decide +kernel : ∀ t : Fin grid0.N, win0_0.index t (0 : Fin 2) = t.val / 16 ∧ win0_0.index t (1 : Fin 2) = t.val % 16)
theorem messagesBlock_index : ∀ t : Fin cfg0.N, win0_1.index t (0 : Fin 2) = t.val % 16 ∧ win0_1.index t (1 : Fin 2) = 0 :=
  (by decide +kernel : ∀ t : Fin grid0.N, win0_1.index t (0 : Fin 2) = t.val % 16 ∧ win0_1.index t (1 : Fin 2) = 0)
theorem quotientBlock_index : ∀ t : Fin cfg0.N, win0_2.index t (0 : Fin 2) = t.val / 16 ∧ win0_2.index t (1 : Fin 2) = 0 :=
  (by decide +kernel : ∀ t : Fin grid0.N, win0_2.index t (0 : Fin 2) = t.val / 16 ∧ win0_2.index t (1 : Fin 2) = 0)
theorem rowSumBlock_index : ∀ t : Fin cfg0.N, win0_3.index t (0 : Fin 2) = t.val / 16 ∧ win0_3.index t (1 : Fin 2) = 0 :=
  (by decide +kernel : ∀ t : Fin grid0.N, win0_3.index t (0 : Fin 2) = t.val / 16 ∧ win0_3.index t (1 : Fin 2) = 0)

/-! ## The input blocks at a point -/

/-- The edge-weight block at point `t` is rows `1024 (t / 16) ..`, columns `512 (t % 16) ..` of the table. -/
theorem weightsBlock_apply (t : Fin cfg0.N) (p : Fin 1024) (r : Fin 512) :
    (blockAt V c 0 t : Vec Ideal S1024x512 .bf16) (ix2 p r) = weightAt V c (1024 * (t.val / 16) + p.val) (512 * (t.val % 16) + r.val) := by
  obtain ⟨e0, e1⟩ := weightsBlock_index t
  have ht : t.val < 128 := lt_of_lt_of_eq t.isLt points_count
  have ha : 1024 * (t.val / 16) + p.val < 8192 := by have := p.isLt; omega
  have hb : 512 * (t.val % 16) + r.val < 8192 := by have := r.isLt; omega
  unfold weightAt
  rw [dif_pos ⟨ha, hb⟩]
  show (V c main_v68 : S8192x8192.Idx → EReal) (((cfg0.win 0).blk t).view.emb (ix2 p r)) = _
  have h0 : ((cfg0.win 0).blk t).view.emb (ix2 p r) = ix2 ⟨1024 * (t.val / 16) + p.val, ha⟩ ⟨512 * (t.val % 16) + r.val, hb⟩ := by
    funext a; apply Fin.ext
    match a with
    | ⟨0, _⟩ => show win0_0.index t (0 : Fin 2) * 1024 + 1 * p.val = 1024 * (t.val / 16) + p.val; omega
    | ⟨1, _⟩ => show win0_0.index t (1 : Fin 2) * 512 + 1 * r.val = 512 * (t.val % 16) + r.val; omega
  rw [h0]

/-- The message block at point `t` is rows `512 (t % 16) ..` of the messages. -/
theorem messagesBlock_apply (t : Fin cfg0.N) (r : Fin 512) (q : Fin 1024) :
    (blockAt V c 1 t : Vec Ideal S512x1024 .bf16) (ix2 r q) = messageAt V c (512 * (t.val % 16) + r.val) q.val := by
  obtain ⟨e0, e1⟩ := messagesBlock_index t
  have ht : t.val < 128 := lt_of_lt_of_eq t.isLt points_count
  have ha : 512 * (t.val % 16) + r.val < 8192 := by have := r.isLt; omega
  unfold messageAt
  rw [dif_pos ⟨ha, q.isLt⟩]
  show (V c main_v84 : S8192x1024.Idx → EReal) (((cfg0.win 1).blk t).view.emb (ix2 r q)) = _
  have h0 : ((cfg0.win 1).blk t).view.emb (ix2 r q) = ix2 ⟨512 * (t.val % 16) + r.val, ha⟩ ⟨q.val, q.isLt⟩ := by
    funext a; apply Fin.ext
    match a with
    | ⟨0, _⟩ => show win0_1.index t (0 : Fin 2) * 512 + 1 * r.val = 512 * (t.val % 16) + r.val; omega
    | ⟨1, _⟩ => show win0_1.index t (1 : Fin 2) * 1024 + 1 * q.val = q.val; omega
  rw [h0]

/-- The edge-weight block and the message block at point `t`, at their literal types. -/
abbrev weightsBlock (t : Fin cfg0.N) : Vec Ideal S1024x512 .bf16 := blockAt V c 0 t
abbrev messagesBlock (t : Fin cfg0.N) : Vec Ideal S512x1024 .bf16 := blockAt V c 1 t

/-- One point's contribution to the row sums, read off the table. -/
theorem blockRowSum (t : Fin cfg0.N) (p : Fin 1024) :
    (∑ r : Fin 512, weightsBlock V c t (ix2 p r))
      = ∑ r : Fin 512, weightAt V c (1024 * (t.val / 16) + p.val) (512 * (t.val % 16) + r.val) :=
  Finset.sum_congr rfl fun r _ => weightsBlock_apply V c t p r

/-- One point's contribution to the weighted sums, read off the table and the messages. -/
theorem blockProdSum (t : Fin cfg0.N) (p q : Fin 1024) :
    (∑ r : Fin 512, weightsBlock V c t (ix2 p r) * messagesBlock V c t (ix2 r q))
      = ∑ r : Fin 512, weightAt V c (1024 * (t.val / 16) + p.val) (512 * (t.val % 16) + r.val) * messageAt V c (512 * (t.val % 16) + r.val) q.val :=
  Finset.sum_congr rfl fun r _ => congrArg₂ (· * ·) (weightsBlock_apply V c t p r) (messagesBlock_apply V c t r q)

/-! ## One point's update of the accumulators -/

/-- If before point `t` the product accumulator holds the partial weighted sums over the row tile's column blocks
    before `t`'s, after the update it holds them over one block more. -/
theorem step_prod (t : Fin cfg0.N) (xa : Vec Ideal S1024x1024 .f32) (p q : Fin 1024)
    (hxa : xa (ix2 p q) = prodPart V c (1024 * (t.val / 16) + p.val) q.val (t.val % 16)) :
    k0_pay3 (blockAt V c 0 t) (blockAt V c 1 t) xa (ix2 p q) = prodPart V c (1024 * (t.val / 16) + p.val) q.val (t.val % 16 + 1) := by
  refine (updateProd_apply (weightsBlock V c t) (messagesBlock V c t) xa p q).trans ?_
  rw [hxa, blockProdSum V c t p q, prodPart_succ]

/-- Likewise the row-sum accumulator. -/
theorem step_row (t : Fin cfg0.N) (xs : Vec Ideal S1024x1 .f32) (p : Fin 1024)
    (hxs : xs (ix2 p u0) = rowPart V c (1024 * (t.val / 16) + p.val) (t.val % 16)) :
    k0_pay4 (blockAt V c 0 t) xs (ix2 p u0) = rowPart V c (1024 * (t.val / 16) + p.val) (t.val % 16 + 1) := by
  refine (updateRow_apply (weightsBlock V c t) xs p).trans ?_
  rw [hxs, blockRowSum V c t p, rowPart_succ]

/-- The reset values are the empty partial sums. -/
theorem reset_prod (t : Fin cfg0.N) (h0 : t.val % 16 = 0) (p q : Fin 1024) :
    k0_pay1 (F := Ideal) (ix2 p q) = prodPart V c (1024 * (t.val / 16) + p.val) q.val (t.val % 16) := by
  rw [h0]; exact (resetProd_apply (ix2 p q)).trans (Finset.sum_range_zero _).symm
theorem reset_row (t : Fin cfg0.N) (h0 : t.val % 16 = 0) (p : Fin 1024) :
    k0_pay2 (F := Ideal) (ix2 p u0) = rowPart V c (1024 * (t.val / 16) + p.val) (t.val % 16) := by
  rw [h0]; exact (resetRow_apply (ix2 p u0)).trans (Finset.sum_range_zero _).symm

/-! ## What each case's stores read back as -/

theorem rdAcc_first (t : Fin cfg0.N) (h0 : t.val % 16 = 0) :
    rdAcc (firstBlockAt V c t h0).1 = k0_pay3 (blockAt V c 0 t) (blockAt V c 1 t) (k0_pay1 (F := Ideal)) :=
  (View.read_writes_junk_eq_canon VAcc (firstBlockAt V c t h0).1).trans
    (accAfterFirst c (grid0.coords t) (weightsStage t) (weightsStage_whole t) (messagesStage t) (messagesStage_whole t) (quotientStage t) (quotientStage_whole t) (rowSumStage t) (rowSumStage_whole t) accM (Memref.isWhole_whole _) sumM (Memref.isWhole_whole _) _ _ (blockAt V c 0 t) (blockAt V c 1 t))
theorem rdSum_first (t : Fin cfg0.N) (h0 : t.val % 16 = 0) :
    rdSum (firstBlockAt V c t h0).2.1 = k0_pay4 (blockAt V c 0 t) (k0_pay2 (F := Ideal)) :=
  (View.read_writes_junk_eq_canon VSum (firstBlockAt V c t h0).2.1).trans
    (sumAfterFirst c (grid0.coords t) (weightsStage t) (weightsStage_whole t) (messagesStage t) (messagesStage_whole t) (quotientStage t) (quotientStage_whole t) (rowSumStage t) (rowSumStage_whole t) accM (Memref.isWhole_whole _) sumM (Memref.isWhole_whole _) _ _ (blockAt V c 0 t) (blockAt V c 1 t))
theorem rdAcc_middle (t : Fin cfg0.N) (h0 : ¬t.val % 16 = 0) (h1 : ¬t.val % 16 = 15) (xa : Vec Ideal S1024x1024 .f32) (xs : Vec Ideal S1024x1 .f32) :
    rdAcc (middleBlockAt V c t h0 h1 xa xs).1 = k0_pay3 (blockAt V c 0 t) (blockAt V c 1 t) xa :=
  (View.read_writes_junk_eq_canon VAcc (middleBlockAt V c t h0 h1 xa xs).1).trans
    (accAfterMiddle c (grid0.coords t) (weightsStage t) (weightsStage_whole t) (messagesStage t) (messagesStage_whole t) (quotientStage t) (quotientStage_whole t) (rowSumStage t) (rowSumStage_whole t) accM (Memref.isWhole_whole _) sumM (Memref.isWhole_whole _) _ _ (blockAt V c 0 t) (blockAt V c 1 t) xa xs)
theorem rdSum_middle (t : Fin cfg0.N) (h0 : ¬t.val % 16 = 0) (h1 : ¬t.val % 16 = 15) (xa : Vec Ideal S1024x1024 .f32) (xs : Vec Ideal S1024x1 .f32) :
    rdSum (middleBlockAt V c t h0 h1 xa xs).2.1 = k0_pay4 (blockAt V c 0 t) xs :=
  (View.read_writes_junk_eq_canon VSum (middleBlockAt V c t h0 h1 xa xs).2.1).trans
    (sumAfterMiddle c (grid0.coords t) (weightsStage t) (weightsStage_whole t) (messagesStage t) (messagesStage_whole t) (quotientStage t) (quotientStage_whole t) (rowSumStage t) (rowSumStage_whole t) accM (Memref.isWhole_whole _) sumM (Memref.isWhole_whole _) _ _ (blockAt V c 0 t) (blockAt V c 1 t) xa xs)
theorem rdAcc_last (t : Fin cfg0.N) (h1 : t.val % 16 = 15) (xa : Vec Ideal S1024x1024 .f32) (xs : Vec Ideal S1024x1 .f32) :
    rdAcc (lastBlockAt V c t h1 xa xs).2.2.1 = k0_pay3 (blockAt V c 0 t) (blockAt V c 1 t) xa :=
  (View.read_writes_junk_eq_canon VAcc (lastBlockAt V c t h1 xa xs).2.2.1).trans
    (accAfterLast c (grid0.coords t) (weightsStage t) (weightsStage_whole t) (messagesStage t) (messagesStage_whole t) (quotientStage t) (quotientStage_whole t) (rowSumStage t) (rowSumStage_whole t) accM (Memref.isWhole_whole _) sumM (Memref.isWhole_whole _) _ _ (blockAt V c 0 t) (blockAt V c 1 t) xa xs)
theorem rdSum_last (t : Fin cfg0.N) (h1 : t.val % 16 = 15) (xa : Vec Ideal S1024x1024 .f32) (xs : Vec Ideal S1024x1 .f32) :
    rdSum (lastBlockAt V c t h1 xa xs).2.2.2.1 = k0_pay4 (blockAt V c 0 t) xs :=
  (View.read_writes_junk_eq_canon VSum (lastBlockAt V c t h1 xa xs).2.2.2.1).trans
    (sumAfterLast c (grid0.coords t) (weightsStage t) (weightsStage_whole t) (messagesStage t) (messagesStage_whole t) (quotientStage t) (quotientStage_whole t) (rowSumStage t) (rowSumStage_whole t) accM (Memref.isWhole_whole _) sumM (Memref.isWhole_whole _) _ _ (blockAt V c 0 t) (blockAt V c 1 t) xa xs)
theorem rdOut_last (t : Fin cfg0.N) (h1 : t.val % 16 = 15) (xa : Vec Ideal S1024x1024 .f32) (xs : Vec Ideal S1024x1 .f32) :
    rdOut (lastBlockAt V c t h1 xa xs).1 = k0_pay5 (k0_pay3 (blockAt V c 0 t) (blockAt V c 1 t) xa) (k0_pay4 (blockAt V c 0 t) xs) :=
  (View.read_writes_junk_eq_canon quotientView (lastBlockAt V c t h1 xa xs).1).trans
    (quotientStored c (grid0.coords t) (weightsStage t) (weightsStage_whole t) (messagesStage t) (messagesStage_whole t) (quotientStage t) (quotientStage_whole t) (rowSumStage t) (rowSumStage_whole t) accM (Memref.isWhole_whole _) sumM (Memref.isWhole_whole _) _ _ (blockAt V c 0 t) (blockAt V c 1 t) xa xs)
theorem rdRow_last (t : Fin cfg0.N) (h1 : t.val % 16 = 15) (xa : Vec Ideal S1024x1024 .f32) (xs : Vec Ideal S1024x1 .f32) :
    rdRow (lastBlockAt V c t h1 xa xs).2.1 = k0_pay4 (blockAt V c 0 t) xs :=
  (View.read_writes_junk_eq_canon rowSumView (lastBlockAt V c t h1 xa xs).2.1).trans
    (rowSumStored c (grid0.coords t) (weightsStage t) (weightsStage_whole t) (messagesStage t) (messagesStage_whole t) (quotientStage t) (quotientStage_whole t) (rowSumStage t) (rowSumStage_whole t) accM (Memref.isWhole_whole _) sumM (Memref.isWhole_whole _) _ _ (blockAt V c 0 t) (blockAt V c 1 t) xa xs)

/-! ## The accumulators after each point -/

/-- After position `n` the accumulators hold, for each row of row tile `n / 16`, the partial sums over the column
    blocks `0 .. n % 16`. -/
def PartialSums (n : ℕ) (hn : n < cfg0.N) : Prop :=
  (∀ p q : Fin 1024, (accumulatorsAt V c n hn).1 (ix2 p q) = prodPart V c (1024 * (n / 16) + p.val) q.val (n % 16 + 1))
  ∧ (∀ p : Fin 1024, (accumulatorsAt V c n hn).2 (ix2 p u0) = rowPart V c (1024 * (n / 16) + p.val) (n % 16 + 1))

/-- At a row tile's first column block: the reset, then the block's contribution. -/
theorem partialSums_first (t : Fin cfg0.N) (h0 : t.val % 16 = 0) : PartialSums V c t.val t.isLt := by
  unfold PartialSums
  rw [accumulatorsAt_first V c t h0]
  dsimp only
  rw [rdAcc_first V c t h0, rdSum_first V c t h0]
  exact ⟨fun p q => step_prod V c t (k0_pay1 (F := Ideal)) p q (reset_prod V c t h0 p q),
    fun p => step_row V c t (k0_pay2 (F := Ideal)) p (reset_row V c t h0 p)⟩

/-- At a later column block: the block's contribution added to what the block before left. -/
theorem partialSums_step (t : Fin cfg0.N) (h0 : ¬t.val % 16 = 0)
    (ih : PartialSums V c (t.val - 1) (Nat.lt_of_le_of_lt (Nat.sub_le _ _) t.isLt)) : PartialSums V c t.val t.isLt := by
  have hd : (t.val - 1) / 16 = t.val / 16 := by omega
  have hm : (t.val - 1) % 16 + 1 = t.val % 16 := by omega
  unfold PartialSums at ih ⊢
  obtain ⟨ihP, ihR⟩ := ih
  have eP : ∀ p q : Fin 1024, (accumulatorsBefore V c t).1 (ix2 p q) = prodPart V c (1024 * (t.val / 16) + p.val) q.val (t.val % 16) := fun p q => by
    have h := ihP p q; rw [hd, hm] at h; exact h
  have eR : ∀ p : Fin 1024, (accumulatorsBefore V c t).2 (ix2 p u0) = rowPart V c (1024 * (t.val / 16) + p.val) (t.val % 16) := fun p => by
    have h := ihR p; rw [hd, hm] at h; exact h
  by_cases h1 : t.val % 16 = 15
  · rw [accumulatorsAt_last V c t h0 h1]
    dsimp only
    rw [rdAcc_last V c t h1 (accumulatorsBefore V c t).1 (accumulatorsBefore V c t).2, rdSum_last V c t h1 (accumulatorsBefore V c t).1 (accumulatorsBefore V c t).2]
    exact ⟨fun p q => step_prod V c t (accumulatorsBefore V c t).1 p q (eP p q), fun p => step_row V c t (accumulatorsBefore V c t).2 p (eR p)⟩
  · rw [accumulatorsAt_middle V c t h0 h1]
    dsimp only
    rw [rdAcc_middle V c t h0 h1 (accumulatorsBefore V c t).1 (accumulatorsBefore V c t).2, rdSum_middle V c t h0 h1 (accumulatorsBefore V c t).1 (accumulatorsBefore V c t).2]
    exact ⟨fun p q => step_prod V c t (accumulatorsBefore V c t).1 p q (eP p q), fun p => step_row V c t (accumulatorsBefore V c t).2 p (eR p)⟩

/-- The invariant at every position, by induction on the position. -/
theorem partialSums_all : ∀ (n : ℕ) (hn : n < cfg0.N), PartialSums V c n hn
  | 0, hn => partialSums_first V c ⟨0, hn⟩ (Nat.zero_mod _)
  | n + 1, hn => by
    by_cases h0 : (n + 1) % 16 = 0
    · exact partialSums_first V c ⟨n + 1, hn⟩ h0
    · exact partialSums_step V c ⟨n + 1, hn⟩ h0 (partialSums_all n (Nat.lt_of_succ_lt hn))

/-- What the body finds in the accumulators at a point that is not a row tile's first. -/
theorem partialSums_before (t : Fin cfg0.N) (h0 : ¬t.val % 16 = 0) :
    (∀ p q : Fin 1024, (accumulatorsBefore V c t).1 (ix2 p q) = prodPart V c (1024 * (t.val / 16) + p.val) q.val (t.val % 16))
    ∧ (∀ p : Fin 1024, (accumulatorsBefore V c t).2 (ix2 p u0) = rowPart V c (1024 * (t.val / 16) + p.val) (t.val % 16)) := by
  have hd : (t.val - 1) / 16 = t.val / 16 := by omega
  have hm : (t.val - 1) % 16 + 1 = t.val % 16 := by omega
  have ih := partialSums_all V c (t.val - 1) (Nat.lt_of_le_of_lt (Nat.sub_le _ _) t.isLt)
  unfold PartialSums at ih
  obtain ⟨ihP, ihR⟩ := ih
  exact ⟨fun p q => by have h := ihP p q; rw [hd, hm] at h; exact h, fun p => by have h := ihR p; rw [hd, hm] at h; exact h⟩

/-! ## The two result arrays -/

/-- The row-sum array the kernel leaves: at row `n` the sum of the edge weights over all sixteen column blocks. -/
def rowsumArr : Buf (Elt Ideal) ((c : Thread nD τ).loc main_v85_1) :=
  fun (i : S8192x1.Idx) => rowPart V c (i 0).val 16

/-- The normalised array the kernel leaves: at `(n, d)` the weighted sum of messages over all sixteen column blocks,
    divided by the row sum plus the regulariser. -/
def normArr : Buf (Elt Ideal) ((c : Thread nD τ).loc main_v85_0) :=
  fun (i : S8192x1024.Idx) => Ideal.div (prodPart V c (i 0).val (i 1).val 16) (rowPart V c (i 0).val 16 + ε)

/-- At a row tile's last column block the updated row-sum accumulator holds the complete row sums of the tile. -/
theorem rowSums_complete (t : Fin cfg0.N) (h15 : t.val % 16 = 15) :
    k0_pay4 (weightsBlock V c t) (accumulatorsBefore V c t).2 = fun (j : S1024x1.Idx) => rowPart V c (1024 * (t.val / 16) + (j 0).val) 16 := by
  have h0 : ¬t.val % 16 = 0 := by omega
  have h16 : t.val % 16 + 1 = 16 := by omega
  obtain ⟨-, eR⟩ := partialSums_before V c t h0
  funext j
  have hj : j = ix2 (j 0) u0 := by
    funext a
    match a with
    | ⟨0, _⟩ => rfl
    | ⟨1, _⟩ => exact Fin.ext (by have h : (j 1).val < 1 := (j 1).isLt; show (j 1).val = 0; omega)
  refine (congrArg (k0_pay4 (weightsBlock V c t) (accumulatorsBefore V c t).2) hj).trans ?_
  refine (step_row V c t (accumulatorsBefore V c t).2 (j 0) (eR (j 0))).trans ?_
  rw [h16]

/-- … and the quotient stored there is the complete weighted sum over the complete row sum plus the regulariser. -/
theorem quotient_complete (t : Fin cfg0.N) (h15 : t.val % 16 = 15) :
    k0_pay5 (k0_pay3 (weightsBlock V c t) (messagesBlock V c t) (accumulatorsBefore V c t).1) (k0_pay4 (weightsBlock V c t) (accumulatorsBefore V c t).2)
      = fun (j : S1024x1024.Idx) => Ideal.div (prodPart V c (1024 * (t.val / 16) + (j 0).val) (j 1).val 16) (rowPart V c (1024 * (t.val / 16) + (j 0).val) 16 + ε) := by
  have h0 : ¬t.val % 16 = 0 := by omega
  have h16 : t.val % 16 + 1 = 16 := by omega
  obtain ⟨eP, eR⟩ := partialSums_before V c t h0
  funext j
  have hj : j = ix2 (j 0) (j 1) := eq_ix2 j
  refine (congrArg (k0_pay5 (k0_pay3 (weightsBlock V c t) (messagesBlock V c t) (accumulatorsBefore V c t).1) (k0_pay4 (weightsBlock V c t) (accumulatorsBefore V c t).2)) hj).trans ?_
  refine (quotient_apply (k0_pay3 (weightsBlock V c t) (messagesBlock V c t) (accumulatorsBefore V c t).1) (k0_pay4 (weightsBlock V c t) (accumulatorsBefore V c t).2) (j 0) (j 1)).trans ?_
  rw [step_prod V c t (accumulatorsBefore V c t).1 (j 0) (j 1) (eP (j 0) (j 1)), step_row V c t (accumulatorsBefore V c t).2 (j 0) (eR (j 0)), h16]

/-- What a write-back point (a row tile's last column block) writes into the row-sum array is that tile's rows of
    `rowsumArr`. -/
theorem rowSum_written (t : Fin cfg0.N) (hf : (cfg0.win 3).flush t = true) :
    (dat0 V c).flushed 3 t = ((cfg0.win 3).blk t).view.read (Elt Ideal) (rowsumArr V c) := by
  have h15 : t.val % 16 = 15 := (flush0_3 t).mp hf
  obtain ⟨e0, e1⟩ := rowSumBlock_index t
  show (cfg0.win 3).cut (grid0.coords t) ((dat0 V c).after 3 t) = _
  rw [after0_3, outputsAt_last V c t h15]
  dsimp only
  rw [rdRow_last V c t h15 (accumulatorsBefore V c t).1 (accumulatorsBefore V c t).2]
  rw [show k0_pay4 (blockAt V c 0 t) (accumulatorsBefore V c t).2 = _ from rowSums_complete V c t h15]
  funext j
  show rowPart V c (1024 * (t.val / 16) + (j 0).val) 16 = rowPart V c (win0_3.index t (0 : Fin 2) * 1024 + 1 * (j 0).val) 16
  rw [e0]
  exact congrArg (fun a => rowPart V c a 16) (by omega)

/-- … and into the normalised array, that tile's rows of `normArr`. -/
theorem quotient_written (t : Fin cfg0.N) (hf : (cfg0.win 2).flush t = true) :
    (dat0 V c).flushed 2 t = ((cfg0.win 2).blk t).view.read (Elt Ideal) (normArr V c) := by
  have h15 : t.val % 16 = 15 := (flush0_2 t).mp hf
  obtain ⟨e0, e1⟩ := quotientBlock_index t
  show (cfg0.win 2).cut (grid0.coords t) ((dat0 V c).after 2 t) = _
  rw [after0_2, outputsAt_last V c t h15]
  dsimp only
  rw [rdOut_last V c t h15 (accumulatorsBefore V c t).1 (accumulatorsBefore V c t).2]
  rw [show k0_pay5 (k0_pay3 (blockAt V c 0 t) (blockAt V c 1 t) (accumulatorsBefore V c t).1) (k0_pay4 (blockAt V c 0 t) (accumulatorsBefore V c t).2) = _ from quotient_complete V c t h15]
  funext j
  show Ideal.div (prodPart V c (1024 * (t.val / 16) + (j 0).val) (j 1).val 16) (rowPart V c (1024 * (t.val / 16) + (j 0).val) 16 + ε)
    = Ideal.div (prodPart V c (win0_2.index t (0 : Fin 2) * 1024 + 1 * (j 0).val) (win0_2.index t (1 : Fin 2) * 1024 + 1 * (j 1).val) 16)
        (rowPart V c (win0_2.index t (0 : Fin 2) * 1024 + 1 * (j 0).val) 16 + ε)
  rw [e0, e1, Nat.zero_mul, Nat.zero_add, Nat.one_mul, Nat.one_mul, Nat.mul_comm (t.val / 16) 1024]

/-! ## Every row belongs to one row tile -/

theorem mem_rowSumBlock (t : Fin cfg0.N) (i : S8192x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v85_1).slice (win0_3.rect t)).set ↔ _
  rw [View.set_slice_whole, Rect.mem_set_unit]
  exact Iff.rfl

theorem mem_quotientBlock (t : Fin cfg0.N) (i : S8192x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v85_0).slice (win0_2.rect t)).set ↔ _
  rw [View.set_slice_whole, Rect.mem_set_unit]
  exact Iff.rfl

/-- The last point of the row tile of row `n`. -/
def lastOf (n : ℕ) (hn : n < 8192) : Fin cfg0.N := ⟨16 * (n / 1024) + 15, lt_of_lt_of_eq (by omega) points_count.symm⟩

theorem rowSum_covered (i : S8192x1.Idx) : ∃ t : Fin cfg0.N, (cfg0.win 3).flush t = true ∧ i ∈ ((cfg0.win 3).blk t).view.set := by
  have hi0 : (i 0).val < 8192 := (i 0).isLt
  have hi1 : (i 1).val < 1 := (i 1).isLt
  obtain ⟨e0, e1⟩ := rowSumBlock_index (lastOf (i 0).val hi0)
  have tv : (lastOf (i 0).val hi0).val = 16 * ((i 0).val / 1024) + 15 := rfl
  refine ⟨lastOf (i 0).val hi0, (flush0_3 _).mpr (by omega), (mem_rowSumBlock _ i).mpr fun a => ?_⟩
  match a with
  | ⟨0, _⟩ =>
    show win0_3.index (lastOf (i 0).val hi0) (0 : Fin 2) * 1024 ≤ (i 0).val ∧ (i 0).val < win0_3.index (lastOf (i 0).val hi0) (0 : Fin 2) * 1024 + 1024
    omega
  | ⟨1, _⟩ =>
    show win0_3.index (lastOf (i 0).val hi0) (1 : Fin 2) * 1 ≤ (i 1).val ∧ (i 1).val < win0_3.index (lastOf (i 0).val hi0) (1 : Fin 2) * 1 + 1
    omega

theorem quotient_covered (i : S8192x1024.Idx) : ∃ t : Fin cfg0.N, (cfg0.win 2).flush t = true ∧ i ∈ ((cfg0.win 2).blk t).view.set := by
  have hi0 : (i 0).val < 8192 := (i 0).isLt
  have hi1 : (i 1).val < 1024 := (i 1).isLt
  obtain ⟨e0, e1⟩ := quotientBlock_index (lastOf (i 0).val hi0)
  have tv : (lastOf (i 0).val hi0).val = 16 * ((i 0).val / 1024) + 15 := rfl
  refine ⟨lastOf (i 0).val hi0, (flush0_2 _).mpr (by omega), (mem_quotientBlock _ i).mpr fun a => ?_⟩
  match a with
  | ⟨0, _⟩ =>
    show win0_2.index (lastOf (i 0).val hi0) (0 : Fin 2) * 1024 ≤ (i 0).val ∧ (i 0).val < win0_2.index (lastOf (i 0).val hi0) (0 : Fin 2) * 1024 + 1024
    omega
  | ⟨1, _⟩ =>
    show win0_2.index (lastOf (i 0).val hi0) (1 : Fin 2) * 1024 ≤ (i 1).val ∧ (i 1).val < win0_2.index (lastOf (i 0).val hi0) (1 : Fin 2) * 1024 + 1024
    omega

/-! ## The region's final arrays -/

/-- The row-sum array after the region. -/
theorem rowsum_final : (dat0 V c).arrAt 3 cfg0.N = rowsumArr V c :=
  (dat0 V c).arrAt_eq_of_cover 3 (rowsumArr V c) (rowSum_written V c) (rowSum_covered)

/-- The normalised array after the region. -/
theorem norm_final : (dat0 V c).arrAt 2 cfg0.N = normArr V c :=
  (dat0 V c).arrAt_eq_of_cover 2 (normArr V c) (quotient_written V c) (quotient_covered)

/-! ## … read at an index, over the table and the messages themselves -/

theorem rowPart_full (n : Fin 8192) :
    rowPart V c n.val 16
      = ∑ k : Fin 16, ∑ r : Fin 512, weights V c n ⟨512 * k.val + r.val, by have := k.isLt; have := r.isLt; omega⟩ := by
  unfold rowPart
  rw [Finset.sum_range]
  refine Finset.sum_congr rfl fun k _ => Finset.sum_congr rfl fun r _ => ?_
  unfold weightAt
  rw [dif_pos ⟨n.isLt, by have := k.isLt; have := r.isLt; omega⟩]

theorem prodPart_full (n : Fin 8192) (d : Fin 1024) :
    prodPart V c n.val d.val 16
      = ∑ k : Fin 16, ∑ r : Fin 512, weights V c n ⟨512 * k.val + r.val, by have := k.isLt; have := r.isLt; omega⟩
          * messages V c ⟨512 * k.val + r.val, by have := k.isLt; have := r.isLt; omega⟩ d := by
  unfold prodPart
  rw [Finset.sum_range]
  refine Finset.sum_congr rfl fun k _ => Finset.sum_congr rfl fun r _ => ?_
  unfold weightAt messageAt
  rw [dif_pos ⟨n.isLt, by have := k.isLt; have := r.isLt; omega⟩, dif_pos ⟨by have := k.isLt; have := r.isLt; omega, d.isLt⟩]

/-- THE ROW SUMS: the region's row-sum array at row `n` is the sum of row `n` of the edge weights, taken as
    sixteen column blocks of 512. -/
theorem rowsum_apply (n : Fin 8192) :
    ((dat0 V c).arrAt 3 cfg0.N : S8192x1.Idx → EReal) (ix2 n u0)
      = ∑ k : Fin 16, ∑ r : Fin 512, weights V c n ⟨512 * k.val + r.val, by have := k.isLt; have := r.isLt; omega⟩ := by
  rw [rowsum_final]
  exact rowPart_full V c n

/-- THE NORMALISED SUMS: the region's first result array at `(n, d)` is the weighted sum of the messages by row `n`
    of the edge weights, over that row's sum plus the regulariser. -/
theorem norm_apply (n : Fin 8192) (d : Fin 1024) :
    ((dat0 V c).arrAt 2 cfg0.N : S8192x1024.Idx → EReal) (ix2 n d)
      = Ideal.div (∑ k : Fin 16, ∑ r : Fin 512, weights V c n ⟨512 * k.val + r.val, by have := k.isLt; have := r.isLt; omega⟩
            * messages V c ⟨512 * k.val + r.val, by have := k.isLt; have := r.isLt; omega⟩ d)
          ((∑ k : Fin 16, ∑ r : Fin 512, weights V c n ⟨512 * k.val + r.val, by have := k.isLt; have := r.isLt; omega⟩) + ε) := by
  rw [norm_final]
  show Ideal.div (prodPart V c n.val d.val 16) (rowPart V c n.val 16 + ε) = _
  rw [prodPart_full, rowPart_full]

end Cert.KernelIdeal.Region0Value

end
-- ==== Proof.Region1Pieces.lean ====
import proofs.«120229_j77704548319709_2_alg».proof.Proof.Region1
import Idealize.ShloMosaic.Lib.Pipeline.Value
import Idealize.ShloMosaic.Lib.Tactic

/-! # The column pass: what each step's found pieces are, as values

Each step of the column kernel ends with one whole store into the accumulator whose payload is the step's
update: the accumulator it read plus the product of the normalised, rounded gate block with the message block.
The first step of a column tile reads the zero block it has just stored; the last step copies the updated
accumulator into the output block. These lemmas read the pieces the runs found back as those values. -/

set_option maxRecDepth 16384

noncomputable section

namespace Cert.KernelIdeal.Region1

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]

/-- Every store and load of the column kernel is of a whole block: its rectangle starts at the origin. -/
theorem originOffsets : (![0, 0] : Fin 2 → Nat) = fun _ => 0 := funext fun a => by fin_cases a <;> rfl

/-- A MIDDLE STEP leaves the accumulator at its update: the accumulator a it found, plus the product of the
    normalised rounded gate block (from the gate block x0 and the row sums x2) with the message block x1. The
    step's one store covers the accumulator; its loads read whole buffers. -/
theorem accMid_eq (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1 .f32) (harg4 : arg4.IsWhole) (arg5 : Memref sig .tc .vmem S1024x1024 .f32) (harg5 : arg5.IsWhole) (arg6 : Memref sig .tc .vmem S1024x1024 .f32) (harg6 : arg6.IsWhole) (hc0 : ¬isFirst i) (hc1 : ¬isLast i)
    (x0 : Vec F S512x1024 .bf16) (x1 : Vec F S512x1024 .bf16) (x2 : Vec F S512x1 .f32) (a : Vec F S1024x1024 .f32) :
    accMid c i arg2 harg2 arg3 harg3 arg4 harg4 arg5 harg5 arg6 harg6 hc0 hc1 x0 x1 x2 a = k1_pay2 x0 x2 x1 a := by
  unfold accMid
  rw [View.read_writes_eq_canon _ _ _ (accCover_mid c i arg2 harg2 arg3 harg3 arg4 harg4 arg5 harg5 arg6 harg6 hc0 hc1 x0 x1 x2 a)]
  unfold runMid
  dsimp only
  sl_unfold_words
  rw [View.canon_unit_zero originOffsets]
  simp only [View.readAt_eq_ld, harg2.read_unread, harg3.read_unread, harg4.read_unread, harg6.read_unread, View.ld_unit_zero (S := S512x1024) originOffsets, View.ld_unit_zero (S := S512x1) originOffsets, View.ld_unit_zero (S := S1024x1024) originOffsets]

/-- THE FIRST STEP of a column tile stores the zero block, reads it back, and leaves the update of zero. -/
theorem accFirst_eq (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1 .f32) (harg4 : arg4.IsWhole) (arg5 : Memref sig .tc .vmem S1024x1024 .f32) (harg5 : arg5.IsWhole) (arg6 : Memref sig .tc .vmem S1024x1024 .f32) (harg6 : arg6.IsWhole) (hc0 : isFirst i) (hc1 : ¬isLast i)
    (x0 : Vec F S512x1024 .bf16) (x1 : Vec F S512x1024 .bf16) (x2 : Vec F S512x1 .f32) :
    accFirst c i arg2 harg2 arg3 harg3 arg4 harg4 arg5 harg5 arg6 harg6 hc0 hc1 x0 x1 x2 = k1_pay2 x0 x2 x1 (k1_pay1 (F := F)) := by
  unfold accFirst
  rw [View.read_writes_eq_canon _ _ _ (accCover_first c i arg2 harg2 arg3 harg3 arg4 harg4 arg5 harg5 arg6 harg6 hc0 hc1 x0 x1 x2)]
  unfold runFirst
  dsimp only
  sl_unfold_words
  rw [View.canon_cons_unit_zero (S := S1024x1024) originOffsets, View.readCov_unit_zero (S := S1024x1024) _ originOffsets]
  simp only [View.readAt_eq_ld, harg2.read_unread, harg3.read_unread, harg4.read_unread, harg6.read_unread, View.ld_unit_zero (S := S512x1024) originOffsets, View.ld_unit_zero (S := S512x1) originOffsets, View.ld_unit_zero (S := S1024x1024) originOffsets]

/-- THE LAST STEP leaves the accumulator at its update, as a middle step does, -/
theorem accLast_eq (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1 .f32) (harg4 : arg4.IsWhole) (arg5 : Memref sig .tc .vmem S1024x1024 .f32) (harg5 : arg5.IsWhole) (arg6 : Memref sig .tc .vmem S1024x1024 .f32) (harg6 : arg6.IsWhole) (hc0 : ¬isFirst i) (hc1 : isLast i)
    (x0 : Vec F S512x1024 .bf16) (x1 : Vec F S512x1024 .bf16) (x2 : Vec F S512x1 .f32) (a : Vec F S1024x1024 .f32) :
    accLast c i arg2 harg2 arg3 harg3 arg4 harg4 arg5 harg5 arg6 harg6 hc0 hc1 x0 x1 x2 a = k1_pay2 x0 x2 x1 a := by
  unfold accLast
  rw [View.read_writes_eq_canon _ _ _ (accCover_last c i arg2 harg2 arg3 harg3 arg4 harg4 arg5 harg5 arg6 harg6 hc0 hc1 x0 x1 x2 a)]
  unfold runLast
  dsimp only
  sl_unfold_words
  rw [View.canon_unit_zero originOffsets]
  simp only [View.readAt_eq_ld, harg2.read_unread, harg3.read_unread, harg4.read_unread, harg6.read_unread, View.ld_unit_zero (S := S512x1024) originOffsets, View.ld_unit_zero (S := S512x1) originOffsets, View.ld_unit_zero (S := S1024x1024) originOffsets]

/-- and copies it into the output block: the stored value is the accumulator read back after the update. -/
theorem outLast_eq (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1 .f32) (harg4 : arg4.IsWhole) (arg5 : Memref sig .tc .vmem S1024x1024 .f32) (harg5 : arg5.IsWhole) (arg6 : Memref sig .tc .vmem S1024x1024 .f32) (harg6 : arg6.IsWhole) (hc0 : ¬isFirst i) (hc1 : isLast i)
    (x0 : Vec F S512x1024 .bf16) (x1 : Vec F S512x1024 .bf16) (x2 : Vec F S512x1 .f32) (a : Vec F S1024x1024 .f32) :
    outLast c i arg2 harg2 arg3 harg3 arg4 harg4 arg5 harg5 arg6 harg6 hc0 hc1 x0 x1 x2 a = k1_pay2 x0 x2 x1 a := by
  unfold outLast
  rw [View.read_writes_eq_canon _ _ _ (outCover_last c i arg2 harg2 arg3 harg3 arg4 harg4 arg5 harg5 arg6 harg6 hc0 hc1 x0 x1 x2 a)]
  unfold runLast
  dsimp only
  sl_unfold_words
  rw [View.canon_unit_zero originOffsets, View.readCov_unit_zero (S := S1024x1024) _ originOffsets]
  simp only [View.readAt_eq_ld, harg2.read_unread, harg3.read_unread, harg4.read_unread, harg6.read_unread, View.ld_unit_zero (S := S512x1024) originOffsets, View.ld_unit_zero (S := S512x1) originOffsets, View.ld_unit_zero (S := S1024x1024) originOffsets]

end Cert.KernelIdeal.Region1

end
-- ==== Proof.Region1Pay.lean ====
/-
  The second kernel's payloads read at an index, at the ideal values.

  The column kernel keeps a [1024,1024] f32 accumulator. Its first payload is the zero block the accumulator is reset
  to; its second is one accumulation step: with e a [512,1024] block of the table of exponentials, s the matching
  [512,1] block of row sums and g the matching [512,1024] block of messages, the accumulator a becomes
  a + (e * 1/(s + eps))^T g, the product contracting the FIRST axis of both operands. Over the extended reals the
  format changes are the identity and the product is a plain sum over the 512 contracted rows, so at row p,
  column q:  a p q + sum over r of (e r p * (1 / (s r + eps))) * g r q.
-/
import proofs.«120229_j77704548319709_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Region1Pay

open Cert.KernelIdeal Cert.KernelIdeal.Gen Idealize.ShloMosaic Idealize.ShloMosaic.ValueIdx

/-- The small constant added to a row sum before it is inverted (about 1e-6), as the word the kernel splats. -/
abbrev eps : Ideal .f32 := Ideal.ofBits .f32 0x358637BD#32
/-- The numerator of the inverse: the word of 1.0. -/
abbrev one : Ideal .f32 := Ideal.ofBits .f32 0x3F800000#32

/-! ## The product's operand indices: it contracts axis 0 of both operands -/

/-- The left operand is read at (contracted row, output row) … -/
theorem lhs_0 (i : S1024x1024.Idx) (k : dot_S512x1024_S512x1024_S1024x1024_0_0_1_1_n_n.contr.Idx) :
    (dot_S512x1024_S512x1024_S1024x1024_0_0_1_1_n_n.lhsIdx i k 0).val = (k ⟨0, by decide⟩).val :=
  dot_S512x1024_S512x1024_S1024x1024_0_0_1_1_n_n.lhsIdx_val_of_single rfl i k
theorem lhs_1 (i : S1024x1024.Idx) (k : dot_S512x1024_S512x1024_S1024x1024_0_0_1_1_n_n.contr.Idx) :
    (dot_S512x1024_S512x1024_S1024x1024_0_0_1_1_n_n.lhsIdx i k 1).val = (i 0).val := by
  unfold DotDims.lhsIdx
  rw [dif_neg (show ¬(1 : Fin S512x1024.rank) ∈ dot_S512x1024_S512x1024_S1024x1024_0_0_1_1_n_n.lhsBatch by decide),
    dif_pos (show (1 : Fin S512x1024.rank) ∈ dot_S512x1024_S512x1024_S1024x1024_0_0_1_1_n_n.lhsNonContracting by decide)]
  rfl
/-- … and the right operand at (contracted row, output column). -/
theorem rhs_0 (i : S1024x1024.Idx) (k : dot_S512x1024_S512x1024_S1024x1024_0_0_1_1_n_n.contr.Idx) :
    (dot_S512x1024_S512x1024_S1024x1024_0_0_1_1_n_n.rhsIdx i k 0).val = (k ⟨0, by decide⟩).val :=
  dot_S512x1024_S512x1024_S1024x1024_0_0_1_1_n_n.rhsIdx_val_of_single rfl i k
theorem rhs_1 (i : S1024x1024.Idx) (k : dot_S512x1024_S512x1024_S1024x1024_0_0_1_1_n_n.contr.Idx) :
    (dot_S512x1024_S512x1024_S1024x1024_0_0_1_1_n_n.rhsIdx i k 1).val = (i 1).val := by
  unfold DotDims.rhsIdx
  rw [dif_neg (show ¬(1 : Fin S512x1024.rank) ∈ dot_S512x1024_S512x1024_S1024x1024_0_0_1_1_n_n.rhsBatch by decide),
    dif_pos (show (1 : Fin S512x1024.rank) ∈ dot_S512x1024_S512x1024_S1024x1024_0_0_1_1_n_n.rhsNonContracting by decide)]
  rfl

/-- The transposed product into a zero accumulator, at row p and column q: the sum over the 512 contracted rows. -/
theorem tmatmul_apply (x y : FVec Ideal S512x1024 .bf16) (p q : Fin 1024) :
    matmul dot_S512x1024_S512x1024_S1024x1024_0_0_1_1_n_n none x y (constant S1024x1024 .f32 0x00000000#32) (ix2 p q)
      = ∑ r : Fin 512, x (ix2 r p) * y (ix2 r q) := by
  simp only [matmul]
  rw [Ideal.matmul_constant_zero_apply,
    ← Equiv.sum_comp (contrEquiv1 dot_S512x1024_S512x1024_S1024x1024_0_0_1_1_n_n 512 rfl rfl).symm]
  refine Finset.sum_congr rfl fun r _ => ?_
  have hk := contrEquiv1_symm_val dot_S512x1024_S512x1024_S1024x1024_0_0_1_1_n_n 512 rfl rfl r
  have el : dot_S512x1024_S512x1024_S1024x1024_0_0_1_1_n_n.lhsIdx (ix2 p q)
      ((contrEquiv1 dot_S512x1024_S512x1024_S1024x1024_0_0_1_1_n_n 512 rfl rfl).symm r) = ix2 r p :=
    funext fun a => Fin.ext (by
      match a with
      | ⟨0, _⟩ => exact (lhs_0 _ _).trans hk
      | ⟨1, _⟩ => exact lhs_1 _ _)
  have er : dot_S512x1024_S512x1024_S1024x1024_0_0_1_1_n_n.rhsIdx (ix2 p q)
      ((contrEquiv1 dot_S512x1024_S512x1024_S1024x1024_0_0_1_1_n_n 512 rfl rfl).symm r) = ix2 r q :=
    funext fun a => Fin.ext (by
      match a with
      | ⟨0, _⟩ => exact (rhs_0 _ _).trans hk
      | ⟨1, _⟩ => exact rhs_1 _ _)
  rw [el, er]

/-- A [512,1] column broadcast along 1024 lanes reads its row's one entry. -/
theorem colBroadcast_apply (x : FVec Ideal S512x1 .f32) (r : Fin 512) (p : Fin 1024) :
    broadcastTo S512x1024 x broadcasts_S512x1_S512x1024 (ix2 r p) = x (ix2 r 0) :=
  broadcastTo_apply x broadcasts_S512x1_S512x1024 (ix2 r p) (ix2 r 0) (fun a => by
    match a with
    | ⟨0, _⟩ => show r.val = if (512 : Nat) = 1 then 0 else r.val; rw [if_neg (by decide)]
    | ⟨1, _⟩ => show (0 : Nat) = if (1 : Nat) = 1 then 0 else p.val; rw [if_pos rfl])

/-- The reset payload is the zero block. -/
theorem pay1_apply (p q : Fin 1024) : k1_pay1 (F := Ideal) (ix2 p q) = 0 := by
  unfold k1_pay1
  simp only [shapeCast_self]
  exact Ideal.ofBits_zero_f32

/-- One accumulation step at (p, q): the accumulator there plus the 512 contracted rows' terms. -/
theorem pay2_apply (e : Vec Ideal S512x1024 .bf16) (s : Vec Ideal S512x1 .f32) (g : Vec Ideal S512x1024 .bf16)
    (a : Vec Ideal S1024x1024 .f32) (p q : Fin 1024) :
    k1_pay2 e s g a (ix2 p q)
      = a (ix2 p q) + ∑ r : Fin 512, (e (ix2 r p) * Ideal.div one (s (ix2 r 0) + eps)) * g (ix2 r q) := by
  unfold k1_pay2
  simp only [shapeCast_self]
  rw [addf_apply, tmatmul_apply]
  refine congrArg (a (ix2 p q) + ·) (Finset.sum_congr rfl fun r _ => ?_)
  refine congrArg (· * g (ix2 r q)) ?_
  show e (ix2 r p) * broadcastTo S512x1024 _ broadcasts_S512x1_S512x1024 (ix2 r p) = _
  rw [colBroadcast_apply]
  rfl

end Cert.KernelIdeal.Region1Pay

end
-- ==== Proof.Region1Value.lean ====
/-
  The column pass (the second kernel region) at the ideal values: what its result array ends holding.

  The pass runs over 8 column tiles j of 1024 destination nodes by 16 row steps k of 512 source nodes. With E the
  [8192,8192] table of exponentials, s the [8192,1] row sums and M the [8192,1024] messages as the region finds
  them, step (j, k) adds to a [1024,1024] accumulator, at (p, q),
      sum over r < 512 of  (E (512 k + r, 1024 j + p) * (1 / (s (512 k + r) + eps))) * M (512 k + r, q),
  after resetting it at k = 0, and at k = 15 copies it to the block of rows 1024 j .. 1024 j + 1023 of the result.
  So the accumulator after step (j, k) holds the partial sum over the row blocks 0 .. k (an induction on the point
  inside a tile; over the extended reals the additions regroup freely), the block written back at k = 15 holds the
  sum over all 16 row blocks, and since row o of the result belongs to tile o / 1024 the 8 blocks written back cover
  the array:  result (o, d) = sum over all 8192 source rows u of (E (u, o) * (1 / (s u + eps))) * M (u, d),
  the source rows enumerated as u = 512 k + r.
-/
import proofs.«120229_j77704548319709_2_alg».proof.Proof.Region1Pieces
import proofs.«120229_j77704548319709_2_alg».proof.Proof.Region1Pay
import Idealize.ShloMosaic.Lib.Pipeline.Value
import Idealize.ShloMosaic.Lib.ValueIdx

noncomputable section

namespace Cert.KernelIdeal.Region1Value

open Cert.KernelIdeal Cert.KernelIdeal.Gen Cert.KernelIdeal.Region1 Cert.KernelIdeal.Region1Pay
open Idealize.ShloMosaic Idealize.ShloMosaic.TcCoe Idealize.ShloMosaic.ValueIdx Idealize.SL.Sem
open Idealize.ShloMosaic.Pipeline (Dat)

-- the arrays' contents when the region is entered
variable (V : (c : Dev nD) → (b : Ref sig .tc) → Buf (Elt Ideal) ((c : Thread nD τ).loc b))

/-- The grid has 8 * 16 points. -/
theorem point_lt (t : Fin cfg1.N) : t.val < 128 := lt_of_lt_of_eq t.isLt N_1

/-- The table of exponentials, the messages and the row sums as the region finds them, as functions of an index. -/
abbrev expTable (c : Dev nD) : S8192x8192.Idx → EReal := V c main_v68
abbrev messages (c : Dev nD) : S8192x1024.Idx → EReal := V c main_v84
abbrev rowSums (c : Dev nD) : S8192x1.Idx → EReal := V c main_v85_1

/-- Source row 512 k + r (reduced modulo 8192, so that it is defined for every k), -/
abbrev srcRow (k : ℕ) (r : Fin 512) : Fin 8192 := ⟨(512 * k + r.val) % 8192, Nat.mod_lt _ (by decide)⟩
/-- and destination node 1024 j + p (likewise). -/
abbrev dstCol (j : ℕ) (p : Fin 1024) : Fin 8192 := ⟨(1024 * j + p.val) % 8192, Nat.mod_lt _ (by decide)⟩

/-! ## The windows' blocks, read off the arrays -/

/-- The index maps, decided over the grid: point t is column tile t / 16, row step t % 16; the table's block is
    (step, tile), the messages' and the row sums' (step, 0), the result's (tile, 0). -/
theorem blockIndices : ∀ t : Fin cfg1.N,
    win1_0.index t (0 : Fin 2) = t.val % 16 ∧ win1_0.index t (1 : Fin 2) = t.val / 16
    ∧ win1_1.index t (0 : Fin 2) = t.val % 16 ∧ win1_1.index t (1 : Fin 2) = 0
    ∧ win1_2.index t (0 : Fin 2) = t.val % 16 ∧ win1_2.index t (1 : Fin 2) = 0
    ∧ win1_3.index t (0 : Fin 2) = t.val / 16 ∧ win1_3.index t (1 : Fin 2) = 0 :=
  (by decide +kernel : ∀ t : Fin grid1.N, _)

/-- The table's block at point t, at (r, p): source row 512 (t % 16) + r, destination node 1024 (t / 16) + p. -/
theorem expTable_block (c : Dev nD) (t : Fin cfg1.N) (r : Fin 512) (p : Fin 1024) :
    (blockAt V c 0 t : Vec Ideal S512x1024 .bf16) (ix2 r p) = expTable V c (ix2 (srcRow (t.val % 16) r) (dstCol (t.val / 16) p)) := by
  obtain ⟨e0, e1, -⟩ := blockIndices t
  have ht := point_lt t
  show V c main_v68 (((cfg1.win 0).blk t).view.emb (ix2 r p)) = V c main_v68 _
  refine congrArg (V c main_v68) (funext fun a => Fin.ext ?_)
  match a with
  | ⟨0, _⟩ => show win1_0.index t (0 : Fin 2) * 512 + 1 * r.val = (512 * (t.val % 16) + r.val) % 8192; rw [e0]; omega
  | ⟨1, _⟩ => show win1_0.index t (1 : Fin 2) * 1024 + 1 * p.val = (1024 * (t.val / 16) + p.val) % 8192; rw [e1]; omega

/-- The messages' block at point t, at (r, q): source row 512 (t % 16) + r, feature q. -/
theorem messages_block (c : Dev nD) (t : Fin cfg1.N) (r : Fin 512) (q : Fin 1024) :
    (blockAt V c 1 t : Vec Ideal S512x1024 .bf16) (ix2 r q) = messages V c (ix2 (srcRow (t.val % 16) r) q) := by
  obtain ⟨-, -, e2, e3, -⟩ := blockIndices t
  have ht := point_lt t
  show V c main_v84 (((cfg1.win 1).blk t).view.emb (ix2 r q)) = V c main_v84 _
  refine congrArg (V c main_v84) (funext fun a => Fin.ext ?_)
  match a with
  | ⟨0, _⟩ => show win1_1.index t (0 : Fin 2) * 512 + 1 * r.val = (512 * (t.val % 16) + r.val) % 8192; rw [e2]; omega
  | ⟨1, _⟩ => show win1_1.index t (1 : Fin 2) * 1024 + 1 * q.val = q.val; rw [e3]; omega

/-- The row sums' block at point t, at (r, 0): source row 512 (t % 16) + r. -/
theorem rowSums_block (c : Dev nD) (t : Fin cfg1.N) (r : Fin 512) :
    (blockAt V c 2 t : Vec Ideal S512x1 .f32) (ix2 r 0) = rowSums V c (ix2 (srcRow (t.val % 16) r) 0) := by
  obtain ⟨-, -, -, -, e4, e5, -⟩ := blockIndices t
  have ht := point_lt t
  show V c main_v85_1 (((cfg1.win 2).blk t).view.emb (ix2 r 0)) = V c main_v85_1 _
  refine congrArg (V c main_v85_1) (funext fun a => Fin.ext ?_)
  match a with
  | ⟨0, _⟩ => show win1_2.index t (0 : Fin 2) * 512 + 1 * r.val = (512 * (t.val % 16) + r.val) % 8192; rw [e4]; omega
  | ⟨1, _⟩ => show win1_2.index t (1 : Fin 2) * 1 + 1 * 0 = 0; rw [e5]

/-- The contribution of row block k to output node 1024 j + p, feature q. -/
def blockTerm (c : Dev nD) (j k : ℕ) (p q : Fin 1024) : EReal :=
  ∑ r : Fin 512, (expTable V c (ix2 (srcRow k r) (dstCol j p)) * Ideal.div one (rowSums V c (ix2 (srcRow k r) 0) + eps)) * messages V c (ix2 (srcRow k r) q)

/-- One accumulation step at point t, on the windows' blocks: the accumulator gains the term of row block t % 16
    for tile t / 16. -/
theorem step_at (c : Dev nD) (t : Fin cfg1.N) (a : Vec Ideal S1024x1024 .f32) (p q : Fin 1024) :
    k1_pay2 (blockAt V c 0 t) (blockAt V c 2 t) (blockAt V c 1 t) a (ix2 p q)
      = a (ix2 p q) + blockTerm V c (t.val / 16) (t.val % 16) p q :=
  (pay2_apply (blockAt V c 0 t) (blockAt V c 2 t) (blockAt V c 1 t) a p q).trans
    (congrArg (a (ix2 p q) + ·) (Finset.sum_congr rfl fun r _ => by
      rw [expTable_block V c t r p, messages_block V c t r q, rowSums_block V c t r]))

/-- What the column pass leaves in its result array. -/
def colOut (c : Dev nD) : S8192x1024.Idx → EReal := fun i =>
  ∑ k : Fin 16, ∑ r : Fin 512,
    (expTable V c (ix2 (⟨512 * k.val + r.val, by omega⟩ : Fin 8192) (i 0))
      * Ideal.div one (rowSums V c (ix2 (⟨512 * k.val + r.val, by omega⟩ : Fin 8192) 0) + eps))
      * messages V c (ix2 (⟨512 * k.val + r.val, by omega⟩ : Fin 8192) (i 1))

/-- Inside tile j the closed form is the sum of the 16 row blocks' terms. -/
theorem colOut_tile (c : Dev nD) (j : ℕ) (hj : j < 8) (p q : Fin 1024) :
    colOut V c (ix2 (dstCol j p) q) = ∑ m ∈ Finset.range 16, blockTerm V c j m p q := by
  rw [Finset.sum_range (fun m => blockTerm V c j m p q)]
  refine Finset.sum_congr rfl fun k _ => Finset.sum_congr rfl fun r _ => ?_
  have e : (⟨512 * k.val + r.val, by omega⟩ : Fin 8192) = srcRow k.val r := Fin.ext (by
    show 512 * k.val + r.val = (512 * k.val + r.val) % 8192; omega)
  rw [e]

/-- An index of the result is in point t's block iff each coordinate is in the block's range on its axis. -/
theorem mem_outBlock (t : Fin cfg1.N) (i : S8192x1024.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v86).slice (win1_3.rect t)).set ↔ _
  rw [View.set_slice_whole, Rect.mem_set_unit]
  exact Iff.rfl

/-- Row o of the result belongs to tile o / 1024, whose block is written back at the tile's last step. -/
theorem outBlocks_cover (i : S8192x1024.Idx) : ∃ t : Fin cfg1.N, (cfg1.win 3).flush t = true ∧ i ∈ ((cfg1.win 3).blk t).view.set := by
  have h0 : (i 0).val < 8192 := (i 0).isLt
  have h1 : (i 1).val < 1024 := (i 1).isLt
  refine ⟨⟨16 * ((i 0).val / 1024) + 15, by rw [show cfg1.N = 128 from N_1]; omega⟩, (flush1_3 _).mpr (by show (16 * ((i 0).val / 1024) + 15) % 16 = 15; omega), ?_⟩
  rw [mem_outBlock]
  obtain ⟨-, -, -, -, -, -, e6, e7⟩ := blockIndices ⟨16 * ((i 0).val / 1024) + 15, by rw [show cfg1.N = 128 from N_1]; omega⟩
  intro a
  match a with
  | ⟨0, _⟩ =>
    show win1_3.index _ (0 : Fin 2) * 1024 ≤ (i 0).val ∧ (i 0).val < win1_3.index _ (0 : Fin 2) * 1024 + 1024
    rw [e6]; dsimp only; omega
  | ⟨1, _⟩ =>
    show win1_3.index _ (1 : Fin 2) * 1024 ≤ (i 1).val ∧ (i 1).val < win1_3.index _ (1 : Fin 2) * 1024 + 1024
    rw [e7]; omega

/-! ## The accumulator after each point -/

/-- At the first step of a tile the accumulator is reset and holds the first row block's term. -/
theorem acc_first (c : Dev nD) (t : Fin cfg1.N) (h0 : t.val % 16 = 0) (p q : Fin 1024) :
    (tileState V c t.val t.isLt).2 (ix2 p q) = blockTerm V c (t.val / 16) (t.val % 16) p q := by
  have h1 : ¬t.val % 16 = 15 := by omega
  rw [tileState_first V c t h0 h1]
  dsimp only
  refine (congrFun (accFirst_eq (F := Ideal) c (grid1.coords t) (filledBuf t) (filledBuf_whole t) (msgBuf t) (msgBuf_whole t) (rowsumBuf t) (rowsumBuf_whole t) (outBuf t) (outBuf_whole t) accM (Memref.isWhole_whole _) ((isFirst_iff t).mpr h0) (fun h => h1 ((isLast_iff t).mp h)) (blockAt V c 0 t) (blockAt V c 1 t) (blockAt V c 2 t)) (ix2 p q)).trans ?_
  refine (step_at V c t (k1_pay1 (F := Ideal)) p q).trans ?_
  rw [pay1_apply, zero_add]

/-- At a later step it gains this step's term over what the point before left. -/
theorem acc_next (c : Dev nD) (t : Fin cfg1.N) (h0 : ¬t.val % 16 = 0) (p q : Fin 1024) :
    (tileState V c t.val t.isLt).2 (ix2 p q)
      = (tileState V c (t.val - 1) (Nat.lt_of_le_of_lt (Nat.sub_le _ _) t.isLt)).2 (ix2 p q) + blockTerm V c (t.val / 16) (t.val % 16) p q := by
  by_cases h1 : t.val % 16 = 15
  · rw [tileState_last V c t h0 h1]
    dsimp only
    refine (congrFun (accLast_eq (F := Ideal) c (grid1.coords t) (filledBuf t) (filledBuf_whole t) (msgBuf t) (msgBuf_whole t) (rowsumBuf t) (rowsumBuf_whole t) (outBuf t) (outBuf_whole t) accM (Memref.isWhole_whole _) (fun h => h0 ((isFirst_iff t).mp h)) ((isLast_iff t).mpr h1) (blockAt V c 0 t) (blockAt V c 1 t) (blockAt V c 2 t) (tileState V c (t.val - 1) (Nat.lt_of_le_of_lt (Nat.sub_le _ _) t.isLt)).2) (ix2 p q)).trans ?_
    exact step_at V c t _ p q
  · rw [tileState_mid V c t h0 h1]
    dsimp only
    refine (congrFun (accMid_eq (F := Ideal) c (grid1.coords t) (filledBuf t) (filledBuf_whole t) (msgBuf t) (msgBuf_whole t) (rowsumBuf t) (rowsumBuf_whole t) (outBuf t) (outBuf_whole t) accM (Memref.isWhole_whole _) (fun h => h0 ((isFirst_iff t).mp h)) (fun h => h1 ((isLast_iff t).mp h)) (blockAt V c 0 t) (blockAt V c 1 t) (blockAt V c 2 t) (tileState V c (t.val - 1) (Nat.lt_of_le_of_lt (Nat.sub_le _ _) t.isLt)).2) (ix2 p q)).trans ?_
    exact step_at V c t _ p q

/-- THE ACCUMULATOR after the body at position n: the partial sum over the row blocks 0 .. n % 16 of tile n / 16. -/
theorem acc_partialSum (c : Dev nD) : ∀ (n : ℕ) (hn : n < cfg1.N) (p q : Fin 1024),
    (tileState V c n hn).2 (ix2 p q) = ∑ m ∈ Finset.range (n % 16 + 1), blockTerm V c (n / 16) m p q := by
  intro n
  induction n with
  | zero =>
    intro hn p q
    refine (acc_first V c ⟨0, hn⟩ (Nat.zero_mod _) p q).trans ?_
    show blockTerm V c (0 / 16) (0 % 16) p q = ∑ m ∈ Finset.range (0 % 16 + 1), blockTerm V c (0 / 16) m p q
    rw [show (0 : ℕ) % 16 + 1 = 1 from rfl, Finset.sum_range_one]
  | succ n ih =>
    intro hn p q
    by_cases h0 : (n + 1) % 16 = 0
    · refine (acc_first V c ⟨n + 1, hn⟩ h0 p q).trans ?_
      show blockTerm V c ((n + 1) / 16) ((n + 1) % 16) p q = _
      rw [h0, Finset.sum_range_one]
    · refine (acc_next V c ⟨n + 1, hn⟩ h0 p q).trans ?_
      show (tileState V c n _).2 (ix2 p q) + blockTerm V c ((n + 1) / 16) ((n + 1) % 16) p q = _
      rw [ih]
      have e1 : (n + 1) / 16 = n / 16 := by omega
      have e2 : (n + 1) % 16 = n % 16 + 1 := by omega
      rw [e1, e2]
      exact (Finset.sum_range_succ _ _).symm

/-- THE BLOCK WRITTEN BACK at the last step of a tile: the sum over all 16 row blocks. -/
theorem outBlock_sum (c : Dev nD) (t : Fin cfg1.N) (h1 : t.val % 16 = 15) (p q : Fin 1024) :
    (tileState V c t.val t.isLt).1 (ix2 p q) = ∑ m ∈ Finset.range 16, blockTerm V c (t.val / 16) m p q := by
  have h0 : ¬t.val % 16 = 0 := by omega
  rw [tileState_last V c t h0 h1]
  dsimp only
  refine (congrFun (outLast_eq (F := Ideal) c (grid1.coords t) (filledBuf t) (filledBuf_whole t) (msgBuf t) (msgBuf_whole t) (rowsumBuf t) (rowsumBuf_whole t) (outBuf t) (outBuf_whole t) accM (Memref.isWhole_whole _) (fun h => h0 ((isFirst_iff t).mp h)) ((isLast_iff t).mpr h1) (blockAt V c 0 t) (blockAt V c 1 t) (blockAt V c 2 t) (tileState V c (t.val - 1) (Nat.lt_of_le_of_lt (Nat.sub_le _ _) t.isLt)).2) (ix2 p q)).trans ?_
  refine (step_at V c t _ p q).trans ?_
  rw [acc_partialSum V c (t.val - 1) _ p q]
  have e1 : (t.val - 1) / 16 = t.val / 16 := by omega
  have e2 : (t.val - 1) % 16 + 1 = 15 := by omega
  rw [e1, e2, h1]
  exact (Finset.sum_range_succ _ 15).symm

/-! ## From blocks to the array -/

/-- What the write-back at a tile's last step writes is that tile's block of the closed form. -/
theorem writtenBack_eq (c : Dev nD) (t : Fin cfg1.N) (hf : (cfg1.win 3).flush t = true) :
    (dat1 V c).flushed 3 t = ((cfg1.win 3).blk t).view.read (Elt Ideal) (colOut V c) := by
  have h1 : t.val % 16 = 15 := (flush1_3 t).mp hf
  have ht := point_lt t
  obtain ⟨-, -, -, -, -, -, e6, e7⟩ := blockIndices t
  show (cfg1.win 3).cut (grid1.coords t) ((dat1 V c).after 3 t) = _
  rw [after1_3]
  funext y
  obtain ⟨p, q, rfl⟩ : ∃ (p q : Fin 1024), y = ix2 p q := ⟨y 0, y 1, eq_ix2 y⟩
  show (tileState V c t.val t.isLt).1 (ix2 p q) = colOut V c (((cfg1.win 3).blk t).view.emb (ix2 p q))
  rw [outBlock_sum V c t h1 p q, ← colOut_tile V c (t.val / 16) (by omega) p q]
  refine congrArg (colOut V c) (funext fun a => Fin.ext ?_)
  match a with
  | ⟨0, _⟩ => show (1024 * (t.val / 16) + p.val) % 8192 = win1_3.index t (0 : Fin 2) * 1024 + 1 * p.val; rw [e6]; omega
  | ⟨1, _⟩ => show q.val = win1_3.index t (1 : Fin 2) * 1024 + 1 * q.val; rw [e7]; omega

/-- THE RESULT ARRAY of the column pass: the closed form, whatever it held before. -/
theorem colPass_result (c : Dev nD) : (dat1 V c).arrAt 3 cfg1.N = colOut V c :=
  (dat1 V c).arrAt_eq_of_cover 3 (colOut V c) (writtenBack_eq V c) outBlocks_cover

/-- The closed form at an index: destination node o, feature d. -/
theorem colOut_apply (c : Dev nD) (o : Fin 8192) (d : Fin 1024) :
    colOut V c (ix2 o d)
      = ∑ k : Fin 16, ∑ r : Fin 512,
          (expTable V c (ix2 (⟨512 * k.val + r.val, by omega⟩ : Fin 8192) o)
            * Ideal.div one (rowSums V c (ix2 (⟨512 * k.val + r.val, by omega⟩ : Fin 8192) 0) + eps))
            * messages V c (ix2 (⟨512 * k.val + r.val, by omega⟩ : Fin 8192) d) := rfl

/-- The closed form over curried tables: whatever the arrays the region finds are known to hold — the table of
    exponentials F, the messages Me, and the row sums R as stored (eps is added to them here, not before). -/
theorem colOut_of_tables (c : Dev nD) (F : Fin 8192 → Fin 8192 → EReal) (Me : Fin 8192 → Fin 1024 → EReal)
    (R : Fin 8192 → EReal) (hF : ∀ u o, expTable V c (ix2 u o) = F u o) (hM : ∀ u d, messages V c (ix2 u d) = Me u d)
    (hR : ∀ u, rowSums V c (ix2 u 0) = R u) (o : Fin 8192) (d : Fin 1024) :
    colOut V c (ix2 o d)
      = ∑ k : Fin 16, ∑ r : Fin 512,
          (F ⟨512 * k.val + r.val, by omega⟩ o * Ideal.div one (R ⟨512 * k.val + r.val, by omega⟩ + eps))
            * Me ⟨512 * k.val + r.val, by omega⟩ d := by
  rw [colOut_apply]
  refine Finset.sum_congr rfl fun k _ => Finset.sum_congr rfl fun r _ => ?_
  rw [hF, hM, hR]

end Cert.KernelIdeal.Region1Value

end
-- ==== Proof.Bridge.lean ====
/-
  The two programs end with the same array.

  The reference's result is its last stage of its arguments; the arguments agree with the other program's, so it is
  the shared last stretch applied to that program's activations and row test (the precondition makes the two programs'
  activations and row tests agree). That program's result buffer ends holding the same last stretch of its activations
  and row test: its activations are the host stretch after the two regions applied to what the regions leave, and the
  regions leave the block-by-block products of the table and the messages they found at entry.
-/
import proofs.«120229_j77704548319709_2_alg».proof.Proof.BridgeRef
import proofs.«120229_j77704548319709_2_alg».proof.Proof.BridgeK
import proofs.«120229_j77704548319709_2_alg».proof.Proof.RefRunP
import proofs.«120229_j77704548319709_2_alg».proof.Proof.FrameRun
import proofs.«120229_j77704548319709_2_alg».proof.Proof.KernelTail
import proofs.«120229_j77704548319709_2_alg».proof.Proof.KernelHost.Before
import proofs.«120229_j77704548319709_2_alg».proof.Proof.KernelHost.After
import proofs.«120229_j77704548319709_2_alg».proof.Proof.Region0Value
import proofs.«120229_j77704548319709_2_alg».proof.Proof.Region1Value

noncomputable section

namespace Cert.Bridge

open Cert.KernelIdeal Cert.KernelIdeal.Gen Cert.KernelIdeal.Assembly Idealize.ShloMosaic Idealize.ShloMosaic.TcCoe Idealize.SL.Sem
open Idealize.ShloMosaic.ValueIdx Cert Cert.Spec Cert.Lib.ScatterSet Cert.TableFacts Cert.KernelHost

section Kernel

variable (m : (ℓ : Loc nD τ sig) → Buf (Elt Ideal) ℓ) (c : Dev nD)

/-- The table the regions find, as a matrix. -/
abbrev tableK (p q : Fin 8192) : EReal := (V9 m c main_v68 : FVec Ideal S8192x8192 .bf16) (ix2 p q)
/-- The messages the regions find, as a matrix. -/
abbrev msgK (p : Fin 8192) (d : Fin 1024) : EReal := (V9 m c main_v84 : FVec Ideal S8192x1024 .bf16) (ix2 p d)

/-- What the row kernel leaves in its first result: the shared first product of the table and the messages. -/
theorem out1_eq (n : Fin 8192) (d : Fin 1024) :
    (leftOver m 10 main_v85_0 c : FVec Ideal S8192x1024 .bf16) (ix2 n d)
      = Master.out1 (tableK m c) (msgK m c) (Ideal.ofBits .f32 0x358637BD#32) n d := by
  rw [leftOver_normalised m c]
  exact Region0Value.norm_apply (beforeRows m) c n d

/-- What the row kernel leaves in its second result: the row sums of the table. -/
theorem rowsum_eq (n : Fin 8192) :
    (leftOver m 10 main_v85_1 c : FVec Ideal S8192x1 .f32) (ix2 n 0) = Master.rowsumK (tableK m c) n := by
  rw [leftOver_rowSums m c]
  exact Region0Value.rowsum_apply (beforeRows m) c n

/-- What the column kernel leaves: the shared transposed product. -/
theorem out2_eq (o : Fin 8192) (d : Fin 1024) :
    (leftOver m 11 main_v86 c : FVec Ideal S8192x1024 .bf16) (ix2 o d)
      = Master.out2 (tableK m c) (msgK m c) (Ideal.ofBits .f32 0x358637BD#32) (Ideal.ofBits .f32 0x3F800000#32) o d := by
  rw [leftOver_colProduct m c, Region1Value.colPass_result]
  refine (Region1Value.colOut_of_tables (beforeCols m rowGiven) c (tableK m c) (msgK m c) (Master.rowsumK (tableK m c))
    (fun u o => ?_) (fun u d => ?_) (fun u => ?_) o d).trans rfl
  · show (V10 m (leftByRows m rowGiven) c main_v68 : FVec Ideal S8192x8192 .bf16) (ix2 u o) = _
    rw [V10_of m _ c main_v68 (by decide)]
  · show (V10 m (leftByRows m rowGiven) c main_v84 : FVec Ideal S8192x1024 .bf16) (ix2 u d) = _
    rw [V10_of m _ c main_v84 (by decide)]
  · exact rowsum_eq m c u

end Kernel

/-- THE TWO PROGRAMS' RESULTS ARE EQUAL. -/
theorem value_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (c : Dev Cert.KernelIdeal.nD) :
    Cert.ReferenceIdeal.ValueP.res_main_v136 m' c = V19 m (leftOver m) c main_v131 := by
  obtain ⟨e0, e1, e2, e3, e4, e5, e6, e7, e8, e9, e10, e11, e12, e13, e14, e15, e16, e17, e18, e19, e20⟩ := hagree c
  have hr := pre_range m hpre c
  have hd := pre_distinct m hpre c
  unfold Cert.ReferenceIdeal.ValueP.res_main_v136
  rw [e0, e1, e2, e3, e4, e5, e6, e7, e8, e9, e10, e11, e12, e13, e14, e15, e16, e17, e18, e19, e20]
  rw [V19_v131 m (leftOver m) c, tail_eq]
  refine ref_eq_tail (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) hr hd
    (pre_real0 m hpre c) (pre_real1 m hpre c) (pre_real2 m hpre c) (pre_real3 m hpre c) (pre_real4 m hpre c) (pre_real5 m hpre c) (pre_real6 m hpre c) (pre_real7 m hpre c) (pre_real8 m hpre c) (pre_real9 m hpre c) (pre_real10 m hpre c) (pre_real11 m hpre c)
    (tableK m c) (fun i => ?_) (fun p q h => ?_)
    (fun n => Host.scatter (pointDims 8192 131072 scatter_S8192_S131072x1_S131072_n_0_0_1.wf) (fun _ b => b)
      (fun _ => Ideal.ofBits .f32 0x00000000#32) (idx1K m c) (fun _ => Ideal.ofBits .f32 0x3F800000#32) (ix1 n))
    (fun n => ?_) _ _ (fun n j => ?_) (fun n => ?_)
  · show (V9 m c main_v68 : FVec Ideal S8192x8192 .bf16) _ = _
    rw [entry_table m c hr]
    exact table_hit _ hr _ hd _ _ i
  · show (V9 m c main_v68 : FVec Ideal S8192x8192 .bf16) _ = _
    rw [entry_table m c hr]
    exact table_miss _ hr _ _ _ p q h
  · show Host.scatter _ _ (fun _ => Ideal.ofBits .f32 0x00000000#32) _ (fun _ => Ideal.ofBits .f32 0x3F800000#32) _ ≠ 0 ↔ _
    rw [Consts.ofBits_zero, Consts.ofBits_one]
    exact valid_ne_zero_iff _ hr _ (idx1K m c) (idx1K_apply m c hr) n
  · have eMe : msgK m c = Spec.msg (fun a b => ((m ((c.tc : Thread nD τ).loc main_arg0)) : FVec Ideal S8192x2048 .f32) (ix2 a b))
        (fun a b => ((m ((c.tc : Thread nD τ).loc main_arg10)) : FVec Ideal S2048x1024 .f32) (ix2 a b)) (fun a => ((m ((c.tc : Thread nD τ).loc main_arg11)) : FVec Ideal S1024 .f32) (ix1 a)) :=
      funext fun p => funext fun d => entry_msg m c p d
    rw [← eMe]
    exact h0_of_regions _ _ _ _ _ (tableK m c) (msgK m c)
      (fun n j => by rw [V12_v94 m (leftOver m) c]; exact h0T_apply _ _ _ _ n j)
      (out1_eq m c) (out2_eq m c) n j
  · exact entry_valid m c n

end Cert.Bridge

end
-- ==== Proof.lean ====
/-
  The certificate of a graph message-passing layer: 8192 nodes, 131072 (subject, object) pairs.

  Both programs compute a nonnegative gate per pair, exponentiate it against the largest gate, place the result at the
  pair's cell of a dense 8192 x 8192 table (zero elsewhere), normalise every row of the table by (row sum + ε), and
  send the node messages through the normalised table and through its transpose; the two products feed a linear layer,
  a layer normalisation, two more linear layers, and only the nodes that are some pair's subject keep their row.

  The kernel program builds the table once on the host and makes the two products in two pipelined regions: the first
  walks a row tile's 16 column blocks, accumulating the weighted messages and the row sum, and divides at the last
  block; the second walks a column tile's 16 row blocks, multiplying each entry by the reciprocal of (its row's sum + ε)
  before the product. The reference normalises the table first and then multiplies. Over the extended reals the two
  agree when the inputs are finite, the pair entries name nodes, and the pairs are pairwise distinct (so that the
  table's cells are written once and the largest gate is the largest entry of the reference's table of gates): the
  quotient distributes over the finite row sum, a product with a reciprocal is a quotient, a sum over 8192 columns is
  the sum of 16 block sums, and a sum over 2048 features splits at 1024.

  The three frames: each kernel region's body is run case by case (first, middle and last block of a tile) against
  proof data that name what the accumulators hold after every grid point; the reference's run is read in stretches.
-/
import proofs.«120229_j77704548319709_2_alg».proof.Defs
import proofs.«120229_j77704548319709_2_alg».proof.Proof.Gen.Kernel
import proofs.«120229_j77704548319709_2_alg».proof.Proof.Gen.KernelIdeal
import proofs.«120229_j77704548319709_2_alg».proof.Proof.Gen.ReferenceIdeal
import proofs.«120229_j77704548319709_2_alg».proof.Proof.Gen.Pre_finite_inputs
import proofs.«120229_j77704548319709_2_alg».proof.Proof.FrameRun
import proofs.«120229_j77704548319709_2_alg».proof.Proof.BitsFrameRun
import proofs.«120229_j77704548319709_2_alg».proof.Proof.RefRunP
import proofs.«120229_j77704548319709_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs to the end, faults nowhere and leaves its arguments unchanged. -/
theorem frame_kernel : Cert.frame_Kernel := fun m ρ _ => Cert.Kernel.Assembly.frame (F := Bits) m ρ

/-- So does the kernel program read over the extended reals. -/
theorem frame_kernel_ideal : Cert.frame_KernelIdeal := fun m ρ _ => Cert.KernelIdeal.Assembly.frame (F := Ideal) m ρ

/-- The reference is a host program: its frame is its run with the result dropped. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- The ideal pass rewrote nothing: the idealized kernel is the kernel's own text read over the extended reals. -/
theorem preserves : Cert.preserves_Kernel_KernelIdeal := trivial

/-- From memories agreeing on the arguments both programs end with the same array: the kernel's run names its result
    buffer's final contents, the reference's run ends at its last stage of the arguments, and the two are equal. -/
theorem algebraic : Cert.algebraic_KernelIdeal_ReferenceIdeal := by
  intro m ρ m' ρ' hpre hagree
  refine ⟨fun c => Cert.KernelIdeal.Gen.V19 m (Cert.KernelIdeal.Assembly.leftOver m) c Cert.KernelIdeal.main_v131, ?_, ?_⟩
  · exact (θ_run Cert.KernelIdeal.defs _ _).mono (fun _ h c => ⟨(h c).2, (h c).1⟩)
      (Cert.KernelIdeal.Assembly.run_result (F := Ideal) m ρ)
  · exact (θ_run Cert.ReferenceIdeal.defs _ _).mono
      (fun _ h c => ⟨(h c).1.trans (Cert.Bridge.value_eq m m' hpre hagree c), (h c).2⟩)
      (Cert.ReferenceIdeal.ValueP.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
